-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v316)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v316) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v422) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S9x11 : Shape := ⟨2, ![9, 11]⟩
abbrev S11 : Shape := ⟨1, ![11]⟩
abbrev S11x1 : Shape := ⟨2, ![11, 1]⟩
abbrev S1 : Shape := ⟨1, ![1]⟩
abbrev S64x7 : Shape := ⟨2, ![64, 7]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S9x11 : S_.BroadcastsInDim S9x11 (![] : Fin 0 → Fin S9x11.rank)
  reducesTo_S9x11_S_d0_1 : S9x11.ReducesTo [0, 1] S_
  bcast_S_S11 : S_.BroadcastsInDim S11 (![] : Fin 0 → Fin S11.rank)
  reducesTo_S11_S_d0 : S11.ReducesTo [0] S_
  bcast_S_S11x1 : S_.BroadcastsInDim S11x1 (![] : Fin 0 → Fin S11x1.rank)
  reducesTo_S11x1_S_d0_1 : S11x1.ReducesTo [0, 1] S_
  bcast_S_S1 : S_.BroadcastsInDim S1 (![] : Fin 0 → Fin S1.rank)
  reducesTo_S1_S_d0 : S1.ReducesTo [0] S_
  bcast_S_S64x7 : S_.BroadcastsInDim S64x7 (![] : Fin 0 → Fin S64x7.rank)
  reducesTo_S64x7_S_d0_1 : S64x7.ReducesTo [0, 1] S_

variable [Facts]

def fn_part2 {F : FTy → Type} [FloatOps F] (main_arg9 : FVec F S11x1 .f32) (main_arg10 : FVec F S1 .f32) (main_arg11 : FVec F S64x7 .f32) (main_v33 : IVec S_ 1) : IVec S_ 1 :=
  let main_v34 : FVec F S11x1 .f32 := Host.absf main_arg9
  let main_cst_12 : FVec F S_ .f32 := constant S_ .f32 0x7F800000#32
  let main_v35 : FVec F S11x1 .f32 := broadcastInDim S11x1 ![] bcast_S_S11x1 main_cst_12
  let main_v36 : IVec S11x1 1 := cmpf .olt main_v34 main_v35
  let main_c_13 : IVec S_ 1 := constantI S_ 1 1#1
  let main_v37 : IVec S_ 1 := (fun x v => Host.reduce IntOp.andi x v reducesTo_S11x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S64x7 .f32 := Host.absf main_arg11
  let main_cst_16 : FVec F S_ .f32 := constant S_ .f32 0x7F800000#32
  let main_v45 : FVec F S64x7 .f32 := broadcastInDim S64x7 ![] bcast_S_S64x7 main_cst_16
  let main_v46 : IVec S64x7 1 := cmpf .olt main_v44 main_v45
  let main_c_17 : IVec S_ 1 := constantI S_ 1 1#1
  let main_v47 : IVec S_ 1 := (fun x v => Host.reduce IntOp.andi x v reducesTo_S64x7_S_d0_1 h_S_) main_v46 main_c_17
  let main_v48 : IVec S_ 1 := andi main_v43 main_v47
  main_v48

def fn_part1 {F : FTy → Type} [FloatOps F] (main_arg6 : FVec F S16 .f32) (main_arg7 : FVec F S9x11 .f32) (main_arg8 : FVec F S11 .f32) (main_arg9 : FVec F S11x1 .f32) (main_arg10 : FVec F S1 .f32) (main_arg11 : FVec F S64x7 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S9x11 .f32 := Host.absf main_arg7
  let main_cst_8 : FVec F S_ .f32 := constant S_ .f32 0x7F800000#32
  let main_v25 : FVec F S9x11 .f32 := broadcastInDim S9x11 ![] bcast_S_S9x11 main_cst_8
  let main_v26 : IVec S9x11 1 := cmpf .olt main_v24 main_v25
  let main_c_9 : IVec S_ 1 := constantI S_ 1 1#1
  let main_v27 : IVec S_ 1 := (fun x v => Host.reduce IntOp.andi x v reducesTo_S9x11_S_d0_1 h_S_) main_v26 main_c_9
  let main_v28 : IVec S_ 1 := andi main_v23 main_v27
  let main_v29 : FVec F S11 .f32 := Host.absf main_arg8
  let main_cst_10 : FVec F S_ .f32 := constant S_ .f32 0x7F800000#32
  let main_v30 : FVec F S11 .f32 := broadcastInDim S11 ![] bcast_S_S11 main_cst_10
  let main_v31 : IVec S11 1 := cmpf .olt main_v29 main_v30
  let main_c_11 : IVec S_ 1 := constantI S_ 1 1#1
  let main_v32 : IVec S_ 1 := (fun x v => Host.reduce IntOp.andi x v reducesTo_S11_S_d0 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S800000 32) (main_arg2 : IVec S800000 32) (main_arg3 : FVec F S128x64 .f32) (main_arg4 : FVec F S64 .f32) (main_arg5 : FVec F S64x16 .f32) (main_arg6 : FVec F S16 .f32) (main_arg7 : FVec F S9x11 .f32) (main_arg8 : FVec F S11 .f32) (main_arg9 : FVec F S11x1 .f32) (main_arg10 : FVec F S1 .f32) (main_arg11 : FVec F S64x7 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg5
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S9x11 : Shape := ⟨2, ![9, 11]⟩
abbrev S11 : Shape := ⟨1, ![11]⟩
abbrev S11x1 : Shape := ⟨2, ![11, 1]⟩
abbrev S1 : Shape := ⟨1, ![1]⟩
abbrev S64x7 : Shape := ⟨2, ![64, 7]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S10000x64 : Shape := ⟨2, ![10000, 64]⟩
abbrev S7x11 : Shape := ⟨2, ![7, 11]⟩
abbrev S11x7 : Shape := ⟨2, ![11, 7]⟩
abbrev S7x64 : Shape := ⟨2, ![7, 64]⟩
abbrev S11x64 : Shape := ⟨2, ![11, 64]⟩
abbrev S1x11 : Shape := ⟨2, ![1, 11]⟩
abbrev S64x64 : Shape := ⟨2, ![64, 64]⟩
abbrev S50000x16 : Shape := ⟨2, ![50000, 16]⟩
abbrev S5000x64 : Shape := ⟨2, ![5000, 64]⟩
abbrev S5000x16 : Shape := ⟨2, ![5000, 16]⟩
abbrev S1x64 : Shape := ⟨2, ![1, 64]⟩
abbrev S1x16 : Shape := ⟨2, ![1, 16]⟩
abbrev S800000x16 : Shape := ⟨2, ![800000, 16]⟩
abbrev S10000x16 : Shape := ⟨2, ![10000, 16]⟩

abbrev nBuf : Space → Nat
  | .hbm => 400
  | .vmem => 137
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S128x64, .f32⟩
  | 4 => ⟨S64, .f32⟩
  | 5 => ⟨S64x16, .f32⟩
  | 6 => ⟨S16, .f32⟩
  | 7 => ⟨S9x11, .f32⟩
  | 8 => ⟨S11, .f32⟩
  | 9 => ⟨S11x1, .f32⟩
  | 10 => ⟨S1, .f32⟩
  | 11 => ⟨S64x7, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S50000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x64, .f32⟩
  | 74 => ⟨S800000x1, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S50000x64, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S800000x1, .f32⟩
  | 92 => ⟨S800000x64, .f32⟩
  | 93 => ⟨S800000x64, .f32⟩
  | 94 => ⟨S_, .f32⟩
  | 95 => ⟨S50000x64, .f32⟩
  | 96 => ⟨S800000x1, .i32⟩
  | 97 => ⟨S50000x64, .f32⟩
  | 98 => ⟨S50000x64, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x64, .f32⟩
  | 108 => ⟨S800000x1, .f32⟩
  | 109 => ⟨S800000x64, .f32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S50000x64, .f32⟩
  | 116 => ⟨S_, .i32⟩
  | 117 => ⟨S800000, .i32⟩
  | 118 => ⟨S800000, .i1⟩
  | 119 => ⟨S_, .i32⟩
  | 120 => ⟨S800000, .i32⟩
  | 121 => ⟨S800000, .i32⟩
  | 122 => ⟨S800000, .i32⟩
  | 123 => ⟨S800000x1, .i32⟩
  | 124 => ⟨S800000x64, .f32⟩
  | 125 => ⟨S800000x1, .f32⟩
  | 126 => ⟨S800000x64, .f32⟩
  | 127 => ⟨S800000x64, .f32⟩
  | _ => ⟨S50000x64, .f32⟩

abbrev hbmTy0_1 (i : Nat) : BufTy := match i % 128 with
  | 0 => ⟨S_, .f32⟩
  | 1 => ⟨S50000x64, .f32⟩
  | 2 => ⟨S800000x1, .i32⟩
  | 3 => ⟨S50000x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S800000x1, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S50000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S800000x1, .f32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S50000x64, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x1, .f32⟩
  | 49 => ⟨S800000x64, .f32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x1, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x1, .f32⟩
  | 83 => ⟨S800000x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S50000x64, .f32⟩
  | 90 => ⟨S7x11, .f32⟩
  | 91 => ⟨S11x7, .f32⟩
  | 92 => ⟨S7x64, .f32⟩
  | 93 => ⟨S11x64, .f32⟩
  | 94 => ⟨S1x11, .f32⟩
  | 95 => ⟨S11, .f32⟩
  | 96 => ⟨S1x11, .f32⟩
  | 97 => ⟨S11, .f32⟩
  | 98 => ⟨S11, .f32⟩
  | 99 => ⟨S64x64, .f32⟩
  | 100 => ⟨S64x64, .f32⟩
  | 101 => ⟨S50000x16, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x16, .f32⟩
  | 111 => ⟨S800000x1, .f32⟩
  | 112 => ⟨S800000x16, .f32⟩
  | 113 => ⟨S800000x16, .f32⟩
  | 114 => ⟨S_, .f32⟩
  | 115 => ⟨S50000x16, .f32⟩
  | 116 => ⟨S800000x1, .i32⟩
  | 117 => ⟨S50000x16, .f32⟩
  | 118 => ⟨S50000x16, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x16, .f32⟩
  | _ => ⟨S50000x64, .f32⟩

abbrev hbmTy0_2 (i : Nat) : BufTy := match i % 128 with
  | 0 => ⟨S800000x1, .f32⟩
  | 1 => ⟨S800000x16, .f32⟩
  | 2 => ⟨S800000x16, .f32⟩
  | 3 => ⟨S_, .f32⟩
  | 4 => ⟨S50000x16, .f32⟩
  | 5 => ⟨S800000x1, .i32⟩
  | 6 => ⟨S50000x16, .f32⟩
  | 7 => ⟨S50000x16, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x16, .f32⟩
  | 17 => ⟨S800000x1, .f32⟩
  | 18 => ⟨S800000x16, .f32⟩
  | 19 => ⟨S800000x16, .f32⟩
  | 20 => ⟨S_, .f32⟩
  | 21 => ⟨S50000x16, .f32⟩
  | 22 => ⟨S800000x1, .i32⟩
  | 23 => ⟨S50000x16, .f32⟩
  | 24 => ⟨S50000x16, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x16, .f32⟩
  | 34 => ⟨S800000x1, .f32⟩
  | 35 => ⟨S800000x16, .f32⟩
  | 36 => ⟨S800000x16, .f32⟩
  | 37 => ⟨S_, .f32⟩
  | 38 => ⟨S50000x16, .f32⟩
  | 39 => ⟨S800000x1, .i32⟩
  | 40 => ⟨S50000x16, .f32⟩
  | 41 => ⟨S50000x16, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x16, .f32⟩
  | 51 => ⟨S800000x1, .f32⟩
  | 52 => ⟨S800000x16, .f32⟩
  | 53 => ⟨S800000x16, .f32⟩
  | 54 => ⟨S_, .f32⟩
  | 55 => ⟨S50000x16, .f32⟩
  | 56 => ⟨S800000x1, .i32⟩
  | 57 => ⟨S50000x16, .f32⟩
  | 58 => ⟨S50000x16, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x16, .f32⟩
  | 68 => ⟨S800000x1, .f32⟩
  | 69 => ⟨S800000x16, .f32⟩
  | 70 => ⟨S800000x16, .f32⟩
  | 71 => ⟨S_, .f32⟩
  | 72 => ⟨S50000x16, .f32⟩
  | 73 => ⟨S800000x1, .i32⟩
  | 74 => ⟨S50000x16, .f32⟩
  | 75 => ⟨S50000x16, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x16, .f32⟩
  | 85 => ⟨S800000x1, .f32⟩
  | 86 => ⟨S800000x16, .f32⟩
  | 87 => ⟨S800000x16, .f32⟩
  | 88 => ⟨S_, .f32⟩
  | 89 => ⟨S50000x16, .f32⟩
  | 90 => ⟨S800000x1, .i32⟩
  | 91 => ⟨S50000x16, .f32⟩
  | 92 => ⟨S50000x16, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x16, .f32⟩
  | 102 => ⟨S800000x1, .f32⟩
  | 103 => ⟨S800000x16, .f32⟩
  | 104 => ⟨S800000x16, .f32⟩
  | 105 => ⟨S_, .f32⟩
  | 106 => ⟨S50000x16, .f32⟩
  | 107 => ⟨S800000x1, .i32⟩
  | 108 => ⟨S50000x16, .f32⟩
  | 109 => ⟨S50000x16, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x16, .f32⟩
  | 119 => ⟨S800000x1, .f32⟩
  | 120 => ⟨S800000x16, .f32⟩
  | 121 => ⟨S800000x16, .f32⟩
  | 122 => ⟨S_, .f32⟩
  | 123 => ⟨S50000x16, .f32⟩
  | 124 => ⟨S800000x1, .i32⟩
  | 125 => ⟨S50000x16, .f32⟩
  | 126 => ⟨S50000x16, .f32⟩
  | 127 => ⟨S_, .i32⟩
  | _ => ⟨S50000x64, .f32⟩

abbrev hbmTy0_3 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x16, .f32⟩
  | 8 => ⟨S800000x1, .f32⟩
  | 9 => ⟨S800000x16, .f32⟩
  | 10 => ⟨S800000x16, .f32⟩
  | 11 => ⟨S_, .f32⟩
  | 12 => ⟨S50000x16, .f32⟩
  | 13 => ⟨S800000x1, .i32⟩
  | 14 => ⟨S50000x16, .f32⟩
  | 15 => ⟨S50000x16, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev vmemTy0_0 (i : Nat) : BufTy := match i % 128 with
  | 0 => ⟨S10000x64, .f32⟩
  | 1 => ⟨S10000x64, .f32⟩
  | 2 => ⟨S10000x64, .f32⟩
  | 3 => ⟨S10000x64, .f32⟩
  | 4 => ⟨S10000x64, .f32⟩
  | 5 => ⟨S10000x64, .f32⟩
  | 6 => ⟨S10000x64, .f32⟩
  | 7 => ⟨S10000x64, .f32⟩
  | 8 => ⟨S10000x64, .f32⟩
  | 9 => ⟨S10000x64, .f32⟩
  | 10 => ⟨S10000x64, .f32⟩
  | 11 => ⟨S10000x64, .f32⟩
  | 12 => ⟨S10000x64, .f32⟩
  | 13 => ⟨S10000x64, .f32⟩
  | 14 => ⟨S10000x64, .f32⟩
  | 15 => ⟨S10000x64, .f32⟩
  | 16 => ⟨S10000x64, .f32⟩
  | 17 => ⟨S10000x64, .f32⟩
  | 18 => ⟨S10000x64, .f32⟩
  | 19 => ⟨S10000x64, .f32⟩
  | 20 => ⟨S10000x64, .f32⟩
  | 21 => ⟨S10000x64, .f32⟩
  | 22 => ⟨S10000x64, .f32⟩
  | 23 => ⟨S10000x64, .f32⟩
  | 24 => ⟨S10000x64, .f32⟩
  | 25 => ⟨S10000x64, .f32⟩
  | 26 => ⟨S10000x64, .f32⟩
  | 27 => ⟨S10000x64, .f32⟩
  | 28 => ⟨S10000x64, .f32⟩
  | 29 => ⟨S10000x64, .f32⟩
  | 30 => ⟨S10000x64, .f32⟩
  | 31 => ⟨S10000x64, .f32⟩
  | 32 => ⟨S10000x64, .f32⟩
  | 33 => ⟨S10000x64, .f32⟩
  | 34 => ⟨S10000x64, .f32⟩
  | 35 => ⟨S10000x64, .f32⟩
  | 36 => ⟨S10000x64, .f32⟩
  | 37 => ⟨S10000x64, .f32⟩
  | 38 => ⟨S10000x64, .f32⟩
  | 39 => ⟨S10000x64, .f32⟩
  | 40 => ⟨S10000x64, .f32⟩
  | 41 => ⟨S10000x64, .f32⟩
  | 42 => ⟨S10000x64, .f32⟩
  | 43 => ⟨S10000x64, .f32⟩
  | 44 => ⟨S10000x64, .f32⟩
  | 45 => ⟨S10000x64, .f32⟩
  | 46 => ⟨S10000x64, .f32⟩
  | 47 => ⟨S10000x64, .f32⟩
  | 48 => ⟨S10000x64, .f32⟩
  | 49 => ⟨S10000x64, .f32⟩
  | 50 => ⟨S10000x64, .f32⟩
  | 51 => ⟨S10000x64, .f32⟩
  | 52 => ⟨S10000x64, .f32⟩
  | 53 => ⟨S10000x64, .f32⟩
  | 54 => ⟨S10000x64, .f32⟩
  | 55 => ⟨S10000x64, .f32⟩
  | 56 => ⟨S10000x64, .f32⟩
  | 57 => ⟨S10000x64, .f32⟩
  | 58 => ⟨S10000x64, .f32⟩
  | 59 => ⟨S10000x64, .f32⟩
  | 60 => ⟨S5000x64, .f32⟩
  | 61 => ⟨S5000x64, .f32⟩
  | 62 => ⟨S5000x64, .f32⟩
  | 63 => ⟨S5000x64, .f32⟩
  | 64 => ⟨S11x64, .f32⟩
  | 65 => ⟨S11, .f32⟩
  | 66 => ⟨S11, .f32⟩
  | 67 => ⟨S11, .f32⟩
  | 68 => ⟨S11, .f32⟩
  | 69 => ⟨S1, .f32⟩
  | 70 => ⟨S64x64, .f32⟩
  | 71 => ⟨S64x64, .f32⟩
  | 72 => ⟨S64, .f32⟩
  | 73 => ⟨S64x16, .f32⟩
  | 74 => ⟨S16, .f32⟩
  | 75 => ⟨S5000x16, .f32⟩
  | 76 => ⟨S5000x16, .f32⟩
  | 77 => ⟨S10000x16, .f32⟩
  | 78 => ⟨S10000x16, .f32⟩
  | 79 => ⟨S10000x16, .f32⟩
  | 80 => ⟨S10000x16, .f32⟩
  | 81 => ⟨S10000x16, .f32⟩
  | 82 => ⟨S10000x16, .f32⟩
  | 83 => ⟨S10000x16, .f32⟩
  | 84 => ⟨S10000x16, .f32⟩
  | 85 => ⟨S10000x16, .f32⟩
  | 86 => ⟨S10000x16, .f32⟩
  | 87 => ⟨S10000x16, .f32⟩
  | 88 => ⟨S10000x16, .f32⟩
  | 89 => ⟨S10000x16, .f32⟩
  | 90 => ⟨S10000x16, .f32⟩
  | 91 => ⟨S10000x16, .f32⟩
  | 92 => ⟨S10000x16, .f32⟩
  | 93 => ⟨S10000x16, .f32⟩
  | 94 => ⟨S10000x16, .f32⟩
  | 95 => ⟨S10000x16, .f32⟩
  | 96 => ⟨S10000x16, .f32⟩
  | 97 => ⟨S10000x16, .f32⟩
  | 98 => ⟨S10000x16, .f32⟩
  | 99 => ⟨S10000x16, .f32⟩
  | 100 => ⟨S10000x16, .f32⟩
  | 101 => ⟨S10000x16, .f32⟩
  | 102 => ⟨S10000x16, .f32⟩
  | 103 => ⟨S10000x16, .f32⟩
  | 104 => ⟨S10000x16, .f32⟩
  | 105 => ⟨S10000x16, .f32⟩
  | 106 => ⟨S10000x16, .f32⟩
  | 107 => ⟨S10000x16, .f32⟩
  | 108 => ⟨S10000x16, .f32⟩
  | 109 => ⟨S10000x16, .f32⟩
  | 110 => ⟨S10000x16, .f32⟩
  | 111 => ⟨S10000x16, .f32⟩
  | 112 => ⟨S10000x16, .f32⟩
  | 113 => ⟨S10000x16, .f32⟩
  | 114 => ⟨S10000x16, .f32⟩
  | 115 => ⟨S10000x16, .f32⟩
  | 116 => ⟨S10000x16, .f32⟩
  | 117 => ⟨S10000x16, .f32⟩
  | 118 => ⟨S10000x16, .f32⟩
  | 119 => ⟨S10000x16, .f32⟩
  | 120 => ⟨S10000x16, .f32⟩
  | 121 => ⟨S10000x16, .f32⟩
  | 122 => ⟨S10000x16, .f32⟩
  | 123 => ⟨S10000x16, .f32⟩
  | 124 => ⟨S10000x16, .f32⟩
  | 125 => ⟨S10000x16, .f32⟩
  | 126 => ⟨S10000x16, .f32⟩
  | 127 => ⟨S10000x16, .f32⟩
  | _ => ⟨S50000x64, .f32⟩

abbrev vmemTy0_1 (i : Nat) : BufTy := match i % 128 with
  | 0 => ⟨S10000x16, .f32⟩
  | 1 => ⟨S10000x16, .f32⟩
  | 2 => ⟨S10000x16, .f32⟩
  | 3 => ⟨S10000x16, .f32⟩
  | 4 => ⟨S10000x16, .f32⟩
  | 5 => ⟨S10000x16, .f32⟩
  | 6 => ⟨S10000x16, .f32⟩
  | 7 => ⟨S10000x16, .f32⟩
  | 8 => ⟨S10000x16, .f32⟩
  | _ => ⟨S50000x64, .f32⟩

abbrev vmemTy (i : Nat) : BufTy := match i / 128 with
  | 0 => vmemTy0_0 i
  | 1 => vmemTy0_1 i
  | _ => ⟨S50000x64, .f32⟩

abbrev bufTy : (tb : Table) → Fin (tcTables nBuf tb) → BufTy
  | .hbm, ⟨i, _⟩ => hbmTy i
  | .local _ .vmem, ⟨i, _⟩ => vmemTy i
  | _, _ => ⟨S50000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 137 → Bool
  | ⟨i, _⟩ => dmaSemScopedAt i

abbrev sig : RefSig :=
  ofTc nBuf bufTy 0 137 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_c_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_10 : Ref sig .tc := ⟨.hbm, 65, rfl⟩
abbrev main_v39 : Ref sig .tc := ⟨.hbm, 66, rfl⟩
abbrev main_v40 : Ref sig .tc := ⟨.hbm, 67, rfl⟩
abbrev main_c_11 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_22 : Ref sig .tc := ⟨.hbm, 133, rfl⟩
abbrev main_v95 : Ref sig .tc := ⟨.hbm, 134, rfl⟩
abbrev main_v96 : Ref sig .tc := ⟨.hbm, 135, rfl⟩
abbrev main_c_23 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_24 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_c_26 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_27 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_c_28 : Ref sig .tc := ⟨.hbm, 167, rfl⟩
abbrev main_v123 : Ref sig .tc := ⟨.hbm, 168, rfl⟩
abbrev main_v124 : Ref sig .tc := ⟨.hbm, 169, rfl⟩
abbrev main_c_29 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_30 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_31 : Ref sig .tc := ⟨.hbm, 184, rfl⟩
abbrev main_v137 : Ref sig .tc := ⟨.hbm, 185, rfl⟩
abbrev main_v138 : Ref sig .tc := ⟨.hbm, 186, rfl⟩
abbrev main_c_32 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_cst_33 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_c_34 : Ref sig .tc := ⟨.hbm, 201, rfl⟩
abbrev main_v151 : Ref sig .tc := ⟨.hbm, 202, rfl⟩
abbrev main_v152 : Ref sig .tc := ⟨.hbm, 203, rfl⟩
abbrev main_c_35 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_36 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_c_37 : Ref sig .tc := ⟨.hbm, 230, rfl⟩
abbrev main_v177 : Ref sig .tc := ⟨.hbm, 231, rfl⟩
abbrev main_v178 : Ref sig .tc := ⟨.hbm, 232, rfl⟩
abbrev main_c_38 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_39 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_c_40 : Ref sig .tc := ⟨.hbm, 247, rfl⟩
abbrev main_v191 : Ref sig .tc := ⟨.hbm, 248, rfl⟩
abbrev main_v192 : Ref sig .tc := ⟨.hbm, 249, rfl⟩
abbrev main_c_41 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_cst_42 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_c_43 : Ref sig .tc := ⟨.hbm, 264, rfl⟩
abbrev main_v205 : Ref sig .tc := ⟨.hbm, 265, rfl⟩
abbrev main_v206 : Ref sig .tc := ⟨.hbm, 266, rfl⟩
abbrev main_c_44 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_v213 : Ref sig .tc := ⟨.hbm, 274, rfl⟩
abbrev main_v214 : Ref sig .tc := ⟨.hbm, 275, rfl⟩
abbrev main_cst_45 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_c_46 : Ref sig .tc := ⟨.hbm, 281, rfl⟩
abbrev main_v219 : Ref sig .tc := ⟨.hbm, 282, rfl⟩
abbrev main_v220 : Ref sig .tc := ⟨.hbm, 283, rfl⟩
abbrev main_c_47 : Ref sig .tc := ⟨.hbm, 284, rfl⟩
abbrev main_v221 : Ref sig .tc := ⟨.hbm, 285, rfl⟩
abbrev main_v222 : Ref sig .tc := ⟨.hbm, 286, rfl⟩
abbrev main_v223 : Ref sig .tc := ⟨.hbm, 287, rfl⟩
abbrev main_v224 : Ref sig .tc := ⟨.hbm, 288, rfl⟩
abbrev main_v225 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_cst_48 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_c_49 : Ref sig .tc := ⟨.hbm, 298, rfl⟩
abbrev main_v233 : Ref sig .tc := ⟨.hbm, 299, rfl⟩
abbrev main_v234 : Ref sig .tc := ⟨.hbm, 300, rfl⟩
abbrev main_c_50 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_cst_51 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_c_52 : Ref sig .tc := ⟨.hbm, 315, rfl⟩
abbrev main_v247 : Ref sig .tc := ⟨.hbm, 316, rfl⟩
abbrev main_v248 : Ref sig .tc := ⟨.hbm, 317, rfl⟩
abbrev main_c_53 : Ref sig .tc := ⟨.hbm, 318, rfl⟩
abbrev main_v249 : Ref sig .tc := ⟨.hbm, 319, rfl⟩
abbrev main_v250 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_cst_54 : Ref sig .tc := ⟨.hbm, 327, rfl⟩
abbrev main_v257 : Ref sig .tc := ⟨.hbm, 328, rfl⟩
abbrev main_v258 : Ref sig .tc := ⟨.hbm, 329, rfl⟩
abbrev main_v259 : Ref sig .tc := ⟨.hbm, 330, rfl⟩
abbrev main_v260 : Ref sig .tc := ⟨.hbm, 331, rfl⟩
abbrev main_c_55 : Ref sig .tc := ⟨.hbm, 332, rfl⟩
abbrev main_v261 : Ref sig .tc := ⟨.hbm, 333, rfl⟩
abbrev main_v262 : Ref sig .tc := ⟨.hbm, 334, rfl⟩
abbrev main_c_56 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_cst_57 : Ref sig .tc := ⟨.hbm, 344, rfl⟩
abbrev main_v271 : Ref sig .tc := ⟨.hbm, 345, rfl⟩
abbrev main_v272 : Ref sig .tc := ⟨.hbm, 346, rfl⟩
abbrev main_v273 : Ref sig .tc := ⟨.hbm, 347, rfl⟩
abbrev main_v274 : Ref sig .tc := ⟨.hbm, 348, rfl⟩
abbrev main_c_58 : Ref sig .tc := ⟨.hbm, 349, rfl⟩
abbrev main_v275 : Ref sig .tc := ⟨.hbm, 350, rfl⟩
abbrev main_v276 : Ref sig .tc := ⟨.hbm, 351, rfl⟩
abbrev main_c_59 : Ref sig .tc := ⟨.hbm, 352, rfl⟩
abbrev main_v277 : Ref sig .tc := ⟨.hbm, 353, rfl⟩
abbrev main_v278 : Ref sig .tc := ⟨.hbm, 354, rfl⟩
abbrev main_v279 : Ref sig .tc := ⟨.hbm, 355, rfl⟩
abbrev main_v280 : Ref sig .tc := ⟨.hbm, 356, rfl⟩
abbrev main_v281 : Ref sig .tc := ⟨.hbm, 357, rfl⟩
abbrev main_v282 : Ref sig .tc := ⟨.hbm, 358, rfl⟩
abbrev main_v283 : Ref sig .tc := ⟨.hbm, 359, rfl⟩
abbrev main_v284 : Ref sig .tc := ⟨.hbm, 360, rfl⟩
abbrev main_cst_60 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_c_61 : Ref sig .tc := ⟨.hbm, 366, rfl⟩
abbrev main_v289 : Ref sig .tc := ⟨.hbm, 367, rfl⟩
abbrev main_v290 : Ref sig .tc := ⟨.hbm, 368, rfl⟩
abbrev main_c_62 : Ref sig .tc := ⟨.hbm, 369, rfl⟩
abbrev main_v291 : Ref sig .tc := ⟨.hbm, 370, rfl⟩
abbrev main_v292 : Ref sig .tc := ⟨.hbm, 371, rfl⟩
abbrev main_v293 : Ref sig .tc := ⟨.hbm, 372, rfl⟩
abbrev main_v294 : Ref sig .tc := ⟨.hbm, 373, rfl⟩
abbrev main_v295 : Ref sig .tc := ⟨.hbm, 374, rfl⟩
abbrev main_v296 : Ref sig .tc := ⟨.hbm, 375, rfl⟩
abbrev main_v297 : Ref sig .tc := ⟨.hbm, 376, rfl⟩
abbrev main_v298 : Ref sig .tc := ⟨.hbm, 377, rfl⟩
abbrev main_cst_63 : Ref sig .tc := ⟨.hbm, 378, rfl⟩
abbrev main_v299 : Ref sig .tc := ⟨.hbm, 379, rfl⟩
abbrev main_v300 : Ref sig .tc := ⟨.hbm, 380, rfl⟩
abbrev main_v301 : Ref sig .tc := ⟨.hbm, 381, rfl⟩
abbrev main_v302 : Ref sig .tc := ⟨.hbm, 382, rfl⟩
abbrev main_c_64 : Ref sig .tc := ⟨.hbm, 383, rfl⟩
abbrev main_v303 : Ref sig .tc := ⟨.hbm, 384, rfl⟩
abbrev main_v304 : Ref sig .tc := ⟨.hbm, 385, rfl⟩
abbrev main_c_65 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_v311 : Ref sig .tc := ⟨.hbm, 393, rfl⟩
abbrev main_v312 : Ref sig .tc := ⟨.hbm, 394, rfl⟩
abbrev main_cst_66 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg2_1 : Ref sig .tc := ⟨.vmem, 53, rfl⟩
abbrev cc9_stg0_0 : Ref sig .tc := ⟨.vmem, 54, rfl⟩
abbrev cc9_stg0_1 : Ref sig .tc := ⟨.vmem, 55, rfl⟩
abbrev cc9_stg1_0 : Ref sig .tc := ⟨.vmem, 56, rfl⟩
abbrev cc9_stg1_1 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg1_1 : Ref sig .tc := ⟨.vmem, 63, rfl⟩
abbrev cc10_stg2_0 : Ref sig .tc := ⟨.vmem, 64, rfl⟩
abbrev cc10_stg3_0 : Ref sig .tc := ⟨.vmem, 65, rfl⟩
abbrev cc10_stg4_0 : Ref sig .tc := ⟨.vmem, 66, rfl⟩
abbrev cc10_stg5_0 : Ref sig .tc := ⟨.vmem, 67, rfl⟩
abbrev cc10_stg6_0 : Ref sig .tc := ⟨.vmem, 68, rfl⟩
abbrev cc10_stg7_0 : Ref sig .tc := ⟨.vmem, 69, rfl⟩
abbrev cc10_stg8_0 : Ref sig .tc := ⟨.vmem, 70, rfl⟩
abbrev cc10_stg9_0 : Ref sig .tc := ⟨.vmem, 71, rfl⟩
abbrev cc10_stg10_0 : Ref sig .tc := ⟨.vmem, 72, rfl⟩
abbrev cc10_stg11_0 : Ref sig .tc := ⟨.vmem, 73, rfl⟩
abbrev cc10_stg12_0 : Ref sig .tc := ⟨.vmem, 74, rfl⟩
abbrev cc10_stg13_0 : Ref sig .tc := ⟨.vmem, 75, rfl⟩
abbrev cc10_stg13_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc11_stg2_0 : Ref sig .tc := ⟨.vmem, 81, rfl⟩
abbrev cc11_stg2_1 : Ref sig .tc := ⟨.vmem, 82, rfl⟩
abbrev cc12_stg0_0 : Ref sig .tc := ⟨.vmem, 83, rfl⟩
abbrev cc12_stg0_1 : Ref sig .tc := ⟨.vmem, 84, rfl⟩
abbrev cc12_stg1_0 : Ref sig .tc := ⟨.vmem, 85, rfl⟩
abbrev cc12_stg1_1 : Ref sig .tc := ⟨.vmem, 86, rfl⟩
abbrev cc12_stg2_0 : Ref sig .tc := ⟨.vmem, 87, rfl⟩
abbrev cc12_stg2_1 : Ref sig .tc := ⟨.vmem, 88, rfl⟩
abbrev cc13_stg0_0 : Ref sig .tc := ⟨.vmem, 89, rfl⟩
abbrev cc13_stg0_1 : Ref sig .tc := ⟨.vmem, 90, rfl⟩
abbrev cc13_stg1_0 : Ref sig .tc := ⟨.vmem, 91, rfl⟩
abbrev cc13_stg1_1 : Ref sig .tc := ⟨.vmem, 92, rfl⟩
abbrev cc13_stg2_0 : Ref sig .tc := ⟨.vmem, 93, rfl⟩
abbrev cc13_stg2_1 : Ref sig .tc := ⟨.vmem, 94, rfl⟩
abbrev cc14_stg0_0 : Ref sig .tc := ⟨.vmem, 95, rfl⟩
abbrev cc14_stg0_1 : Ref sig .tc := ⟨.vmem, 96, rfl⟩
abbrev cc14_stg1_0 : Ref sig .tc := ⟨.vmem, 97, rfl⟩
abbrev cc14_stg1_1 : Ref sig .tc := ⟨.vmem, 98, rfl⟩
abbrev cc14_stg2_0 : Ref sig .tc := ⟨.vmem, 99, rfl⟩
abbrev cc14_stg2_1 : Ref sig .tc := ⟨.vmem, 100, rfl⟩
abbrev cc15_stg0_0 : Ref sig .tc := ⟨.vmem, 101, rfl⟩
abbrev cc15_stg0_1 : Ref sig .tc := ⟨.vmem, 102, rfl⟩
abbrev cc15_stg1_0 : Ref sig .tc := ⟨.vmem, 103, rfl⟩
abbrev cc15_stg1_1 : Ref sig .tc := ⟨.vmem, 104, rfl⟩
abbrev cc15_stg2_0 : Ref sig .tc := ⟨.vmem, 105, rfl⟩
abbrev cc15_stg2_1 : Ref sig .tc := ⟨.vmem, 106, rfl⟩
abbrev cc16_stg0_0 : Ref sig .tc := ⟨.vmem, 107, rfl⟩
abbrev cc16_stg0_1 : Ref sig .tc := ⟨.vmem, 108, rfl⟩
abbrev cc16_stg1_0 : Ref sig .tc := ⟨.vmem, 109, rfl⟩
abbrev cc16_stg1_1 : Ref sig .tc := ⟨.vmem, 110, rfl⟩
abbrev cc16_stg2_0 : Ref sig .tc := ⟨.vmem, 111, rfl⟩
abbrev cc16_stg2_1 : Ref sig .tc := ⟨.vmem, 112, rfl⟩
abbrev cc17_stg0_0 : Ref sig .tc := ⟨.vmem, 113, rfl⟩
abbrev cc17_stg0_1 : Ref sig .tc := ⟨.vmem, 114, rfl⟩
abbrev cc17_stg1_0 : Ref sig .tc := ⟨.vmem, 115, rfl⟩
abbrev cc17_stg1_1 : Ref sig .tc := ⟨.vmem, 116, rfl⟩
abbrev cc17_stg2_0 : Ref sig .tc := ⟨.vmem, 117, rfl⟩
abbrev cc17_stg2_1 : Ref sig .tc := ⟨.vmem, 118, rfl⟩
abbrev cc18_stg0_0 : Ref sig .tc := ⟨.vmem, 119, rfl⟩
abbrev cc18_stg0_1 : Ref sig .tc := ⟨.vmem, 120, rfl⟩
abbrev cc18_stg1_0 : Ref sig .tc := ⟨.vmem, 121, rfl⟩
abbrev cc18_stg1_1 : Ref sig .tc := ⟨.vmem, 122, rfl⟩
abbrev cc18_stg2_0 : Ref sig .tc := ⟨.vmem, 123, rfl⟩
abbrev cc18_stg2_1 : Ref sig .tc := ⟨.vmem, 124, rfl⟩
abbrev cc19_stg0_0 : Ref sig .tc := ⟨.vmem, 125, rfl⟩
abbrev cc19_stg0_1 : Ref sig .tc := ⟨.vmem, 126, rfl⟩
abbrev cc19_stg1_0 : Ref sig .tc := ⟨.vmem, 127, rfl⟩
abbrev cc19_stg1_1 : Ref sig .tc := ⟨.vmem, 128, rfl⟩
abbrev cc19_stg2_0 : Ref sig .tc := ⟨.vmem, 129, rfl⟩
abbrev cc19_stg2_1 : Ref sig .tc := ⟨.vmem, 130, rfl⟩
abbrev cc20_stg0_0 : Ref sig .tc := ⟨.vmem, 131, rfl⟩
abbrev cc20_stg0_1 : Ref sig .tc := ⟨.vmem, 132, rfl⟩
abbrev cc20_stg1_0 : Ref sig .tc := ⟨.vmem, 133, rfl⟩
abbrev cc20_stg1_1 : Ref sig .tc := ⟨.vmem, 134, rfl⟩
abbrev cc20_stg2_0 : Ref sig .tc := ⟨.vmem, 135, rfl⟩
abbrev cc20_stg2_1 : Ref sig .tc := ⟨.vmem, 136, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem2_1 : DmaSem sig := 53
abbrev cc9_sem0_0 : DmaSem sig := 54
abbrev cc9_sem0_1 : DmaSem sig := 55
abbrev cc9_sem1_0 : DmaSem sig := 56
abbrev cc9_sem1_1 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem1_1 : DmaSem sig := 63
abbrev cc10_sem2_0 : DmaSem sig := 64
abbrev cc10_sem3_0 : DmaSem sig := 65
abbrev cc10_sem4_0 : DmaSem sig := 66
abbrev cc10_sem5_0 : DmaSem sig := 67
abbrev cc10_sem6_0 : DmaSem sig := 68
abbrev cc10_sem7_0 : DmaSem sig := 69
abbrev cc10_sem8_0 : DmaSem sig := 70
abbrev cc10_sem9_0 : DmaSem sig := 71
abbrev cc10_sem10_0 : DmaSem sig := 72
abbrev cc10_sem11_0 : DmaSem sig := 73
abbrev cc10_sem12_0 : DmaSem sig := 74
abbrev cc10_sem13_0 : DmaSem sig := 75
abbrev cc10_sem13_1 : DmaSem sig := 76
abbrev cc11_sem0_0 : DmaSem sig := 77
abbrev cc11_sem0_1 : DmaSem sig := 78
abbrev cc11_sem1_0 : DmaSem sig := 79
abbrev cc11_sem1_1 : DmaSem sig := 80
abbrev cc11_sem2_0 : DmaSem sig := 81
abbrev cc11_sem2_1 : DmaSem sig := 82
abbrev cc12_sem0_0 : DmaSem sig := 83
abbrev cc12_sem0_1 : DmaSem sig := 84
abbrev cc12_sem1_0 : DmaSem sig := 85
abbrev cc12_sem1_1 : DmaSem sig := 86
abbrev cc12_sem2_0 : DmaSem sig := 87
abbrev cc12_sem2_1 : DmaSem sig := 88
abbrev cc13_sem0_0 : DmaSem sig := 89
abbrev cc13_sem0_1 : DmaSem sig := 90
abbrev cc13_sem1_0 : DmaSem sig := 91
abbrev cc13_sem1_1 : DmaSem sig := 92
abbrev cc13_sem2_0 : DmaSem sig := 93
abbrev cc13_sem2_1 : DmaSem sig := 94
abbrev cc14_sem0_0 : DmaSem sig := 95
abbrev cc14_sem0_1 : DmaSem sig := 96
abbrev cc14_sem1_0 : DmaSem sig := 97
abbrev cc14_sem1_1 : DmaSem sig := 98
abbrev cc14_sem2_0 : DmaSem sig := 99
abbrev cc14_sem2_1 : DmaSem sig := 100
abbrev cc15_sem0_0 : DmaSem sig := 101
abbrev cc15_sem0_1 : DmaSem sig := 102
abbrev cc15_sem1_0 : DmaSem sig := 103
abbrev cc15_sem1_1 : DmaSem sig := 104
abbrev cc15_sem2_0 : DmaSem sig := 105
abbrev cc15_sem2_1 : DmaSem sig := 106
abbrev cc16_sem0_0 : DmaSem sig := 107
abbrev cc16_sem0_1 : DmaSem sig := 108
abbrev cc16_sem1_0 : DmaSem sig := 109
abbrev cc16_sem1_1 : DmaSem sig := 110
abbrev cc16_sem2_0 : DmaSem sig := 111
abbrev cc16_sem2_1 : DmaSem sig := 112
abbrev cc17_sem0_0 : DmaSem sig := 113
abbrev cc17_sem0_1 : DmaSem sig := 114
abbrev cc17_sem1_0 : DmaSem sig := 115
abbrev cc17_sem1_1 : DmaSem sig := 116
abbrev cc17_sem2_0 : DmaSem sig := 117
abbrev cc17_sem2_1 : DmaSem sig := 118
abbrev cc18_sem0_0 : DmaSem sig := 119
abbrev cc18_sem0_1 : DmaSem sig := 120
abbrev cc18_sem1_0 : DmaSem sig := 121
abbrev cc18_sem1_1 : DmaSem sig := 122
abbrev cc18_sem2_0 : DmaSem sig := 123
abbrev cc18_sem2_1 : DmaSem sig := 124
abbrev cc19_sem0_0 : DmaSem sig := 125
abbrev cc19_sem0_1 : DmaSem sig := 126
abbrev cc19_sem1_0 : DmaSem sig := 127
abbrev cc19_sem1_1 : DmaSem sig := 128
abbrev cc19_sem2_0 : DmaSem sig := 129
abbrev cc19_sem2_1 : DmaSem sig := 130
abbrev cc20_sem0_0 : DmaSem sig := 131
abbrev cc20_sem0_1 : DmaSem sig := 132
abbrev cc20_sem1_0 : DmaSem sig := 133
abbrev cc20_sem1_1 : DmaSem sig := 134
abbrev cc20_sem2_0 : DmaSem sig := 135
abbrev cc20_sem2_1 : DmaSem sig := 136

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![5], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_4 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_5 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_6 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_7 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_9 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_10 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_11 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_12 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_13 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S11x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S11 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S11 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S11 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S11 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S1 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S64x64 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

abbrev stage10_9 : Fin 1 → Memref sig .tc .vmem S64x64 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))
abbrev reads10_9 : Fin grid10.rank → Bool := ![false]

abbrev stage10_10 : Fin 1 → Memref sig .tc .vmem S64 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))
abbrev reads10_10 : Fin grid10.rank → Bool := ![false]

abbrev stage10_11 : Fin 1 → Memref sig .tc .vmem S64x16 .f32 := fun | 0 => Memref.whole cc10_stg11_0 | ⟨_ + 1, h⟩ => absurd h (Nat.not_lt.2 (Nat.le_add_left _ _))
abbrev sem10_11 : Fin 1 → DmaSem sig := fun | 0 => cc10_sem11_0 | ⟨_ + 1, h⟩ => absurd h (Nat.not_lt.2 (Nat.le_add_left _ _))
abbrev reads10_11 : Fin grid10.rank → Bool := ![false]

abbrev stage10_12 : Fin 1 → Memref sig .tc .vmem S16 .f32 := fun | 0 => Memref.whole cc10_stg12_0 | ⟨_ + 1, h⟩ => absurd h (Nat.not_lt.2 (Nat.le_add_left _ _))
abbrev sem10_12 : Fin 1 → DmaSem sig := fun | 0 => cc10_sem12_0 | ⟨_ + 1, h⟩ => absurd h (Nat.not_lt.2 (Nat.le_add_left _ _))
abbrev reads10_12 : Fin grid10.rank → Bool := ![false]

abbrev stage10_13 : Fin 2 → Memref sig .tc .vmem S5000x16 .f32 := fun | 0 => Memref.whole cc10_stg13_0 | 1 => Memref.whole cc10_stg13_1 | ⟨_ + 2, h⟩ => absurd h (Nat.not_lt.2 (Nat.le_add_left _ _))
abbrev sem10_13 : Fin 2 → DmaSem sig := fun | 0 => cc10_sem13_0 | 1 => cc10_sem13_1 | ⟨_ + 2, h⟩ => absurd h (Nat.not_lt.2 (Nat.le_add_left _ _))
abbrev reads10_13 : Fin grid10.rank → Bool := ![true]

abbrev grid11 : Pipeline.Grid := ⟨1, ![5], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x16 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S10000x16 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S10000x16 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![5], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x16 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S10000x16 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S10000x16 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![5], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x16 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S10000x16 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S10000x16 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![5], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x16 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S10000x16 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S10000x16 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![5], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x16 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S10000x16 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S10000x16 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![5], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x16 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S10000x16 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S10000x16 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![5], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x16 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S10000x16 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S10000x16 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![5], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x16 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S10000x16 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S10000x16 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![5], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x16 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S10000x16 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S10000x16 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![5], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S10000x16 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S10000x16 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S10000x16 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S9x11_S7x11_2_0 : S9x11.Slices ![2, 0] S7x11
  transposes_S7x11_S11x7_1_0 : S7x11.Transposes [1, 0] S11x7
  transposes_S64x7_S7x64_1_0 : S64x7.Transposes [1, 0] S7x64
  slices_S9x11_S1x11_0_0 : S9x11.Slices ![0, 0] S1x11
  shapeCasts_S1x11_S11 : S1x11.ShapeCasts S11
  slices_S9x11_S1x11_1_0 : S9x11.Slices ![1, 0] S1x11
  shapeCasts_S11x1_S11 : S11x1.ShapeCasts S11
  slices_S128x64_S64x64_0_0 : S128x64.Slices ![0, 0] S64x64
  slices_S128x64_S64x64_64_0 : S128x64.Slices ![64, 0] S64x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S11x64_S1x64_0_0 : ∀ a, (![0, 0] : Fin 2 → Nat) a + S1x64.size a ≤ S11x64.size a
  h_S1x64 : 0 < S1x64.numel
  shapeCasts_S1x64_S64 : S1x64.ShapeCasts S64
  inb_S11_S1_0 : ∀ a, (![0] : Fin 1 → Nat) a + S1.size a ≤ S11.size a
  h_S1 : 0 < S1.numel
  inpos_S1_p0 : ∀ a, (![0] : Fin 1 → Nat) a < S1.size a
  shapeCasts_S64_S1x64 : S64.ShapeCasts S1x64
  shapeCasts_S1x64_S1x64 : S1x64.ShapeCasts S1x64
  broadcasts_S1x64_S5000x64 : S1x64.Broadcasts S5000x64
  inb_S11x64_S1x64_1_0 : ∀ a, (![1, 0] : Fin 2 → Nat) a + S1x64.size a ≤ S11x64.size a
  inb_S11_S1_1 : ∀ a, (![1] : Fin 1 → Nat) a + S1.size a ≤ S11.size a
  inb_S11x64_S1x64_2_0 : ∀ a, (![2, 0] : Fin 2 → Nat) a + S1x64.size a ≤ S11x64.size a
  inb_S11_S1_2 : ∀ a, (![2] : Fin 1 → Nat) a + S1.size a ≤ S11.size a
  inb_S11x64_S1x64_3_0 : ∀ a, (![3, 0] : Fin 2 → Nat) a + S1x64.size a ≤ S11x64.size a
  inb_S11_S1_3 : ∀ a, (![3] : Fin 1 → Nat) a + S1.size a ≤ S11.size a
  inb_S11x64_S1x64_4_0 : ∀ a, (![4, 0] : Fin 2 → Nat) a + S1x64.size a ≤ S11x64.size a
  inb_S11_S1_4 : ∀ a, (![4] : Fin 1 → Nat) a + S1.size a ≤ S11.size a
  inb_S11x64_S1x64_5_0 : ∀ a, (![5, 0] : Fin 2 → Nat) a + S1x64.size a ≤ S11x64.size a
  inb_S11_S1_5 : ∀ a, (![5] : Fin 1 → Nat) a + S1.size a ≤ S11.size a
  inb_S11x64_S1x64_6_0 : ∀ a, (![6, 0] : Fin 2 → Nat) a + S1x64.size a ≤ S11x64.size a
  inb_S11_S1_6 : ∀ a, (![6] : Fin 1 → Nat) a + S1.size a ≤ S11.size a
  inb_S11x64_S1x64_7_0 : ∀ a, (![7, 0] : Fin 2 → Nat) a + S1x64.size a ≤ S11x64.size a
  inb_S11_S1_7 : ∀ a, (![7] : Fin 1 → Nat) a + S1.size a ≤ S11.size a
  inb_S11x64_S1x64_8_0 : ∀ a, (![8, 0] : Fin 2 → Nat) a + S1x64.size a ≤ S11x64.size a
  inb_S11_S1_8 : ∀ a, (![8] : Fin 1 → Nat) a + S1.size a ≤ S11.size a
  inb_S11x64_S1x64_9_0 : ∀ a, (![9, 0] : Fin 2 → Nat) a + S1x64.size a ≤ S11x64.size a
  inb_S11_S1_9 : ∀ a, (![9] : Fin 1 → Nat) a + S1.size a ≤ S11.size a
  inb_S11x64_S1x64_10_0 : ∀ a, (![10, 0] : Fin 2 → Nat) a + S1x64.size a ≤ S11x64.size a
  inb_S11_S1_10 : ∀ a, (![10] : Fin 1 → Nat) a + S1.size a ≤ S11.size a
  inb_S1_S1_0 : ∀ a, (![0] : Fin 1 → Nat) a + S1.size a ≤ S1.size a
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S11x7_S7x64_S11x64_1_0_0_1_n_n_wf : DotDims.WF S11x7 S7x64 S11x64 [1] [0] [0] [1] [] []
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S50000x64.size a
  hwx0_2 : ∀ i : grid0.Coords, EltTy.bits .f32 = 32 ∨ (Rect.block (s := S50000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .f32 = 32 ∨ (Rect.block (s := S50000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S50000x64.size a
  hwx3_1 : ∀ i : grid3.Coords, EltTy.bits .f32 = 32 ∨ (Rect.block (s := S50000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S50000x64.size a
  hwx4_1 : ∀ i : grid4.Coords, EltTy.bits .f32 = 32 ∨ (Rect.block (s := S50000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S50000x64.size a
  hwx4_2 : ∀ i : grid4.Coords, EltTy.bits .f32 = 32 ∨ (Rect.block (s := S50000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S50000x64.size a
  hwx5_0 : ∀ i : grid5.Coords, EltTy.bits .f32 = 32 ∨ (Rect.block (s := S50000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S50000x64.size a
  hwx5_1 : ∀ i : grid5.Coords, EltTy.bits .f32 = 32 ∨ (Rect.block (s := S50000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S50000x64.size a
  hwx5_2 : ∀ i : grid5.Coords, EltTy.bits .f32 = 32 ∨ (Rect.block (s := S50000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S50000x64.size a
  hwx6_1 : ∀ i : grid6.Coords, EltTy.bits .f32 = 32 ∨ (Rect.block (s := S50000x64) S10000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S50000x64.size a
  hwx6_2 : ∀ i : grid6.Coords, EltTy.bits .f32 = 32 ∨ (Rect.block (s := S50000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S50000x64.size a
  hwx7_0 : ∀ i : grid7.Coords, EltTy.bits .f32 = 32 ∨ (Rect.block (s := S50000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S50000x64.size a
  hwx7_1 : ∀ i : grid7.Coords, EltTy.bits .f32 = 32 ∨ (Rect.block (s := S50000x64) S10000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S50000x64.size a
  hwx7_2 : ∀ i : grid7.Coords, EltTy.bits .f32 = 32 ∨ (Rect.block (s := S50000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S50000x64.size a
  hwx8_0 : ∀ i : grid8.Coords, EltTy.bits .f32 = 32 ∨ (Rect.block (s := S50000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S50000x64.size a
  hwx8_1 : ∀ i : grid8.Coords, EltTy.bits .f32 = 32 ∨ (Rect.block (s := S50000x64) S10000x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S50000x64.size a
  hwx8_2 : ∀ i : grid8.Coords, EltTy.bits .f32 = 32 ∨ (Rect.block (s := S50000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S50000x64.size a
  hwx9_0 : ∀ i : grid9.Coords, EltTy.bits .f32 = 32 ∨ (Rect.block (s := S50000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S50000x64.size a
  hwx9_1 : ∀ i : grid9.Coords, EltTy.bits .f32 = 32 ∨ (Rect.block (s := S50000x64) S10000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S50000x64.size a
  hwx9_2 : ∀ i : grid9.Coords, EltTy.bits .f32 = 32 ∨ (Rect.block (s := S50000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S50000x64.size a
  hwx10_1 : ∀ i : grid10.Coords, EltTy.bits .f32 = 32 ∨ (Rect.block (s := S50000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S11x64.size a ≤ S11x64.size a
  hwx10_2 : ∀ i : grid10.Coords, EltTy.bits .f32 = 32 ∨ (Rect.block (s := S11x64) S11x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S11.size a ≤ S11.size a
  hwx10_3 : ∀ i : grid10.Coords, EltTy.bits .f32 = 32 ∨ (Rect.block (s := S11) S11.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S11.size a ≤ S11.size a
  hwx10_4 : ∀ i : grid10.Coords, EltTy.bits .f32 = 32 ∨ (Rect.block (s := S11) S11.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S11.size a ≤ S11.size a
  hwx10_5 : ∀ i : grid10.Coords, EltTy.bits .f32 = 32 ∨ (Rect.block (s := S11) S11.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S11.size a ≤ S11.size a
  hwx10_6 : ∀ i : grid10.Coords, EltTy.bits .f32 = 32 ∨ (Rect.block (s := S11) S11.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1.size a ≤ S1.size a
  hwx10_7 : ∀ i : grid10.Coords, EltTy.bits .f32 = 32 ∨ (Rect.block (s := S1) S1.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S64x64.size a ≤ S64x64.size a
  hwx10_8 : ∀ i : grid10.Coords, EltTy.bits .f32 = 32 ∨ (Rect.block (s := S64x64) S64x64.size (cc10_transform_8 i) (hinb10_8 i)).WholeWords (EltTy.packing .f32)
  hstage10_9 : ∀ j, (stage10_9 j).IsWhole
  nbuf10_9 : grid10.bufCount reads10_9 true = 1
  hreads10_9 : ∀ i i' : grid10.Coords, (∀ a, reads10_9 a = true → i a = i' a) → cc10_transform_9 i = cc10_transform_9 i'
  hinb10_9 : ∀ (i : grid10.Coords) a, (cc10_transform_9 i a + 1) * S64x64.size a ≤ S64x64.size a
  hwx10_9 : ∀ i : grid10.Coords, EltTy.bits .f32 = 32 ∨ (Rect.block (s := S64x64) S64x64.size (cc10_transform_9 i) (hinb10_9 i)).WholeWords (EltTy.packing .f32)
  hstage10_10 : ∀ j, (stage10_10 j).IsWhole
  nbuf10_10 : grid10.bufCount reads10_10 true = 1
  hreads10_10 : ∀ i i' : grid10.Coords, (∀ a, reads10_10 a = true → i a = i' a) → cc10_transform_10 i = cc10_transform_10 i'
  hinb10_10 : ∀ (i : grid10.Coords) a, (cc10_transform_10 i a + 1) * S64.size a ≤ S64.size a
  hwx10_10 : ∀ i : grid10.Coords, EltTy.bits .f32 = 32 ∨ (Rect.block (s := S64) S64.size (cc10_transform_10 i) (hinb10_10 i)).WholeWords (EltTy.packing .f32)
  hstage10_11 : ∀ j, (stage10_11 j).IsWhole
  nbuf10_11 : grid10.bufCount reads10_11 true = 1
  hreads10_11 : ∀ i i' : grid10.Coords, (∀ a, reads10_11 a = true → i a = i' a) → cc10_transform_11 i = cc10_transform_11 i'
  hinb10_11 : ∀ (i : grid10.Coords) a, (cc10_transform_11 i a + 1) * S64x16.size a ≤ S64x16.size a
  hwx10_11 : ∀ i : grid10.Coords, EltTy.bits .f32 = 32 ∨ (Rect.block (s := S64x16) S64x16.size (cc10_transform_11 i) (hinb10_11 i)).WholeWords (EltTy.packing .f32)
  hstage10_12 : ∀ j, (stage10_12 j).IsWhole
  nbuf10_12 : grid10.bufCount reads10_12 true = 1
  hreads10_12 : ∀ i i' : grid10.Coords, (∀ a, reads10_12 a = true → i a = i' a) → cc10_transform_12 i = cc10_transform_12 i'
  hinb10_12 : ∀ (i : grid10.Coords) a, (cc10_transform_12 i a + 1) * S16.size a ≤ S16.size a
  hwx10_12 : ∀ i : grid10.Coords, EltTy.bits .f32 = 32 ∨ (Rect.block (s := S16) S16.size (cc10_transform_12 i) (hinb10_12 i)).WholeWords (EltTy.packing .f32)
  hstage10_13 : ∀ j, (stage10_13 j).IsWhole
  nbuf10_13 : grid10.bufCount reads10_13 false = 2
  hreads10_13 : ∀ i i' : grid10.Coords, (∀ a, reads10_13 a = true → i a = i' a) → cc10_transform_13 i = cc10_transform_13 i'
  hinb10_13 : ∀ (i : grid10.Coords) a, (cc10_transform_13 i a + 1) * S5000x16.size a ≤ S50000x16.size a
  hwx10_13 : ∀ i : grid10.Coords, EltTy.bits .f32 = 32 ∨ (Rect.block (s := S50000x16) S5000x16.size (cc10_transform_13 i) (hinb10_13 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x16.size a ≤ S50000x16.size a
  hwx11_0 : ∀ i : grid11.Coords, EltTy.bits .f32 = 32 ∨ (Rect.block (s := S50000x16) S10000x16.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S10000x16.size a ≤ S50000x16.size a
  hwx11_1 : ∀ i : grid11.Coords, EltTy.bits .f32 = 32 ∨ (Rect.block (s := S50000x16) S10000x16.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x16.size a ≤ S50000x16.size a
  hwx11_2 : ∀ i : grid11.Coords, EltTy.bits .f32 = 32 ∨ (Rect.block (s := S50000x16) S10000x16.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x16.size a ≤ S50000x16.size a
  hwx12_0 : ∀ i : grid12.Coords, EltTy.bits .f32 = 32 ∨ (Rect.block (s := S50000x16) S10000x16.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S10000x16.size a ≤ S50000x16.size a
  hwx12_1 : ∀ i : grid12.Coords, EltTy.bits .f32 = 32 ∨ (Rect.block (s := S50000x16) S10000x16.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x16.size a ≤ S50000x16.size a
  hwx12_2 : ∀ i : grid12.Coords, EltTy.bits .f32 = 32 ∨ (Rect.block (s := S50000x16) S10000x16.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x16.size a ≤ S50000x16.size a
  hwx13_0 : ∀ i : grid13.Coords, EltTy.bits .f32 = 32 ∨ (Rect.block (s := S50000x16) S10000x16.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S10000x16.size a ≤ S50000x16.size a
  hwx13_1 : ∀ i : grid13.Coords, EltTy.bits .f32 = 32 ∨ (Rect.block (s := S50000x16) S10000x16.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S10000x16.size a ≤ S50000x16.size a
  hwx13_2 : ∀ i : grid13.Coords, EltTy.bits .f32 = 32 ∨ (Rect.block (s := S50000x16) S10000x16.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x16.size a ≤ S50000x16.size a
  hwx14_0 : ∀ i : grid14.Coords, EltTy.bits .f32 = 32 ∨ (Rect.block (s := S50000x16) S10000x16.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S10000x16.size a ≤ S50000x16.size a
  hwx14_1 : ∀ i : grid14.Coords, EltTy.bits .f32 = 32 ∨ (Rect.block (s := S50000x16) S10000x16.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x16.size a ≤ S50000x16.size a
  hwx14_2 : ∀ i : grid14.Coords, EltTy.bits .f32 = 32 ∨ (Rect.block (s := S50000x16) S10000x16.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x16.size a ≤ S50000x16.size a
  hwx15_0 : ∀ i : grid15.Coords, EltTy.bits .f32 = 32 ∨ (Rect.block (s := S50000x16) S10000x16.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S10000x16.size a ≤ S50000x16.size a
  hwx15_1 : ∀ i : grid15.Coords, EltTy.bits .f32 = 32 ∨ (Rect.block (s := S50000x16) S10000x16.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S10000x16.size a ≤ S50000x16.size a
  hwx15_2 : ∀ i : grid15.Coords, EltTy.bits .f32 = 32 ∨ (Rect.block (s := S50000x16) S10000x16.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x16.size a ≤ S50000x16.size a
  hwx16_0 : ∀ i : grid16.Coords, EltTy.bits .f32 = 32 ∨ (Rect.block (s := S50000x16) S10000x16.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S10000x16.size a ≤ S50000x16.size a
  hwx16_1 : ∀ i : grid16.Coords, EltTy.bits .f32 = 32 ∨ (Rect.block (s := S50000x16) S10000x16.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x16.size a ≤ S50000x16.size a
  hwx16_2 : ∀ i : grid16.Coords, EltTy.bits .f32 = 32 ∨ (Rect.block (s := S50000x16) S10000x16.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x16.size a ≤ S50000x16.size a
  hwx17_0 : ∀ i : grid17.Coords, EltTy.bits .f32 = 32 ∨ (Rect.block (s := S50000x16) S10000x16.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S10000x16.size a ≤ S50000x16.size a
  hwx17_1 : ∀ i : grid17.Coords, EltTy.bits .f32 = 32 ∨ (Rect.block (s := S50000x16) S10000x16.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S10000x16.size a ≤ S50000x16.size a
  hwx17_2 : ∀ i : grid17.Coords, EltTy.bits .f32 = 32 ∨ (Rect.block (s := S50000x16) S10000x16.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x16.size a ≤ S50000x16.size a
  hwx18_0 : ∀ i : grid18.Coords, EltTy.bits .f32 = 32 ∨ (Rect.block (s := S50000x16) S10000x16.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S10000x16.size a ≤ S50000x16.size a
  hwx18_1 : ∀ i : grid18.Coords, EltTy.bits .f32 = 32 ∨ (Rect.block (s := S50000x16) S10000x16.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S10000x16.size a ≤ S50000x16.size a
  hwx18_2 : ∀ i : grid18.Coords, EltTy.bits .f32 = 32 ∨ (Rect.block (s := S50000x16) S10000x16.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x16.size a ≤ S50000x16.size a
  hwx19_0 : ∀ i : grid19.Coords, EltTy.bits .f32 = 32 ∨ (Rect.block (s := S50000x16) S10000x16.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S10000x16.size a ≤ S50000x16.size a
  hwx19_1 : ∀ i : grid19.Coords, EltTy.bits .f32 = 32 ∨ (Rect.block (s := S50000x16) S10000x16.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S10000x16.size a ≤ S50000x16.size a
  hwx19_2 : ∀ i : grid19.Coords, EltTy.bits .f32 = 32 ∨ (Rect.block (s := S50000x16) S10000x16.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S10000x16.size a ≤ S50000x16.size a
  hwx20_0 : ∀ i : grid20.Coords, EltTy.bits .f32 = 32 ∨ (Rect.block (s := S50000x16) S10000x16.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S10000x16.size a ≤ S50000x16.size a
  hwx20_1 : ∀ i : grid20.Coords, EltTy.bits .f32 = 32 ∨ (Rect.block (s := S50000x16) S10000x16.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S10000x16.size a ≤ S50000x16.size a
  hwx20_2 : ∀ i : grid20.Coords, EltTy.bits .f32 = 32 ∨ (Rect.block (s := S50000x16) S10000x16.size (cc20_transform_2 i) (hinb20_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S11x7_S7x64_S11x64_1_0_0_1_n_n : DotDims S11x7 S7x64 S11x64 where
  lhsContracting := [1]
  rhsContracting := [0]
  lhsNonContracting := [0]
  rhsNonContracting := [1]
  lhsBatch := []
  rhsBatch := []
  wf := dot_S11x7_S7x64_S11x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

abbrev win0_0 : Pipeline.Window sig grid0 :=
  Pipeline.Window.ofSpec (Memref.whole main_v37) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v80) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v93) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v107) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v108) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v121) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg0) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v122) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v135) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg0) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v136) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v149) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v150) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v163) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg0) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v164) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v164) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg0) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v168) S11x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v170) S11.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v172) S11.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_arg8) S11.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v173) S11.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_arg10) S1.size cc10_transform_7 reads10_7 false true 1 stage10_7 sem10_7
    hrank10 hreads10_7 hinb10_7 nbuf10_7 (Memref.isWhole_whole _) hwx10_7 hstage10_7

abbrev win10_8 : Pipeline.Window sig grid10 :=
  Pipeline.Window.ofSpec (Memref.whole main_v174) S64x64.size cc10_transform_8 reads10_8 false true 1 stage10_8 sem10_8
    hrank10 hreads10_8 hinb10_8 nbuf10_8 (Memref.isWhole_whole _) hwx10_8 hstage10_8

abbrev win10_9 : Pipeline.Window sig grid10 :=
  Pipeline.Window.ofSpec (Memref.whole main_v175) S64x64.size cc10_transform_9 reads10_9 false true 1 stage10_9 sem10_9
    hrank10 hreads10_9 hinb10_9 nbuf10_9 (Memref.isWhole_whole _) hwx10_9 hstage10_9

abbrev win10_10 : Pipeline.Window sig grid10 :=
  Pipeline.Window.ofSpec (Memref.whole main_arg4) S64.size cc10_transform_10 reads10_10 false true 1 stage10_10 sem10_10
    hrank10 hreads10_10 hinb10_10 nbuf10_10 (Memref.isWhole_whole _) hwx10_10 hstage10_10

abbrev win10_11 : Pipeline.Window sig grid10 :=
  Pipeline.Window.ofSpec (Memref.whole main_arg5) S64x16.size cc10_transform_11 reads10_11 false true 1 stage10_11 sem10_11
    hrank10 hreads10_11 hinb10_11 nbuf10_11 (Memref.isWhole_whole _) hwx10_11 hstage10_11

abbrev win10_12 : Pipeline.Window sig grid10 :=
  Pipeline.Window.ofSpec (Memref.whole main_arg6) S16.size cc10_transform_12 reads10_12 false true 1 stage10_12 sem10_12
    hrank10 hreads10_12 hinb10_12 nbuf10_12 (Memref.isWhole_whole _) hwx10_12 hstage10_12

abbrev win10_13 : Pipeline.Window sig grid10 :=
  Pipeline.Window.ofSpec (Memref.whole main_v176) S5000x16.size cc10_transform_13 reads10_13 true false 2 stage10_13 sem10_13
    hrank10 hreads10_13 hinb10_13 nbuf10_13 (Memref.isWhole_whole _) hwx10_13 hstage10_13

abbrev win10 : Fin 14 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | 11 => win10_11 | 12 => win10_12 | 13 => win10_13 | ⟨_ + 14, h⟩ => absurd h (Nat.not_lt.2 (Nat.le_add_left _ _))
abbrev spec10 : Fin 14 → Pipeline.WinSpec sig grid10.rank := fun w => (win10 w).toWinSpec

abbrev win11_0 : Pipeline.Window sig grid11 :=
  Pipeline.Window.ofSpec (Memref.whole main_v189) S10000x16.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v176) S10000x16.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v190) S10000x16.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v203) S10000x16.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v176) S10000x16.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v204) S10000x16.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v217) S10000x16.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v176) S10000x16.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v218) S10000x16.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v231) S10000x16.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v176) S10000x16.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v232) S10000x16.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v245) S10000x16.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v176) S10000x16.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v246) S10000x16.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v259) S10000x16.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v176) S10000x16.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v260) S10000x16.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v273) S10000x16.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v176) S10000x16.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v274) S10000x16.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v287) S10000x16.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v176) S10000x16.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v288) S10000x16.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v301) S10000x16.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v176) S10000x16.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v302) S10000x16.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v315) S10000x16.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v176) S10000x16.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v316) S10000x16.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

class Facts : Prop extends Facts₀ where

variable [Facts]
-- ==== ReferenceIdeal.lean ====
abbrev S50000x64 : Shape := ⟨2, ![50000, 64]⟩
abbrev S800000 : Shape := ⟨1, ![800000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S9x11 : Shape := ⟨2, ![9, 11]⟩
abbrev S11 : Shape := ⟨1, ![11]⟩
abbrev S11x1 : Shape := ⟨2, ![11, 1]⟩
abbrev S1 : Shape := ⟨1, ![1]⟩
abbrev S64x7 : Shape := ⟨2, ![64, 7]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S64x50000 : Shape := ⟨2, ![64, 50000]⟩
abbrev S3200000 : Shape := ⟨1, ![3200000]⟩
abbrev S3200000x1 : Shape := ⟨2, ![3200000, 1]⟩
abbrev S3200000x7 : Shape := ⟨2, ![3200000, 7]⟩
abbrev S3200000x9 : Shape := ⟨2, ![3200000, 9]⟩
abbrev S3200000x11 : Shape := ⟨2, ![3200000, 11]⟩
abbrev S1x11 : Shape := ⟨2, ![1, 11]⟩
abbrev S1x1 : Shape := ⟨2, ![1, 1]⟩
abbrev S50000x128 : Shape := ⟨2, ![50000, 128]⟩
abbrev S1x64 : Shape := ⟨2, ![1, 64]⟩
abbrev S50000x16 : Shape := ⟨2, ![50000, 16]⟩
abbrev S1x16 : Shape := ⟨2, ![1, 16]⟩
abbrev S800000x16 : Shape := ⟨2, ![800000, 16]⟩

abbrev nBuf : Space → Nat
  | .hbm => 553
  | .vmem => 0
  | .smem => 0
  | _ => 0

abbrev hbmTy0_0 (i : Nat) : BufTy := match i % 128 with
  | 0 => ⟨S50000x64, .f32⟩
  | 1 => ⟨S800000, .i32⟩
  | 2 => ⟨S800000, .i32⟩
  | 3 => ⟨S128x64, .f32⟩
  | 4 => ⟨S64, .f32⟩
  | 5 => ⟨S64x16, .f32⟩
  | 6 => ⟨S16, .f32⟩
  | 7 => ⟨S9x11, .f32⟩
  | 8 => ⟨S11, .f32⟩
  | 9 => ⟨S11x1, .f32⟩
  | 10 => ⟨S1, .f32⟩
  | 11 => ⟨S64x7, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .i1⟩
  | 21 => ⟨S_, .f32⟩
  | 22 => ⟨S50000, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x64, .f32⟩
  | 57 => ⟨S800000x1, .f32⟩
  | 58 => ⟨S800000x64, .f32⟩
  | 59 => ⟨S800000x64, .f32⟩
  | 60 => ⟨S_, .f32⟩
  | 61 => ⟨S50000x64, .f32⟩
  | 62 => ⟨S800000x1, .i32⟩
  | 63 => ⟨S50000x64, .f32⟩
  | 64 => ⟨S_, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S800000x1, .f32⟩
  | 81 => ⟨S800000x64, .f32⟩
  | 82 => ⟨S800000x64, .f32⟩
  | 83 => ⟨S_, .f32⟩
  | 84 => ⟨S50000x64, .f32⟩
  | 85 => ⟨S800000x1, .i32⟩
  | 86 => ⟨S50000x64, .f32⟩
  | 87 => ⟨S_, .f32⟩
  | 88 => ⟨S50000x64, .f32⟩
  | 89 => ⟨S50000x64, .f32⟩
  | 90 => ⟨S_, .f32⟩
  | 91 => ⟨S50000x64, .f32⟩
  | 92 => ⟨S50000x64, .f32⟩
  | 93 => ⟨S50000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x1, .f32⟩
  | 104 => ⟨S800000x64, .f32⟩
  | 105 => ⟨S800000x64, .f32⟩
  | 106 => ⟨S_, .f32⟩
  | 107 => ⟨S50000x64, .f32⟩
  | 108 => ⟨S800000x1, .i32⟩
  | 109 => ⟨S50000x64, .f32⟩
  | 110 => ⟨S_, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .f32⟩
  | 126 => ⟨S800000x1, .f32⟩
  | 127 => ⟨S800000x64, .f32⟩
  | _ => ⟨S50000x64, .f32⟩

abbrev hbmTy0_1 (i : Nat) : BufTy := match i % 128 with
  | 0 => ⟨S800000x64, .f32⟩
  | 1 => ⟨S_, .f32⟩
  | 2 => ⟨S50000x64, .f32⟩
  | 3 => ⟨S800000x1, .i32⟩
  | 4 => ⟨S50000x64, .f32⟩
  | 5 => ⟨S_, .f32⟩
  | 6 => ⟨S50000x64, .f32⟩
  | 7 => ⟨S50000x64, .f32⟩
  | 8 => ⟨S_, .f32⟩
  | 9 => ⟨S50000x64, .f32⟩
  | 10 => ⟨S50000x64, .f32⟩
  | 11 => ⟨S50000x64, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x64, .f32⟩
  | 21 => ⟨S800000x1, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S_, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S800000x1, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S_, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x1, .f32⟩
  | 68 => ⟨S800000x64, .f32⟩
  | 69 => ⟨S800000x64, .f32⟩
  | 70 => ⟨S_, .f32⟩
  | 71 => ⟨S50000x64, .f32⟩
  | 72 => ⟨S800000x1, .i32⟩
  | 73 => ⟨S50000x64, .f32⟩
  | 74 => ⟨S_, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S800000x1, .f32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S_, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x1, .f32⟩
  | 114 => ⟨S800000x64, .f32⟩
  | 115 => ⟨S800000x64, .f32⟩
  | 116 => ⟨S_, .f32⟩
  | 117 => ⟨S50000x64, .f32⟩
  | 118 => ⟨S800000x1, .i32⟩
  | 119 => ⟨S50000x64, .f32⟩
  | 120 => ⟨S_, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S_, .i32⟩
  | _ => ⟨S50000x64, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S800000x1, .f32⟩
  | 9 => ⟨S800000x64, .f32⟩
  | 10 => ⟨S800000x64, .f32⟩
  | 11 => ⟨S_, .f32⟩
  | 12 => ⟨S50000x64, .f32⟩
  | 13 => ⟨S800000x1, .i32⟩
  | 14 => ⟨S50000x64, .f32⟩
  | 15 => ⟨S_, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S64, .i32⟩
  | 23 => ⟨S64x50000, .i32⟩
  | 24 => ⟨S3200000, .i32⟩
  | 25 => ⟨S64x50000, .f32⟩
  | 26 => ⟨S3200000x1, .f32⟩
  | 27 => ⟨S64x50000, .f32⟩
  | 28 => ⟨S3200000x1, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000x7, .f32⟩
  | 38 => ⟨S3200000x9, .f32⟩
  | 39 => ⟨S3200000x11, .f32⟩
  | 40 => ⟨S1x11, .f32⟩
  | 41 => ⟨S3200000x11, .f32⟩
  | 42 => ⟨S3200000x11, .f32⟩
  | 43 => ⟨S_, .f32⟩
  | 44 => ⟨S3200000x11, .f32⟩
  | 45 => ⟨S3200000x11, .f32⟩
  | 46 => ⟨S3200000x1, .f32⟩
  | 47 => ⟨S1x1, .f32⟩
  | 48 => ⟨S3200000x1, .f32⟩
  | 49 => ⟨S3200000x1, .f32⟩
  | 50 => ⟨S_, .f32⟩
  | 51 => ⟨S3200000x1, .f32⟩
  | 52 => ⟨S3200000x1, .f32⟩
  | 53 => ⟨S64x50000, .f32⟩
  | 54 => ⟨S50000x64, .f32⟩
  | 55 => ⟨S50000x128, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S50000x64, .f32⟩
  | 62 => ⟨S50000x64, .f32⟩
  | 63 => ⟨S50000x16, .f32⟩
  | 64 => ⟨S1x16, .f32⟩
  | 65 => ⟨S50000x16, .f32⟩
  | 66 => ⟨S50000x16, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x16, .f32⟩
  | 76 => ⟨S800000x1, .f32⟩
  | 77 => ⟨S800000x16, .f32⟩
  | 78 => ⟨S800000x16, .f32⟩
  | 79 => ⟨S_, .f32⟩
  | 80 => ⟨S50000x16, .f32⟩
  | 81 => ⟨S800000x1, .i32⟩
  | 82 => ⟨S50000x16, .f32⟩
  | 83 => ⟨S_, .f32⟩
  | 84 => ⟨S50000x16, .f32⟩
  | 85 => ⟨S50000x16, .f32⟩
  | 86 => ⟨S_, .f32⟩
  | 87 => ⟨S50000x16, .f32⟩
  | 88 => ⟨S50000x16, .f32⟩
  | 89 => ⟨S50000x16, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x16, .f32⟩
  | 99 => ⟨S800000x1, .f32⟩
  | 100 => ⟨S800000x16, .f32⟩
  | 101 => ⟨S800000x16, .f32⟩
  | 102 => ⟨S_, .f32⟩
  | 103 => ⟨S50000x16, .f32⟩
  | 104 => ⟨S800000x1, .i32⟩
  | 105 => ⟨S50000x16, .f32⟩
  | 106 => ⟨S_, .f32⟩
  | 107 => ⟨S50000x16, .f32⟩
  | 108 => ⟨S50000x16, .f32⟩
  | 109 => ⟨S_, .f32⟩
  | 110 => ⟨S50000x16, .f32⟩
  | 111 => ⟨S50000x16, .f32⟩
  | 112 => ⟨S50000x16, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x16, .f32⟩
  | 122 => ⟨S800000x1, .f32⟩
  | 123 => ⟨S800000x16, .f32⟩
  | 124 => ⟨S800000x16, .f32⟩
  | 125 => ⟨S_, .f32⟩
  | 126 => ⟨S50000x16, .f32⟩
  | 127 => ⟨S800000x1, .i32⟩
  | _ => ⟨S50000x64, .f32⟩

abbrev hbmTy0_3 (i : Nat) : BufTy := match i % 128 with
  | 0 => ⟨S50000x16, .f32⟩
  | 1 => ⟨S_, .f32⟩
  | 2 => ⟨S50000x16, .f32⟩
  | 3 => ⟨S50000x16, .f32⟩
  | 4 => ⟨S_, .f32⟩
  | 5 => ⟨S50000x16, .f32⟩
  | 6 => ⟨S50000x16, .f32⟩
  | 7 => ⟨S50000x16, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x16, .f32⟩
  | 17 => ⟨S800000x1, .f32⟩
  | 18 => ⟨S800000x16, .f32⟩
  | 19 => ⟨S800000x16, .f32⟩
  | 20 => ⟨S_, .f32⟩
  | 21 => ⟨S50000x16, .f32⟩
  | 22 => ⟨S800000x1, .i32⟩
  | 23 => ⟨S50000x16, .f32⟩
  | 24 => ⟨S_, .f32⟩
  | 25 => ⟨S50000x16, .f32⟩
  | 26 => ⟨S50000x16, .f32⟩
  | 27 => ⟨S_, .f32⟩
  | 28 => ⟨S50000x16, .f32⟩
  | 29 => ⟨S50000x16, .f32⟩
  | 30 => ⟨S50000x16, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x16, .f32⟩
  | 40 => ⟨S800000x1, .f32⟩
  | 41 => ⟨S800000x16, .f32⟩
  | 42 => ⟨S800000x16, .f32⟩
  | 43 => ⟨S_, .f32⟩
  | 44 => ⟨S50000x16, .f32⟩
  | 45 => ⟨S800000x1, .i32⟩
  | 46 => ⟨S50000x16, .f32⟩
  | 47 => ⟨S_, .f32⟩
  | 48 => ⟨S50000x16, .f32⟩
  | 49 => ⟨S50000x16, .f32⟩
  | 50 => ⟨S_, .f32⟩
  | 51 => ⟨S50000x16, .f32⟩
  | 52 => ⟨S50000x16, .f32⟩
  | 53 => ⟨S50000x16, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x16, .f32⟩
  | 63 => ⟨S800000x1, .f32⟩
  | 64 => ⟨S800000x16, .f32⟩
  | 65 => ⟨S800000x16, .f32⟩
  | 66 => ⟨S_, .f32⟩
  | 67 => ⟨S50000x16, .f32⟩
  | 68 => ⟨S800000x1, .i32⟩
  | 69 => ⟨S50000x16, .f32⟩
  | 70 => ⟨S_, .f32⟩
  | 71 => ⟨S50000x16, .f32⟩
  | 72 => ⟨S50000x16, .f32⟩
  | 73 => ⟨S_, .f32⟩
  | 74 => ⟨S50000x16, .f32⟩
  | 75 => ⟨S50000x16, .f32⟩
  | 76 => ⟨S50000x16, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x16, .f32⟩
  | 86 => ⟨S800000x1, .f32⟩
  | 87 => ⟨S800000x16, .f32⟩
  | 88 => ⟨S800000x16, .f32⟩
  | 89 => ⟨S_, .f32⟩
  | 90 => ⟨S50000x16, .f32⟩
  | 91 => ⟨S800000x1, .i32⟩
  | 92 => ⟨S50000x16, .f32⟩
  | 93 => ⟨S_, .f32⟩
  | 94 => ⟨S50000x16, .f32⟩
  | 95 => ⟨S50000x16, .f32⟩
  | 96 => ⟨S_, .f32⟩
  | 97 => ⟨S50000x16, .f32⟩
  | 98 => ⟨S50000x16, .f32⟩
  | 99 => ⟨S50000x16, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x16, .f32⟩
  | 109 => ⟨S800000x1, .f32⟩
  | 110 => ⟨S800000x16, .f32⟩
  | 111 => ⟨S800000x16, .f32⟩
  | 112 => ⟨S_, .f32⟩
  | 113 => ⟨S50000x16, .f32⟩
  | 114 => ⟨S800000x1, .i32⟩
  | 115 => ⟨S50000x16, .f32⟩
  | 116 => ⟨S_, .f32⟩
  | 117 => ⟨S50000x16, .f32⟩
  | 118 => ⟨S50000x16, .f32⟩
  | 119 => ⟨S_, .f32⟩
  | 120 => ⟨S50000x16, .f32⟩
  | 121 => ⟨S50000x16, .f32⟩
  | 122 => ⟨S50000x16, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64, .f32⟩

abbrev hbmTy0_4 (i : Nat) : BufTy := match i % 128 with
  | 0 => ⟨S800000, .i32⟩
  | 1 => ⟨S800000, .i32⟩
  | 2 => ⟨S800000x1, .i32⟩
  | 3 => ⟨S800000x16, .f32⟩
  | 4 => ⟨S800000x1, .f32⟩
  | 5 => ⟨S800000x16, .f32⟩
  | 6 => ⟨S800000x16, .f32⟩
  | 7 => ⟨S_, .f32⟩
  | 8 => ⟨S50000x16, .f32⟩
  | 9 => ⟨S800000x1, .i32⟩
  | 10 => ⟨S50000x16, .f32⟩
  | 11 => ⟨S_, .f32⟩
  | 12 => ⟨S50000x16, .f32⟩
  | 13 => ⟨S50000x16, .f32⟩
  | 14 => ⟨S_, .f32⟩
  | 15 => ⟨S50000x16, .f32⟩
  | 16 => ⟨S50000x16, .f32⟩
  | 17 => ⟨S50000x16, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x16, .f32⟩
  | 27 => ⟨S800000x1, .f32⟩
  | 28 => ⟨S800000x16, .f32⟩
  | 29 => ⟨S800000x16, .f32⟩
  | 30 => ⟨S_, .f32⟩
  | 31 => ⟨S50000x16, .f32⟩
  | 32 => ⟨S800000x1, .i32⟩
  | 33 => ⟨S50000x16, .f32⟩
  | 34 => ⟨S_, .f32⟩
  | 35 => ⟨S50000x16, .f32⟩
  | 36 => ⟨S50000x16, .f32⟩
  | 37 => ⟨S_, .f32⟩
  | 38 => ⟨S50000x16, .f32⟩
  | 39 => ⟨S50000x16, .f32⟩
  | 40 => ⟨S50000x16, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_4 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_5 : Ref sig .tc := ⟨.hbm, 38, rfl⟩
abbrev main_v17 : Ref sig .tc := ⟨.hbm, 39, rfl⟩
abbrev main_v18 : Ref sig .tc := ⟨.hbm, 40, rfl⟩
abbrev main_c_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_cst_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_12 : Ref sig .tc := ⟨.hbm, 71, rfl⟩
abbrev main_v43 : Ref sig .tc := ⟨.hbm, 72, rfl⟩
abbrev main_v44 : Ref sig .tc := ⟨.hbm, 73, rfl⟩
abbrev main_c_13 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_17 : Ref sig .tc := ⟨.hbm, 94, rfl⟩
abbrev main_v61 : Ref sig .tc := ⟨.hbm, 95, rfl⟩
abbrev main_v62 : Ref sig .tc := ⟨.hbm, 96, rfl⟩
abbrev main_c_18 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_19 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_20 : Ref sig .tc := ⟨.hbm, 110, rfl⟩
abbrev main_v74 : Ref sig .tc := ⟨.hbm, 111, rfl⟩
abbrev main_v75 : Ref sig .tc := ⟨.hbm, 112, rfl⟩
abbrev main_cst_21 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_22 : Ref sig .tc := ⟨.hbm, 117, rfl⟩
abbrev main_v79 : Ref sig .tc := ⟨.hbm, 118, rfl⟩
abbrev main_v80 : Ref sig .tc := ⟨.hbm, 119, rfl⟩
abbrev main_c_23 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_24 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_25 : Ref sig .tc := ⟨.hbm, 133, rfl⟩
abbrev main_v92 : Ref sig .tc := ⟨.hbm, 134, rfl⟩
abbrev main_v93 : Ref sig .tc := ⟨.hbm, 135, rfl⟩
abbrev main_cst_26 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_27 : Ref sig .tc := ⟨.hbm, 140, rfl⟩
abbrev main_v97 : Ref sig .tc := ⟨.hbm, 141, rfl⟩
abbrev main_v98 : Ref sig .tc := ⟨.hbm, 142, rfl⟩
abbrev main_c_28 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_29 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_30 : Ref sig .tc := ⟨.hbm, 156, rfl⟩
abbrev main_v110 : Ref sig .tc := ⟨.hbm, 157, rfl⟩
abbrev main_v111 : Ref sig .tc := ⟨.hbm, 158, rfl⟩
abbrev main_cst_31 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_32 : Ref sig .tc := ⟨.hbm, 163, rfl⟩
abbrev main_v115 : Ref sig .tc := ⟨.hbm, 164, rfl⟩
abbrev main_v116 : Ref sig .tc := ⟨.hbm, 165, rfl⟩
abbrev main_c_33 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_cst_34 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_35 : Ref sig .tc := ⟨.hbm, 179, rfl⟩
abbrev main_v128 : Ref sig .tc := ⟨.hbm, 180, rfl⟩
abbrev main_v129 : Ref sig .tc := ⟨.hbm, 181, rfl⟩
abbrev main_cst_36 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_c_37 : Ref sig .tc := ⟨.hbm, 186, rfl⟩
abbrev main_v133 : Ref sig .tc := ⟨.hbm, 187, rfl⟩
abbrev main_v134 : Ref sig .tc := ⟨.hbm, 188, rfl⟩
abbrev main_c_38 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_39 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_40 : Ref sig .tc := ⟨.hbm, 202, rfl⟩
abbrev main_v146 : Ref sig .tc := ⟨.hbm, 203, rfl⟩
abbrev main_v147 : Ref sig .tc := ⟨.hbm, 204, rfl⟩
abbrev main_cst_41 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_c_42 : Ref sig .tc := ⟨.hbm, 209, rfl⟩
abbrev main_v151 : Ref sig .tc := ⟨.hbm, 210, rfl⟩
abbrev main_v152 : Ref sig .tc := ⟨.hbm, 211, rfl⟩
abbrev main_c_43 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_44 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_cst_45 : Ref sig .tc := ⟨.hbm, 225, rfl⟩
abbrev main_v164 : Ref sig .tc := ⟨.hbm, 226, rfl⟩
abbrev main_v165 : Ref sig .tc := ⟨.hbm, 227, rfl⟩
abbrev main_cst_46 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_c_47 : Ref sig .tc := ⟨.hbm, 232, rfl⟩
abbrev main_v169 : Ref sig .tc := ⟨.hbm, 233, rfl⟩
abbrev main_v170 : Ref sig .tc := ⟨.hbm, 234, rfl⟩
abbrev main_c_48 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_cst_49 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_cst_50 : Ref sig .tc := ⟨.hbm, 248, rfl⟩
abbrev main_v182 : Ref sig .tc := ⟨.hbm, 249, rfl⟩
abbrev main_v183 : Ref sig .tc := ⟨.hbm, 250, rfl⟩
abbrev main_cst_51 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_c_52 : Ref sig .tc := ⟨.hbm, 255, rfl⟩
abbrev main_v187 : Ref sig .tc := ⟨.hbm, 256, rfl⟩
abbrev main_v188 : Ref sig .tc := ⟨.hbm, 257, rfl⟩
abbrev main_c_53 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_cst_54 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_cst_55 : Ref sig .tc := ⟨.hbm, 271, rfl⟩
abbrev main_v200 : Ref sig .tc := ⟨.hbm, 272, rfl⟩
abbrev main_v201 : Ref sig .tc := ⟨.hbm, 273, rfl⟩
abbrev main_cst_56 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_c_57 : Ref sig .tc := ⟨.hbm, 285, rfl⟩
abbrev main_v212 : Ref sig .tc := ⟨.hbm, 286, rfl⟩
abbrev main_v213 : Ref sig .tc := ⟨.hbm, 287, rfl⟩
abbrev main_c_58 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_call1_cst : Ref sig .tc := ⟨.hbm, 299, rfl⟩
abbrev main_call1_v0 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_cst_59 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_call2_cst : Ref sig .tc := ⟨.hbm, 316, rfl⟩
abbrev main_call2_v0 : Ref sig .tc := ⟨.hbm, 317, rfl⟩
abbrev main_v238 : Ref sig .tc := ⟨.hbm, 318, rfl⟩
abbrev main_v239 : Ref sig .tc := ⟨.hbm, 319, rfl⟩
abbrev main_v240 : Ref sig .tc := ⟨.hbm, 320, rfl⟩
abbrev main_v241 : Ref sig .tc := ⟨.hbm, 321, rfl⟩
abbrev main_v242 : Ref sig .tc := ⟨.hbm, 322, rfl⟩
abbrev main_c_60 : Ref sig .tc := ⟨.hbm, 323, rfl⟩
abbrev main_v243 : Ref sig .tc := ⟨.hbm, 324, rfl⟩
abbrev main_v244 : Ref sig .tc := ⟨.hbm, 325, rfl⟩
abbrev main_c_61 : Ref sig .tc := ⟨.hbm, 326, rfl⟩
abbrev main_v245 : Ref sig .tc := ⟨.hbm, 327, rfl⟩
abbrev main_v246 : Ref sig .tc := ⟨.hbm, 328, rfl⟩
abbrev main_v247 : Ref sig .tc := ⟨.hbm, 329, rfl⟩
abbrev main_v248 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_v252 : Ref sig .tc := ⟨.hbm, 334, rfl⟩
abbrev main_cst_62 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_cst_63 : Ref sig .tc := ⟨.hbm, 339, rfl⟩
abbrev main_v256 : Ref sig .tc := ⟨.hbm, 340, rfl⟩
abbrev main_v257 : Ref sig .tc := ⟨.hbm, 341, rfl⟩
abbrev main_cst_64 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_c_65 : Ref sig .tc := ⟨.hbm, 346, rfl⟩
abbrev main_v261 : Ref sig .tc := ⟨.hbm, 347, rfl⟩
abbrev main_v262 : Ref sig .tc := ⟨.hbm, 348, rfl⟩
abbrev main_c_66 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_cst_67 : Ref sig .tc := ⟨.hbm, 358, rfl⟩
abbrev main_v271 : Ref sig .tc := ⟨.hbm, 359, rfl⟩
abbrev main_v272 : Ref sig .tc := ⟨.hbm, 360, rfl⟩
abbrev main_v273 : Ref sig .tc := ⟨.hbm, 361, rfl⟩
abbrev main_cst_68 : Ref sig .tc := ⟨.hbm, 362, rfl⟩
abbrev main_v274 : Ref sig .tc := ⟨.hbm, 363, rfl⟩
abbrev main_v275 : Ref sig .tc := ⟨.hbm, 364, rfl⟩
abbrev main_cst_69 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_c_70 : Ref sig .tc := ⟨.hbm, 369, rfl⟩
abbrev main_v279 : Ref sig .tc := ⟨.hbm, 370, rfl⟩
abbrev main_v280 : Ref sig .tc := ⟨.hbm, 371, rfl⟩
abbrev main_c_71 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_cst_72 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_cst_73 : Ref sig .tc := ⟨.hbm, 385, rfl⟩
abbrev main_v292 : Ref sig .tc := ⟨.hbm, 386, rfl⟩
abbrev main_v293 : Ref sig .tc := ⟨.hbm, 387, rfl⟩
abbrev main_cst_74 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_c_75 : Ref sig .tc := ⟨.hbm, 392, rfl⟩
abbrev main_v297 : Ref sig .tc := ⟨.hbm, 393, rfl⟩
abbrev main_v298 : Ref sig .tc := ⟨.hbm, 394, rfl⟩
abbrev main_c_76 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_cst_77 : Ref sig .tc := ⟨.hbm, 404, rfl⟩
abbrev main_v307 : Ref sig .tc := ⟨.hbm, 405, rfl⟩
abbrev main_v308 : Ref sig .tc := ⟨.hbm, 406, rfl⟩
abbrev main_v309 : Ref sig .tc := ⟨.hbm, 407, rfl⟩
abbrev main_cst_78 : Ref sig .tc := ⟨.hbm, 408, rfl⟩
abbrev main_v310 : Ref sig .tc := ⟨.hbm, 409, rfl⟩
abbrev main_v311 : Ref sig .tc := ⟨.hbm, 410, rfl⟩
abbrev main_cst_79 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_c_80 : Ref sig .tc := ⟨.hbm, 415, rfl⟩
abbrev main_v315 : Ref sig .tc := ⟨.hbm, 416, rfl⟩
abbrev main_v316 : Ref sig .tc := ⟨.hbm, 417, rfl⟩
abbrev main_c_81 : Ref sig .tc := ⟨.hbm, 418, rfl⟩
abbrev main_v317 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_v322 : Ref sig .tc := ⟨.hbm, 424, rfl⟩
abbrev main_v323 : Ref sig .tc := ⟨.hbm, 425, rfl⟩
abbrev main_v324 : Ref sig .tc := ⟨.hbm, 426, rfl⟩
abbrev main_cst_82 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_cst_83 : Ref sig .tc := ⟨.hbm, 431, rfl⟩
abbrev main_v328 : Ref sig .tc := ⟨.hbm, 432, rfl⟩
abbrev main_v329 : Ref sig .tc := ⟨.hbm, 433, rfl⟩
abbrev main_cst_84 : Ref sig .tc := ⟨.hbm, 434, rfl⟩
abbrev main_v330 : Ref sig .tc := ⟨.hbm, 435, rfl⟩
abbrev main_v331 : Ref sig .tc := ⟨.hbm, 436, rfl⟩
abbrev main_v332 : Ref sig .tc := ⟨.hbm, 437, rfl⟩
abbrev main_c_85 : Ref sig .tc := ⟨.hbm, 438, rfl⟩
abbrev main_v333 : Ref sig .tc := ⟨.hbm, 439, rfl⟩
abbrev main_v334 : Ref sig .tc := ⟨.hbm, 440, rfl⟩
abbrev main_c_86 : Ref sig .tc := ⟨.hbm, 441, rfl⟩
abbrev main_v335 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_v341 : Ref sig .tc := ⟨.hbm, 448, rfl⟩
abbrev main_v342 : Ref sig .tc := ⟨.hbm, 449, rfl⟩
abbrev main_cst_87 : Ref sig .tc := ⟨.hbm, 450, rfl⟩
abbrev main_v343 : Ref sig .tc := ⟨.hbm, 451, rfl⟩
abbrev main_v344 : Ref sig .tc := ⟨.hbm, 452, rfl⟩
abbrev main_v345 : Ref sig .tc := ⟨.hbm, 453, rfl⟩
abbrev main_cst_88 : Ref sig .tc := ⟨.hbm, 454, rfl⟩
abbrev main_v346 : Ref sig .tc := ⟨.hbm, 455, rfl⟩
abbrev main_v347 : Ref sig .tc := ⟨.hbm, 456, rfl⟩
abbrev main_cst_89 : Ref sig .tc := ⟨.hbm, 457, rfl⟩
abbrev main_v348 : Ref sig .tc := ⟨.hbm, 458, rfl⟩
abbrev main_v349 : Ref sig .tc := ⟨.hbm, 459, rfl⟩
abbrev main_v350 : Ref sig .tc := ⟨.hbm, 460, rfl⟩
abbrev main_c_90 : Ref sig .tc := ⟨.hbm, 461, rfl⟩
abbrev main_v351 : Ref sig .tc := ⟨.hbm, 462, rfl⟩
abbrev main_v352 : Ref sig .tc := ⟨.hbm, 463, rfl⟩
abbrev main_c_91 : Ref sig .tc := ⟨.hbm, 464, rfl⟩
abbrev main_v353 : Ref sig .tc := ⟨.hbm, 465, rfl⟩
abbrev main_v354 : Ref sig .tc := ⟨.hbm, 466, rfl⟩
abbrev main_v355 : Ref sig .tc := ⟨.hbm, 467, rfl⟩
abbrev main_v356 : Ref sig .tc := ⟨.hbm, 468, rfl⟩
abbrev main_v357 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_cst_92 : Ref sig .tc := ⟨.hbm, 473, rfl⟩
abbrev main_v361 : Ref sig .tc := ⟨.hbm, 474, rfl⟩
abbrev main_v362 : Ref sig .tc := ⟨.hbm, 475, rfl⟩
abbrev main_v363 : Ref sig .tc := ⟨.hbm, 476, rfl⟩
abbrev main_cst_93 : Ref sig .tc := ⟨.hbm, 477, rfl⟩
abbrev main_v364 : Ref sig .tc := ⟨.hbm, 478, rfl⟩
abbrev main_v365 : Ref sig .tc := ⟨.hbm, 479, rfl⟩
abbrev main_cst_94 : Ref sig .tc := ⟨.hbm, 480, rfl⟩
abbrev main_v366 : Ref sig .tc := ⟨.hbm, 481, rfl⟩
abbrev main_v367 : Ref sig .tc := ⟨.hbm, 482, rfl⟩
abbrev main_v368 : Ref sig .tc := ⟨.hbm, 483, rfl⟩
abbrev main_c_95 : Ref sig .tc := ⟨.hbm, 484, rfl⟩
abbrev main_v369 : Ref sig .tc := ⟨.hbm, 485, rfl⟩
abbrev main_v370 : Ref sig .tc := ⟨.hbm, 486, rfl⟩
abbrev main_c_96 : Ref sig .tc := ⟨.hbm, 487, rfl⟩
abbrev main_v371 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_cst_97 : Ref sig .tc := ⟨.hbm, 496, rfl⟩
abbrev main_v379 : Ref sig .tc := ⟨.hbm, 497, rfl⟩
abbrev main_v380 : Ref sig .tc := ⟨.hbm, 498, rfl⟩
abbrev main_v381 : Ref sig .tc := ⟨.hbm, 499, rfl⟩
abbrev main_cst_98 : Ref sig .tc := ⟨.hbm, 500, rfl⟩
abbrev main_v382 : Ref sig .tc := ⟨.hbm, 501, rfl⟩
abbrev main_v383 : Ref sig .tc := ⟨.hbm, 502, rfl⟩
abbrev main_cst_99 : Ref sig .tc := ⟨.hbm, 503, rfl⟩
abbrev main_v384 : Ref sig .tc := ⟨.hbm, 504, rfl⟩
abbrev main_v385 : Ref sig .tc := ⟨.hbm, 505, rfl⟩
abbrev main_v386 : Ref sig .tc := ⟨.hbm, 506, rfl⟩
abbrev main_c_100 : Ref sig .tc := ⟨.hbm, 507, rfl⟩
abbrev main_v387 : Ref sig .tc := ⟨.hbm, 508, rfl⟩
abbrev main_v388 : Ref sig .tc := ⟨.hbm, 509, rfl⟩
abbrev main_c_101 : Ref sig .tc := ⟨.hbm, 510, rfl⟩
abbrev main_v389 : Ref sig .tc := ⟨.hbm, 511, rfl⟩
abbrev main_v390 : Ref sig .tc := ⟨.hbm, 512, rfl⟩
abbrev main_v391 : Ref sig .tc := ⟨.hbm, 513, rfl⟩
abbrev main_v392 : Ref sig .tc := ⟨.hbm, 514, rfl⟩
abbrev main_v393 : Ref sig .tc := ⟨.hbm, 515, rfl⟩
abbrev main_v394 : Ref sig .tc := ⟨.hbm, 516, rfl⟩
abbrev main_v395 : Ref sig .tc := ⟨.hbm, 517, rfl⟩
abbrev main_v396 : Ref sig .tc := ⟨.hbm, 518, rfl⟩
abbrev main_cst_102 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_cst_103 : Ref sig .tc := ⟨.hbm, 523, rfl⟩
abbrev main_v400 : Ref sig .tc := ⟨.hbm, 524, rfl⟩
abbrev main_v401 : Ref sig .tc := ⟨.hbm, 525, rfl⟩
abbrev main_cst_104 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_c_105 : Ref sig .tc := ⟨.hbm, 530, rfl⟩
abbrev main_v405 : Ref sig .tc := ⟨.hbm, 531, rfl⟩
abbrev main_v406 : Ref sig .tc := ⟨.hbm, 532, rfl⟩
abbrev main_c_106 : Ref sig .tc := ⟨.hbm, 533, rfl⟩
abbrev main_v407 : Ref sig .tc := ⟨.hbm, 534, rfl⟩
abbrev main_v408 : Ref sig .tc := ⟨.hbm, 535, rfl⟩
abbrev main_v409 : Ref sig .tc := ⟨.hbm, 536, rfl⟩
abbrev main_v410 : Ref sig .tc := ⟨.hbm, 537, rfl⟩
abbrev main_v411 : Ref sig .tc := ⟨.hbm, 538, rfl⟩
abbrev main_v412 : Ref sig .tc := ⟨.hbm, 539, rfl⟩
abbrev main_v413 : Ref sig .tc := ⟨.hbm, 540, rfl⟩
abbrev main_v414 : Ref sig .tc := ⟨.hbm, 541, rfl⟩
abbrev main_cst_107 : Ref sig .tc := ⟨.hbm, 542, rfl⟩
abbrev main_v415 : Ref sig .tc := ⟨.hbm, 543, rfl⟩
abbrev main_v416 : Ref sig .tc := ⟨.hbm, 544, rfl⟩
abbrev main_v417 : Ref sig .tc := ⟨.hbm, 545, rfl⟩
abbrev main_cst_108 : Ref sig .tc := ⟨.hbm, 546, rfl⟩
abbrev main_v418 : Ref sig .tc := ⟨.hbm, 547, rfl⟩
abbrev main_v419 : Ref sig .tc := ⟨.hbm, 548, rfl⟩
abbrev main_cst_109 : Ref sig .tc := ⟨.hbm, 549, rfl⟩
abbrev main_v420 : Ref sig .tc := ⟨.hbm, 550, rfl⟩
abbrev main_v421 : Ref sig .tc := ⟨.hbm, 551, rfl⟩
abbrev main_v422 : Ref sig .tc := ⟨.hbm, 552, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S64x50000_0 : S64.BroadcastsInDim S64x50000 (![0] : Fin 1 → Fin S64x50000.rank)
  shapeCasts_S64x50000_S3200000 : S64x50000.ShapeCasts S3200000
  transposes_S50000x64_S64x50000_1_0 : S50000x64.Transposes [1, 0] S64x50000
  shapeCasts_S64x50000_S3200000x1 : S64x50000.ShapeCasts S3200000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x1_S3200000x1_S3200000x7_S3200000x9_d1 : Shape.Concatenates [S3200000x1, S3200000x1, S3200000x7] S3200000x9 1
  bcast_S11_S1x11_1 : S11.BroadcastsInDim S1x11 (![1] : Fin 1 → Fin S1x11.rank)
  bcast_S1x11_S3200000x11_0_1 : S1x11.BroadcastsInDim S3200000x11 (![0, 1] : Fin 2 → Fin S3200000x11.rank)
  bcast_S_S3200000x11 : S_.BroadcastsInDim S3200000x11 (![] : Fin 0 → Fin S3200000x11.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  shapeCasts_S3200000x1_S64x50000 : S3200000x1.ShapeCasts S64x50000
  transposes_S64x50000_S50000x64_1_0 : S64x50000.Transposes [1, 0] S50000x64
  concatenates_S50000x64_S50000x64_S50000x128_d1 : Shape.Concatenates [S50000x64, S50000x64] S50000x128 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S800000x1_S800000x16_0_1 : S800000x1.BroadcastsInDim S800000x16 (![0, 1] : Fin 2 → Fin S800000x16.rank)
  bcast_S_S50000x16 : S_.BroadcastsInDim S50000x16 (![] : Fin 0 → Fin S50000x16.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S64x7_S3200000x1_S3200000x7_1_0_n_n_0_1_17_wf : GatherDims.WF S64x7 S3200000x1 S3200000x7 [1] [0] [] [0] [] 1 ![1, 7]
  dot_S3200000x9_S9x11_S3200000x11_1_0_0_1_n_n_wf : DotDims.WF S3200000x9 S9x11 S3200000x11 [1] [0] [0] [1] [] []
  dot_S3200000x11_S11x1_S3200000x1_1_0_0_1_n_n_wf : DotDims.WF S3200000x11 S11x1 S3200000x1 [1] [0] [0] [1] [] []
  dot_S50000x128_S128x64_S50000x64_1_0_0_1_n_n_wf : DotDims.WF S50000x128 S128x64 S50000x64 [1] [0] [0] [1] [] []
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  scatter_S50000x16_S800000x1_S800000x16_1_0_0_1_wf : ScatterDims.WF S50000x16 S800000x1 S800000x16 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S64x7_S3200000x1_S3200000x7_1_0_n_n_0_1_17 : GatherDims S64x7 S3200000x1 S3200000x7 where
  offsetDims := [1]
  collapsedSliceDims := [0]
  operandBatchingDims := []
  startIndicesBatchingDims := []
  startIndexMap := [0]
  indexVectorDim := 1
  sliceSizes := ![1, 7]
  wf := gather_S64x7_S3200000x1_S3200000x7_1_0_n_n_0_1_17_wf
def dot_S3200000x9_S9x11_S3200000x11_1_0_0_1_n_n : DotDims S3200000x9 S9x11 S3200000x11 where
  lhsContracting := [1]
  rhsContracting := [0]
  lhsNonContracting := [0]
  rhsNonContracting := [1]
  lhsBatch := []
  rhsBatch := []
  wf := dot_S3200000x9_S9x11_S3200000x11_1_0_0_1_n_n_wf
def dot_S3200000x11_S11x1_S3200000x1_1_0_0_1_n_n : DotDims S3200000x11 S11x1 S3200000x1 where
  lhsContracting := [1]
  rhsContracting := [0]
  lhsNonContracting := [0]
  rhsNonContracting := [1]
  lhsBatch := []
  rhsBatch := []
  wf := dot_S3200000x11_S11x1_S3200000x1_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf

class Facts : Prop extends Facts₀ where

variable [Facts]
-- ==== Proof.KernelRun.lean ====
/-
  The idealized kernel program's run, with its result named.

  Every weakly fair execution of @main terminates without a fault; the argument arrays end as launched, and the
  result array ends at the contents the last boundary of the run holds for it: the last region's output array after
  its five write-backs.  The run is the launch over @main's 44 segments (23 stretches of host operations, 21 regions),
  read against the final state at the result's buffer as well as at the arguments'.
-/
import proofs.«135505_j17961553232124_1_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and every argument array as launched. -/
theorem run_value : θ_run defs (onTc (τ := τ) (main (F := F))) ⟨m, fun _ => 0, ρ⟩ (fun r => ∀ c : Dev nD,
      r.2.mem ((c.tc : Thread nD τ).loc main_v316) = W44 m ρ c (Proc.devRef .tc main_v316)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W44 m ρ c b)
    (hfin := fun c s' => by
      iintro ⟨⟨Hh, -⟩, HSI⟩
      unfold StableHlo.held
      imodintro
      iapply (pointsTo_read_all (Pipeline.ucRefs τ sig) (fun b => (((c : Thread nD τ)).1, b)) (W44 m ρ c) s')
      isplitl [Hh] <;> iassumption)
    (hQ := fun s h c =>
      ⟨h c _ (mem_uc main_v316 (by decide)),
       (h c _ (mem_uc main_arg0 (by decide))).trans (W44_main_arg0 m ρ c),
       (h c _ (mem_uc main_arg1 (by decide))).trans (W44_main_arg1 m ρ c),
       (h c _ (mem_uc main_arg2 (by decide))).trans (W44_main_arg2 m ρ c),
       (h c _ (mem_uc main_arg3 (by decide))).trans (W44_main_arg3 m ρ c),
       (h c _ (mem_uc main_arg4 (by decide))).trans (W44_main_arg4 m ρ c),
       (h c _ (mem_uc main_arg5 (by decide))).trans (W44_main_arg5 m ρ c),
       (h c _ (mem_uc main_arg6 (by decide))).trans (W44_main_arg6 m ρ c),
       (h c _ (mem_uc main_arg7 (by decide))).trans (W44_main_arg7 m ρ c),
       (h c _ (mem_uc main_arg8 (by decide))).trans (W44_main_arg8 m ρ c),
       (h c _ (mem_uc main_arg9 (by decide))).trans (W44_main_arg9 m ρ c),
       (h c _ (mem_uc main_arg10 (by decide))).trans (W44_main_arg10 m ρ c),
       (h c _ (mem_uc main_arg11 (by decide))).trans (W44_main_arg11 m ρ c)⟩)

end Cert.KernelRun

end
-- ==== Proof.ConvK.lean ====
/-
  The sparse propagation step and its edge weights, as the host operations of `KernelIdeal` compose them.

  `wrap s` is an index column: entry `e` is `s e`, shifted up by 50000 when it is negative (read as a signed word).
  `norm src dst` gives every edge `e` the weight `r(src e) · r(dst e)`, where `r(v) = rsqrt(max(deg v, ε))` if `deg v > 0` and `0`
  otherwise, and `deg` counts the edges that point at a node (ones scattered onto zeros along `dst`).
  `conv z` gathers row `src e` of `z` for every edge, scales it by the edge's weight, and adds it into row `dst e` of a zero array.
  These are opaque here: both programs apply the same operations, and nothing below opens a gather or a scatter.
-/
import proofs.«135505_j17961553232124_1_alg».proof.KernelIdeal
import Idealize.ShloMosaic.PureOps.Ideal

noncomputable section

namespace Cert.ConvK

open Idealize.ShloMosaic Cert.KernelIdeal Cert.KernelIdeal.Facts₀

variable [Cert.KernelIdeal.Facts₀]

/-- The index column of a signed index vector, negative entries shifted by the table's length. -/
def wrap (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- In-degrees: ones scattered onto zeros along `dst`. -/
def deg (dst : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- Per node: the inverse square root of the degree where it is positive, zero elsewhere. -/
def invSqrt (dst : (⟨S800000, .i32⟩ : BufTy).Contents (Elt Ideal)) : (⟨S50000, .f32⟩ : BufTy).Contents (Elt Ideal) :=
  select (cmpf (F := Ideal) (φ := .f32) .ogt (deg dst) (broadcastInDim S50000 ![] bcast_S_S50000 (constant (F := Ideal) S_ .f32 0x00000000#32)))
    (Host.rsqrt (F := Ideal) (maximumf (F := Ideal) (φ := .f32) (deg dst) (broadcastInDim S50000 ![] bcast_S_S50000 (constant (F := Ideal) S_ .f32 0x2B8CBCCC#32))))
    (broadcastInDim S50000 ![] bcast_S_S50000 (id (constant (F := Ideal) S_ .f32 0x00000000#32)))

/-- Per edge: the product of the two endpoint factors. -/
def norm (src dst : (⟨S800000, .i32⟩ : BufTy).Contents (Elt Ideal)) : (⟨S800000, .f32⟩ : BufTy).Contents (Elt Ideal) :=
  mulf (F := Ideal) (φ := .f32) (Host.gather gather_S50000_S800000x1_S800000_n_0_n_n_0_1_1 (invSqrt dst) (wrap src))
    (Host.gather gather_S50000_S800000x1_S800000_n_0_n_n_0_1_1 (invSqrt dst) (wrap dst))

/-- One propagation over the 64 feature columns. -/
def conv64 (src dst : (⟨S800000, .i32⟩ : BufTy).Contents (Elt Ideal)) (nrm : (⟨S800000, .f32⟩ : BufTy).Contents (Elt Ideal))
    (z : (⟨S50000x64, .f32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (φ := .f32) (Host.gather gather_S50000x64_S800000x1_S800000x64_1_0_n_n_0_1_164 z (wrap src))
      (broadcastInDim S800000x64 ![0, 1] bcast_S800000x1_S800000x64_0_1 (broadcastInDim S800000x1 ![0] bcast_S800000_S800000x1_0 nrm)))

/-- One propagation over the 16 class columns. -/
def conv16 (src dst : (⟨S800000, .i32⟩ : BufTy).Contents (Elt Ideal)) (nrm : (⟨S800000, .f32⟩ : BufTy).Contents (Elt Ideal))
    (z : (⟨S50000x16, .f32⟩ : BufTy).Contents (Elt Ideal)) : (⟨S50000x16, .f32⟩ : BufTy).Contents (Elt Ideal) :=
  Host.scatterAdd scatter_S50000x16_S800000x1_S800000x16_1_0_0_1
    (broadcastInDim S50000x16 ![] bcast_S_S50000x16 (constant (F := Ideal) S_ .f32 0x00000000#32))
    (broadcastInDim S800000x1 ![0] bcast_S800000_S800000x1_0 dst)
    (mulf (F := Ideal) (φ := .f32) (Host.gather gather_S50000x16_S800000x1_S800000x16_1_0_n_n_0_1_116 z (wrap src))
      (broadcastInDim S800000x16 ![0, 1] bcast_S800000x1_S800000x16_0_1 (broadcastInDim S800000x1 ![0] bcast_S800000_S800000x1_0 nrm)))

end Cert.ConvK

end
-- ==== Proof.BlendSpec.lean ====
/-
  The residual blend and the repeated step, on the extended reals.

  One diffusion step replaces `z` by nine tenths of the propagated `z` plus one tenth of the anchor `h`; the two weights
  are the binary32 numbers nearest 0.9 and 0.1, the same two words on both programs, so they are never evaluated.
  `iter step a n` is `step` applied `n` times to `a`.
-/
import Idealize.ShloMosaic.PureOps.Ideal

noncomputable section

namespace Cert.BlendSpec

open Idealize.ShloMosaic

/-- Entry by entry: `cz · w₀ + h · w₁` with `w₀`, `w₁` the two binary32 weights. -/
def blend {ι : Type} (cz h : ι → EReal) : ι → EReal :=
  fun i => cz i * Ideal.ofBits .f32 0x3F666666#32 + h i * Ideal.ofBits .f32 0x3DCCCCCD#32

theorem blend_apply {ι : Type} (cz h : ι → EReal) (i : ι) :
    blend cz h i = cz i * Ideal.ofBits .f32 0x3F666666#32 + h i * Ideal.ofBits .f32 0x3DCCCCCD#32 := rfl

/-- Blending two arrays read through index maps that agree at `j` is the blend read through the common index. -/
theorem blend_comp {ι κ : Type} (cz h : κ → EReal) (e0 e1 e2 : ι → κ) (j : ι) (h0 : e0 j = e2 j) (h1 : e1 j = e2 j) :
    blend (fun y => cz (e0 y)) (fun y => h (e1 y)) j = blend cz h (e2 j) := by
  unfold blend
  show cz (e0 j) * _ + h (e1 j) * _ = _
  rw [h0, h1]

/-- `step` applied `n` times to `a`. -/
def iter {α : Type} (step : α → α) (a : α) : Nat → α
  | 0 => a
  | n + 1 => step (iter step a n)

@[simp] theorem iter_zero {α : Type} (step : α → α) (a : α) : iter step a 0 = a := rfl
theorem iter_succ {α : Type} (step : α → α) (a : α) (n : Nat) : iter step a (n + 1) = step (iter step a n) := rfl

/-- Two steps that agree everywhere give the same iterates. -/
theorem iter_congr {α : Type} {s₁ s₂ : α → α} (h : ∀ a, s₁ a = s₂ a) (a : α) (n : Nat) : iter s₁ a n = iter s₂ a n := by
  induction n with
  | zero => rfl
  | succ n ih => rw [iter_succ, iter_succ, ih, h]

end Cert.BlendSpec

end
-- ==== Proof.MlpSpec.lean ====
/-
  The dense middle of the network, as one function on the extended reals.

  For node `n` and feature `f` the pair network sees the row (z[n,f], x[n,f], emb[f,0..6]); its hidden unit `h` has
  pre-activation  z[n,f]·A1[0,h] + x[n,f]·A1[1,h] + Σ_k emb[f,k]·A1[k+2,h] + ab1[h],  its output is half of
  Σ_h max(pre_h, 0)·A2[h,0] + ab2[0].  The classifier then takes the 128-wide row (pair outputs of node `n`, then x[n,·]),
  a 64-unit rectified layer with weights W1 and bias b1, and a linear layer W2, b2 to 16 logits.
  Nothing here needs finiteness: only sums, products and maxima of extended reals are formed.
-/
import Idealize.ShloMosaic.PureOps.Ideal
import Idealize.ShloMosaic.Lib.ValueIdx

noncomputable section

open scoped BigOperators

namespace Cert.MlpSpec

open Idealize.ShloMosaic Idealize.ShloMosaic.ValueIdx

/-- An extended-real matrix of literal extents, indexed as the programs index their rank-2 arrays. -/
abbrev Mat (n0 n1 : Nat) := (⟨2, ![n0, n1]⟩ : Shape).Idx → EReal
/-- An extended-real vector of literal extent. -/
abbrev Vct (n : Nat) := (⟨1, ![n]⟩ : Shape).Idx → EReal

/-- Pre-activation of hidden unit `h` of the pair network at node `n`, feature `f`. -/
def pre (z x : Mat 50000 64) (A1 : Mat 9 11) (ab1 : Vct 11) (emb : Mat 64 7) (n : Fin 50000) (f : Fin 64) (h : Fin 11) : EReal :=
  z (ix2 n f) * A1 (ix2 (0 : Fin 9) h) + x (ix2 n f) * A1 (ix2 (1 : Fin 9) h)
    + (∑ k : Fin 7, emb (ix2 f k) * A1 (ix2 (⟨k.val + 2, by omega⟩ : Fin 9) h)) + ab1 (ix1 h)

/-- The pair network's output at node `n`, feature `f`: half of the rectified hidden units' weighted sum plus its bias. -/
def pair (z x : Mat 50000 64) (A1 : Mat 9 11) (ab1 : Vct 11) (A2 : Mat 11 1) (ab2 : Vct 1) (emb : Mat 64 7)
    (n : Fin 50000) (f : Fin 64) : EReal :=
  ((∑ h : Fin 11, max (pre z x A1 ab1 emb n f h) 0 * A2 (ix2 h (0 : Fin 1))) + ab2 (ix1 (0 : Fin 1))) * ((1 / 2 : ℝ) : EReal)

/-- Hidden unit `j` of the classifier at node `n`: the pair outputs against the first 64 rows of W1, the node's own features
    against the last 64, the bias, rectified. -/
def hidden (z x : Mat 50000 64) (W1 : Mat 128 64) (b1 : Vct 64) (A1 : Mat 9 11) (ab1 : Vct 11) (A2 : Mat 11 1) (ab2 : Vct 1)
    (emb : Mat 64 7) (n : Fin 50000) (j : Fin 64) : EReal :=
  max ((∑ k : Fin 64, pair z x A1 ab1 A2 ab2 emb n k * W1 (ix2 (⟨k.val, by omega⟩ : Fin 128) j))
        + (∑ k : Fin 64, x (ix2 n k) * W1 (ix2 (⟨k.val + 64, by omega⟩ : Fin 128) j)) + b1 (ix1 j)) 0

/-- The 16 class logits of node `n`. -/
def logit (z x : Mat 50000 64) (W1 : Mat 128 64) (b1 : Vct 64) (W2 : Mat 64 16) (b2 : Vct 16) (A1 : Mat 9 11) (ab1 : Vct 11)
    (A2 : Mat 11 1) (ab2 : Vct 1) (emb : Mat 64 7) (n : Fin 50000) (q : Fin 16) : EReal :=
  (∑ j : Fin 64, hidden z x W1 b1 A1 ab1 A2 ab2 emb n j * W2 (ix2 j q)) + b2 (ix1 q)

/-- The logits as an array. -/
def g0 (z x : Mat 50000 64) (W1 : Mat 128 64) (b1 : Vct 64) (W2 : Mat 64 16) (b2 : Vct 16) (A1 : Mat 9 11) (ab1 : Vct 11)
    (A2 : Mat 11 1) (ab2 : Vct 1) (emb : Mat 64 7) : Mat 50000 16 :=
  fun i => logit z x W1 b1 W2 b2 A1 ab1 A2 ab2 emb (i 0) (i 1)

theorem g0_apply (z x : Mat 50000 64) (W1 : Mat 128 64) (b1 : Vct 64) (W2 : Mat 64 16) (b2 : Vct 16) (A1 : Mat 9 11) (ab1 : Vct 11)
    (A2 : Mat 11 1) (ab2 : Vct 1) (emb : Mat 64 7) (n : Fin 50000) (q : Fin 16) :
    g0 z x W1 b1 W2 b2 A1 ab1 A2 ab2 emb (ix2 n q) = logit z x W1 b1 W2 b2 A1 ab1 A2 ab2 emb n q := rfl

/-! ## The same network as the kernel body arranges it, over `R` rows

The kernel is handed the per-hidden-unit row `ecT[h,f] = Σ_k emb[f,k]·A1[k+2,h]`, the two columns `a10 = A1[0,·]`,
`a11 = A1[1,·]`, the column `a2 = A2[·,0]` and the two halves `w1a`, `w1b` of W1, and works row block by row block. -/

/-- Pre-activation of hidden unit `h` at row `p`, feature `f`, from the prepared operands. -/
def kPre (R : Nat) (z x : Mat R 64) (ecT : Mat 11 64) (a10 a11 ab1 : Vct 11) (p : Fin R) (f : Fin 64) (h : Fin 11) : EReal :=
  z (ix2 p f) * a10 (ix1 h) + x (ix2 p f) * a11 (ix1 h) + ecT (ix2 h f) + ab1 (ix1 h)

/-- The pair network's output at row `p`, feature `f`, from the prepared operands. -/
def kPair (R : Nat) (z x : Mat R 64) (ecT : Mat 11 64) (a10 a11 ab1 a2 : Vct 11) (ab2 : Vct 1) (p : Fin R) (f : Fin 64) : EReal :=
  ((∑ h : Fin 11, max (kPre R z x ecT a10 a11 ab1 p f h) 0 * a2 (ix1 h)) + ab2 (ix1 (0 : Fin 1))) * ((1 / 2 : ℝ) : EReal)

/-- Hidden unit `j` of the classifier at row `p`, from the prepared operands. -/
def kHidden (R : Nat) (z x : Mat R 64) (ecT : Mat 11 64) (a10 a11 ab1 a2 : Vct 11) (ab2 : Vct 1) (w1a w1b : Mat 64 64) (b1 : Vct 64)
    (p : Fin R) (j : Fin 64) : EReal :=
  max ((∑ k : Fin 64, kPair R z x ecT a10 a11 ab1 a2 ab2 p k * w1a (ix2 k j))
        + (∑ k : Fin 64, x (ix2 p k) * w1b (ix2 k j)) + b1 (ix1 j)) 0

/-- Logit `q` at row `p`, from the prepared operands. -/
def kLogit (R : Nat) (z x : Mat R 64) (ecT : Mat 11 64) (a10 a11 ab1 a2 : Vct 11) (ab2 : Vct 1) (w1a w1b : Mat 64 64) (b1 : Vct 64)
    (w2 : Mat 64 16) (b2 : Vct 16) (p : Fin R) (q : Fin 16) : EReal :=
  (∑ j : Fin 64, kHidden R z x ecT a10 a11 ab1 a2 ab2 w1a w1b b1 p j * w2 (ix2 j q)) + b2 (ix1 q)

end Cert.MlpSpec

end
-- ==== Proof.ChainDefs.lean ====
/-
  The quantities the idealized kernel program's run carries from boundary to boundary.

  From the launch memory `m` on core `c`: the input features `X`, the edge list `SRC`, `DST`, the edge weights `NRM`, one
  diffusion step over the 64 feature columns (propagate, then blend with `X`), and what every boundary of the run
  keeps — the twelve argument arrays as launched and the edge weights at their buffer.
-/
import proofs.«135505_j17961553232124_1_alg».proof.Proof.Gen.KernelIdeal.Frame
import proofs.«135505_j17961553232124_1_alg».proof.Proof.ConvK
import proofs.«135505_j17961553232124_1_alg».proof.Proof.BlendSpec
import proofs.«135505_j17961553232124_1_alg».proof.Proof.MlpSpec

noncomputable section

namespace Cert.ChainDefs

open Idealize.ShloMosaic Idealize.ShloMosaic.TcCoe Idealize.SL.Sem Idealize.ShloMosaic.StableHlo
open Cert.KernelIdeal Cert.KernelIdeal.Gen Cert.ConvK Cert.BlendSpec

variable (m : (ℓ : Loc nD τ sig) → Buf (Elt Ideal) ℓ) (c : Dev nD)

abbrev X : Buf (Elt Ideal) ((c : Thread nD τ).loc main_arg0) := m ((c : Thread nD τ).loc main_arg0)
abbrev SRC : Buf (Elt Ideal) ((c : Thread nD τ).loc main_arg1) := m ((c : Thread nD τ).loc main_arg1)
abbrev DST : Buf (Elt Ideal) ((c : Thread nD τ).loc main_arg2) := m ((c : Thread nD τ).loc main_arg2)
/-- The edge weights of the launched edge list. -/
abbrev NRM : (⟨S800000, .f32⟩ : BufTy).Contents (Elt Ideal) := Cert.ConvK.norm (SRC m c) (DST m c)

/-- One diffusion step over the feature columns: propagate, then blend with the input features. -/
def step64 (z : (⟨S50000x64, .f32⟩ : BufTy).Contents (Elt Ideal)) : (⟨S50000x64, .f32⟩ : BufTy).Contents (Elt Ideal) :=
  blend (conv64 (SRC m c) (DST m c) (NRM m c) z) (X m c)

/-- One diffusion step over the class columns, anchored at `g`. -/
def step16 (g z : (⟨S50000x16, .f32⟩ : BufTy).Contents (Elt Ideal)) : (⟨S50000x16, .f32⟩ : BufTy).Contents (Elt Ideal) :=
  blend (conv16 (SRC m c) (DST m c) (NRM m c) z) g

/-- The class logits: the dense network applied to ten feature-column steps from the input features. -/
def G0 : (⟨S50000x16, .f32⟩ : BufTy).Contents (Elt Ideal) :=
  Cert.MlpSpec.g0 (iter (step64 m c) (X m c) 10) (X m c) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- What a boundary keeps: every argument array as launched, and the edge weights at their buffer. -/
structure Keep (W : Valuation τ sig (Elt Ideal)) : Prop where
  a0 : W (Proc.devRef .tc main_arg0) = m ((c : Thread nD τ).loc main_arg0)
  a1 : W (Proc.devRef .tc main_arg1) = m ((c : Thread nD τ).loc main_arg1)
  a2 : W (Proc.devRef .tc main_arg2) = m ((c : Thread nD τ).loc main_arg2)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  nrm : W (Proc.devRef .tc main_v24) = NRM m c

end Cert.ChainDefs

end
-- ==== Proof.HostStep0.lean ====
/-
  The host operations before the first region: the edge weights and the first propagation, stretch by stretch.

  The opening of the program is three stretches of host operations.  The first computes, from the destination column of the
  edge list, where a node's in-degree is positive and the inverse square root of the (floored) in-degree; the second, a
  called function, selects between that and zero; the third gathers the two endpoint factors of every edge, multiplies
  them into the edge weights, and propagates the input features once under those weights.  Each stretch is read from an
  arbitrary buffer contents, and the three readings are then composed.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep0

open Idealize.ShloMosaic Idealize.ShloMosaic.TcCoe Idealize.ShloMosaic.StableHlo Cert.KernelIdeal Cert.KernelIdeal.Gen Cert.ConvK

/-- The buffers the three stretches write. -/
def written0 : List (Ref sig .tc) := [main_cst, main_v0, main_cst_0, main_v1, main_v2, main_v3, main_cst_1, main_v4, main_v5, main_cst_2, main_v6, main_v7, main_v8, main_cst_3]
def written1 : List (Ref sig .tc) := [main_call0_v0, main_call0_v1, main_v9]
def written2 : List (Ref sig .tc) := [main_c, main_v10, main_v11, main_c_4, main_v12, main_v13, main_v14, main_v15, main_v16, main_c_5, main_v17, main_v18, main_c_6, main_v19, main_v20, main_v21, main_v22, main_v23, main_v24, main_c_7, main_v25, main_v26, main_c_8, main_v27, main_v28, main_v29, main_v30, main_v31, main_v32, main_v33, main_v34, main_cst_9, main_v35, main_v36, main_v37]

theorem writes_sub0 : (hostOps0 (F := Ideal)).Forall fun op => op.writes ⊆ (written0.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

theorem writes_sub1 : (hostOps0_1 (F := Ideal)).Forall fun op => op.writes ⊆ (written1.map (Proc.devRef (τ := τ) .tc)).toFinset := by
  simp only [hostOps0_1, StableHlo.TRef.unary, StableHlo.TRef.ternary, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

theorem writes_sub2 : (hostOps0_2 (F := Ideal)).Forall fun op => op.writes ⊆ (written2.map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

section Stages

variable (U : Valuation τ sig (Elt Ideal))

/-! ## The first stretch: degrees, their positivity and inverse square roots -/

set_option maxHeartbeats 4000000 in
/-- Where the in-degree is positive. -/
theorem stageA_v5 : StableHlo.after (hostOps0 (F := Ideal)) U (Proc.devRef .tc main_v5)
    = cmpf (F := Ideal) (φ := .f32) .ogt (deg (U (Proc.devRef .tc main_arg2)))
        (broadcastInDim S50000 ![] bcast_S_S50000 (constant (F := Ideal) S_ .f32 0x00000000#32)) := by
  after_results
  unfold deg
  first | with_reducible rfl | rfl

set_option maxHeartbeats 4000000 in
/-- The inverse square root of the floored in-degree. -/
theorem stageA_v8 : StableHlo.after (hostOps0 (F := Ideal)) U (Proc.devRef .tc main_v8)
    = Host.rsqrt (F := Ideal) (maximumf (F := Ideal) (φ := .f32) (deg (U (Proc.devRef .tc main_arg2)))
        (broadcastInDim S50000 ![] bcast_S_S50000 (constant (F := Ideal) S_ .f32 0x2B8CBCCC#32))) := by
  after_results
  unfold deg
  first | with_reducible rfl | rfl

set_option maxHeartbeats 4000000 in
/-- The zero the called function broadcasts. -/
theorem stageA_cst3 : StableHlo.after (hostOps0 (F := Ideal)) U (Proc.devRef .tc main_cst_3)
    = constant (F := Ideal) S_ .f32 0x00000000#32 := by
  after_results

theorem keepA (r : Ref sig .tc) (h : r ∉ written0) :
    StableHlo.after (hostOps0 (F := Ideal)) U (Proc.devRef .tc r) = U (Proc.devRef .tc r) :=
  StableHlo.after_of_writes_sub _ _ writes_sub0 h

/-! ## The second stretch: the selection -/

set_option maxHeartbeats 4000000 in
/-- The per-node factor: the inverse square root where the in-degree is positive, the broadcast zero elsewhere. -/
theorem stageB_v9 : StableHlo.after (hostOps0_1 (F := Ideal)) U (Proc.devRef .tc main_v9)
    = select (U (Proc.devRef .tc main_v5)) (U (Proc.devRef .tc main_v8))
        (broadcastInDim S50000 ![] bcast_S_S50000 (id (U (Proc.devRef .tc main_cst_3)))) := by
  after_results
  rfl

theorem keepB (r : Ref sig .tc) (h : r ∉ written1) :
    StableHlo.after (hostOps0_1 (F := Ideal)) U (Proc.devRef .tc r) = U (Proc.devRef .tc r) :=
  StableHlo.after_of_writes_sub _ _ writes_sub1 h

/-! ## The third stretch: the edge weights and the first propagation -/

set_option maxHeartbeats 4000000 in
/-- The edge weights, from the per-node factor the stretch finds. -/
theorem stageC_v24 : StableHlo.after (hostOps0_2 (F := Ideal)) U (Proc.devRef .tc main_v24)
    = mulf (F := Ideal) (φ := .f32)
        (Host.gather gather_S50000_S800000x1_S800000_n_0_n_n_0_1_1 (U (Proc.devRef .tc main_v9)) (wrap (U (Proc.devRef .tc main_arg1))))
        (Host.gather gather_S50000_S800000x1_S800000_n_0_n_n_0_1_1 (U (Proc.devRef .tc main_v9)) (wrap (U (Proc.devRef .tc main_arg2)))) := by
  after_results
  unfold wrap
  first | with_reducible rfl | rfl

set_option maxHeartbeats 4000000 in
/-- The propagation of the input features under those weights. -/
theorem stageC_v37 : StableHlo.after (hostOps0_2 (F := Ideal)) U (Proc.devRef .tc main_v37)
    = conv64 (U (Proc.devRef .tc main_arg1)) (U (Proc.devRef .tc main_arg2))
        (mulf (F := Ideal) (φ := .f32)
          (Host.gather gather_S50000_S800000x1_S800000_n_0_n_n_0_1_1 (U (Proc.devRef .tc main_v9)) (wrap (U (Proc.devRef .tc main_arg1))))
          (Host.gather gather_S50000_S800000x1_S800000_n_0_n_n_0_1_1 (U (Proc.devRef .tc main_v9)) (wrap (U (Proc.devRef .tc main_arg2)))))
        (U (Proc.devRef .tc main_arg0)) := by
  after_results
  unfold conv64 wrap
  first | with_reducible rfl | rfl

theorem keepC (r : Ref sig .tc) (h : r ∉ written2) :
    StableHlo.after (hostOps0_2 (F := Ideal)) U (Proc.devRef .tc r) = U (Proc.devRef .tc r) :=
  StableHlo.after_of_writes_sub _ _ writes_sub2 h

end Stages

variable (W : Valuation τ sig (Elt Ideal))

/-- An argument array after the first two stretches. -/
theorem keepAB (r : Ref sig .tc) (h0 : r ∉ written0) (h1 : r ∉ written1) :
    StableHlo.after (hostOps0_1 (F := Ideal)) (StableHlo.after (hostOps0 (F := Ideal)) W) (Proc.devRef .tc r) = W (Proc.devRef .tc r) :=
  (keepB _ r h1).trans (keepA W r h0)

/-- The per-node factor after the first two stretches. -/
theorem v9_eq : StableHlo.after (hostOps0_1 (F := Ideal)) (StableHlo.after (hostOps0 (F := Ideal)) W) (Proc.devRef .tc main_v9)
    = invSqrt (W (Proc.devRef .tc main_arg2)) := by
  refine (stageB_v9 (StableHlo.after (hostOps0 (F := Ideal)) W)).trans ?_
  rw [stageA_v5 W, stageA_v8 W, stageA_cst3 W]
  rfl

/-- The edge weights. -/
theorem weights : StableHlo.after (hostOps0_2 (F := Ideal)) (StableHlo.after (hostOps0_1 (F := Ideal)) (StableHlo.after (hostOps0 (F := Ideal)) W)) (Proc.devRef .tc main_v24)
    = Cert.ConvK.norm (W (Proc.devRef .tc main_arg1)) (W (Proc.devRef .tc main_arg2)) := by
  refine (stageC_v24 (StableHlo.after (hostOps0_1 (F := Ideal)) (StableHlo.after (hostOps0 (F := Ideal)) W))).trans ?_
  rw [v9_eq W, keepAB W main_arg1 (by decide) (by decide), keepAB W main_arg2 (by decide) (by decide)]
  rfl

/-- The first propagation, of the input features. -/
theorem value : StableHlo.after (hostOps0_2 (F := Ideal)) (StableHlo.after (hostOps0_1 (F := Ideal)) (StableHlo.after (hostOps0 (F := Ideal)) W)) (Proc.devRef .tc main_v37)
    = conv64 (W (Proc.devRef .tc main_arg1)) (W (Proc.devRef .tc main_arg2)) (Cert.ConvK.norm (W (Proc.devRef .tc main_arg1)) (W (Proc.devRef .tc main_arg2))) (W (Proc.devRef .tc main_arg0)) := by
  refine (stageC_v37 (StableHlo.after (hostOps0_1 (F := Ideal)) (StableHlo.after (hostOps0 (F := Ideal)) W))).trans ?_
  rw [v9_eq W, keepAB W main_arg1 (by decide) (by decide), keepAB W main_arg2 (by decide) (by decide), keepAB W main_arg0 (by decide) (by decide)]
  rfl

/-- A buffer none of the three stretches writes keeps its contents. -/
theorem keep (r : Ref sig .tc) (h0 : r ∉ written0) (h1 : r ∉ written1) (h2 : r ∉ written2) :
    StableHlo.after (hostOps0_2 (F := Ideal)) (StableHlo.after (hostOps0_1 (F := Ideal)) (StableHlo.after (hostOps0 (F := Ideal)) W)) (Proc.devRef .tc r) = W (Proc.devRef .tc r) :=
  (StableHlo.after_of_writes_sub _ _ writes_sub2 h2).trans
    ((StableHlo.after_of_writes_sub _ _ writes_sub1 h1).trans (StableHlo.after_of_writes_sub _ _ writes_sub0 h0))

end Cert.HostStep0

end
-- ==== Proof.HostStep1.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep1

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v38`'s contents. -/
theorem value : StableHlo.after (hostOps1 (F := Ideal)) W (Proc.devRef .tc main_v51)
    = conv64 (W (Proc.devRef .tc main_arg1)) (W (Proc.devRef .tc main_arg2)) (W (Proc.devRef .tc main_v24)) (W (Proc.devRef .tc main_v38)) := by
  after_results
  unfold conv64 wrap
  with_reducible rfl

/-- The buffers the stretch writes. -/
def written : List (Ref sig .tc) := [main_c_10, main_v39, main_v40, main_c_11, main_v41, main_v42, main_v43, main_v44, main_v45, main_v46, main_v47, main_v48, main_cst_12, main_v49, main_v50, main_v51]

theorem writes_sub : (hostOps1 (F := Ideal)).Forall fun op => op.writes ⊆ (written.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps1 (F := Ideal)) W (Proc.devRef .tc r) = W (Proc.devRef .tc r) :=
  StableHlo.after_of_writes_sub _ _ writes_sub hr

end Cert.HostStep1

end
-- ==== Proof.HostStep2.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep2

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v52`'s contents. -/
theorem value : StableHlo.after (hostOps2 (F := Ideal)) W (Proc.devRef .tc main_v65)
    = conv64 (W (Proc.devRef .tc main_arg1)) (W (Proc.devRef .tc main_arg2)) (W (Proc.devRef .tc main_v24)) (W (Proc.devRef .tc main_v52)) := by
  after_results
  unfold conv64 wrap
  with_reducible rfl

/-- The buffers the stretch writes. -/
def written : List (Ref sig .tc) := [main_c_13, main_v53, main_v54, main_c_14, main_v55, main_v56, main_v57, main_v58, main_v59, main_v60, main_v61, main_v62, main_cst_15, main_v63, main_v64, main_v65]

theorem writes_sub : (hostOps2 (F := Ideal)).Forall fun op => op.writes ⊆ (written.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps2 (F := Ideal)) W (Proc.devRef .tc r) = W (Proc.devRef .tc r) :=
  StableHlo.after_of_writes_sub _ _ writes_sub hr

end Cert.HostStep2

end
-- ==== Proof.HostStep3.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep3

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v66`'s contents. -/
theorem value : StableHlo.after (hostOps3 (F := Ideal)) W (Proc.devRef .tc main_v79)
    = conv64 (W (Proc.devRef .tc main_arg1)) (W (Proc.devRef .tc main_arg2)) (W (Proc.devRef .tc main_v24)) (W (Proc.devRef .tc main_v66)) := by
  after_results
  unfold conv64 wrap
  with_reducible rfl

/-- The buffers the stretch writes. -/
def written : List (Ref sig .tc) := [main_c_16, main_v67, main_v68, main_c_17, main_v69, main_v70, main_v71, main_v72, main_v73, main_v74, main_v75, main_v76, main_cst_18, main_v77, main_v78, main_v79]

theorem writes_sub : (hostOps3 (F := Ideal)).Forall fun op => op.writes ⊆ (written.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps3 (F := Ideal)) W (Proc.devRef .tc r) = W (Proc.devRef .tc r) :=
  StableHlo.after_of_writes_sub _ _ writes_sub hr

end Cert.HostStep3

end
-- ==== Proof.HostStep4.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep4

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v80`'s contents. -/
theorem value : StableHlo.after (hostOps4 (F := Ideal)) W (Proc.devRef .tc main_v93)
    = conv64 (W (Proc.devRef .tc main_arg1)) (W (Proc.devRef .tc main_arg2)) (W (Proc.devRef .tc main_v24)) (W (Proc.devRef .tc main_v80)) := by
  after_results
  unfold conv64 wrap
  with_reducible rfl

/-- The buffers the stretch writes. -/
def written : List (Ref sig .tc) := [main_c_19, main_v81, main_v82, main_c_20, main_v83, main_v84, main_v85, main_v86, main_v87, main_v88, main_v89, main_v90, main_cst_21, main_v91, main_v92, main_v93]

theorem writes_sub : (hostOps4 (F := Ideal)).Forall fun op => op.writes ⊆ (written.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps4 (F := Ideal)) W (Proc.devRef .tc r) = W (Proc.devRef .tc r) :=
  StableHlo.after_of_writes_sub _ _ writes_sub hr

end Cert.HostStep4

end
-- ==== Proof.HostStep5.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep5

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v94`'s contents. -/
theorem value : StableHlo.after (hostOps5 (F := Ideal)) W (Proc.devRef .tc main_v107)
    = conv64 (W (Proc.devRef .tc main_arg1)) (W (Proc.devRef .tc main_arg2)) (W (Proc.devRef .tc main_v24)) (W (Proc.devRef .tc main_v94)) := by
  after_results
  unfold conv64 wrap
  with_reducible rfl

/-- The buffers the stretch writes. -/
def written : List (Ref sig .tc) := [main_c_22, main_v95, main_v96, main_c_23, main_v97, main_v98, main_v99, main_v100, main_v101, main_v102, main_v103, main_v104, main_cst_24, main_v105, main_v106, main_v107]

theorem writes_sub : (hostOps5 (F := Ideal)).Forall fun op => op.writes ⊆ (written.map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps5 (F := Ideal)) W (Proc.devRef .tc r) = W (Proc.devRef .tc r) :=
  StableHlo.after_of_writes_sub _ _ writes_sub hr

end Cert.HostStep5

end
-- ==== Proof.HostStep6.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep6

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v108`'s contents. -/
theorem value : StableHlo.after (hostOps6 (F := Ideal)) W (Proc.devRef .tc main_v121)
    = conv64 (W (Proc.devRef .tc main_arg1)) (W (Proc.devRef .tc main_arg2)) (W (Proc.devRef .tc main_v24)) (W (Proc.devRef .tc main_v108)) := by
  after_results
  unfold conv64 wrap
  with_reducible rfl

/-- The buffers the stretch writes. -/
def written : List (Ref sig .tc) := [main_c_25, main_v109, main_v110, main_c_26, main_v111, main_v112, main_v113, main_v114, main_v115, main_v116, main_v117, main_v118, main_cst_27, main_v119, main_v120, main_v121]

theorem writes_sub : (hostOps6 (F := Ideal)).Forall fun op => op.writes ⊆ (written.map (Proc.devRef (τ := τ) .tc)).toFinset := by
  simp only [hostOps6, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps6 (F := Ideal)) W (Proc.devRef .tc r) = W (Proc.devRef .tc r) :=
  StableHlo.after_of_writes_sub _ _ writes_sub hr

end Cert.HostStep6

end
-- ==== Proof.HostStep7.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep7

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v122`'s contents. -/
theorem value : StableHlo.after (hostOps7 (F := Ideal)) W (Proc.devRef .tc main_v135)
    = conv64 (W (Proc.devRef .tc main_arg1)) (W (Proc.devRef .tc main_arg2)) (W (Proc.devRef .tc main_v24)) (W (Proc.devRef .tc main_v122)) := by
  after_results
  unfold conv64 wrap
  with_reducible rfl

/-- The buffers the stretch writes. -/
def written : List (Ref sig .tc) := [main_c_28, main_v123, main_v124, main_c_29, main_v125, main_v126, main_v127, main_v128, main_v129, main_v130, main_v131, main_v132, main_cst_30, main_v133, main_v134, main_v135]

theorem writes_sub : (hostOps7 (F := Ideal)).Forall fun op => op.writes ⊆ (written.map (Proc.devRef (τ := τ) .tc)).toFinset := by
  simp only [hostOps7, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps7 (F := Ideal)) W (Proc.devRef .tc r) = W (Proc.devRef .tc r) :=
  StableHlo.after_of_writes_sub _ _ writes_sub hr

end Cert.HostStep7

end
-- ==== Proof.HostStep8.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep8

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v136`'s contents. -/
theorem value : StableHlo.after (hostOps8 (F := Ideal)) W (Proc.devRef .tc main_v149)
    = conv64 (W (Proc.devRef .tc main_arg1)) (W (Proc.devRef .tc main_arg2)) (W (Proc.devRef .tc main_v24)) (W (Proc.devRef .tc main_v136)) := by
  after_results
  unfold conv64 wrap
  with_reducible rfl

/-- The buffers the stretch writes. -/
def written : List (Ref sig .tc) := [main_c_31, main_v137, main_v138, main_c_32, main_v139, main_v140, main_v141, main_v142, main_v143, main_v144, main_v145, main_v146, main_cst_33, main_v147, main_v148, main_v149]

theorem writes_sub : (hostOps8 (F := Ideal)).Forall fun op => op.writes ⊆ (written.map (Proc.devRef (τ := τ) .tc)).toFinset := by
  simp only [hostOps8, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps8 (F := Ideal)) W (Proc.devRef .tc r) = W (Proc.devRef .tc r) :=
  StableHlo.after_of_writes_sub _ _ writes_sub hr

end Cert.HostStep8

end
-- ==== Proof.HostStep9.lean ====
/-
  The host operations between two regions: one propagation over the 64 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep9

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v150`'s contents. -/
theorem value : StableHlo.after (hostOps9 (F := Ideal)) W (Proc.devRef .tc main_v163)
    = conv64 (W (Proc.devRef .tc main_arg1)) (W (Proc.devRef .tc main_arg2)) (W (Proc.devRef .tc main_v24)) (W (Proc.devRef .tc main_v150)) := by
  after_results
  unfold conv64 wrap
  with_reducible rfl

/-- The buffers the stretch writes. -/
def written : List (Ref sig .tc) := [main_c_34, main_v151, main_v152, main_c_35, main_v153, main_v154, main_v155, main_v156, main_v157, main_v158, main_v159, main_v160, main_cst_36, main_v161, main_v162, main_v163]

theorem writes_sub : (hostOps9 (F := Ideal)).Forall fun op => op.writes ⊆ (written.map (Proc.devRef (τ := τ) .tc)).toFinset := by
  simp only [hostOps9, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps9 (F := Ideal)) W (Proc.devRef .tc r) = W (Proc.devRef .tc r) :=
  StableHlo.after_of_writes_sub _ _ writes_sub hr

end Cert.HostStep9

end
-- ==== Proof.BlendRegion0.lean ====
/-
  Blend region 0: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion0

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k0_pay1 (F := Ideal) x0 x1 = blend x0 x1 := by
  funext j
  unfold k0_pay1
  simp only [shapeCast_self]
  rfl

/-- The three index maps agree at every point, and the output's block indices run over 0..4 × {0}. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 4 ∧ win0_2.index t (1 : Fin 2) = 0 :=
  (by decide +kernel : ∀ t : Fin grid0.N, _)

/-- Every row block is some point's. -/
theorem idx_onto : ∀ (q0 : Fin 5), ∃ t : Fin cfg0.N, win0_2.index t = ![q0.val, 0] :=
  (by decide +kernel : ∀ (q0 : Fin 5), ∃ t : Fin grid0.N, win0_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg0.N) :
    (dat0 V c).flushed 2 t = ((cfg0.win 2).blk t).view.read (Elt Ideal) (blend (V c main_v37) (V c main_arg0)) := by
  show (cfg0.win 2).cut (grid0.coords t) ((dat0 V c).after 2 t) = _
  rw [after0_2]
  unfold out0_2
  rw [View.canon_unit_zero hz]
  simp only [View.ld_unit_zero (S := S10000x64) hz]
  rw [pay_eq]
  obtain ⟨e0, e1, e2, e3, e4, e5⟩ := idx_facts t
  funext j
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  show blend (fun y => V c main_v37 (((cfg0.win 0).blk t).view.emb y)) (fun y => V c main_arg0 (((cfg0.win 1).blk t).view.emb y)) j
      = blend (V c main_v37) (V c main_arg0) (((cfg0.win 2).blk t).view.emb j)
  exact blend_comp _ _ _ _ _ j h0 h1

/-- An index of the array is in point `t`'s block iff each coordinate is in the block's range on its axis. -/
theorem mem_blk (t : Fin cfg0.N) (i : S50000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v38).slice (win0_2.rect t)).set ↔ _
  rw [View.set_slice_whole, Rect.mem_set_unit]
  exact Iff.rfl

/-- Row `r` lies in the block of the point whose row block is `r / 10000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array when the region ends: the blend of the two input arrays as the region found them. -/
theorem final (c : Dev nD) : (dat0 V c).arrAt 2 cfg0.N = blend (V c main_v37) (V c main_arg0) :=
  (dat0 V c).arrAt_eq_of_cover 2 _ (fun t _ => flushed_eq V c t) cover

end Cert.BlendRegion0

end
-- ==== Proof.BlendRegion1.lean ====
/-
  Blend region 1: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion1

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k1_pay1 (F := Ideal) x0 x1 = blend x0 x1 := by
  funext j
  unfold k1_pay1
  simp only [shapeCast_self]
  rfl

/-- The three index maps agree at every point, and the output's block indices run over 0..4 × {0}. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 4 ∧ win1_2.index t (1 : Fin 2) = 0 :=
  (by decide +kernel : ∀ t : Fin grid1.N, _)

/-- Every row block is some point's. -/
theorem idx_onto : ∀ (q0 : Fin 5), ∃ t : Fin cfg1.N, win1_2.index t = ![q0.val, 0] :=
  (by decide +kernel : ∀ (q0 : Fin 5), ∃ t : Fin grid1.N, win1_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg1.N) :
    (dat1 V c).flushed 2 t = ((cfg1.win 2).blk t).view.read (Elt Ideal) (blend (V c main_v51) (V c main_arg0)) := by
  show (cfg1.win 2).cut (grid1.coords t) ((dat1 V c).after 2 t) = _
  rw [after1_2]
  unfold out1_2
  rw [View.canon_unit_zero hz]
  simp only [View.ld_unit_zero (S := S10000x64) hz]
  rw [pay_eq]
  obtain ⟨e0, e1, e2, e3, e4, e5⟩ := idx_facts t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  show blend (fun y => V c main_v51 (((cfg1.win 0).blk t).view.emb y)) (fun y => V c main_arg0 (((cfg1.win 1).blk t).view.emb y)) j
      = blend (V c main_v51) (V c main_arg0) (((cfg1.win 2).blk t).view.emb j)
  exact blend_comp _ _ _ _ _ j h0 h1

/-- An index of the array is in point `t`'s block iff each coordinate is in the block's range on its axis. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v52).slice (win1_2.rect t)).set ↔ _
  rw [View.set_slice_whole, Rect.mem_set_unit]
  exact Iff.rfl

/-- Row `r` lies in the block of the point whose row block is `r / 10000`. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array when the region ends: the blend of the two input arrays as the region found them. -/
theorem final (c : Dev nD) : (dat1 V c).arrAt 2 cfg1.N = blend (V c main_v51) (V c main_arg0) :=
  (dat1 V c).arrAt_eq_of_cover 2 _ (fun t _ => flushed_eq V c t) cover

end Cert.BlendRegion1

end
-- ==== Proof.BlendRegion2.lean ====
/-
  Blend region 2: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion2

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k2_pay1 (F := Ideal) x0 x1 = blend x0 x1 := by
  funext j
  unfold k2_pay1
  simp only [shapeCast_self]
  rfl

/-- The three index maps agree at every point, and the output's block indices run over 0..4 × {0}. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) ≤ 4 ∧ win2_2.index t (1 : Fin 2) = 0 :=
  (by decide +kernel : ∀ t : Fin grid2.N, _)

/-- Every row block is some point's. -/
theorem idx_onto : ∀ (q0 : Fin 5), ∃ t : Fin cfg2.N, win2_2.index t = ![q0.val, 0] :=
  (by decide +kernel : ∀ (q0 : Fin 5), ∃ t : Fin grid2.N, win2_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg2.N) :
    (dat2 V c).flushed 2 t = ((cfg2.win 2).blk t).view.read (Elt Ideal) (blend (V c main_v65) (V c main_arg0)) := by
  show (cfg2.win 2).cut (grid2.coords t) ((dat2 V c).after 2 t) = _
  rw [after2_2]
  unfold out2_2
  rw [View.canon_unit_zero hz]
  simp only [View.ld_unit_zero (S := S10000x64) hz]
  rw [pay_eq]
  obtain ⟨e0, e1, e2, e3, e4, e5⟩ := idx_facts t
  funext j
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  show blend (fun y => V c main_v65 (((cfg2.win 0).blk t).view.emb y)) (fun y => V c main_arg0 (((cfg2.win 1).blk t).view.emb y)) j
      = blend (V c main_v65) (V c main_arg0) (((cfg2.win 2).blk t).view.emb j)
  exact blend_comp _ _ _ _ _ j h0 h1

/-- An index of the array is in point `t`'s block iff each coordinate is in the block's range on its axis. -/
theorem mem_blk (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

/-- Row `r` lies in the block of the point whose row block is `r / 10000`. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array when the region ends: the blend of the two input arrays as the region found them. -/
theorem final (c : Dev nD) : (dat2 V c).arrAt 2 cfg2.N = blend (V c main_v65) (V c main_arg0) :=
  (dat2 V c).arrAt_eq_of_cover 2 _ (fun t _ => flushed_eq V c t) cover

end Cert.BlendRegion2

end
-- ==== Proof.BlendRegion3.lean ====
/-
  Blend region 3: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion3

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k3_pay1 (F := Ideal) x0 x1 = blend x0 x1 := by
  funext j
  unfold k3_pay1
  simp only [shapeCast_self]
  rfl

/-- The three index maps agree at every point, and the output's block indices run over 0..4 × {0}. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 4 ∧ win3_2.index t (1 : Fin 2) = 0 :=
  (by decide +kernel : ∀ t : Fin grid3.N, _)

/-- Every row block is some point's. -/
theorem idx_onto : ∀ (q0 : Fin 5), ∃ t : Fin cfg3.N, win3_2.index t = ![q0.val, 0] :=
  (by decide +kernel : ∀ (q0 : Fin 5), ∃ t : Fin grid3.N, win3_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg3.N) :
    (dat3 V c).flushed 2 t = ((cfg3.win 2).blk t).view.read (Elt Ideal) (blend (V c main_v79) (V c main_arg0)) := by
  show (cfg3.win 2).cut (grid3.coords t) ((dat3 V c).after 2 t) = _
  rw [after3_2]
  unfold out3_2
  rw [View.canon_unit_zero hz]
  simp only [View.ld_unit_zero (S := S10000x64) hz]
  rw [pay_eq]
  obtain ⟨e0, e1, e2, e3, e4, e5⟩ := idx_facts t
  funext j
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  show blend (fun y => V c main_v79 (((cfg3.win 0).blk t).view.emb y)) (fun y => V c main_arg0 (((cfg3.win 1).blk t).view.emb y)) j
      = blend (V c main_v79) (V c main_arg0) (((cfg3.win 2).blk t).view.emb j)
  exact blend_comp _ _ _ _ _ j h0 h1

/-- An index of the array is in point `t`'s block iff each coordinate is in the block's range on its axis. -/
theorem mem_blk (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v80).slice (win3_2.rect t)).set ↔ _
  rw [View.set_slice_whole, Rect.mem_set_unit]
  exact Iff.rfl

/-- Row `r` lies in the block of the point whose row block is `r / 10000`. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array when the region ends: the blend of the two input arrays as the region found them. -/
theorem final (c : Dev nD) : (dat3 V c).arrAt 2 cfg3.N = blend (V c main_v79) (V c main_arg0) :=
  (dat3 V c).arrAt_eq_of_cover 2 _ (fun t _ => flushed_eq V c t) cover

end Cert.BlendRegion3

end
-- ==== Proof.BlendRegion4.lean ====
/-
  Blend region 4: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion4

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k4_pay1 (F := Ideal) x0 x1 = blend x0 x1 := by
  funext j
  unfold k4_pay1
  simp only [shapeCast_self]
  rfl

/-- The three index maps agree at every point, and the output's block indices run over 0..4 × {0}. -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 4 ∧ win4_2.index t (1 : Fin 2) = 0 :=
  (by decide +kernel : ∀ t : Fin grid4.N, _)

/-- Every row block is some point's. -/
theorem idx_onto : ∀ (q0 : Fin 5), ∃ t : Fin cfg4.N, win4_2.index t = ![q0.val, 0] :=
  (by decide +kernel : ∀ (q0 : Fin 5), ∃ t : Fin grid4.N, win4_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg4.N) :
    (dat4 V c).flushed 2 t = ((cfg4.win 2).blk t).view.read (Elt Ideal) (blend (V c main_v93) (V c main_arg0)) := by
  show (cfg4.win 2).cut (grid4.coords t) ((dat4 V c).after 2 t) = _
  rw [after4_2]
  unfold out4_2
  rw [View.canon_unit_zero hz]
  simp only [View.ld_unit_zero (S := S10000x64) hz]
  rw [pay_eq]
  obtain ⟨e0, e1, e2, e3, e4, e5⟩ := idx_facts t
  funext j
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb j = ((cfg4.win 2).blk t).view.emb j := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 64 + 1 * (j 1).val = win4_2.index t (1 : Fin 2) * 64 + 1 * (j 1).val; omega
  show blend (fun y => V c main_v93 (((cfg4.win 0).blk t).view.emb y)) (fun y => V c main_arg0 (((cfg4.win 1).blk t).view.emb y)) j
      = blend (V c main_v93) (V c main_arg0) (((cfg4.win 2).blk t).view.emb j)
  exact blend_comp _ _ _ _ _ j h0 h1

/-- An index of the array is in point `t`'s block iff each coordinate is in the block's range on its axis. -/
theorem mem_blk (t : Fin cfg4.N) (i : S50000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v94).slice (win4_2.rect t)).set ↔ _
  rw [View.set_slice_whole, Rect.mem_set_unit]
  exact Iff.rfl

/-- Row `r` lies in the block of the point whose row block is `r / 10000`. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The output array when the region ends: the blend of the two input arrays as the region found them. -/
theorem final (c : Dev nD) : (dat4 V c).arrAt 2 cfg4.N = blend (V c main_v93) (V c main_arg0) :=
  (dat4 V c).arrAt_eq_of_cover 2 _ (fun t _ => flushed_eq V c t) cover

end Cert.BlendRegion4

end
-- ==== Proof.BlendRegion5.lean ====
/-
  Blend region 5: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion5

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k5_pay1 (F := Ideal) x0 x1 = blend x0 x1 := by
  funext j
  unfold k5_pay1
  simp only [shapeCast_self]
  rfl

/-- The three index maps agree at every point, and the output's block indices run over 0..4 × {0}. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) ≤ 4 ∧ win5_2.index t (1 : Fin 2) = 0 :=
  (by decide +kernel : ∀ t : Fin grid5.N, _)

/-- Every row block is some point's. -/
theorem idx_onto : ∀ (q0 : Fin 5), ∃ t : Fin cfg5.N, win5_2.index t = ![q0.val, 0] :=
  (by decide +kernel : ∀ (q0 : Fin 5), ∃ t : Fin grid5.N, win5_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg5.N) :
    (dat5 V c).flushed 2 t = ((cfg5.win 2).blk t).view.read (Elt Ideal) (blend (V c main_v107) (V c main_arg0)) := by
  show (cfg5.win 2).cut (grid5.coords t) ((dat5 V c).after 2 t) = _
  rw [after5_2]
  unfold out5_2
  rw [View.canon_unit_zero hz]
  simp only [View.ld_unit_zero (S := S10000x64) hz]
  rw [pay_eq]
  obtain ⟨e0, e1, e2, e3, e4, e5⟩ := idx_facts t
  funext j
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 10000 + 1 * (j 0).val = win5_2.index t (0 : Fin 2) * 10000 + 1 * (j 0).val; omega
    | ⟨1, _⟩ => show win5_1.index t (1 : Fin 2) * 64 + 1 * (j 1).val = win5_2.index t (1 : Fin 2) * 64 + 1 * (j 1).val; omega
  show blend (fun y => V c main_v107 (((cfg5.win 0).blk t).view.emb y)) (fun y => V c main_arg0 (((cfg5.win 1).blk t).view.emb y)) j
      = blend (V c main_v107) (V c main_arg0) (((cfg5.win 2).blk t).view.emb j)
  exact blend_comp _ _ _ _ _ j h0 h1

/-- An index of the array is in point `t`'s block iff each coordinate is in the block's range on its axis. -/
theorem mem_blk (t : Fin cfg5.N) (i : S50000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v108).slice (win5_2.rect t)).set ↔ _
  rw [View.set_slice_whole, Rect.mem_set_unit]
  exact Iff.rfl

/-- Row `r` lies in the block of the point whose row block is `r / 10000`. -/
theorem cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  obtain ⟨t, ht⟩ := idx_onto ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- The output array when the region ends: the blend of the two input arrays as the region found them. -/
theorem final (c : Dev nD) : (dat5 V c).arrAt 2 cfg5.N = blend (V c main_v107) (V c main_arg0) :=
  (dat5 V c).arrAt_eq_of_cover 2 _ (fun t _ => flushed_eq V c t) cover

end Cert.BlendRegion5

end
-- ==== Proof.BlendRegion6.lean ====
/-
  Blend region 6: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion6

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k6_pay1 (F := Ideal) x0 x1 = blend x0 x1 := by
  funext j
  unfold k6_pay1
  simp only [shapeCast_self]
  rfl

/-- The three index maps agree at every point, and the output's block indices run over 0..4 × {0}. -/
theorem idx_facts : ∀ t : Fin cfg6.N, win6_0.index t (0 : Fin 2) = win6_2.index t (0 : Fin 2)
    ∧ win6_0.index t (1 : Fin 2) = win6_2.index t (1 : Fin 2)
    ∧ win6_1.index t (0 : Fin 2) = win6_2.index t (0 : Fin 2)
    ∧ win6_1.index t (1 : Fin 2) = win6_2.index t (1 : Fin 2)
    ∧ win6_2.index t (0 : Fin 2) ≤ 4 ∧ win6_2.index t (1 : Fin 2) = 0 :=
  (by decide +kernel : ∀ t : Fin grid6.N, _)

/-- Every row block is some point's. -/
theorem idx_onto : ∀ (q0 : Fin 5), ∃ t : Fin cfg6.N, win6_2.index t = ![q0.val, 0] :=
  (by decide +kernel : ∀ (q0 : Fin 5), ∃ t : Fin grid6.N, win6_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg6.N) :
    (dat6 V c).flushed 2 t = ((cfg6.win 2).blk t).view.read (Elt Ideal) (blend (V c main_v121) (V c main_arg0)) := by
  show (cfg6.win 2).cut (grid6.coords t) ((dat6 V c).after 2 t) = _
  rw [after6_2]
  unfold out6_2
  rw [View.canon_unit_zero hz]
  simp only [View.ld_unit_zero (S := S10000x64) hz]
  rw [pay_eq]
  obtain ⟨e0, e1, e2, e3, e4, e5⟩ := idx_facts t
  funext j
  have h0 : ((cfg6.win 0).blk t).view.emb j = ((cfg6.win 2).blk t).view.emb j := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * (j 1).val = win6_2.index t (1 : Fin 2) * 64 + 1 * (j 1).val; omega
  have h1 : ((cfg6.win 1).blk t).view.emb j = ((cfg6.win 2).blk t).view.emb j := by
    funext a; apply Fin.ext
    match a with
    | ⟨0, _⟩ => show win6_1.index t (0 : Fin 2) * 10000 + 1 * (j 0).val = win6_2.index t (0 : Fin 2) * 10000 + 1 * (j 0).val; omega
    | ⟨1, _⟩ => show win6_1.index t (1 : Fin 2) * 64 + 1 * (j 1).val = win6_2.index t (1 : Fin 2) * 64 + 1 * (j 1).val; omega
  show blend (fun y => V c main_v121 (((cfg6.win 0).blk t).view.emb y)) (fun y => V c main_arg0 (((cfg6.win 1).blk t).view.emb y)) j
      = blend (V c main_v121) (V c main_arg0) (((cfg6.win 2).blk t).view.emb j)
  exact blend_comp _ _ _ _ _ j h0 h1

/-- An index of the array is in point `t`'s block iff each coordinate is in the block's range on its axis. -/
theorem mem_blk (t : Fin cfg6.N) (i : S50000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v122).slice (win6_2.rect t)).set ↔ _
  rw [View.set_slice_whole, Rect.mem_set_unit]
  exact Iff.rfl

/-- Row `r` lies in the block of the point whose row block is `r / 10000`. -/
theorem cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  obtain ⟨t, ht⟩ := idx_onto ⟨(i 0).val / 10000, by omega⟩
  have q0 : win6_2.index t (0 : Fin 2) = (i 0).val / 10000 := congrFun ht 0
  have q1 : win6_2.index t (1 : Fin 2) = 0 := congrFun ht 1
  refine ⟨t, flush6_2 t, ?_⟩
  rw [mem_blk]
  intro a
  match a with
  | ⟨0, _⟩ => show win6_2.index t (0 : Fin 2) * 10000 ≤ (i 0).val ∧ (i 0).val < win6_2.index t (0 : Fin 2) * 10000 + 10000; omega
  | ⟨1, _⟩ => show win6_2.index t (1 : Fin 2) * 64 ≤ (i 1).val ∧ (i 1).val < win6_2.index t (1 : Fin 2) * 64 + 64; omega

/-- The output array when the region ends: the blend of the two input arrays as the region found them. -/
theorem final (c : Dev nD) : (dat6 V c).arrAt 2 cfg6.N = blend (V c main_v121) (V c main_arg0) :=
  (dat6 V c).arrAt_eq_of_cover 2 _ (fun t _ => flushed_eq V c t) cover

end Cert.BlendRegion6

end
-- ==== Proof.BlendRegion7.lean ====
/-
  Blend region 7: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion7

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k7_pay1 (F := Ideal) x0 x1 = blend x0 x1 := by
  funext j
  unfold k7_pay1
  simp only [shapeCast_self]
  rfl

/-- The three index maps agree at every point, and the output's block indices run over 0..4 × {0}. -/
theorem idx_facts : ∀ t : Fin cfg7.N, win7_0.index t (0 : Fin 2) = win7_2.index t (0 : Fin 2)
    ∧ win7_0.index t (1 : Fin 2) = win7_2.index t (1 : Fin 2)
    ∧ win7_1.index t (0 : Fin 2) = win7_2.index t (0 : Fin 2)
    ∧ win7_1.index t (1 : Fin 2) = win7_2.index t (1 : Fin 2)
    ∧ win7_2.index t (0 : Fin 2) ≤ 4 ∧ win7_2.index t (1 : Fin 2) = 0 :=
  (by decide +kernel : ∀ t : Fin grid7.N, _)

/-- Every row block is some point's. -/
theorem idx_onto : ∀ (q0 : Fin 5), ∃ t : Fin cfg7.N, win7_2.index t = ![q0.val, 0] :=
  (by decide +kernel : ∀ (q0 : Fin 5), ∃ t : Fin grid7.N, win7_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg7.N) :
    (dat7 V c).flushed 2 t = ((cfg7.win 2).blk t).view.read (Elt Ideal) (blend (V c main_v135) (V c main_arg0)) := by
  show (cfg7.win 2).cut (grid7.coords t) ((dat7 V c).after 2 t) = _
  rw [after7_2]
  unfold out7_2
  rw [View.canon_unit_zero hz]
  simp only [View.ld_unit_zero (S := S10000x64) hz]
  rw [pay_eq]
  obtain ⟨e0, e1, e2, e3, e4, e5⟩ := idx_facts t
  funext j
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * (j 1).val = win7_2.index t (1 : Fin 2) * 64 + 1 * (j 1).val; omega
  have h1 : ((cfg7.win 1).blk t).view.emb j = ((cfg7.win 2).blk t).view.emb j := by
    funext a; apply Fin.ext
    match a with
    | ⟨0, _⟩ => show win7_1.index t (0 : Fin 2) * 10000 + 1 * (j 0).val = win7_2.index t (0 : Fin 2) * 10000 + 1 * (j 0).val; omega
    | ⟨1, _⟩ => show win7_1.index t (1 : Fin 2) * 64 + 1 * (j 1).val = win7_2.index t (1 : Fin 2) * 64 + 1 * (j 1).val; omega
  show blend (fun y => V c main_v135 (((cfg7.win 0).blk t).view.emb y)) (fun y => V c main_arg0 (((cfg7.win 1).blk t).view.emb y)) j
      = blend (V c main_v135) (V c main_arg0) (((cfg7.win 2).blk t).view.emb j)
  exact blend_comp _ _ _ _ _ j h0 h1

/-- An index of the array is in point `t`'s block iff each coordinate is in the block's range on its axis. -/
theorem mem_blk (t : Fin cfg7.N) (i : S50000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v136).slice (win7_2.rect t)).set ↔ _
  rw [View.set_slice_whole, Rect.mem_set_unit]
  exact Iff.rfl

/-- Row `r` lies in the block of the point whose row block is `r / 10000`. -/
theorem cover (i : S50000x64.Idx) :
    ∃ t : Fin cfg7.N, (cfg7.win 2).flush t = true ∧ i ∈ ((cfg7.win 2).blk t).view.set := by
  have hi0 : (i 0).val < 50000 := (i 0).isLt
  have hi1 : (i 1).val < 64 := (i 1).isLt
  obtain ⟨t, ht⟩ := idx_onto ⟨(i 0).val / 10000, by omega⟩
  have q0 : win7_2.index t (0 : Fin 2) = (i 0).val / 10000 := congrFun ht 0
  have q1 : win7_2.index t (1 : Fin 2) = 0 := congrFun ht 1
  refine ⟨t, flush7_2 t, ?_⟩
  rw [mem_blk]
  intro a
  match a with
  | ⟨0, _⟩ => show win7_2.index t (0 : Fin 2) * 10000 ≤ (i 0).val ∧ (i 0).val < win7_2.index t (0 : Fin 2) * 10000 + 10000; omega
  | ⟨1, _⟩ => show win7_2.index t (1 : Fin 2) * 64 ≤ (i 1).val ∧ (i 1).val < win7_2.index t (1 : Fin 2) * 64 + 64; omega

/-- The output array when the region ends: the blend of the two input arrays as the region found them. -/
theorem final (c : Dev nD) : (dat7 V c).arrAt 2 cfg7.N = blend (V c main_v135) (V c main_arg0) :=
  (dat7 V c).arrAt_eq_of_cover 2 _ (fun t _ => flushed_eq V c t) cover

end Cert.BlendRegion7

end
-- ==== Proof.BlendRegion8.lean ====
/-
  Blend region 8: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion8

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k8_pay1 (F := Ideal) x0 x1 = blend x0 x1 := by
  funext j
  unfold k8_pay1
  simp only [shapeCast_self]
  rfl

/-- The three index maps agree at every point, and the output's block indices run over 0..4 × {0}. -/
theorem idx_facts : ∀ t : Fin cfg8.N, win8_0.index t (0 : Fin 2) = win8_2.index t (0 : Fin 2)
    ∧ win8_0.index t (1 : Fin 2) = win8_2.index t (1 : Fin 2)
    ∧ win8_1.index t (0 : Fin 2) = win8_2.index t (0 : Fin 2)
    ∧ win8_1.index t (1 : Fin 2) = win8_2.index t (1 : Fin 2)
    ∧ win8_2.index t (0 : Fin 2) ≤ 4 ∧ win8_2.index t (1 : Fin 2) = 0 :=
  (by decide +kernel : ∀ t : Fin grid8.N, _)

/-- Every row block is some point's. -/
theorem idx_onto : ∀ (q0 : Fin 5), ∃ t : Fin cfg8.N, win8_2.index t = ![q0.val, 0] :=
  (by decide +kernel : ∀ (q0 : Fin 5), ∃ t : Fin grid8.N, win8_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg8.N) :
    (dat8 V c).flushed 2 t = ((cfg8.win 2).blk t).view.read (Elt Ideal) (blend (V c main_v149) (V c main_arg0)) := by
  show (cfg8.win 2).cut (grid8.coords t) ((dat8 V c).after 2 t) = _
  rw [after8_2]
  unfold out8_2
  rw [View.canon_unit_zero hz]
  simp only [View.ld_unit_zero (S := S10000x64) hz]
  rw [pay_eq]
  obtain ⟨e0, e1, e2, e3, e4, e5⟩ := idx_facts t
  funext j
  have h0 : ((cfg8.win 0).blk t).view.emb j = ((cfg8.win 2).blk t).view.emb j := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * (j 1).val = win8_2.index t (1 : Fin 2) * 64 + 1 * (j 1).val; omega
  have h1 : ((cfg8.win 1).blk t).view.emb j = ((cfg8.win 2).blk t).view.emb j := by
    funext a; apply Fin.ext
    match a with
    | ⟨0, _⟩ => show win8_1.index t (0 : Fin 2) * 10000 + 1 * (j 0).val = win8_2.index t (0 : Fin 2) * 10000 + 1 * (j 0).val; omega
    | ⟨1, _⟩ => show win8_1.index t (1 : Fin 2) * 64 + 1 * (j 1).val = win8_2.index t (1 : Fin 2) * 64 + 1 * (j 1).val; omega
  show blend (fun y => V c main_v149 (((cfg8.win 0).blk t).view.emb y)) (fun y => V c main_arg0 (((cfg8.win 1).blk t).view.emb y)) j
      = blend (V c main_v149) (V c main_arg0) (((cfg8.win 2).blk t).view.emb j)
  exact blend_comp _ _ _ _ _ j h0 h1

/-- An index of the array is in point `t`'s block iff each coordinate is in the block's range on its axis. -/
theorem mem_blk (t : Fin cfg8.N) (i : S50000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v150).slice (win8_2.rect t)).set ↔ _
  rw [View.set_slice_whole, Rect.mem_set_unit]
  exact Iff.rfl

/-- Row `r` lies in the block of the point whose row block is `r / 10000`. -/
theorem cover (i : S50000x64.Idx) :
    ∃ t : Fin cfg8.N, (cfg8.win 2).flush t = true ∧ i ∈ ((cfg8.win 2).blk t).view.set := by
  have hi0 : (i 0).val < 50000 := (i 0).isLt
  have hi1 : (i 1).val < 64 := (i 1).isLt
  obtain ⟨t, ht⟩ := idx_onto ⟨(i 0).val / 10000, by omega⟩
  have q0 : win8_2.index t (0 : Fin 2) = (i 0).val / 10000 := congrFun ht 0
  have q1 : win8_2.index t (1 : Fin 2) = 0 := congrFun ht 1
  refine ⟨t, flush8_2 t, ?_⟩
  rw [mem_blk]
  intro a
  match a with
  | ⟨0, _⟩ => show win8_2.index t (0 : Fin 2) * 10000 ≤ (i 0).val ∧ (i 0).val < win8_2.index t (0 : Fin 2) * 10000 + 10000; omega
  | ⟨1, _⟩ => show win8_2.index t (1 : Fin 2) * 64 ≤ (i 1).val ∧ (i 1).val < win8_2.index t (1 : Fin 2) * 64 + 64; omega

/-- The output array when the region ends: the blend of the two input arrays as the region found them. -/
theorem final (c : Dev nD) : (dat8 V c).arrAt 2 cfg8.N = blend (V c main_v149) (V c main_arg0) :=
  (dat8 V c).arrAt_eq_of_cover 2 _ (fun t _ => flushed_eq V c t) cover

end Cert.BlendRegion8

end
-- ==== Proof.BlendRegion9.lean ====
/-
  Blend region 9: what the region's output array holds when the region ends.

  The grid has five points; point `t` works on rows 10000·t … 10000·t + 9999 of all three [50000, 64] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion9

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x64 .f32) : k9_pay1 (F := Ideal) x0 x1 = blend x0 x1 := by
  funext j
  unfold k9_pay1
  simp only [shapeCast_self]
  rfl

/-- The three index maps agree at every point, and the output's block indices run over 0..4 × {0}. -/
theorem idx_facts : ∀ t : Fin cfg9.N, win9_0.index t (0 : Fin 2) = win9_2.index t (0 : Fin 2)
    ∧ win9_0.index t (1 : Fin 2) = win9_2.index t (1 : Fin 2)
    ∧ win9_1.index t (0 : Fin 2) = win9_2.index t (0 : Fin 2)
    ∧ win9_1.index t (1 : Fin 2) = win9_2.index t (1 : Fin 2)
    ∧ win9_2.index t (0 : Fin 2) ≤ 4 ∧ win9_2.index t (1 : Fin 2) = 0 :=
  (by decide +kernel : ∀ t : Fin grid9.N, _)

/-- Every row block is some point's. -/
theorem idx_onto : ∀ (q0 : Fin 5), ∃ t : Fin cfg9.N, win9_2.index t = ![q0.val, 0] :=
  (by decide +kernel : ∀ (q0 : Fin 5), ∃ t : Fin grid9.N, win9_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg9.N) :
    (dat9 V c).flushed 2 t = ((cfg9.win 2).blk t).view.read (Elt Ideal) (blend (V c main_v163) (V c main_arg0)) := by
  show (cfg9.win 2).cut (grid9.coords t) ((dat9 V c).after 2 t) = _
  rw [after9_2]
  unfold out9_2
  rw [View.canon_unit_zero hz]
  simp only [View.ld_unit_zero (S := S10000x64) hz]
  rw [pay_eq]
  obtain ⟨e0, e1, e2, e3, e4, e5⟩ := idx_facts t
  funext j
  have h0 : ((cfg9.win 0).blk t).view.emb j = ((cfg9.win 2).blk t).view.emb j := by
    funext a; apply Fin.ext
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 64 + 1 * (j 1).val = win9_2.index t (1 : Fin 2) * 64 + 1 * (j 1).val; omega
  have h1 : ((cfg9.win 1).blk t).view.emb j = ((cfg9.win 2).blk t).view.emb j := by
    funext a; apply Fin.ext
    match a with
    | ⟨0, _⟩ => show win9_1.index t (0 : Fin 2) * 10000 + 1 * (j 0).val = win9_2.index t (0 : Fin 2) * 10000 + 1 * (j 0).val; omega
    | ⟨1, _⟩ => show win9_1.index t (1 : Fin 2) * 64 + 1 * (j 1).val = win9_2.index t (1 : Fin 2) * 64 + 1 * (j 1).val; omega
  show blend (fun y => V c main_v163 (((cfg9.win 0).blk t).view.emb y)) (fun y => V c main_arg0 (((cfg9.win 1).blk t).view.emb y)) j
      = blend (V c main_v163) (V c main_arg0) (((cfg9.win 2).blk t).view.emb j)
  exact blend_comp _ _ _ _ _ j h0 h1

/-- An index of the array is in point `t`'s block iff each coordinate is in the block's range on its axis. -/
theorem mem_blk (t : Fin cfg9.N) (i : S50000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v164).slice (win9_2.rect t)).set ↔ _
  rw [View.set_slice_whole, Rect.mem_set_unit]
  exact Iff.rfl

/-- Row `r` lies in the block of the point whose row block is `r / 10000`. -/
theorem cover (i : S50000x64.Idx) :
    ∃ t : Fin cfg9.N, (cfg9.win 2).flush t = true ∧ i ∈ ((cfg9.win 2).blk t).view.set := by
  have hi0 : (i 0).val < 50000 := (i 0).isLt
  have hi1 : (i 1).val < 64 := (i 1).isLt
  obtain ⟨t, ht⟩ := idx_onto ⟨(i 0).val / 10000, by omega⟩
  have q0 : win9_2.index t (0 : Fin 2) = (i 0).val / 10000 := congrFun ht 0
  have q1 : win9_2.index t (1 : Fin 2) = 0 := congrFun ht 1
  refine ⟨t, flush9_2 t, ?_⟩
  rw [mem_blk]
  intro a
  match a with
  | ⟨0, _⟩ => show win9_2.index t (0 : Fin 2) * 10000 ≤ (i 0).val ∧ (i 0).val < win9_2.index t (0 : Fin 2) * 10000 + 10000; omega
  | ⟨1, _⟩ => show win9_2.index t (1 : Fin 2) * 64 ≤ (i 1).val ∧ (i 1).val < win9_2.index t (1 : Fin 2) * 64 + 64; omega

/-- The output array when the region ends: the blend of the two input arrays as the region found them. -/
theorem final (c : Dev nD) : (dat9 V c).arrAt 2 cfg9.N = blend (V c main_v163) (V c main_arg0) :=
  (dat9 V c).arrAt_eq_of_cover 2 _ (fun t _ => flushed_eq V c t) cover

end Cert.BlendRegion9

end
-- ==== Proof.ChainA.lean ====
/-
  The first diffusion loop of the idealized kernel program, boundary by boundary.

  After the opening host operations the first region's input holds the propagation of the input features; each region
  then leaves one more diffusion step in its output array, and each stretch of host operations in between propagates
  that array again.  Every boundary keeps the argument arrays and the edge weights.  After the tenth region the output
  array holds ten steps from the input features.
-/
import proofs.«135505_j17961553232124_1_alg».proof.Proof.ChainDefs
import proofs.«135505_j17961553232124_1_alg».proof.Proof.HostStep0
import proofs.«135505_j17961553232124_1_alg».proof.Proof.HostStep1
import proofs.«135505_j17961553232124_1_alg».proof.Proof.HostStep2
import proofs.«135505_j17961553232124_1_alg».proof.Proof.HostStep3
import proofs.«135505_j17961553232124_1_alg».proof.Proof.HostStep4
import proofs.«135505_j17961553232124_1_alg».proof.Proof.HostStep5
import proofs.«135505_j17961553232124_1_alg».proof.Proof.HostStep6
import proofs.«135505_j17961553232124_1_alg».proof.Proof.HostStep7
import proofs.«135505_j17961553232124_1_alg».proof.Proof.HostStep8
import proofs.«135505_j17961553232124_1_alg».proof.Proof.HostStep9
import proofs.«135505_j17961553232124_1_alg».proof.Proof.BlendRegion0
import proofs.«135505_j17961553232124_1_alg».proof.Proof.BlendRegion1
import proofs.«135505_j17961553232124_1_alg».proof.Proof.BlendRegion2
import proofs.«135505_j17961553232124_1_alg».proof.Proof.BlendRegion3
import proofs.«135505_j17961553232124_1_alg».proof.Proof.BlendRegion4
import proofs.«135505_j17961553232124_1_alg».proof.Proof.BlendRegion5
import proofs.«135505_j17961553232124_1_alg».proof.Proof.BlendRegion6
import proofs.«135505_j17961553232124_1_alg».proof.Proof.BlendRegion7
import proofs.«135505_j17961553232124_1_alg».proof.Proof.BlendRegion8
import proofs.«135505_j17961553232124_1_alg».proof.Proof.BlendRegion9

noncomputable section

namespace Cert.ChainA

open Idealize.ShloMosaic Idealize.ShloMosaic.TcCoe Idealize.SL.Sem Idealize.ShloMosaic.StableHlo
open Cert.KernelIdeal Cert.KernelIdeal.Gen Cert.ConvK Cert.BlendSpec
open Cert.ChainDefs

variable (m : (ℓ : Loc nD τ sig) → Buf (Elt Ideal) ℓ) (ρ : Dev nD → PrngReg) (c : Dev nD)

theorem keep3 : Keep m c (W3 m ρ c) :=
  ⟨(HostStep0.keep (W0 m ρ c) main_arg0 (by decide) (by decide) (by decide)).trans rfl,
   (HostStep0.keep (W0 m ρ c) main_arg1 (by decide) (by decide) (by decide)).trans rfl,
   (HostStep0.keep (W0 m ρ c) main_arg2 (by decide) (by decide) (by decide)).trans rfl,
   (HostStep0.keep (W0 m ρ c) main_arg3 (by decide) (by decide) (by decide)).trans rfl,
   (HostStep0.keep (W0 m ρ c) main_arg4 (by decide) (by decide) (by decide)).trans rfl,
   (HostStep0.keep (W0 m ρ c) main_arg5 (by decide) (by decide) (by decide)).trans rfl,
   (HostStep0.keep (W0 m ρ c) main_arg6 (by decide) (by decide) (by decide)).trans rfl,
   (HostStep0.keep (W0 m ρ c) main_arg7 (by decide) (by decide) (by decide)).trans rfl,
   (HostStep0.keep (W0 m ρ c) main_arg8 (by decide) (by decide) (by decide)).trans rfl,
   (HostStep0.keep (W0 m ρ c) main_arg9 (by decide) (by decide) (by decide)).trans rfl,
   (HostStep0.keep (W0 m ρ c) main_arg10 (by decide) (by decide) (by decide)).trans rfl,
   (HostStep0.keep (W0 m ρ c) main_arg11 (by decide) (by decide) (by decide)).trans rfl,
   (HostStep0.weights (W0 m ρ c)).trans rfl⟩

theorem val3 : W3 m ρ c (Proc.devRef .tc main_v37) = conv64 (SRC m c) (DST m c) (NRM m c) (iter (step64 m c) (X m c) 0) :=
  (HostStep0.value (W0 m ρ c)).trans rfl

theorem keep4 : Keep m c (W4 m ρ c) :=
  ⟨((W4_arr m ρ c 1).trans (((dat0 (V3 m ρ) c).arrAt_in 1 rfl _).trans (A_eq0 (V3 m ρ) c 1))).trans (keep3 m ρ c).a0,
   (W4_of_ne m ρ c main_arg1 (by decide)).trans (keep3 m ρ c).a1,
   (W4_of_ne m ρ c main_arg2 (by decide)).trans (keep3 m ρ c).a2,
   (W4_of_ne m ρ c main_arg3 (by decide)).trans (keep3 m ρ c).a3,
   (W4_of_ne m ρ c main_arg4 (by decide)).trans (keep3 m ρ c).a4,
   (W4_of_ne m ρ c main_arg5 (by decide)).trans (keep3 m ρ c).a5,
   (W4_of_ne m ρ c main_arg6 (by decide)).trans (keep3 m ρ c).a6,
   (W4_of_ne m ρ c main_arg7 (by decide)).trans (keep3 m ρ c).a7,
   (W4_of_ne m ρ c main_arg8 (by decide)).trans (keep3 m ρ c).a8,
   (W4_of_ne m ρ c main_arg9 (by decide)).trans (keep3 m ρ c).a9,
   (W4_of_ne m ρ c main_arg10 (by decide)).trans (keep3 m ρ c).a10,
   (W4_of_ne m ρ c main_arg11 (by decide)).trans (keep3 m ρ c).a11,
   (W4_of_ne m ρ c main_v24 (by decide)).trans (keep3 m ρ c).nrm⟩

theorem val4 : W4 m ρ c (Proc.devRef .tc main_v38) = iter (step64 m c) (X m c) 1 :=
  ((W4_arr m ρ c 2).trans (BlendRegion0.final (V3 m ρ) c)).trans
    (congrArg₂ blend (val3 m ρ c) (keep3 m ρ c).a0)

theorem keep5 : Keep m c (W5 m ρ c) :=
  ⟨(HostStep1.keep (W4 m ρ c) main_arg0 (by decide)).trans (keep4 m ρ c).a0,
   (HostStep1.keep (W4 m ρ c) main_arg1 (by decide)).trans (keep4 m ρ c).a1,
   (HostStep1.keep (W4 m ρ c) main_arg2 (by decide)).trans (keep4 m ρ c).a2,
   (HostStep1.keep (W4 m ρ c) main_arg3 (by decide)).trans (keep4 m ρ c).a3,
   (HostStep1.keep (W4 m ρ c) main_arg4 (by decide)).trans (keep4 m ρ c).a4,
   (HostStep1.keep (W4 m ρ c) main_arg5 (by decide)).trans (keep4 m ρ c).a5,
   (HostStep1.keep (W4 m ρ c) main_arg6 (by decide)).trans (keep4 m ρ c).a6,
   (HostStep1.keep (W4 m ρ c) main_arg7 (by decide)).trans (keep4 m ρ c).a7,
   (HostStep1.keep (W4 m ρ c) main_arg8 (by decide)).trans (keep4 m ρ c).a8,
   (HostStep1.keep (W4 m ρ c) main_arg9 (by decide)).trans (keep4 m ρ c).a9,
   (HostStep1.keep (W4 m ρ c) main_arg10 (by decide)).trans (keep4 m ρ c).a10,
   (HostStep1.keep (W4 m ρ c) main_arg11 (by decide)).trans (keep4 m ρ c).a11,
   (HostStep1.keep (W4 m ρ c) main_v24 (by decide)).trans (keep4 m ρ c).nrm⟩

theorem val5 : W5 m ρ c (Proc.devRef .tc main_v51) = conv64 (SRC m c) (DST m c) (NRM m c) (iter (step64 m c) (X m c) 1) := by
  have h := HostStep1.value (W4 m ρ c)
  rw [(keep4 m ρ c).a1, (keep4 m ρ c).a2, (keep4 m ρ c).nrm, val4 m ρ c] at h
  exact h

theorem keep6 : Keep m c (W6 m ρ c) :=
  ⟨((W6_arr m ρ c 1).trans (((dat1 (V5 m ρ) c).arrAt_in 1 rfl _).trans (A_eq1 (V5 m ρ) c 1))).trans (keep5 m ρ c).a0,
   (W6_of_ne m ρ c main_arg1 (by decide)).trans (keep5 m ρ c).a1,
   (W6_of_ne m ρ c main_arg2 (by decide)).trans (keep5 m ρ c).a2,
   (W6_of_ne m ρ c main_arg3 (by decide)).trans (keep5 m ρ c).a3,
   (W6_of_ne m ρ c main_arg4 (by decide)).trans (keep5 m ρ c).a4,
   (W6_of_ne m ρ c main_arg5 (by decide)).trans (keep5 m ρ c).a5,
   (W6_of_ne m ρ c main_arg6 (by decide)).trans (keep5 m ρ c).a6,
   (W6_of_ne m ρ c main_arg7 (by decide)).trans (keep5 m ρ c).a7,
   (W6_of_ne m ρ c main_arg8 (by decide)).trans (keep5 m ρ c).a8,
   (W6_of_ne m ρ c main_arg9 (by decide)).trans (keep5 m ρ c).a9,
   (W6_of_ne m ρ c main_arg10 (by decide)).trans (keep5 m ρ c).a10,
   (W6_of_ne m ρ c main_arg11 (by decide)).trans (keep5 m ρ c).a11,
   (W6_of_ne m ρ c main_v24 (by decide)).trans (keep5 m ρ c).nrm⟩

theorem val6 : W6 m ρ c (Proc.devRef .tc main_v52) = iter (step64 m c) (X m c) 2 :=
  ((W6_arr m ρ c 2).trans (BlendRegion1.final (V5 m ρ) c)).trans
    (congrArg₂ blend (val5 m ρ c) (keep5 m ρ c).a0)

theorem keep7 : Keep m c (W7 m ρ c) :=
  ⟨(HostStep2.keep (W6 m ρ c) main_arg0 (by decide)).trans (keep6 m ρ c).a0,
   (HostStep2.keep (W6 m ρ c) main_arg1 (by decide)).trans (keep6 m ρ c).a1,
   (HostStep2.keep (W6 m ρ c) main_arg2 (by decide)).trans (keep6 m ρ c).a2,
   (HostStep2.keep (W6 m ρ c) main_arg3 (by decide)).trans (keep6 m ρ c).a3,
   (HostStep2.keep (W6 m ρ c) main_arg4 (by decide)).trans (keep6 m ρ c).a4,
   (HostStep2.keep (W6 m ρ c) main_arg5 (by decide)).trans (keep6 m ρ c).a5,
   (HostStep2.keep (W6 m ρ c) main_arg6 (by decide)).trans (keep6 m ρ c).a6,
   (HostStep2.keep (W6 m ρ c) main_arg7 (by decide)).trans (keep6 m ρ c).a7,
   (HostStep2.keep (W6 m ρ c) main_arg8 (by decide)).trans (keep6 m ρ c).a8,
   (HostStep2.keep (W6 m ρ c) main_arg9 (by decide)).trans (keep6 m ρ c).a9,
   (HostStep2.keep (W6 m ρ c) main_arg10 (by decide)).trans (keep6 m ρ c).a10,
   (HostStep2.keep (W6 m ρ c) main_arg11 (by decide)).trans (keep6 m ρ c).a11,
   (HostStep2.keep (W6 m ρ c) main_v24 (by decide)).trans (keep6 m ρ c).nrm⟩

theorem val7 : W7 m ρ c (Proc.devRef .tc main_v65) = conv64 (SRC m c) (DST m c) (NRM m c) (iter (step64 m c) (X m c) 2) := by
  have h := HostStep2.value (W6 m ρ c)
  rw [(keep6 m ρ c).a1, (keep6 m ρ c).a2, (keep6 m ρ c).nrm, val6 m ρ c] at h
  exact h

theorem keep8 : Keep m c (W8 m ρ c) :=
  ⟨((W8_arr m ρ c 1).trans (((dat2 (V7 m ρ) c).arrAt_in 1 rfl _).trans (A_eq2 (V7 m ρ) c 1))).trans (keep7 m ρ c).a0,
   (W8_of_ne m ρ c main_arg1 (by decide)).trans (keep7 m ρ c).a1,
   (W8_of_ne m ρ c main_arg2 (by decide)).trans (keep7 m ρ c).a2,
   (W8_of_ne m ρ c main_arg3 (by decide)).trans (keep7 m ρ c).a3,
   (W8_of_ne m ρ c main_arg4 (by decide)).trans (keep7 m ρ c).a4,
   (W8_of_ne m ρ c main_arg5 (by decide)).trans (keep7 m ρ c).a5,
   (W8_of_ne m ρ c main_arg6 (by decide)).trans (keep7 m ρ c).a6,
   (W8_of_ne m ρ c main_arg7 (by decide)).trans (keep7 m ρ c).a7,
   (W8_of_ne m ρ c main_arg8 (by decide)).trans (keep7 m ρ c).a8,
   (W8_of_ne m ρ c main_arg9 (by decide)).trans (keep7 m ρ c).a9,
   (W8_of_ne m ρ c main_arg10 (by decide)).trans (keep7 m ρ c).a10,
   (W8_of_ne m ρ c main_arg11 (by decide)).trans (keep7 m ρ c).a11,
   (W8_of_ne m ρ c main_v24 (by decide)).trans (keep7 m ρ c).nrm⟩

theorem val8 : W8 m ρ c (Proc.devRef .tc main_v66) = iter (step64 m c) (X m c) 3 :=
  ((W8_arr m ρ c 2).trans (BlendRegion2.final (V7 m ρ) c)).trans
    (congrArg₂ blend (val7 m ρ c) (keep7 m ρ c).a0)

theorem keep9 : Keep m c (W9 m ρ c) :=
  ⟨(HostStep3.keep (W8 m ρ c) main_arg0 (by decide)).trans (keep8 m ρ c).a0,
   (HostStep3.keep (W8 m ρ c) main_arg1 (by decide)).trans (keep8 m ρ c).a1,
   (HostStep3.keep (W8 m ρ c) main_arg2 (by decide)).trans (keep8 m ρ c).a2,
   (HostStep3.keep (W8 m ρ c) main_arg3 (by decide)).trans (keep8 m ρ c).a3,
   (HostStep3.keep (W8 m ρ c) main_arg4 (by decide)).trans (keep8 m ρ c).a4,
   (HostStep3.keep (W8 m ρ c) main_arg5 (by decide)).trans (keep8 m ρ c).a5,
   (HostStep3.keep (W8 m ρ c) main_arg6 (by decide)).trans (keep8 m ρ c).a6,
   (HostStep3.keep (W8 m ρ c) main_arg7 (by decide)).trans (keep8 m ρ c).a7,
   (HostStep3.keep (W8 m ρ c) main_arg8 (by decide)).trans (keep8 m ρ c).a8,
   (HostStep3.keep (W8 m ρ c) main_arg9 (by decide)).trans (keep8 m ρ c).a9,
   (HostStep3.keep (W8 m ρ c) main_arg10 (by decide)).trans (keep8 m ρ c).a10,
   (HostStep3.keep (W8 m ρ c) main_arg11 (by decide)).trans (keep8 m ρ c).a11,
   (HostStep3.keep (W8 m ρ c) main_v24 (by decide)).trans (keep8 m ρ c).nrm⟩

theorem val9 : W9 m ρ c (Proc.devRef .tc main_v79) = conv64 (SRC m c) (DST m c) (NRM m c) (iter (step64 m c) (X m c) 3) := by
  have h := HostStep3.value (W8 m ρ c)
  rw [(keep8 m ρ c).a1, (keep8 m ρ c).a2, (keep8 m ρ c).nrm, val8 m ρ c] at h
  exact h

theorem keep10 : Keep m c (W10 m ρ c) :=
  ⟨((W10_arr m ρ c 1).trans (((dat3 (V9 m ρ) c).arrAt_in 1 rfl _).trans (A_eq3 (V9 m ρ) c 1))).trans (keep9 m ρ c).a0,
   (W10_of_ne m ρ c main_arg1 (by decide)).trans (keep9 m ρ c).a1,
   (W10_of_ne m ρ c main_arg2 (by decide)).trans (keep9 m ρ c).a2,
   (W10_of_ne m ρ c main_arg3 (by decide)).trans (keep9 m ρ c).a3,
   (W10_of_ne m ρ c main_arg4 (by decide)).trans (keep9 m ρ c).a4,
   (W10_of_ne m ρ c main_arg5 (by decide)).trans (keep9 m ρ c).a5,
   (W10_of_ne m ρ c main_arg6 (by decide)).trans (keep9 m ρ c).a6,
   (W10_of_ne m ρ c main_arg7 (by decide)).trans (keep9 m ρ c).a7,
   (W10_of_ne m ρ c main_arg8 (by decide)).trans (keep9 m ρ c).a8,
   (W10_of_ne m ρ c main_arg9 (by decide)).trans (keep9 m ρ c).a9,
   (W10_of_ne m ρ c main_arg10 (by decide)).trans (keep9 m ρ c).a10,
   (W10_of_ne m ρ c main_arg11 (by decide)).trans (keep9 m ρ c).a11,
   (W10_of_ne m ρ c main_v24 (by decide)).trans (keep9 m ρ c).nrm⟩

theorem val10 : W10 m ρ c (Proc.devRef .tc main_v80) = iter (step64 m c) (X m c) 4 :=
  ((W10_arr m ρ c 2).trans (BlendRegion3.final (V9 m ρ) c)).trans
    (congrArg₂ blend (val9 m ρ c) (keep9 m ρ c).a0)

theorem keep11 : Keep m c (W11 m ρ c) :=
  ⟨(HostStep4.keep (W10 m ρ c) main_arg0 (by decide)).trans (keep10 m ρ c).a0,
   (HostStep4.keep (W10 m ρ c) main_arg1 (by decide)).trans (keep10 m ρ c).a1,
   (HostStep4.keep (W10 m ρ c) main_arg2 (by decide)).trans (keep10 m ρ c).a2,
   (HostStep4.keep (W10 m ρ c) main_arg3 (by decide)).trans (keep10 m ρ c).a3,
   (HostStep4.keep (W10 m ρ c) main_arg4 (by decide)).trans (keep10 m ρ c).a4,
   (HostStep4.keep (W10 m ρ c) main_arg5 (by decide)).trans (keep10 m ρ c).a5,
   (HostStep4.keep (W10 m ρ c) main_arg6 (by decide)).trans (keep10 m ρ c).a6,
   (HostStep4.keep (W10 m ρ c) main_arg7 (by decide)).trans (keep10 m ρ c).a7,
   (HostStep4.keep (W10 m ρ c) main_arg8 (by decide)).trans (keep10 m ρ c).a8,
   (HostStep4.keep (W10 m ρ c) main_arg9 (by decide)).trans (keep10 m ρ c).a9,
   (HostStep4.keep (W10 m ρ c) main_arg10 (by decide)).trans (keep10 m ρ c).a10,
   (HostStep4.keep (W10 m ρ c) main_arg11 (by decide)).trans (keep10 m ρ c).a11,
   (HostStep4.keep (W10 m ρ c) main_v24 (by decide)).trans (keep10 m ρ c).nrm⟩

theorem val11 : W11 m ρ c (Proc.devRef .tc main_v93) = conv64 (SRC m c) (DST m c) (NRM m c) (iter (step64 m c) (X m c) 4) := by
  have h := HostStep4.value (W10 m ρ c)
  rw [(keep10 m ρ c).a1, (keep10 m ρ c).a2, (keep10 m ρ c).nrm, val10 m ρ c] at h
  exact h

theorem keep12 : Keep m c (W12 m ρ c) :=
  ⟨((W12_arr m ρ c 1).trans (((dat4 (V11 m ρ) c).arrAt_in 1 rfl _).trans (A_eq4 (V11 m ρ) c 1))).trans (keep11 m ρ c).a0,
   (W12_of_ne m ρ c main_arg1 (by decide)).trans (keep11 m ρ c).a1,
   (W12_of_ne m ρ c main_arg2 (by decide)).trans (keep11 m ρ c).a2,
   (W12_of_ne m ρ c main_arg3 (by decide)).trans (keep11 m ρ c).a3,
   (W12_of_ne m ρ c main_arg4 (by decide)).trans (keep11 m ρ c).a4,
   (W12_of_ne m ρ c main_arg5 (by decide)).trans (keep11 m ρ c).a5,
   (W12_of_ne m ρ c main_arg6 (by decide)).trans (keep11 m ρ c).a6,
   (W12_of_ne m ρ c main_arg7 (by decide)).trans (keep11 m ρ c).a7,
   (W12_of_ne m ρ c main_arg8 (by decide)).trans (keep11 m ρ c).a8,
   (W12_of_ne m ρ c main_arg9 (by decide)).trans (keep11 m ρ c).a9,
   (W12_of_ne m ρ c main_arg10 (by decide)).trans (keep11 m ρ c).a10,
   (W12_of_ne m ρ c main_arg11 (by decide)).trans (keep11 m ρ c).a11,
   (W12_of_ne m ρ c main_v24 (by decide)).trans (keep11 m ρ c).nrm⟩

theorem val12 : W12 m ρ c (Proc.devRef .tc main_v94) = iter (step64 m c) (X m c) 5 :=
  ((W12_arr m ρ c 2).trans (BlendRegion4.final (V11 m ρ) c)).trans
    (congrArg₂ blend (val11 m ρ c) (keep11 m ρ c).a0)

theorem keep13 : Keep m c (W13 m ρ c) :=
  ⟨(HostStep5.keep (W12 m ρ c) main_arg0 (by decide)).trans (keep12 m ρ c).a0,
   (HostStep5.keep (W12 m ρ c) main_arg1 (by decide)).trans (keep12 m ρ c).a1,
   (HostStep5.keep (W12 m ρ c) main_arg2 (by decide)).trans (keep12 m ρ c).a2,
   (HostStep5.keep (W12 m ρ c) main_arg3 (by decide)).trans (keep12 m ρ c).a3,
   (HostStep5.keep (W12 m ρ c) main_arg4 (by decide)).trans (keep12 m ρ c).a4,
   (HostStep5.keep (W12 m ρ c) main_arg5 (by decide)).trans (keep12 m ρ c).a5,
   (HostStep5.keep (W12 m ρ c) main_arg6 (by decide)).trans (keep12 m ρ c).a6,
   (HostStep5.keep (W12 m ρ c) main_arg7 (by decide)).trans (keep12 m ρ c).a7,
   (HostStep5.keep (W12 m ρ c) main_arg8 (by decide)).trans (keep12 m ρ c).a8,
   (HostStep5.keep (W12 m ρ c) main_arg9 (by decide)).trans (keep12 m ρ c).a9,
   (HostStep5.keep (W12 m ρ c) main_arg10 (by decide)).trans (keep12 m ρ c).a10,
   (HostStep5.keep (W12 m ρ c) main_arg11 (by decide)).trans (keep12 m ρ c).a11,
   (HostStep5.keep (W12 m ρ c) main_v24 (by decide)).trans (keep12 m ρ c).nrm⟩

theorem val13 : W13 m ρ c (Proc.devRef .tc main_v107) = conv64 (SRC m c) (DST m c) (NRM m c) (iter (step64 m c) (X m c) 5) := by
  have h := HostStep5.value (W12 m ρ c)
  rw [(keep12 m ρ c).a1, (keep12 m ρ c).a2, (keep12 m ρ c).nrm, val12 m ρ c] at h
  exact h

theorem keep14 : Keep m c (W14 m ρ c) :=
  ⟨((W14_arr m ρ c 1).trans (((dat5 (V13 m ρ) c).arrAt_in 1 rfl _).trans (A_eq5 (V13 m ρ) c 1))).trans (keep13 m ρ c).a0,
   (W14_of_ne m ρ c main_arg1 (by decide)).trans (keep13 m ρ c).a1,
   (W14_of_ne m ρ c main_arg2 (by decide)).trans (keep13 m ρ c).a2,
   (W14_of_ne m ρ c main_arg3 (by decide)).trans (keep13 m ρ c).a3,
   (W14_of_ne m ρ c main_arg4 (by decide)).trans (keep13 m ρ c).a4,
   (W14_of_ne m ρ c main_arg5 (by decide)).trans (keep13 m ρ c).a5,
   (W14_of_ne m ρ c main_arg6 (by decide)).trans (keep13 m ρ c).a6,
   (W14_of_ne m ρ c main_arg7 (by decide)).trans (keep13 m ρ c).a7,
   (W14_of_ne m ρ c main_arg8 (by decide)).trans (keep13 m ρ c).a8,
   (W14_of_ne m ρ c main_arg9 (by decide)).trans (keep13 m ρ c).a9,
   (W14_of_ne m ρ c main_arg10 (by decide)).trans (keep13 m ρ c).a10,
   (W14_of_ne m ρ c main_arg11 (by decide)).trans (keep13 m ρ c).a11,
   (W14_of_ne m ρ c main_v24 (by decide)).trans (keep13 m ρ c).nrm⟩

theorem val14 : W14 m ρ c (Proc.devRef .tc main_v108) = iter (step64 m c) (X m c) 6 :=
  ((W14_arr m ρ c 2).trans (BlendRegion5.final (V13 m ρ) c)).trans
    (congrArg₂ blend (val13 m ρ c) (keep13 m ρ c).a0)

theorem keep15 : Keep m c (W15 m ρ c) :=
  ⟨(HostStep6.keep (W14 m ρ c) main_arg0 (by decide)).trans (keep14 m ρ c).a0,
   (HostStep6.keep (W14 m ρ c) main_arg1 (by decide)).trans (keep14 m ρ c).a1,
   (HostStep6.keep (W14 m ρ c) main_arg2 (by decide)).trans (keep14 m ρ c).a2,
   (HostStep6.keep (W14 m ρ c) main_arg3 (by decide)).trans (keep14 m ρ c).a3,
   (HostStep6.keep (W14 m ρ c) main_arg4 (by decide)).trans (keep14 m ρ c).a4,
   (HostStep6.keep (W14 m ρ c) main_arg5 (by decide)).trans (keep14 m ρ c).a5,
   (HostStep6.keep (W14 m ρ c) main_arg6 (by decide)).trans (keep14 m ρ c).a6,
   (HostStep6.keep (W14 m ρ c) main_arg7 (by decide)).trans (keep14 m ρ c).a7,
   (HostStep6.keep (W14 m ρ c) main_arg8 (by decide)).trans (keep14 m ρ c).a8,
   (HostStep6.keep (W14 m ρ c) main_arg9 (by decide)).trans (keep14 m ρ c).a9,
   (HostStep6.keep (W14 m ρ c) main_arg10 (by decide)).trans (keep14 m ρ c).a10,
   (HostStep6.keep (W14 m ρ c) main_arg11 (by decide)).trans (keep14 m ρ c).a11,
   (HostStep6.keep (W14 m ρ c) main_v24 (by decide)).trans (keep14 m ρ c).nrm⟩

theorem val15 : W15 m ρ c (Proc.devRef .tc main_v121) = conv64 (SRC m c) (DST m c) (NRM m c) (iter (step64 m c) (X m c) 6) := by
  have h := HostStep6.value (W14 m ρ c)
  rw [(keep14 m ρ c).a1, (keep14 m ρ c).a2, (keep14 m ρ c).nrm, val14 m ρ c] at h
  exact h

theorem keep16 : Keep m c (W16 m ρ c) :=
  ⟨((W16_arr m ρ c 1).trans (((dat6 (V15 m ρ) c).arrAt_in 1 rfl _).trans (A_eq6 (V15 m ρ) c 1))).trans (keep15 m ρ c).a0,
   (W16_of_ne m ρ c main_arg1 (by decide)).trans (keep15 m ρ c).a1,
   (W16_of_ne m ρ c main_arg2 (by decide)).trans (keep15 m ρ c).a2,
   (W16_of_ne m ρ c main_arg3 (by decide)).trans (keep15 m ρ c).a3,
   (W16_of_ne m ρ c main_arg4 (by decide)).trans (keep15 m ρ c).a4,
   (W16_of_ne m ρ c main_arg5 (by decide)).trans (keep15 m ρ c).a5,
   (W16_of_ne m ρ c main_arg6 (by decide)).trans (keep15 m ρ c).a6,
   (W16_of_ne m ρ c main_arg7 (by decide)).trans (keep15 m ρ c).a7,
   (W16_of_ne m ρ c main_arg8 (by decide)).trans (keep15 m ρ c).a8,
   (W16_of_ne m ρ c main_arg9 (by decide)).trans (keep15 m ρ c).a9,
   (W16_of_ne m ρ c main_arg10 (by decide)).trans (keep15 m ρ c).a10,
   (W16_of_ne m ρ c main_arg11 (by decide)).trans (keep15 m ρ c).a11,
   (W16_of_ne m ρ c main_v24 (by decide)).trans (keep15 m ρ c).nrm⟩

theorem val16 : W16 m ρ c (Proc.devRef .tc main_v122) = iter (step64 m c) (X m c) 7 :=
  ((W16_arr m ρ c 2).trans (BlendRegion6.final (V15 m ρ) c)).trans
    (congrArg₂ blend (val15 m ρ c) (keep15 m ρ c).a0)

theorem keep17 : Keep m c (W17 m ρ c) :=
  ⟨(HostStep7.keep (W16 m ρ c) main_arg0 (by decide)).trans (keep16 m ρ c).a0,
   (HostStep7.keep (W16 m ρ c) main_arg1 (by decide)).trans (keep16 m ρ c).a1,
   (HostStep7.keep (W16 m ρ c) main_arg2 (by decide)).trans (keep16 m ρ c).a2,
   (HostStep7.keep (W16 m ρ c) main_arg3 (by decide)).trans (keep16 m ρ c).a3,
   (HostStep7.keep (W16 m ρ c) main_arg4 (by decide)).trans (keep16 m ρ c).a4,
   (HostStep7.keep (W16 m ρ c) main_arg5 (by decide)).trans (keep16 m ρ c).a5,
   (HostStep7.keep (W16 m ρ c) main_arg6 (by decide)).trans (keep16 m ρ c).a6,
   (HostStep7.keep (W16 m ρ c) main_arg7 (by decide)).trans (keep16 m ρ c).a7,
   (HostStep7.keep (W16 m ρ c) main_arg8 (by decide)).trans (keep16 m ρ c).a8,
   (HostStep7.keep (W16 m ρ c) main_arg9 (by decide)).trans (keep16 m ρ c).a9,
   (HostStep7.keep (W16 m ρ c) main_arg10 (by decide)).trans (keep16 m ρ c).a10,
   (HostStep7.keep (W16 m ρ c) main_arg11 (by decide)).trans (keep16 m ρ c).a11,
   (HostStep7.keep (W16 m ρ c) main_v24 (by decide)).trans (keep16 m ρ c).nrm⟩

theorem val17 : W17 m ρ c (Proc.devRef .tc main_v135) = conv64 (SRC m c) (DST m c) (NRM m c) (iter (step64 m c) (X m c) 7) := by
  have h := HostStep7.value (W16 m ρ c)
  rw [(keep16 m ρ c).a1, (keep16 m ρ c).a2, (keep16 m ρ c).nrm, val16 m ρ c] at h
  exact h

theorem keep18 : Keep m c (W18 m ρ c) :=
  ⟨((W18_arr m ρ c 1).trans (((dat7 (V17 m ρ) c).arrAt_in 1 rfl _).trans (A_eq7 (V17 m ρ) c 1))).trans (keep17 m ρ c).a0,
   (W18_of_ne m ρ c main_arg1 (by decide)).trans (keep17 m ρ c).a1,
   (W18_of_ne m ρ c main_arg2 (by decide)).trans (keep17 m ρ c).a2,
   (W18_of_ne m ρ c main_arg3 (by decide)).trans (keep17 m ρ c).a3,
   (W18_of_ne m ρ c main_arg4 (by decide)).trans (keep17 m ρ c).a4,
   (W18_of_ne m ρ c main_arg5 (by decide)).trans (keep17 m ρ c).a5,
   (W18_of_ne m ρ c main_arg6 (by decide)).trans (keep17 m ρ c).a6,
   (W18_of_ne m ρ c main_arg7 (by decide)).trans (keep17 m ρ c).a7,
   (W18_of_ne m ρ c main_arg8 (by decide)).trans (keep17 m ρ c).a8,
   (W18_of_ne m ρ c main_arg9 (by decide)).trans (keep17 m ρ c).a9,
   (W18_of_ne m ρ c main_arg10 (by decide)).trans (keep17 m ρ c).a10,
   (W18_of_ne m ρ c main_arg11 (by decide)).trans (keep17 m ρ c).a11,
   (W18_of_ne m ρ c main_v24 (by decide)).trans (keep17 m ρ c).nrm⟩

theorem val18 : W18 m ρ c (Proc.devRef .tc main_v136) = iter (step64 m c) (X m c) 8 :=
  ((W18_arr m ρ c 2).trans (BlendRegion7.final (V17 m ρ) c)).trans
    (congrArg₂ blend (val17 m ρ c) (keep17 m ρ c).a0)

theorem keep19 : Keep m c (W19 m ρ c) :=
  ⟨(HostStep8.keep (W18 m ρ c) main_arg0 (by decide)).trans (keep18 m ρ c).a0,
   (HostStep8.keep (W18 m ρ c) main_arg1 (by decide)).trans (keep18 m ρ c).a1,
   (HostStep8.keep (W18 m ρ c) main_arg2 (by decide)).trans (keep18 m ρ c).a2,
   (HostStep8.keep (W18 m ρ c) main_arg3 (by decide)).trans (keep18 m ρ c).a3,
   (HostStep8.keep (W18 m ρ c) main_arg4 (by decide)).trans (keep18 m ρ c).a4,
   (HostStep8.keep (W18 m ρ c) main_arg5 (by decide)).trans (keep18 m ρ c).a5,
   (HostStep8.keep (W18 m ρ c) main_arg6 (by decide)).trans (keep18 m ρ c).a6,
   (HostStep8.keep (W18 m ρ c) main_arg7 (by decide)).trans (keep18 m ρ c).a7,
   (HostStep8.keep (W18 m ρ c) main_arg8 (by decide)).trans (keep18 m ρ c).a8,
   (HostStep8.keep (W18 m ρ c) main_arg9 (by decide)).trans (keep18 m ρ c).a9,
   (HostStep8.keep (W18 m ρ c) main_arg10 (by decide)).trans (keep18 m ρ c).a10,
   (HostStep8.keep (W18 m ρ c) main_arg11 (by decide)).trans (keep18 m ρ c).a11,
   (HostStep8.keep (W18 m ρ c) main_v24 (by decide)).trans (keep18 m ρ c).nrm⟩

theorem val19 : W19 m ρ c (Proc.devRef .tc main_v149) = conv64 (SRC m c) (DST m c) (NRM m c) (iter (step64 m c) (X m c) 8) := by
  have h := HostStep8.value (W18 m ρ c)
  rw [(keep18 m ρ c).a1, (keep18 m ρ c).a2, (keep18 m ρ c).nrm, val18 m ρ c] at h
  exact h

theorem keep20 : Keep m c (W20 m ρ c) :=
  ⟨((W20_arr m ρ c 1).trans (((dat8 (V19 m ρ) c).arrAt_in 1 rfl _).trans (A_eq8 (V19 m ρ) c 1))).trans (keep19 m ρ c).a0,
   (W20_of_ne m ρ c main_arg1 (by decide)).trans (keep19 m ρ c).a1,
   (W20_of_ne m ρ c main_arg2 (by decide)).trans (keep19 m ρ c).a2,
   (W20_of_ne m ρ c main_arg3 (by decide)).trans (keep19 m ρ c).a3,
   (W20_of_ne m ρ c main_arg4 (by decide)).trans (keep19 m ρ c).a4,
   (W20_of_ne m ρ c main_arg5 (by decide)).trans (keep19 m ρ c).a5,
   (W20_of_ne m ρ c main_arg6 (by decide)).trans (keep19 m ρ c).a6,
   (W20_of_ne m ρ c main_arg7 (by decide)).trans (keep19 m ρ c).a7,
   (W20_of_ne m ρ c main_arg8 (by decide)).trans (keep19 m ρ c).a8,
   (W20_of_ne m ρ c main_arg9 (by decide)).trans (keep19 m ρ c).a9,
   (W20_of_ne m ρ c main_arg10 (by decide)).trans (keep19 m ρ c).a10,
   (W20_of_ne m ρ c main_arg11 (by decide)).trans (keep19 m ρ c).a11,
   (W20_of_ne m ρ c main_v24 (by decide)).trans (keep19 m ρ c).nrm⟩

theorem val20 : W20 m ρ c (Proc.devRef .tc main_v150) = iter (step64 m c) (X m c) 9 :=
  ((W20_arr m ρ c 2).trans (BlendRegion8.final (V19 m ρ) c)).trans
    (congrArg₂ blend (val19 m ρ c) (keep19 m ρ c).a0)

theorem keep21 : Keep m c (W21 m ρ c) :=
  ⟨(HostStep9.keep (W20 m ρ c) main_arg0 (by decide)).trans (keep20 m ρ c).a0,
   (HostStep9.keep (W20 m ρ c) main_arg1 (by decide)).trans (keep20 m ρ c).a1,
   (HostStep9.keep (W20 m ρ c) main_arg2 (by decide)).trans (keep20 m ρ c).a2,
   (HostStep9.keep (W20 m ρ c) main_arg3 (by decide)).trans (keep20 m ρ c).a3,
   (HostStep9.keep (W20 m ρ c) main_arg4 (by decide)).trans (keep20 m ρ c).a4,
   (HostStep9.keep (W20 m ρ c) main_arg5 (by decide)).trans (keep20 m ρ c).a5,
   (HostStep9.keep (W20 m ρ c) main_arg6 (by decide)).trans (keep20 m ρ c).a6,
   (HostStep9.keep (W20 m ρ c) main_arg7 (by decide)).trans (keep20 m ρ c).a7,
   (HostStep9.keep (W20 m ρ c) main_arg8 (by decide)).trans (keep20 m ρ c).a8,
   (HostStep9.keep (W20 m ρ c) main_arg9 (by decide)).trans (keep20 m ρ c).a9,
   (HostStep9.keep (W20 m ρ c) main_arg10 (by decide)).trans (keep20 m ρ c).a10,
   (HostStep9.keep (W20 m ρ c) main_arg11 (by decide)).trans (keep20 m ρ c).a11,
   (HostStep9.keep (W20 m ρ c) main_v24 (by decide)).trans (keep20 m ρ c).nrm⟩

theorem val21 : W21 m ρ c (Proc.devRef .tc main_v163) = conv64 (SRC m c) (DST m c) (NRM m c) (iter (step64 m c) (X m c) 9) := by
  have h := HostStep9.value (W20 m ρ c)
  rw [(keep20 m ρ c).a1, (keep20 m ρ c).a2, (keep20 m ρ c).nrm, val20 m ρ c] at h
  exact h

theorem keep22 : Keep m c (W22 m ρ c) :=
  ⟨((W22_arr m ρ c 1).trans (((dat9 (V21 m ρ) c).arrAt_in 1 rfl _).trans (A_eq9 (V21 m ρ) c 1))).trans (keep21 m ρ c).a0,
   (W22_of_ne m ρ c main_arg1 (by decide)).trans (keep21 m ρ c).a1,
   (W22_of_ne m ρ c main_arg2 (by decide)).trans (keep21 m ρ c).a2,
   (W22_of_ne m ρ c main_arg3 (by decide)).trans (keep21 m ρ c).a3,
   (W22_of_ne m ρ c main_arg4 (by decide)).trans (keep21 m ρ c).a4,
   (W22_of_ne m ρ c main_arg5 (by decide)).trans (keep21 m ρ c).a5,
   (W22_of_ne m ρ c main_arg6 (by decide)).trans (keep21 m ρ c).a6,
   (W22_of_ne m ρ c main_arg7 (by decide)).trans (keep21 m ρ c).a7,
   (W22_of_ne m ρ c main_arg8 (by decide)).trans (keep21 m ρ c).a8,
   (W22_of_ne m ρ c main_arg9 (by decide)).trans (keep21 m ρ c).a9,
   (W22_of_ne m ρ c main_arg10 (by decide)).trans (keep21 m ρ c).a10,
   (W22_of_ne m ρ c main_arg11 (by decide)).trans (keep21 m ρ c).a11,
   (W22_of_ne m ρ c main_v24 (by decide)).trans (keep21 m ρ c).nrm⟩

theorem val22 : W22 m ρ c (Proc.devRef .tc main_v164) = iter (step64 m c) (X m c) 10 :=
  ((W22_arr m ρ c 2).trans (BlendRegion9.final (V21 m ρ) c)).trans
    (congrArg₂ blend (val21 m ρ c) (keep21 m ρ c).a0)

end Cert.ChainA

end
-- ==== Proof.HostStep10.lean ====
/-
  The host operations that prepare the dense network's operands write only their own eleven buffers.
-/
import proofs.«135505_j17961553232124_1_alg».proof.Proof.Gen.KernelIdeal.Launch
import Idealize.ShloMosaic.Lib.StableHlo.Run
import Idealize.ShloMosaic.PureOps.Ideal

noncomputable section

namespace Cert.HostStep10

open Idealize.ShloMosaic Idealize.ShloMosaic.TcCoe Idealize.ShloMosaic.StableHlo Cert.KernelIdeal Cert.KernelIdeal.Gen

variable (W : Valuation τ sig (Elt Ideal))

/-- The buffers the stretch writes. -/
def written : List (Ref sig .tc) := [main_v165, main_v166, main_v167, main_v168, main_v169, main_v170, main_v171, main_v172, main_v173, main_v174, main_v175]

theorem writes_sub : (hostOps10 (F := Ideal)).Forall fun op => op.writes ⊆ (written.map (Proc.devRef (τ := τ) .tc)).toFinset := by
  simp only [hostOps10, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps10 (F := Ideal)) W (Proc.devRef .tc r) = W (Proc.devRef .tc r) :=
  StableHlo.after_of_writes_sub _ _ writes_sub hr

end Cert.HostStep10

end
-- ==== Proof.MlpPrepDefs.lean ====
/-
  The operands the pair-and-classifier region is handed, as functions of the network's parameters.

  The region does not read the parameter arrays A1 [9,11], A2 [11,1], W1 [128,64] and the feature embedding emb [64,7]
  directly: the host first cuts and re-lays them.  Rows 2..8 of A1, transposed, times the transposed embedding give
  ecT[h,f] = Σ_k A1[k+2,h]·emb[f,k]; rows 0 and 1 of A1 become the vectors a10 and a11; the one column of A2 becomes the
  vector a2; the upper and lower halves of W1 become w1a and w1b.  Here each is ONE term of the parameters.
-/
import proofs.«135505_j17961553232124_1_alg».proof.Proof.Gen.KernelIdeal
import Idealize.ShloMosaic.PureOps.Ideal

noncomputable section

namespace Cert.MlpPrep

open Cert.KernelIdeal Cert.KernelIdeal.Gen Idealize.ShloMosaic

/-- ecT = (A1[2:9,:])ᵀ · embᵀ, an [11,64] array. -/
def ecT (A1 : Vec Ideal S9x11 .f32) (emb : Vec Ideal S64x7 .f32) : Vec Ideal S11x64 .f32 :=
  Host.dotGeneral (F := Ideal) (φ₁ := .f32) (φ₂ := .f32) dot_S11x7_S7x64_S11x64_1_0_0_1_n_n none
    (transpose S11x7 [1, 0] (extractStridedSlice S7x11 ![2, 0] A1 slices_S9x11_S7x11_2_0) transposes_S7x11_S11x7_1_0)
    (transpose S7x64 [1, 0] emb transposes_S64x7_S7x64_1_0)

/-- a10 = row 0 of A1 as a vector. -/
def a10 (A1 : Vec Ideal S9x11 .f32) : Vec Ideal S11 .f32 :=
  shapeCast S11 (extractStridedSlice S1x11 ![0, 0] A1 slices_S9x11_S1x11_0_0) shapeCasts_S1x11_S11

/-- a11 = row 1 of A1 as a vector. -/
def a11 (A1 : Vec Ideal S9x11 .f32) : Vec Ideal S11 .f32 :=
  shapeCast S11 (extractStridedSlice S1x11 ![1, 0] A1 slices_S9x11_S1x11_1_0) shapeCasts_S1x11_S11

/-- a2 = the one column of A2 as a vector. -/
def a2 (A2 : Vec Ideal S11x1 .f32) : Vec Ideal S11 .f32 :=
  shapeCast S11 A2 shapeCasts_S11x1_S11

/-- w1a = rows 0..63 of W1. -/
def w1a (W1 : Vec Ideal S128x64 .f32) : Vec Ideal S64x64 .f32 :=
  extractStridedSlice S64x64 ![0, 0] W1 slices_S128x64_S64x64_0_0

/-- w1b = rows 64..127 of W1. -/
def w1b (W1 : Vec Ideal S128x64 .f32) : Vec Ideal S64x64 .f32 :=
  extractStridedSlice S64x64 ![64, 0] W1 slices_S128x64_S64x64_64_0

end Cert.MlpPrep

end
-- ==== Proof.MlpPrepRead.lean ====
/-
  The prepared operands read at an index.

  A slice reads its operand shifted by the slice's offsets, a transpose swaps the two coordinates, a reshape between
  [1,11] or [11,1] and [11] keeps the row-major position, and the host's dot_general at the extended reals is the sum of
  products over the contracted axis.  So:  ecT[h,f] = Σ_k A1[k+2,h]·emb[f,k],  a10[h] = A1[0,h],  a11[h] = A1[1,h],
  a2[h] = A2[h,0],  w1a[k,j] = W1[k,j],  w1b[k,j] = W1[k+64,j].
-/
import proofs.«135505_j17961553232124_1_alg».proof.Proof.MlpPrepDefs
import Idealize.ShloMosaic.Lib.ValueIdx
import Idealize.ShloMosaic.Lib.Pipeline.Value
import Idealize.ShloMosaic.PureOps.Ideal.Laws

noncomputable section

open scoped BigOperators

namespace Cert.MlpPrep

open Cert.KernelIdeal Cert.KernelIdeal.Gen Idealize.ShloMosaic Idealize.ShloMosaic.ValueIdx

/-- Row 0 of A1, as a vector, at index h. -/
theorem a10_apply (A1 : Vec Ideal S9x11 .f32) (h : Fin 11) : a10 A1 (ix1 h) = A1 (ix2 (0 : Fin 9) h) := by
  unfold a10
  refine (shapeCast_apply _ shapeCasts_S1x11_S11 (ix1 h) (ix2 (0 : Fin 1) h) ?_).trans ?_
  · rw [Shape.rowMajor_val_two, Shape.rowMajor_val_one]
    show (0 : Nat) * 11 + h.val = h.val
    omega
  · exact extractStridedSlice_apply _ A1 slices_S9x11_S1x11_0_0 (ix2 (0 : Fin 1) h) (ix2 (0 : Fin 9) h) (fun a => match a with
      | ⟨0, _⟩ => by show (0 : Nat) = 0 + 0; rfl
      | ⟨1, _⟩ => by show h.val = 0 + h.val; omega)

/-- Row 1 of A1, as a vector, at index h. -/
theorem a11_apply (A1 : Vec Ideal S9x11 .f32) (h : Fin 11) : a11 A1 (ix1 h) = A1 (ix2 (1 : Fin 9) h) := by
  unfold a11
  refine (shapeCast_apply _ shapeCasts_S1x11_S11 (ix1 h) (ix2 (0 : Fin 1) h) ?_).trans ?_
  · rw [Shape.rowMajor_val_two, Shape.rowMajor_val_one]
    show (0 : Nat) * 11 + h.val = h.val
    omega
  · exact extractStridedSlice_apply _ A1 slices_S9x11_S1x11_1_0 (ix2 (0 : Fin 1) h) (ix2 (1 : Fin 9) h) (fun a => match a with
      | ⟨0, _⟩ => by show (1 : Nat) = 1 + 0; rfl
      | ⟨1, _⟩ => by show h.val = 0 + h.val; omega)

/-- The one column of A2, as a vector, at index h. -/
theorem a2_apply (A2 : Vec Ideal S11x1 .f32) (h : Fin 11) : a2 A2 (ix1 h) = A2 (ix2 h (0 : Fin 1)) := by
  unfold a2
  refine shapeCast_apply _ shapeCasts_S11x1_S11 (ix1 h) (ix2 h (0 : Fin 1)) ?_
  rw [Shape.rowMajor_val_two, Shape.rowMajor_val_one]
  show h.val * 1 + (0 : Nat) = h.val
  omega

/-- The upper half of W1. -/
theorem w1a_apply (W1 : Vec Ideal S128x64 .f32) (k j : Fin 64) :
    w1a W1 (ix2 k j) = W1 (ix2 (⟨k.val, by omega⟩ : Fin 128) j) := by
  unfold w1a
  exact extractStridedSlice_apply _ W1 slices_S128x64_S64x64_0_0 (ix2 k j) (ix2 (⟨k.val, by omega⟩ : Fin 128) j) (fun a => match a with
    | ⟨0, _⟩ => by show k.val = 0 + k.val; omega
    | ⟨1, _⟩ => by show j.val = 0 + j.val; omega)

/-- The lower half of W1. -/
theorem w1b_apply (W1 : Vec Ideal S128x64 .f32) (k j : Fin 64) :
    w1b W1 (ix2 k j) = W1 (ix2 (⟨k.val + 64, by omega⟩ : Fin 128) j) := by
  unfold w1b
  exact extractStridedSlice_apply _ W1 slices_S128x64_S64x64_64_0 (ix2 k j) (ix2 (⟨k.val + 64, by omega⟩ : Fin 128) j) (fun a => match a with
    | ⟨0, _⟩ => by show k.val + 64 = 64 + k.val; omega
    | ⟨1, _⟩ => by show j.val = 0 + j.val; omega)

/-- Rows 2..8 of A1, transposed, at (h, k). -/
theorem ecT_lhs_apply (A1 : Vec Ideal S9x11 .f32) (h : Fin 11) (k : Fin 7) :
    transpose S11x7 [1, 0] (extractStridedSlice S7x11 ![2, 0] A1 slices_S9x11_S7x11_2_0) transposes_S7x11_S11x7_1_0 (ix2 h k)
      = A1 (ix2 (⟨k.val + 2, by omega⟩ : Fin 9) h) := by
  refine (transpose_apply _ _ transposes_S7x11_S11x7_1_0 (ix2 h k) (ix2 k h) (fun b => match b with
    | ⟨0, _⟩ => rfl
    | ⟨1, _⟩ => rfl)).trans ?_
  exact extractStridedSlice_apply _ A1 slices_S9x11_S7x11_2_0 (ix2 k h) (ix2 (⟨k.val + 2, by omega⟩ : Fin 9) h) (fun a => match a with
    | ⟨0, _⟩ => by show k.val + 2 = 2 + k.val; omega
    | ⟨1, _⟩ => by show h.val = 0 + h.val; omega)

/-- The embedding, transposed, at (k, f). -/
theorem ecT_rhs_apply (emb : Vec Ideal S64x7 .f32) (k : Fin 7) (f : Fin 64) :
    transpose S7x64 [1, 0] emb transposes_S64x7_S7x64_1_0 (ix2 k f) = emb (ix2 f k) :=
  transpose_apply _ _ transposes_S64x7_S7x64_1_0 (ix2 k f) (ix2 f k) (fun b => match b with
    | ⟨0, _⟩ => rfl
    | ⟨1, _⟩ => rfl)

theorem ecT_lhs0 (i : S11x64.Idx) (q : dot_S11x7_S7x64_S11x64_1_0_0_1_n_n.contr.Idx) :
    (dot_S11x7_S7x64_S11x64_1_0_0_1_n_n.lhsIdx i q 0).val = (i 0).val := by
  unfold DotDims.lhsIdx
  rw [dif_neg (show ¬(0 : Fin S11x7.rank) ∈ dot_S11x7_S7x64_S11x64_1_0_0_1_n_n.lhsBatch by decide), dif_pos (show (0 : Fin S11x7.rank) ∈ dot_S11x7_S7x64_S11x64_1_0_0_1_n_n.lhsNonContracting by decide)]
  rfl
theorem ecT_lhs1 (i : S11x64.Idx) (q : dot_S11x7_S7x64_S11x64_1_0_0_1_n_n.contr.Idx) :
    (dot_S11x7_S7x64_S11x64_1_0_0_1_n_n.lhsIdx i q 1).val = (q ⟨0, by decide⟩).val :=
  dot_S11x7_S7x64_S11x64_1_0_0_1_n_n.lhsIdx_val_of_single rfl i q
theorem ecT_rhs0 (i : S11x64.Idx) (q : dot_S11x7_S7x64_S11x64_1_0_0_1_n_n.contr.Idx) :
    (dot_S11x7_S7x64_S11x64_1_0_0_1_n_n.rhsIdx i q 0).val = (q ⟨0, by decide⟩).val :=
  dot_S11x7_S7x64_S11x64_1_0_0_1_n_n.rhsIdx_val_of_single rfl i q
theorem ecT_rhs1 (i : S11x64.Idx) (q : dot_S11x7_S7x64_S11x64_1_0_0_1_n_n.contr.Idx) :
    (dot_S11x7_S7x64_S11x64_1_0_0_1_n_n.rhsIdx i q 1).val = (i 1).val := by
  unfold DotDims.rhsIdx
  rw [dif_neg (show ¬(1 : Fin S7x64.rank) ∈ dot_S11x7_S7x64_S11x64_1_0_0_1_n_n.rhsBatch by decide), dif_pos (show (1 : Fin S7x64.rank) ∈ dot_S11x7_S7x64_S11x64_1_0_0_1_n_n.rhsNonContracting by decide)]
  rfl

/-- ecT[h,f] = Σ_k A1[k+2,h]·emb[f,k]: the host's dot_general at the extended reals is the sum over the contracted axis. -/
theorem ecT_apply (A1 : Vec Ideal S9x11 .f32) (emb : Vec Ideal S64x7 .f32) (h : Fin 11) (f : Fin 64) :
    ecT A1 emb (ix2 h f) = ∑ k : Fin 7, A1 (ix2 (⟨k.val + 2, by omega⟩ : Fin 9) h) * emb (ix2 f k) := by
  unfold ecT
  simp only [Host.dotGeneral]
  rw [Ideal.dotGeneral_apply, ← Equiv.sum_comp (contrEquiv1 dot_S11x7_S7x64_S11x64_1_0_0_1_n_n 7 rfl rfl).symm]
  refine Finset.sum_congr rfl fun k _ => ?_
  have hk := contrEquiv1_symm_val dot_S11x7_S7x64_S11x64_1_0_0_1_n_n 7 rfl rfl k
  have el : dot_S11x7_S7x64_S11x64_1_0_0_1_n_n.lhsIdx (ix2 h f) ((contrEquiv1 dot_S11x7_S7x64_S11x64_1_0_0_1_n_n 7 rfl rfl).symm k) = ix2 h k := funext fun a => Fin.ext (by
    match a with
    | ⟨0, _⟩ => exact ecT_lhs0 _ _
    | ⟨1, _⟩ => exact (ecT_lhs1 _ _).trans hk)
  have er : dot_S11x7_S7x64_S11x64_1_0_0_1_n_n.rhsIdx (ix2 h f) ((contrEquiv1 dot_S11x7_S7x64_S11x64_1_0_0_1_n_n 7 rfl rfl).symm k) = ix2 k f := funext fun a => Fin.ext (by
    match a with
    | ⟨0, _⟩ => exact (ecT_rhs0 _ _).trans hk
    | ⟨1, _⟩ => exact ecT_rhs1 _ _)
  rw [el, er, ecT_lhs_apply, ecT_rhs_apply]

end Cert.MlpPrep

end
-- ==== Proof.MlpPrepHost.lean ====
/-
  The host operations right before the pair-and-classifier region, read as values.

  From any buffer contents W, the eleven operations leave the six prepared operands at the terms of MlpPrepDefs applied to
  W's contents of the parameter buffers (A1, A2, W1, the embedding), and every buffer they do not write at what W held.
-/
import proofs.«135505_j17961553232124_1_alg».proof.Proof.Gen.KernelIdeal.Launch
import proofs.«135505_j17961553232124_1_alg».proof.Proof.MlpPrepDefs
import Idealize.ShloMosaic.Lib.StableHlo.Run

noncomputable section

namespace Cert.MlpPrep

open Cert.KernelIdeal Cert.KernelIdeal.Gen Idealize.ShloMosaic Idealize.ShloMosaic.TcCoe

variable (W : Valuation τ sig (Elt Ideal))

/-! ## The operands the operations write -/

theorem prep_v168 : StableHlo.after (hostOps10 (F := Ideal)) W (Proc.devRef .tc main_v168)
    = ecT (W (Proc.devRef .tc main_arg7)) (W (Proc.devRef .tc main_arg11)) := by
  after_results; rfl

theorem prep_v170 : StableHlo.after (hostOps10 (F := Ideal)) W (Proc.devRef .tc main_v170)
    = a10 (W (Proc.devRef .tc main_arg7)) := by
  after_results; rfl

theorem prep_v172 : StableHlo.after (hostOps10 (F := Ideal)) W (Proc.devRef .tc main_v172)
    = a11 (W (Proc.devRef .tc main_arg7)) := by
  after_results; rfl

theorem prep_v173 : StableHlo.after (hostOps10 (F := Ideal)) W (Proc.devRef .tc main_v173)
    = a2 (W (Proc.devRef .tc main_arg9)) := by
  after_results; rfl

theorem prep_v174 : StableHlo.after (hostOps10 (F := Ideal)) W (Proc.devRef .tc main_v174)
    = w1a (W (Proc.devRef .tc main_arg3)) := by
  after_results; rfl

theorem prep_v175 : StableHlo.after (hostOps10 (F := Ideal)) W (Proc.devRef .tc main_v175)
    = w1b (W (Proc.devRef .tc main_arg3)) := by
  after_results; rfl

/-! ## The buffers they leave alone -/

theorem keep_v164 : StableHlo.after (hostOps10 (F := Ideal)) W (Proc.devRef .tc main_v164) = W (Proc.devRef .tc main_v164) := by
  after_results
theorem keep_arg0 : StableHlo.after (hostOps10 (F := Ideal)) W (Proc.devRef .tc main_arg0) = W (Proc.devRef .tc main_arg0) := by
  after_results
theorem keep_arg1 : StableHlo.after (hostOps10 (F := Ideal)) W (Proc.devRef .tc main_arg1) = W (Proc.devRef .tc main_arg1) := by
  after_results
theorem keep_arg2 : StableHlo.after (hostOps10 (F := Ideal)) W (Proc.devRef .tc main_arg2) = W (Proc.devRef .tc main_arg2) := by
  after_results
theorem keep_v24 : StableHlo.after (hostOps10 (F := Ideal)) W (Proc.devRef .tc main_v24) = W (Proc.devRef .tc main_v24) := by
  after_results
theorem keep_arg4 : StableHlo.after (hostOps10 (F := Ideal)) W (Proc.devRef .tc main_arg4) = W (Proc.devRef .tc main_arg4) := by
  after_results
theorem keep_arg5 : StableHlo.after (hostOps10 (F := Ideal)) W (Proc.devRef .tc main_arg5) = W (Proc.devRef .tc main_arg5) := by
  after_results
theorem keep_arg6 : StableHlo.after (hostOps10 (F := Ideal)) W (Proc.devRef .tc main_arg6) = W (Proc.devRef .tc main_arg6) := by
  after_results
theorem keep_arg8 : StableHlo.after (hostOps10 (F := Ideal)) W (Proc.devRef .tc main_arg8) = W (Proc.devRef .tc main_arg8) := by
  after_results
theorem keep_arg10 : StableHlo.after (hostOps10 (F := Ideal)) W (Proc.devRef .tc main_arg10) = W (Proc.devRef .tc main_arg10) := by
  after_results

end Cert.MlpPrep

end
-- ==== Proof.MlpPrepBridge.lean ====
/-
  The network from the prepared operands is the network from the parameters.

  With ecT[h,f] = Σ_k A1[k+2,h]·emb[f,k], a10 = A1[0,·], a11 = A1[1,·], a2 = A2[·,0] and the two halves of W1, each layer
  of the arrangement the region computes is the corresponding layer of the specification: the pre-activations differ
  only in the order of the two factors of each product of the embedding sum, and products of extended reals commute.
  No finiteness is used.
-/
import proofs.«135505_j17961553232124_1_alg».proof.Proof.MlpSpec
import proofs.«135505_j17961553232124_1_alg».proof.Proof.MlpPrepRead

noncomputable section

open scoped BigOperators

namespace Cert.MlpPrep

open Cert.MlpSpec Idealize.ShloMosaic Idealize.ShloMosaic.ValueIdx

/-- The pre-activation of hidden unit h of the pair network. -/
theorem kPre_prep (z x : Mat 50000 64) (A1 : Mat 9 11) (ab1 : Vct 11) (emb : Mat 64 7) (n : Fin 50000) (f : Fin 64) (h : Fin 11) :
    kPre 50000 z x (ecT A1 emb) (a10 A1) (a11 A1) ab1 n f h = pre z x A1 ab1 emb n f h := by
  unfold kPre pre
  rw [a10_apply, a11_apply, ecT_apply]
  have e : (∑ k : Fin 7, A1 (ix2 (⟨k.val + 2, by omega⟩ : Fin 9) h) * emb (ix2 f k))
      = ∑ k : Fin 7, emb (ix2 f k) * A1 (ix2 (⟨k.val + 2, by omega⟩ : Fin 9) h) :=
    Finset.sum_congr rfl fun k _ => mul_comm _ _
  rw [e]

/-- The pair network's output. -/
theorem kPair_prep (z x : Mat 50000 64) (A1 : Mat 9 11) (ab1 : Vct 11) (A2 : Mat 11 1) (ab2 : Vct 1) (emb : Mat 64 7)
    (n : Fin 50000) (f : Fin 64) :
    kPair 50000 z x (ecT A1 emb) (a10 A1) (a11 A1) ab1 (a2 A2) ab2 n f = pair z x A1 ab1 A2 ab2 emb n f := by
  unfold kPair pair
  simp only [kPre_prep, a2_apply]

/-- A hidden unit of the classifier. -/
theorem kHidden_prep (z x : Mat 50000 64) (W1 : Mat 128 64) (b1 : Vct 64) (A1 : Mat 9 11) (ab1 : Vct 11) (A2 : Mat 11 1)
    (ab2 : Vct 1) (emb : Mat 64 7) (n : Fin 50000) (j : Fin 64) :
    kHidden 50000 z x (ecT A1 emb) (a10 A1) (a11 A1) ab1 (a2 A2) ab2 (w1a W1) (w1b W1) b1 n j
      = hidden z x W1 b1 A1 ab1 A2 ab2 emb n j := by
  unfold kHidden Cert.MlpSpec.hidden
  simp only [kPair_prep, w1a_apply, w1b_apply]

/-- A logit. -/
theorem kLogit_prep (z x : Mat 50000 64) (A1 : Mat 9 11) (emb : Mat 64 7) (ab1 : Vct 11) (A2 : Mat 11 1) (ab2 : Vct 1)
    (W1 : Mat 128 64) (b1 : Vct 64) (W2 : Mat 64 16) (b2 : Vct 16) (n : Fin 50000) (q : Fin 16) :
    kLogit 50000 z x (ecT A1 emb) (a10 A1) (a11 A1) ab1 (a2 A2) ab2 (w1a W1) (w1b W1) b1 W2 b2 n q
      = logit z x W1 b1 W2 b2 A1 ab1 A2 ab2 emb n q := by
  unfold kLogit logit
  simp only [kHidden_prep]

end Cert.MlpPrep

end
-- ==== Proof.MlpPrep.lean ====
/-
  The host preparation of the pair-and-classifier region's operands, assembled: the operands as terms of the parameters
  (MlpPrepDefs), each read at an index (MlpPrepRead), the host operations leaving exactly those terms and nothing else
  changed (MlpPrepHost), and the network from the prepared operands equal to the network from the parameters
  (MlpPrepBridge).
-/
import proofs.«135505_j17961553232124_1_alg».proof.Proof.MlpPrepDefs
import proofs.«135505_j17961553232124_1_alg».proof.Proof.MlpPrepRead
import proofs.«135505_j17961553232124_1_alg».proof.Proof.MlpPrepHost
import proofs.«135505_j17961553232124_1_alg».proof.Proof.MlpPrepBridge
-- ==== Proof.MlpRegionRows.lean ====
/-
  A logit of the network depends on the node-wise arrays z and x only through the node's own row.

  Every term of the pair network and of the classifier at row p reads z[p,·] and x[p,·] and nothing else of the two arrays.
  So two pairs of arrays, of whatever heights, that agree on one row of each give the same logits at those rows: this is
  what lets a block of 5000 rows stand for the rows 5000·t … 5000·t + 4999 of the whole arrays.
-/
import proofs.«135505_j17961553232124_1_alg».proof.Proof.MlpSpec

noncomputable section

open scoped BigOperators

namespace Cert.MlpRegion

open Cert.MlpSpec Idealize.ShloMosaic Idealize.ShloMosaic.ValueIdx

/-- The logits at row p of (z, x) and at row p' of (z', x') agree when the two rows agree, feature by feature. -/
theorem kLogit_congr_rows {R R' : Nat} (z x : Mat R 64) (z' x' : Mat R' 64) (ecT : Mat 11 64) (a10 a11 ab1 a2 : Vct 11)
    (ab2 : Vct 1) (w1a w1b : Mat 64 64) (b1 : Vct 64) (w2 : Mat 64 16) (b2 : Vct 16) (p : Fin R) (p' : Fin R')
    (hz : ∀ f : Fin 64, z (ix2 p f) = z' (ix2 p' f)) (hx : ∀ f : Fin 64, x (ix2 p f) = x' (ix2 p' f)) (q : Fin 16) :
    kLogit R z x ecT a10 a11 ab1 a2 ab2 w1a w1b b1 w2 b2 p q = kLogit R' z' x' ecT a10 a11 ab1 a2 ab2 w1a w1b b1 w2 b2 p' q := by
  unfold kLogit kHidden kPair kPre
  simp only [hz, hx]

end Cert.MlpRegion

end
-- ==== Proof.MlpRegionBlocks.lean ====
/-
  The blocks the pair-and-classifier region reads at a grid point, as pieces of the arrays the region finds.

  The grid has ten points.  At point t the windows on z and x (and the output window) hold rows 5000·t … 5000·t + 4999 of
  their arrays: an element at (p, f) of the block is the array's element at (5000·t + p, f), since a block's coordinate in
  its array is block index × block size + the coordinate inside the block.  The other eleven windows are whole arrays:
  their block index is zero on every axis at every point, and the block is the array.
-/
import proofs.«135505_j17961553232124_1_alg».proof.Proof.Gen.KernelIdeal.Frame
import Idealize.ShloMosaic.Lib.Pipeline.Value
import Idealize.ShloMosaic.Lib.ValueIdx

noncomputable section

namespace Cert.MlpRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The index maps, decided once over the grid -/

/-- The row-blocked windows (z, x and the output) sit at block (t, 0) at point t; there are ten points. -/
theorem idx_rows : ∀ t : Fin cfg10.N,
    win10_0.index t (0 : Fin 2) = t.val ∧ win10_0.index t (1 : Fin 2) = 0
    ∧ win10_1.index t (0 : Fin 2) = t.val ∧ win10_1.index t (1 : Fin 2) = 0
    ∧ win10_13.index t (0 : Fin 2) = t.val ∧ win10_13.index t (1 : Fin 2) = 0 ∧ t.val < 10 :=
  (by decide +kernel : ∀ t : Fin grid10.N, _)
theorem idx_w2 : ∀ t : Fin cfg10.N, win10_2.index t (0 : Fin 2) = 0 ∧ win10_2.index t (1 : Fin 2) = 0 :=
  (by decide +kernel : ∀ t : Fin grid10.N, _)
theorem idx_w3 : ∀ t : Fin cfg10.N, win10_3.index t (0 : Fin 1) = 0 :=
  (by decide +kernel : ∀ t : Fin grid10.N, _)
theorem idx_w4 : ∀ t : Fin cfg10.N, win10_4.index t (0 : Fin 1) = 0 :=
  (by decide +kernel : ∀ t : Fin grid10.N, _)
theorem idx_w5 : ∀ t : Fin cfg10.N, win10_5.index t (0 : Fin 1) = 0 :=
  (by decide +kernel : ∀ t : Fin grid10.N, _)
theorem idx_w6 : ∀ t : Fin cfg10.N, win10_6.index t (0 : Fin 1) = 0 :=
  (by decide +kernel : ∀ t : Fin grid10.N, _)
theorem idx_w7 : ∀ t : Fin cfg10.N, win10_7.index t (0 : Fin 1) = 0 :=
  (by decide +kernel : ∀ t : Fin grid10.N, _)
theorem idx_w8 : ∀ t : Fin cfg10.N, win10_8.index t (0 : Fin 2) = 0 ∧ win10_8.index t (1 : Fin 2) = 0 :=
  (by decide +kernel : ∀ t : Fin grid10.N, _)
theorem idx_w9 : ∀ t : Fin cfg10.N, win10_9.index t (0 : Fin 2) = 0 ∧ win10_9.index t (1 : Fin 2) = 0 :=
  (by decide +kernel : ∀ t : Fin grid10.N, _)
theorem idx_w10 : ∀ t : Fin cfg10.N, win10_10.index t (0 : Fin 1) = 0 :=
  (by decide +kernel : ∀ t : Fin grid10.N, _)
theorem idx_w11 : ∀ t : Fin cfg10.N, win10_11.index t (0 : Fin 2) = 0 ∧ win10_11.index t (1 : Fin 2) = 0 :=
  (by decide +kernel : ∀ t : Fin grid10.N, _)
theorem idx_w12 : ∀ t : Fin cfg10.N, win10_12.index t (0 : Fin 1) = 0 :=
  (by decide +kernel : ∀ t : Fin grid10.N, _)

variable (V : (c : Dev nD) → (b : Ref sig .tc) → Buf (Elt Ideal) ((c : Thread nD τ).loc b))

/-! ## The two row-blocked inputs -/

/-- Element (p, f) of z's block at point t is z's element (5000·t + p, f). -/
theorem blk0_apply (c : Dev nD) (t : Fin cfg10.N) (p : Fin 5000) (f : Fin 64) (hr : 5000 * t.val + p.val < 50000) :
    (iblk10 V c 0 t : Vec Ideal S5000x64 .f32) (ix2 p f)
      = (V c main_v164 : S50000x64.Idx → EReal) (ix2 (⟨5000 * t.val + p.val, hr⟩ : Fin 50000) f) := by
  unfold iblk10
  rw [View.read_apply]
  show V c main_v164 _ = V c main_v164 _
  refine congrArg (V c main_v164) (funext fun a => Fin.ext ?_)
  match a with
  | ⟨0, _⟩ => show win10_0.index t (0 : Fin 2) * 5000 + 1 * p.val = 5000 * t.val + p.val; rw [(idx_rows t).1]; omega
  | ⟨1, _⟩ => show win10_0.index t (1 : Fin 2) * 64 + 1 * f.val = f.val; rw [(idx_rows t).2.1]; omega

/-- Element (p, f) of x's block at point t is x's element (5000·t + p, f). -/
theorem blk1_apply (c : Dev nD) (t : Fin cfg10.N) (p : Fin 5000) (f : Fin 64) (hr : 5000 * t.val + p.val < 50000) :
    (iblk10 V c 1 t : Vec Ideal S5000x64 .f32) (ix2 p f)
      = (V c main_arg0 : S50000x64.Idx → EReal) (ix2 (⟨5000 * t.val + p.val, hr⟩ : Fin 50000) f) := by
  unfold iblk10
  rw [View.read_apply]
  show V c main_arg0 _ = V c main_arg0 _
  refine congrArg (V c main_arg0) (funext fun a => Fin.ext ?_)
  match a with
  | ⟨0, _⟩ => show win10_1.index t (0 : Fin 2) * 5000 + 1 * p.val = 5000 * t.val + p.val; rw [(idx_rows t).2.2.1]; omega
  | ⟨1, _⟩ => show win10_1.index t (1 : Fin 2) * 64 + 1 * f.val = f.val; rw [(idx_rows t).2.2.2.1]; omega

/-! ## The eleven whole-array inputs -/

/-- Window 2 is not blocked: at every point its block is the whole array. -/
theorem blk2_eq (c : Dev nD) (t : Fin cfg10.N) :
    (iblk10 V c 2 t : Vec Ideal S11x64 .f32) = (V c main_v168 : S11x64.Idx → EReal) := by
  funext y
  unfold iblk10
  rw [View.read_apply]
  show V c main_v168 _ = V c main_v168 y
  refine congrArg (V c main_v168) (funext fun a => Fin.ext ?_)
  match a with
  | ⟨0, _⟩ => show win10_2.index t (0 : Fin 2) * 11 + 1 * (y 0).val = (y 0).val; rw [(idx_w2 t).1]; omega
  | ⟨1, _⟩ => show win10_2.index t (1 : Fin 2) * 64 + 1 * (y 1).val = (y 1).val; rw [(idx_w2 t).2]; omega

/-- Window 3 is not blocked: at every point its block is the whole array. -/
theorem blk3_eq (c : Dev nD) (t : Fin cfg10.N) :
    (iblk10 V c 3 t : Vec Ideal S11 .f32) = (V c main_v170 : S11.Idx → EReal) := by
  funext y
  unfold iblk10
  rw [View.read_apply]
  show V c main_v170 _ = V c main_v170 y
  refine congrArg (V c main_v170) (funext fun a => Fin.ext ?_)
  match a with
  | ⟨0, _⟩ => show win10_3.index t (0 : Fin 1) * 11 + 1 * (y 0).val = (y 0).val; rw [idx_w3 t]; omega

/-- Window 4 is not blocked: at every point its block is the whole array. -/
theorem blk4_eq (c : Dev nD) (t : Fin cfg10.N) :
    (iblk10 V c 4 t : Vec Ideal S11 .f32) = (V c main_v172 : S11.Idx → EReal) := by
  funext y
  unfold iblk10
  rw [View.read_apply]
  show V c main_v172 _ = V c main_v172 y
  refine congrArg (V c main_v172) (funext fun a => Fin.ext ?_)
  match a with
  | ⟨0, _⟩ => show win10_4.index t (0 : Fin 1) * 11 + 1 * (y 0).val = (y 0).val; rw [idx_w4 t]; omega

/-- Window 5 is not blocked: at every point its block is the whole array. -/
theorem blk5_eq (c : Dev nD) (t : Fin cfg10.N) :
    (iblk10 V c 5 t : Vec Ideal S11 .f32) = (V c main_arg8 : S11.Idx → EReal) := by
  funext y
  unfold iblk10
  rw [View.read_apply]
  show V c main_arg8 _ = V c main_arg8 y
  refine congrArg (V c main_arg8) (funext fun a => Fin.ext ?_)
  match a with
  | ⟨0, _⟩ => show win10_5.index t (0 : Fin 1) * 11 + 1 * (y 0).val = (y 0).val; rw [idx_w5 t]; omega

/-- Window 6 is not blocked: at every point its block is the whole array. -/
theorem blk6_eq (c : Dev nD) (t : Fin cfg10.N) :
    (iblk10 V c 6 t : Vec Ideal S11 .f32) = (V c main_v173 : S11.Idx → EReal) := by
  funext y
  unfold iblk10
  rw [View.read_apply]
  show V c main_v173 _ = V c main_v173 y
  refine congrArg (V c main_v173) (funext fun a => Fin.ext ?_)
  match a with
  | ⟨0, _⟩ => show win10_6.index t (0 : Fin 1) * 11 + 1 * (y 0).val = (y 0).val; rw [idx_w6 t]; omega

/-- Window 7 is not blocked: at every point its block is the whole array. -/
theorem blk7_eq (c : Dev nD) (t : Fin cfg10.N) :
    (iblk10 V c 7 t : Vec Ideal S1 .f32) = (V c main_arg10 : S1.Idx → EReal) := by
  funext y
  unfold iblk10
  rw [View.read_apply]
  show V c main_arg10 _ = V c main_arg10 y
  refine congrArg (V c main_arg10) (funext fun a => Fin.ext ?_)
  match a with
  | ⟨0, _⟩ => show win10_7.index t (0 : Fin 1) * 1 + 1 * (y 0).val = (y 0).val; rw [idx_w7 t]; omega

/-- Window 8 is not blocked: at every point its block is the whole array. -/
theorem blk8_eq (c : Dev nD) (t : Fin cfg10.N) :
    (iblk10 V c 8 t : Vec Ideal S64x64 .f32) = (V c main_v174 : S64x64.Idx → EReal) := by
  funext y
  unfold iblk10
  rw [View.read_apply]
  show V c main_v174 _ = V c main_v174 y
  refine congrArg (V c main_v174) (funext fun a => Fin.ext ?_)
  match a with
  | ⟨0, _⟩ => show win10_8.index t (0 : Fin 2) * 64 + 1 * (y 0).val = (y 0).val; rw [(idx_w8 t).1]; omega
  | ⟨1, _⟩ => show win10_8.index t (1 : Fin 2) * 64 + 1 * (y 1).val = (y 1).val; rw [(idx_w8 t).2]; omega

/-- Window 9 is not blocked: at every point its block is the whole array. -/
theorem blk9_eq (c : Dev nD) (t : Fin cfg10.N) :
    (iblk10 V c 9 t : Vec Ideal S64x64 .f32) = (V c main_v175 : S64x64.Idx → EReal) := by
  funext y
  unfold iblk10
  rw [View.read_apply]
  show V c main_v175 _ = V c main_v175 y
  refine congrArg (V c main_v175) (funext fun a => Fin.ext ?_)
  match a with
  | ⟨0, _⟩ => show win10_9.index t (0 : Fin 2) * 64 + 1 * (y 0).val = (y 0).val; rw [(idx_w9 t).1]; omega
  | ⟨1, _⟩ => show win10_9.index t (1 : Fin 2) * 64 + 1 * (y 1).val = (y 1).val; rw [(idx_w9 t).2]; omega

/-- Window 10 is not blocked: at every point its block is the whole array. -/
theorem blk10_eq (c : Dev nD) (t : Fin cfg10.N) :
    (iblk10 V c 10 t : Vec Ideal S64 .f32) = (V c main_arg4 : S64.Idx → EReal) := by
  funext y
  unfold iblk10
  rw [View.read_apply]
  show V c main_arg4 _ = V c main_arg4 y
  refine congrArg (V c main_arg4) (funext fun a => Fin.ext ?_)
  match a with
  | ⟨0, _⟩ => show win10_10.index t (0 : Fin 1) * 64 + 1 * (y 0).val = (y 0).val; rw [idx_w10 t]; omega

/-- Window 11 is not blocked: at every point its block is the whole array. -/
theorem blk11_eq (c : Dev nD) (t : Fin cfg10.N) :
    (iblk10 V c 11 t : Vec Ideal S64x16 .f32) = (V c main_arg5 : S64x16.Idx → EReal) := by
  funext y
  unfold iblk10
  rw [View.read_apply]
  show V c main_arg5 _ = V c main_arg5 y
  refine congrArg (V c main_arg5) (funext fun a => Fin.ext ?_)
  match a with
  | ⟨0, _⟩ => show win10_11.index t (0 : Fin 2) * 64 + 1 * (y 0).val = (y 0).val; rw [(idx_w11 t).1]; omega
  | ⟨1, _⟩ => show win10_11.index t (1 : Fin 2) * 16 + 1 * (y 1).val = (y 1).val; rw [(idx_w11 t).2]; omega

/-- Window 12 is not blocked: at every point its block is the whole array. -/
theorem blk12_eq (c : Dev nD) (t : Fin cfg10.N) :
    (iblk10 V c 12 t : Vec Ideal S16 .f32) = (V c main_arg6 : S16.Idx → EReal) := by
  funext y
  unfold iblk10
  rw [View.read_apply]
  show V c main_arg6 _ = V c main_arg6 y
  refine congrArg (V c main_arg6) (funext fun a => Fin.ext ?_)
  match a with
  | ⟨0, _⟩ => show win10_12.index t (0 : Fin 1) * 16 + 1 * (y 0).val = (y 0).val; rw [idx_w12 t]; omega

end Cert.MlpRegion

end
-- ==== Proof.MlpRegion.lean ====
/-
  The pair-and-classifier region, from blocks to the whole array.

  The region's grid has ten points; point t works on rows 5000·t … 5000·t + 4999.  Given what the body leaves in the
  output block as a function of its thirteen input blocks (the hypothesis hbody: entry (p, q) of the block is logit q of
  row p of the network built from the blocks), the whole [50000,16] output array after the region is the network's logits
  of the arrays the region found: the block point t writes back is block t of that one array-level function — the logits
  at row 5000·t + p read z and x only at that row, and every other operand is handed over whole —, and the ten blocks
  cover the array (row r is in the block of point r / 5000).
-/
import proofs.«135505_j17961553232124_1_alg».proof.Proof.MlpRegionRows
import proofs.«135505_j17961553232124_1_alg».proof.Proof.MlpRegionBlocks

noncomputable section

namespace Cert.MlpRegion

open Cert.KernelIdeal Cert.KernelIdeal.Gen Idealize.ShloMosaic Idealize.ShloMosaic.TcCoe Idealize.SL.Sem
open Idealize.ShloMosaic.ValueIdx
open Idealize.ShloMosaic.Pipeline (Dat)
open Cert.MlpSpec (Mat Vct kLogit)

/-- What the body leaves in the output block, entry by entry: the logits of the network over the 5000 rows of the blocks. -/
abbrev BodySpec : Prop :=
  ∀ (x0 x1 : Vec Ideal S5000x64 .f32) (x2 : Vec Ideal S11x64 .f32) (x3 x4 x5 x6 : Vec Ideal S11 .f32) (x7 : Vec Ideal S1 .f32)
    (x8 x9 : Vec Ideal S64x64 .f32) (x10 : Vec Ideal S64 .f32) (x11 : Vec Ideal S64x16 .f32) (x12 : Vec Ideal S16 .f32)
    (p : Fin 5000) (q : Fin 16),
    Cert.KernelIdeal.Gen.out10_13 (F := Ideal) x0 x1 x2 x3 x4 x5 x6 x7 x8 x9 x10 x11 x12 (ValueIdx.ix2 p q)
      = Cert.MlpSpec.kLogit 5000 x0 x1 x2 x3 x4 x5 x6 x7 x8 x9 x10 x11 x12 p q

/-- The logits of the whole arrays, as the [50000,16] array the region's output ends holding. -/
def G (z x : Mat 50000 64) (ecT : Mat 11 64) (a10 a11 ab1 a2 : Vct 11) (ab2 : Vct 1) (w1a w1b : Mat 64 64) (b1 : Vct 64)
    (w2 : Mat 64 16) (b2 : Vct 16) : S50000x16.Idx → EReal :=
  fun i => kLogit 50000 z x ecT a10 a11 ab1 a2 ab2 w1a w1b b1 w2 b2 (i 0) (i 1)

theorem G_apply (z x : Mat 50000 64) (ecT : Mat 11 64) (a10 a11 ab1 a2 : Vct 11) (ab2 : Vct 1) (w1a w1b : Mat 64 64) (b1 : Vct 64)
    (w2 : Mat 64 16) (b2 : Vct 16) (i : S50000x16.Idx) :
    G z x ecT a10 a11 ab1 a2 ab2 w1a w1b b1 w2 b2 i = kLogit 50000 z x ecT a10 a11 ab1 a2 ab2 w1a w1b b1 w2 b2 (i 0) (i 1) := rfl

/-- One entry of the block a point leaves, over variables: when the first two blocks are rows 5000·t … of z and x and the
    other eleven are the whole operands, entry (p, q) is logit q at row 5000·t + p of the whole arrays. -/
theorem point_eq (hbody : BodySpec)
    (x0 x1 : Vec Ideal S5000x64 .f32) (x2 : Vec Ideal S11x64 .f32) (x3 x4 x5 x6 : Vec Ideal S11 .f32) (x7 : Vec Ideal S1 .f32)
    (x8 x9 : Vec Ideal S64x64 .f32) (x10 : Vec Ideal S64 .f32) (x11 : Vec Ideal S64x16 .f32) (x12 : Vec Ideal S16 .f32)
    (z x : Mat 50000 64) (ecT : Mat 11 64) (a10 a11 ab1 a2 : Vct 11) (ab2 : Vct 1) (w1a w1b : Mat 64 64) (b1 : Vct 64)
    (w2 : Mat 64 16) (b2 : Vct 16) (t : Nat) (ht : t < 10)
    (h0 : ∀ (p : Fin 5000) (f : Fin 64), x0 (ix2 p f) = z (ix2 (⟨5000 * t + p.val, by omega⟩ : Fin 50000) f))
    (h1 : ∀ (p : Fin 5000) (f : Fin 64), x1 (ix2 p f) = x (ix2 (⟨5000 * t + p.val, by omega⟩ : Fin 50000) f))
    (h2 : x2 = ecT) (h3 : x3 = a10) (h4 : x4 = a11) (h5 : x5 = ab1) (h6 : x6 = a2) (h7 : x7 = ab2) (h8 : x8 = w1a)
    (h9 : x9 = w1b) (h10 : x10 = b1) (h11 : x11 = w2) (h12 : x12 = b2) (p : Fin 5000) (q : Fin 16) :
    out10_13 (F := Ideal) x0 x1 x2 x3 x4 x5 x6 x7 x8 x9 x10 x11 x12 (ix2 p q)
      = kLogit 50000 z x ecT a10 a11 ab1 a2 ab2 w1a w1b b1 w2 b2 (⟨5000 * t + p.val, by omega⟩ : Fin 50000) q := by
  subst h2 h3 h4 h5 h6 h7 h8 h9 h10 h11 h12
  rw [hbody]
  exact kLogit_congr_rows x0 x1 z x x2 x3 x4 x5 x6 x7 x8 x9 x10 x11 x12 p _ (h0 p) (h1 p) q

variable (V : (c : Dev nD) → (b : Ref sig .tc) → Buf (Elt Ideal) ((c : Thread nD τ).loc b))

/-- The output array's function at the arrays the region finds. -/
abbrev GV (c : Dev nD) : S50000x16.Idx → EReal :=
  G (V c main_v164) (V c main_arg0) (V c main_v168) (V c main_v170) (V c main_v172) (V c main_arg8) (V c main_v173)
    (V c main_arg10) (V c main_v174) (V c main_v175) (V c main_arg4) (V c main_arg5) (V c main_arg6)

/-- WHAT POINT t WRITES BACK is block t of the array-level logits. -/
theorem flushed_eq (hbody : BodySpec) (c : Dev nD) (t : Fin cfg10.N) :
    (dat10 V c).flushed 13 t = ((cfg10.win 13).blk t).view.read (Elt Ideal) (GV V c) := by
  show (cfg10.win 13).cut (grid10.coords t) ((dat10 V c).after 13 t) = _
  rw [after10_13]
  funext j
  obtain ⟨p, q, rfl⟩ : ∃ (p : Fin 5000) (q : Fin 16), j = ix2 p q := ⟨j 0, j 1, eq_ix2 j⟩
  have ht : t.val < 10 := (idx_rows t).2.2.2.2.2.2
  show out10_13 (F := Ideal) (iblk10 V c 0 t) (iblk10 V c 1 t) (iblk10 V c 2 t) (iblk10 V c 3 t) (iblk10 V c 4 t) (iblk10 V c 5 t)
      (iblk10 V c 6 t) (iblk10 V c 7 t) (iblk10 V c 8 t) (iblk10 V c 9 t) (iblk10 V c 10 t) (iblk10 V c 11 t) (iblk10 V c 12 t) (ix2 p q)
    = GV V c (((cfg10.win 13).blk t).view.emb (ix2 p q))
  have hemb : ((cfg10.win 13).blk t).view.emb (ix2 p q) = (ix2 (⟨5000 * t.val + p.val, by omega⟩ : Fin 50000) q : S50000x16.Idx) := by
    funext a; apply Fin.ext
    match a with
    | ⟨0, _⟩ => show win10_13.index t (0 : Fin 2) * 5000 + 1 * p.val = 5000 * t.val + p.val; rw [(idx_rows t).2.2.2.2.1]; omega
    | ⟨1, _⟩ => show win10_13.index t (1 : Fin 2) * 16 + 1 * q.val = q.val; rw [(idx_rows t).2.2.2.2.2.1]; omega
  rw [hemb]
  exact point_eq hbody (iblk10 V c 0 t) (iblk10 V c 1 t) (iblk10 V c 2 t) (iblk10 V c 3 t) (iblk10 V c 4 t) (iblk10 V c 5 t)
    (iblk10 V c 6 t) (iblk10 V c 7 t) (iblk10 V c 8 t) (iblk10 V c 9 t) (iblk10 V c 10 t) (iblk10 V c 11 t) (iblk10 V c 12 t)
    (V c main_v164) (V c main_arg0) (V c main_v168) (V c main_v170) (V c main_v172) (V c main_arg8) (V c main_v173)
    (V c main_arg10) (V c main_v174) (V c main_v175) (V c main_arg4) (V c main_arg5) (V c main_arg6) t.val ht
    (fun p f => blk0_apply V c t p f (by omega)) (fun p f => blk1_apply V c t p f (by omega))
    (blk2_eq V c t) (blk3_eq V c t) (blk4_eq V c t) (blk5_eq V c t) (blk6_eq V c t) (blk7_eq V c t) (blk8_eq V c t)
    (blk9_eq V c t) (blk10_eq V c t) (blk11_eq V c t) (blk12_eq V c t) p q

/-- An index of the output array is in point t's block iff each coordinate is in the block's range on its axis. -/
theorem mem_blk (t : Fin cfg10.N) (i : S50000x16.Idx) :
    i ∈ ((cfg10.win 13).blk t).view.set ↔ ∀ a : Fin 2, win10_13.index t a * S5000x16.size a ≤ (i a).val ∧ (i a).val < win10_13.index t a * S5000x16.size a + S5000x16.size a := by
  show i ∈ ((View.whole main_v176).slice (win10_13.rect t)).set ↔ _
  rw [View.set_slice_whole, Rect.mem_set_unit]
  exact Iff.rfl

/-- The ten blocks cover the output array: row r lies in the block of point r / 5000. -/
theorem cover (i : S50000x16.Idx) : ∃ t : Fin cfg10.N, (cfg10.win 13).flush t = true ∧ i ∈ ((cfg10.win 13).blk t).view.set := by
  have hi0 : (i 0).val < 50000 := idx2_lt0 i
  have hi1 : (i 1).val < 16 := idx2_lt1 i
  have hN : cfg10.N = 10 := N_10
  let t : Fin cfg10.N := ⟨(i 0).val / 5000, by rw [hN]; omega⟩
  have htv : t.val = (i 0).val / 5000 := rfl
  refine ⟨t, flush10_13 t, ?_⟩
  rw [mem_blk]
  intro a
  match a with
  | ⟨0, _⟩ => show win10_13.index t (0 : Fin 2) * 5000 ≤ (i 0).val ∧ (i 0).val < win10_13.index t (0 : Fin 2) * 5000 + 5000
              rw [(idx_rows t).2.2.2.2.1, htv]; omega
  | ⟨1, _⟩ => show win10_13.index t (1 : Fin 2) * 16 ≤ (i 1).val ∧ (i 1).val < win10_13.index t (1 : Fin 2) * 16 + 16
              rw [(idx_rows t).2.2.2.2.2.1]; omega

/-- THE OUTPUT ARRAY after the region: the network's logits of the arrays the region found, row by row. -/
theorem region10 (hbody : BodySpec) (c : Dev nD) :
    (dat10 (F := Ideal) V c).arrAt 13 cfg10.N = fun i => kLogit 50000 (V c main_v164) (V c main_arg0) (V c main_v168) (V c main_v170)
      (V c main_v172) (V c main_arg8) (V c main_v173) (V c main_arg10) (V c main_v174) (V c main_v175) (V c main_arg4)
      (V c main_arg5) (V c main_arg6) (i 0) (i 1) :=
  (dat10 V c).arrAt_eq_of_cover 13 (GV V c) (fun t _ => flushed_eq V hbody c t) cover

/-- The same, with the arrays the region found named: whatever the thirteen operands are equal to, the output array ends at
    the logits of those. -/
theorem region10_of (hbody : BodySpec) (c : Dev nD)
    (z x : Mat 50000 64) (ecT : Mat 11 64) (a10 a11 ab1 a2 : Vct 11) (ab2 : Vct 1) (w1a w1b : Mat 64 64) (b1 : Vct 64)
    (w2 : Mat 64 16) (b2 : Vct 16)
    (h0 : (V c main_v164 : S50000x64.Idx → EReal) = z) (h1 : (V c main_arg0 : S50000x64.Idx → EReal) = x)
    (h2 : (V c main_v168 : S11x64.Idx → EReal) = ecT) (h3 : (V c main_v170 : S11.Idx → EReal) = a10)
    (h4 : (V c main_v172 : S11.Idx → EReal) = a11) (h5 : (V c main_arg8 : S11.Idx → EReal) = ab1)
    (h6 : (V c main_v173 : S11.Idx → EReal) = a2) (h7 : (V c main_arg10 : S1.Idx → EReal) = ab2)
    (h8 : (V c main_v174 : S64x64.Idx → EReal) = w1a) (h9 : (V c main_v175 : S64x64.Idx → EReal) = w1b)
    (h10 : (V c main_arg4 : S64.Idx → EReal) = b1) (h11 : (V c main_arg5 : S64x16.Idx → EReal) = w2)
    (h12 : (V c main_arg6 : S16.Idx → EReal) = b2) :
    (dat10 (F := Ideal) V c).arrAt 13 cfg10.N = G z x ecT a10 a11 ab1 a2 ab2 w1a w1b b1 w2 b2 := by
  subst h0 h1 h2 h3 h4 h5 h6 h7 h8 h9 h10 h11 h12
  exact region10 V hbody c

end Cert.MlpRegion

end
-- ==== Proof.MlpBodyBase.lean ====
/-
  Small facts used to read the pair-and-classifier kernel body at one entry: the single entry of a one-element vector,
  the layout changes of a [1,64] row (flattened to 64 entries, brought back, broadcast down the rows), the two float
  literals the body uses (zero and one half) as extended reals, and a load through the whole [5000,64] block.
-/
import proofs.«135505_j17961553232124_1_alg».proof.Proof.Gen.KernelIdeal.Skeleton
import Idealize.ShloMosaic.Lib.ValueIdx
import Idealize.ShloMosaic.Lib.Pipeline.Value
import Idealize.ShloMosaic.Lib.Pipeline.FrameBody
import Idealize.ShloMosaic.PureOps.Ideal.Laws

noncomputable section

open scoped BigOperators

namespace Cert.MlpBody

open Idealize.ShloMosaic Idealize.ShloMosaic.ValueIdx Cert.KernelIdeal Cert.KernelIdeal.Gen

/-- One hidden unit of the pair network at one (row, feature): the rectified pre-activation
    `z·a + x·b + e + c` times its output weight `d`. -/
def unit (z x e a b c d : EReal) : EReal := max (z * a + x * b + e + c) 0 * d

/-- The single entry of a one-element vector. -/
theorem extract0 (v : Vec Ideal S1 .f32) : extractAt ![0] v inpos_S1_p0 = v (ix1 (0 : Fin 1)) := by
  unfold extractAt
  refine congrArg v (funext fun a => ?_)
  match a with | ⟨0, _⟩ => rfl

/-- A [1,64] row flattened to 64 entries and brought back to [1,64] is the row. -/
theorem rowCasts (e : Vec Ideal S1x64 .f32) :
    shapeCast S1x64 (shapeCast S1x64 (shapeCast S64 e shapeCasts_S1x64_S64) shapeCasts_S64_S1x64) shapeCasts_S1x64_S1x64 = e := by
  rw [shapeCast_self, shapeCast_shapeCast]

/-- A [1,64] row broadcast down 5000 rows reads the row's entry in the same column. -/
theorem rowBroadcast (e : FVec Ideal S1x64 .f32) (p : Fin 5000) (f : Fin 64) :
    broadcastTo S5000x64 e broadcasts_S1x64_S5000x64 (ix2 p f) = e (ix2 (0 : Fin 1) f) :=
  broadcastTo_apply e broadcasts_S1x64_S5000x64 (ix2 p f) (ix2 (0 : Fin 1) f) (fun a => match a with
    | ⟨0, _⟩ => by show 0 = if (1 : Nat) = 1 then 0 else _; rw [if_pos rfl]
    | ⟨1, _⟩ => by show f.val = if (64 : Nat) = 1 then 0 else f.val; rw [if_neg (by decide)])

/-- A [1,64] row flattened to 64 entries reads the row's entry in that column. -/
theorem rowFlatten (e : Vec Ideal S1x64 .f32) (f : Fin 64) :
    shapeCast S64 e shapeCasts_S1x64_S64 (ix1 f) = e (ix2 (0 : Fin 1) f) := by
  refine (shapeCast_dropUnit_apply ![64] e shapeCasts_S1x64_S64 (ix1 f)).trans (congrArg e (funext fun a => ?_))
  match a with
  | ⟨0, _⟩ => rfl
  | ⟨1, _⟩ => rfl

/-- The float word of zero is the extended real 0. -/
theorem zeroWord : (FloatOps.ofBits (F := Ideal) .f32 0x00000000#32) = (0 : EReal) := Ideal.ofBits_zero_f32

/-- The float word of one half is the extended real 1/2. -/
theorem halfWord : (FloatOps.ofBits (F := Ideal) .f32 0x3F000000#32) = ((1 / 2 : ℝ) : EReal) := by
  show Ideal.ofBits .f32 0x3F000000#32 = _
  simp [Ideal.ofBits, Ideal.ieee]
  rw [← EReal.coe_mul]
  norm_num

/-- A load through the whole [5000,64] block reads the block. -/
theorem ld_whole (x : Vec Ideal S5000x64 .f32) (inb : ∀ a, (![0, 0] : Fin 2 → Nat) a + S5000x64.size a ≤ S5000x64.size a) :
    View.ld x (Rect.unit (s := S5000x64) ![0, 0] S5000x64.size inb) = x :=
  View.ld_unit_zero (S := S5000x64) (funext fun a => by match a with | ⟨0, _⟩ => rfl | ⟨1, _⟩ => rfl) inb x

/-- The single entry of a one-element vector, with the entry typed as the body types it. -/
theorem extract0' (v : Vec Ideal S1 .f32) : (extractAt ![0] v inpos_S1_p0 : Ideal .f32) = v (ix1 (0 : Fin 1)) := extract0 v

/-- 64 entries laid out as a [1,64] row. -/
theorem vecRow (w : FVec Ideal S64 .f32) (f : Fin 64) : shapeCast S1x64 w shapeCasts_S64_S1x64 (ix2 (0 : Fin 1) f) = w (ix1 f) := by
  refine (shapeCast_addUnit_apply ![64] w shapeCasts_S64_S1x64 (ix2 (0 : Fin 1) f)).trans (congrArg w (funext fun a => ?_))
  match a with
  | ⟨0, _⟩ => rfl

end Cert.MlpBody

end
-- ==== Proof.MlpBodyPayA.lean ====
/-
  The first five values the kernel body computes, read at one (row, feature) entry: the running sum of the pair
  network's hidden units after units 0, 1 and 2, with the intermediate pieces the body carries between them.
-/
import proofs.«135505_j17961553232124_1_alg».proof.Proof.MlpBodyBase

noncomputable section

open scoped BigOperators

namespace Cert.MlpBody

open Idealize.ShloMosaic Idealize.ShloMosaic.ValueIdx Cert.KernelIdeal Cert.KernelIdeal.Gen

/-- The z block re-viewed at its own shape is the z block. -/
theorem pay1_eq (v0 : Vec Ideal S5000x64 .f32) : k10_pay1 (F := Ideal) v0 = v0 := by
  unfold k10_pay1
  exact shapeCast_self v0 shapeCasts_S5000x64_S5000x64

/-- After hidden unit 0: zero plus unit 0's contribution. -/
theorem pay2_apply (v0 v2 : Vec Ideal S5000x64 .f32) (v4 : Vec Ideal S1x64 .f32) (v6 v10 v19 v25 : Vec Ideal S1 .f32) (p : Fin 5000) (f : Fin 64) :
    k10_pay2 (F := Ideal) v0 v2 v4 v6 v10 v19 v25 (ix2 p f)
      = 0 + unit (v0 (ix2 p f)) (v2 (ix2 p f)) (v4 (ix2 (0 : Fin 1) f)) (v6 (ix1 (0 : Fin 1))) (v10 (ix1 (0 : Fin 1))) (v19 (ix1 (0 : Fin 1))) (v25 (ix1 (0 : Fin 1))) := by
  unfold k10_pay2 k10_pay1 unit
  simp only [mulf_apply, addf_apply, maximumf_apply, broadcast_apply, shapeCast_self, shapeCast_shapeCast, rowBroadcast, vecRow, rowFlatten, extract0', zeroWord]

/-- The first two products of hidden unit 1's pre-activation. -/
theorem pay3_apply (v0 v2 : Vec Ideal S5000x64 .f32) (v32 v36 : Vec Ideal S1 .f32) (p : Fin 5000) (f : Fin 64) :
    k10_pay3 (F := Ideal) v0 v2 v32 v36 (ix2 p f)
      = (v0 (ix2 p f)) * (v32 (ix1 (0 : Fin 1))) + (v2 (ix2 p f)) * (v36 (ix1 (0 : Fin 1))) := by
  unfold k10_pay3 k10_pay1
  simp only [mulf_apply, addf_apply, maximumf_apply, broadcast_apply, shapeCast_self, shapeCast_shapeCast, rowBroadcast, vecRow, rowFlatten, extract0', zeroWord]

/-- Row 1 of the embedding term, flattened and brought back, is that row. -/
theorem pay4_eq (v30 : Vec Ideal S1x64 .f32) : k10_pay4 (F := Ideal) v30 = v30 := by
  unfold k10_pay4
  exact rowCasts v30

/-- After hidden unit 2: the sum so far, unit 1 finished from its carried pieces, and unit 2. -/
theorem pay5_apply (v1 : FVec Ideal S5000x64 .f32) (v2 : Vec Ideal S5000x64 .f32) (v29 v40 : FVec Ideal S5000x64 .f32) (v42 : FVec Ideal S1x64 .f32) (v45 v51 : Vec Ideal S1 .f32) (v56 : Vec Ideal S1x64 .f32) (v58 v62 v71 v77 : Vec Ideal S1 .f32) (p : Fin 5000) (f : Fin 64) :
    k10_pay5 (F := Ideal) v1 v2 v29 v40 v42 v45 v51 v56 v58 v62 v71 v77 (ix2 p f)
      = (v29 (ix2 p f)) + max ((v40 (ix2 p f)) + (v42 (ix2 (0 : Fin 1) f)) + (v45 (ix1 (0 : Fin 1)))) 0 * (v51 (ix1 (0 : Fin 1)))
          + unit (v1 (ix2 p f)) (v2 (ix2 p f)) (v56 (ix2 (0 : Fin 1) f)) (v58 (ix1 (0 : Fin 1))) (v62 (ix1 (0 : Fin 1))) (v71 (ix1 (0 : Fin 1))) (v77 (ix1 (0 : Fin 1))) := by
  unfold k10_pay5 unit
  simp only [mulf_apply, addf_apply, maximumf_apply, broadcast_apply, shapeCast_self, shapeCast_shapeCast, rowBroadcast, vecRow, rowFlatten, extract0', zeroWord]

end Cert.MlpBody

end
-- ==== Proof.MlpBodyPayB.lean ====
/-
  The next five values of the kernel body at one (row, feature) entry: the running sum of hidden units after units
  3, 4 and 5, with the flattened rows and the product carried between them.
-/
import proofs.«135505_j17961553232124_1_alg».proof.Proof.MlpBodyBase

noncomputable section

open scoped BigOperators

namespace Cert.MlpBody

open Idealize.ShloMosaic Idealize.ShloMosaic.ValueIdx Cert.KernelIdeal Cert.KernelIdeal.Gen

/-- Row 3 of the embedding term, flattened, read in column `f`. -/
theorem pay6_apply (v82 : Vec Ideal S1x64 .f32) (f : Fin 64) : k10_pay6 (F := Ideal) v82 (ix1 f) = v82 (ix2 (0 : Fin 1) f) := by
  unfold k10_pay6
  exact rowFlatten v82 f

/-- The first product of hidden unit 3's pre-activation. -/
theorem pay7_apply (v1 : FVec Ideal S5000x64 .f32) (v84 : Vec Ideal S1 .f32) (p : Fin 5000) (f : Fin 64) :
    k10_pay7 (F := Ideal) v1 v84 (ix2 p f)
      = (v1 (ix2 p f)) * (v84 (ix1 (0 : Fin 1))) := by
  unfold k10_pay7
  simp only [mulf_apply, addf_apply, maximumf_apply, broadcast_apply, shapeCast_self, shapeCast_shapeCast, rowBroadcast, vecRow, rowFlatten, extract0', zeroWord]

/-- After hidden unit 4: the sum so far, unit 3 finished from its carried pieces, and unit 4. -/
theorem pay8_apply (v1 : FVec Ideal S5000x64 .f32) (v2 : Vec Ideal S5000x64 .f32) (v81 : FVec Ideal S5000x64 .f32) (v83 : FVec Ideal S64 .f32) (v87 : FVec Ideal S5000x64 .f32) (v88 v97 v103 : Vec Ideal S1 .f32) (v108 : Vec Ideal S1x64 .f32) (v110 v114 v123 v129 : Vec Ideal S1 .f32) (p : Fin 5000) (f : Fin 64) :
    k10_pay8 (F := Ideal) v1 v2 v81 v83 v87 v88 v97 v103 v108 v110 v114 v123 v129 (ix2 p f)
      = (v81 (ix2 p f)) + max ((v87 (ix2 p f)) + (v2 (ix2 p f)) * (v88 (ix1 (0 : Fin 1))) + (v83 (ix1 f)) + (v97 (ix1 (0 : Fin 1)))) 0 * (v103 (ix1 (0 : Fin 1)))
          + unit (v1 (ix2 p f)) (v2 (ix2 p f)) (v108 (ix2 (0 : Fin 1) f)) (v110 (ix1 (0 : Fin 1))) (v114 (ix1 (0 : Fin 1))) (v123 (ix1 (0 : Fin 1))) (v129 (ix1 (0 : Fin 1))) := by
  unfold k10_pay8 unit
  simp only [mulf_apply, addf_apply, maximumf_apply, broadcast_apply, shapeCast_self, shapeCast_shapeCast, rowBroadcast, vecRow, rowFlatten, extract0', zeroWord]

/-- Row 5 of the embedding term, flattened, read in column `f`. -/
theorem pay9_apply (v134 : Vec Ideal S1x64 .f32) (f : Fin 64) : k10_pay9 (F := Ideal) v134 (ix1 f) = v134 (ix2 (0 : Fin 1) f) := by
  unfold k10_pay9
  exact rowFlatten v134 f

/-- After hidden unit 5: the sum so far and unit 5, whose embedding row arrives flattened. -/
theorem pay10_apply (v1 : FVec Ideal S5000x64 .f32) (v2 : Vec Ideal S5000x64 .f32) (v133 : FVec Ideal S5000x64 .f32) (v135 : FVec Ideal S64 .f32) (v136 v140 v149 v155 : Vec Ideal S1 .f32) (p : Fin 5000) (f : Fin 64) :
    k10_pay10 (F := Ideal) v1 v2 v133 v135 v136 v140 v149 v155 (ix2 p f)
      = (v133 (ix2 p f)) + unit (v1 (ix2 p f)) (v2 (ix2 p f)) (v135 (ix1 f)) (v136 (ix1 (0 : Fin 1))) (v140 (ix1 (0 : Fin 1))) (v149 (ix1 (0 : Fin 1))) (v155 (ix1 (0 : Fin 1))) := by
  unfold k10_pay10 unit
  simp only [mulf_apply, addf_apply, maximumf_apply, broadcast_apply, shapeCast_self, shapeCast_shapeCast, rowBroadcast, vecRow, rowFlatten, extract0', zeroWord]

end Cert.MlpBody

end
-- ==== Proof.MlpBodyPayC.lean ====
/-
  The values of the kernel body for hidden units 6 to 10 at one (row, feature) entry: the running sum after units 7
  and 9, and the pieces of units 6, 8 and 10 the body carries separately.
-/
import proofs.«135505_j17961553232124_1_alg».proof.Proof.MlpBodyBase

noncomputable section

open scoped BigOperators

namespace Cert.MlpBody

open Idealize.ShloMosaic Idealize.ShloMosaic.ValueIdx Cert.KernelIdeal Cert.KernelIdeal.Gen

/-- Hidden unit 6's contribution. -/
theorem pay11_apply (v1 : FVec Ideal S5000x64 .f32) (v2 : Vec Ideal S5000x64 .f32) (v160 : Vec Ideal S1x64 .f32) (v162 v166 v175 v181 : Vec Ideal S1 .f32) (p : Fin 5000) (f : Fin 64) :
    k10_pay11 (F := Ideal) v1 v2 v160 v162 v166 v175 v181 (ix2 p f)
      = unit (v1 (ix2 p f)) (v2 (ix2 p f)) (v160 (ix2 (0 : Fin 1) f)) (v162 (ix1 (0 : Fin 1))) (v166 (ix1 (0 : Fin 1))) (v175 (ix1 (0 : Fin 1))) (v181 (ix1 (0 : Fin 1))) := by
  unfold k10_pay11 unit
  simp only [mulf_apply, addf_apply, maximumf_apply, broadcast_apply, shapeCast_self, shapeCast_shapeCast, rowBroadcast, vecRow, rowFlatten, extract0', zeroWord]

/-- After hidden unit 7: the sum so far, unit 6's carried contribution, and unit 7. -/
theorem pay12_apply (v1 : FVec Ideal S5000x64 .f32) (v2 : Vec Ideal S5000x64 .f32) (v159 v184 : FVec Ideal S5000x64 .f32) (v186 : Vec Ideal S1x64 .f32) (v188 v192 v201 v207 : Vec Ideal S1 .f32) (p : Fin 5000) (f : Fin 64) :
    k10_pay12 (F := Ideal) v1 v2 v159 v184 v186 v188 v192 v201 v207 (ix2 p f)
      = (v159 (ix2 p f)) + (v184 (ix2 p f)) + unit (v1 (ix2 p f)) (v2 (ix2 p f)) (v186 (ix2 (0 : Fin 1) f)) (v188 (ix1 (0 : Fin 1))) (v192 (ix1 (0 : Fin 1))) (v201 (ix1 (0 : Fin 1))) (v207 (ix1 (0 : Fin 1))) := by
  unfold k10_pay12 unit
  simp only [mulf_apply, addf_apply, maximumf_apply, broadcast_apply, shapeCast_self, shapeCast_shapeCast, rowBroadcast, vecRow, rowFlatten, extract0', zeroWord]

/-- Hidden unit 8's pre-activation. -/
theorem pay13_apply (v1 : FVec Ideal S5000x64 .f32) (v2 : Vec Ideal S5000x64 .f32) (v212 : Vec Ideal S1x64 .f32) (v214 v218 v227 : Vec Ideal S1 .f32) (p : Fin 5000) (f : Fin 64) :
    k10_pay13 (F := Ideal) v1 v2 v212 v214 v218 v227 (ix2 p f)
      = (v1 (ix2 p f)) * (v214 (ix1 (0 : Fin 1))) + (v2 (ix2 p f)) * (v218 (ix1 (0 : Fin 1))) + (v212 (ix2 (0 : Fin 1) f)) + (v227 (ix1 (0 : Fin 1))) := by
  unfold k10_pay13
  simp only [mulf_apply, addf_apply, maximumf_apply, broadcast_apply, shapeCast_self, shapeCast_shapeCast, rowBroadcast, vecRow, rowFlatten, extract0', zeroWord]

/-- The zero block the rectification compares against. -/
theorem pay14_apply (p : Fin 5000) (f : Fin 64) : k10_pay14 (F := Ideal) (ix2 p f) = 0 := by
  unfold k10_pay14
  simp only [mulf_apply, addf_apply, maximumf_apply, broadcast_apply, shapeCast_self, shapeCast_shapeCast, rowBroadcast, vecRow, rowFlatten, extract0', zeroWord]

/-- After hidden unit 9: the sum so far, unit 8 finished from its carried pre-activation, and unit 9. -/
theorem pay15_apply (v1 : FVec Ideal S5000x64 .f32) (v2 : Vec Ideal S5000x64 .f32) (v211 v230 v231 : FVec Ideal S5000x64 .f32) (v233 : Vec Ideal S1 .f32) (v238 : Vec Ideal S1x64 .f32) (v240 v244 v253 v259 : Vec Ideal S1 .f32) (p : Fin 5000) (f : Fin 64) :
    k10_pay15 (F := Ideal) v1 v2 v211 v230 v231 v233 v238 v240 v244 v253 v259 (ix2 p f)
      = (v211 (ix2 p f)) + max (v230 (ix2 p f)) (v231 (ix2 p f)) * (v233 (ix1 (0 : Fin 1)))
          + unit (v1 (ix2 p f)) (v2 (ix2 p f)) (v238 (ix2 (0 : Fin 1) f)) (v240 (ix1 (0 : Fin 1))) (v244 (ix1 (0 : Fin 1))) (v253 (ix1 (0 : Fin 1))) (v259 (ix1 (0 : Fin 1))) := by
  unfold k10_pay15 unit
  simp only [mulf_apply, addf_apply, maximumf_apply, broadcast_apply, shapeCast_self, shapeCast_shapeCast, rowBroadcast, vecRow, rowFlatten, extract0', zeroWord]

/-- Hidden unit 10's pre-activation without its bias. -/
theorem pay16_apply (v1 : FVec Ideal S5000x64 .f32) (v2 : Vec Ideal S5000x64 .f32) (v264 : Vec Ideal S1x64 .f32) (v266 v270 : Vec Ideal S1 .f32) (p : Fin 5000) (f : Fin 64) :
    k10_pay16 (F := Ideal) v1 v2 v264 v266 v270 (ix2 p f)
      = (v1 (ix2 p f)) * (v266 (ix1 (0 : Fin 1))) + (v2 (ix2 p f)) * (v270 (ix1 (0 : Fin 1))) + (v264 (ix2 (0 : Fin 1) f)) := by
  unfold k10_pay16
  simp only [mulf_apply, addf_apply, maximumf_apply, broadcast_apply, shapeCast_self, shapeCast_shapeCast, rowBroadcast, vecRow, rowFlatten, extract0', zeroWord]

end Cert.MlpBody

end
-- ==== Proof.MlpBodyPay17.lean ====
/-
  The last value of the kernel body at one (row, class) entry: hidden unit 10 closes the pair network's sum, the bias
  and the halving give the pair output, and the classifier's two layers are three products of a row by a matrix, each
  the plain sum over the 64 contracted entries.
-/
import proofs.«135505_j17961553232124_1_alg».proof.Proof.MlpBodyBase

noncomputable section

open scoped BigOperators

namespace Cert.MlpBody

open Idealize.ShloMosaic Idealize.ShloMosaic.ValueIdx Cert.KernelIdeal Cert.KernelIdeal.Gen

theorem mm64_lhs0 (i : S5000x64.Idx) (c : dot_S5000x64_S64x64_S5000x64_1_0_0_1_n_n.contr.Idx) : (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm64_rhs1 (i : S5000x64.Idx) (c : dot_S5000x64_S64x64_S5000x64_1_0_0_1_n_n.contr.Idx) : (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- A [5000,64] by [64,64] product into zero, read at an entry, is the sum over the contracted coordinate. -/
theorem mm64 (L : FVec Ideal S5000x64 .bf16) (Rr : FVec Ideal S64x64 .bf16) (p : Fin 5000) (j : Fin 64) :
    matmul dot_S5000x64_S64x64_S5000x64_1_0_0_1_n_n none L Rr (constant (F := Ideal) S5000x64 .f32 0x00000000#32) (ix2 p j)
      = ∑ k : Fin 64, L (ix2 p k) * Rr (ix2 k j) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact mm64_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (dot_S5000x64_S64x64_S5000x64_1_0_0_1_n_n.rhsIdx_val_of_single rfl _ _).trans hk
    | ⟨1, _⟩ => exact mm64_rhs1 _ _)
  rw [el, er]

theorem mm16_lhs0 (i : S5000x16.Idx) (c : dot_S5000x64_S64x16_S5000x16_1_0_0_1_n_n.contr.Idx) : (dot_S5000x64_S64x16_S5000x16_1_0_0_1_n_n.lhsIdx i c 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem mm16_rhs1 (i : S5000x16.Idx) (c : dot_S5000x64_S64x16_S5000x16_1_0_0_1_n_n.contr.Idx) : (dot_S5000x64_S64x16_S5000x16_1_0_0_1_n_n.rhsIdx i c 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl
/-- A [5000,64] by [64,16] product into zero, read at an entry, is the sum over the contracted coordinate. -/
theorem mm16 (L : FVec Ideal S5000x64 .bf16) (Rr : FVec Ideal S64x16 .bf16) (p : Fin 5000) (j : Fin 16) :
    matmul dot_S5000x64_S64x16_S5000x16_1_0_0_1_n_n none L Rr (constant (F := Ideal) S5000x16 .f32 0x00000000#32) (ix2 p j)
      = ∑ k : Fin 64, L (ix2 p k) * Rr (ix2 k j) := by
  simp only [matmul]
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p j) ((contrEquiv1 dot_S5000x64_S64x16_S5000x16_1_0_0_1_n_n 64 rfl rfl).symm k) = ix2 p k := funext fun a => Fin.ext (by
    match a with
    | ⟨0, _⟩ => exact mm16_lhs0 _ _
    | ⟨1, _⟩ => exact (dot_S5000x64_S64x16_S5000x16_1_0_0_1_n_n.lhsIdx_val_of_single rfl _ _).trans hk)
  have er : dot_S5000x64_S64x16_S5000x16_1_0_0_1_n_n.rhsIdx (ix2 p j) ((contrEquiv1 dot_S5000x64_S64x16_S5000x16_1_0_0_1_n_n 64 rfl rfl).symm k) = ix2 k j := funext fun a => Fin.ext (by
    match a with
    | ⟨0, _⟩ => exact (dot_S5000x64_S64x16_S5000x16_1_0_0_1_n_n.rhsIdx_val_of_single rfl _ _).trans hk
    | ⟨1, _⟩ => exact mm16_rhs1 _ _)
  rw [el, er]

/-- 16 entries laid out as a [1,16] row. -/
theorem vecRow16 (w : FVec Ideal S16 .f32) (q : Fin 16) : shapeCast S1x16 w shapeCasts_S16_S1x16 (ix2 (0 : Fin 1) q) = w (ix1 q) := by
  refine (shapeCast_addUnit_apply ![16] w shapeCasts_S16_S1x16 (ix2 (0 : Fin 1) q)).trans (congrArg w (funext fun a => ?_))
  match a with
  | ⟨0, _⟩ => rfl

/-- A [1,16] row broadcast down 5000 rows reads the row's entry in the same column. -/
theorem rowBroadcast16 (e : FVec Ideal S1x16 .f32) (p : Fin 5000) (q : Fin 16) :
    broadcastTo S5000x16 e broadcasts_S1x16_S5000x16 (ix2 p q) = e (ix2 (0 : Fin 1) q) :=
  broadcastTo_apply e broadcasts_S1x16_S5000x16 (ix2 p q) (ix2 (0 : Fin 1) q) (fun a => match a with
    | ⟨0, _⟩ => by show 0 = if (1 : Nat) = 1 then 0 else _; rw [if_pos rfl]
    | ⟨1, _⟩ => by show q.val = if (16 : Nat) = 1 then 0 else q.val; rw [if_neg (by decide)])

/-- The logits the body stores, at row `p` and class `q`, from the running sum `v263` of hidden units 0 to 9 and
    hidden unit 10's pre-activation without bias `v278`. -/
theorem pay17_apply (v2 : Vec Ideal S5000x64 .f32) (v263 v278 : FVec Ideal S5000x64 .f32) (v279 v285 v290 : Vec Ideal S1 .f32) (v298 v302 : Vec Ideal S64x64 .f32)
    (v307 : Vec Ideal S64 .f32) (v314 : Vec Ideal S64x16 .f32) (v317 : Vec Ideal S16 .f32) (p : Fin 5000) (q : Fin 16) :
    k10_pay17 (F := Ideal) v2 v263 v278 v279 v285 v290 v298 v302 v307 v314 v317 (ix2 p q)
      = (∑ j : Fin 64, max ((∑ k : Fin 64, ((v263 (ix2 p k) + max (v278 (ix2 p k) + (v279 (ix1 (0 : Fin 1)))) 0 * (v285 (ix1 (0 : Fin 1))) + (v290 (ix1 (0 : Fin 1))))
              * ((1 / 2 : ℝ) : EReal)) * v298 (ix2 k j))
            + (∑ k : Fin 64, v2 (ix2 p k) * v302 (ix2 k j)) + v307 (ix1 j)) 0 * v314 (ix2 j q)) + v317 (ix1 q) := by
  unfold k10_pay17
  simp only [addf_apply, mm16, mm64, truncf_apply, mulf_apply, maximumf_apply, broadcast_apply, shapeCast_self,
    rowBroadcast, rowBroadcast16, vecRow, vecRow16, extract0', zeroWord, halfWord]

end Cert.MlpBody

end
-- ==== Proof.MlpBodyLoads.lean ====
/-
  The body's loads, as functions: a load through a one-row rectangle of the [11,64] array is that row, a load through a
  one-entry rectangle of an 11-vector is that entry, and a load through a whole operand is the operand.
-/
import proofs.«135505_j17961553232124_1_alg».proof.Proof.MlpBodyBase

noncomputable section

open scoped BigOperators

namespace Cert.MlpBody

open Idealize.ShloMosaic Idealize.ShloMosaic.ValueIdx Cert.KernelIdeal Cert.KernelIdeal.Gen

/-- Row `h` of the [11,64] array as a [1,64] row. -/
def row (x : Vec Ideal S11x64 .f32) (h : Fin 11) : Vec Ideal S1x64 .f32 := fun j => x (ix2 h (j 1))
theorem row_apply (x : Vec Ideal S11x64 .f32) (h : Fin 11) (f : Fin 64) : row x h (ix2 (0 : Fin 1) f) = x (ix2 h f) := rfl
/-- Entry `h` of an 11-vector as a one-element vector. -/
def ent (x : Vec Ideal S11 .f32) (h : Fin 11) : Vec Ideal S1 .f32 := fun _ => x (ix1 h)
theorem ent_apply (x : Vec Ideal S11 .f32) (h : Fin 11) : ent x h (ix1 (0 : Fin 1)) = x (ix1 h) := rfl

/-! A load through a one-row rectangle of the [11,64] array is that row; through a one-entry rectangle of an
    11-vector, that entry. -/
theorem ld_rowfn0 (x : Vec Ideal S11x64 .f32) (inb : ∀ a, (![0, 0] : Fin 2 → Nat) a + S1x64.size a ≤ S11x64.size a) :
    View.ld x (Rect.unit (s := S11x64) ![0, 0] S1x64.size inb) = row x 0 := by
  funext j
  show x _ = x _
  refine congrArg x (funext fun a => Fin.ext ?_)
  match a with
  | ⟨0, _⟩ =>
    have h0 : (j 0).val < 1 := (j 0).isLt
    show 0 + 1 * (j 0).val = 0
    omega
  | ⟨1, _⟩ => show 0 + 1 * (j 1).val = (j 1).val; omega
theorem ld_rowfn1 (x : Vec Ideal S11x64 .f32) (inb : ∀ a, (![1, 0] : Fin 2 → Nat) a + S1x64.size a ≤ S11x64.size a) :
    View.ld x (Rect.unit (s := S11x64) ![1, 0] S1x64.size inb) = row x 1 := by
  funext j
  show x _ = x _
  refine congrArg x (funext fun a => Fin.ext ?_)
  match a with
  | ⟨0, _⟩ =>
    have h0 : (j 0).val < 1 := (j 0).isLt
    show 1 + 1 * (j 0).val = 1
    omega
  | ⟨1, _⟩ => show 0 + 1 * (j 1).val = (j 1).val; omega
theorem ld_rowfn2 (x : Vec Ideal S11x64 .f32) (inb : ∀ a, (![2, 0] : Fin 2 → Nat) a + S1x64.size a ≤ S11x64.size a) :
    View.ld x (Rect.unit (s := S11x64) ![2, 0] S1x64.size inb) = row x 2 := by
  funext j
  show x _ = x _
  refine congrArg x (funext fun a => Fin.ext ?_)
  match a with
  | ⟨0, _⟩ =>
    have h0 : (j 0).val < 1 := (j 0).isLt
    show 2 + 1 * (j 0).val = 2
    omega
  | ⟨1, _⟩ => show 0 + 1 * (j 1).val = (j 1).val; omega
theorem ld_rowfn3 (x : Vec Ideal S11x64 .f32) (inb : ∀ a, (![3, 0] : Fin 2 → Nat) a + S1x64.size a ≤ S11x64.size a) :
    View.ld x (Rect.unit (s := S11x64) ![3, 0] S1x64.size inb) = row x 3 := by
  funext j
  show x _ = x _
  refine congrArg x (funext fun a => Fin.ext ?_)
  match a with
  | ⟨0, _⟩ =>
    have h0 : (j 0).val < 1 := (j 0).isLt
    show 3 + 1 * (j 0).val = 3
    omega
  | ⟨1, _⟩ => show 0 + 1 * (j 1).val = (j 1).val; omega
theorem ld_rowfn4 (x : Vec Ideal S11x64 .f32) (inb : ∀ a, (![4, 0] : Fin 2 → Nat) a + S1x64.size a ≤ S11x64.size a) :
    View.ld x (Rect.unit (s := S11x64) ![4, 0] S1x64.size inb) = row x 4 := by
  funext j
  show x _ = x _
  refine congrArg x (funext fun a => Fin.ext ?_)
  match a with
  | ⟨0, _⟩ =>
    have h0 : (j 0).val < 1 := (j 0).isLt
    show 4 + 1 * (j 0).val = 4
    omega
  | ⟨1, _⟩ => show 0 + 1 * (j 1).val = (j 1).val; omega
theorem ld_rowfn5 (x : Vec Ideal S11x64 .f32) (inb : ∀ a, (![5, 0] : Fin 2 → Nat) a + S1x64.size a ≤ S11x64.size a) :
    View.ld x (Rect.unit (s := S11x64) ![5, 0] S1x64.size inb) = row x 5 := by
  funext j
  show x _ = x _
  refine congrArg x (funext fun a => Fin.ext ?_)
  match a with
  | ⟨0, _⟩ =>
    have h0 : (j 0).val < 1 := (j 0).isLt
    show 5 + 1 * (j 0).val = 5
    omega
  | ⟨1, _⟩ => show 0 + 1 * (j 1).val = (j 1).val; omega
theorem ld_rowfn6 (x : Vec Ideal S11x64 .f32) (inb : ∀ a, (![6, 0] : Fin 2 → Nat) a + S1x64.size a ≤ S11x64.size a) :
    View.ld x (Rect.unit (s := S11x64) ![6, 0] S1x64.size inb) = row x 6 := by
  funext j
  show x _ = x _
  refine congrArg x (funext fun a => Fin.ext ?_)
  match a with
  | ⟨0, _⟩ =>
    have h0 : (j 0).val < 1 := (j 0).isLt
    show 6 + 1 * (j 0).val = 6
    omega
  | ⟨1, _⟩ => show 0 + 1 * (j 1).val = (j 1).val; omega
theorem ld_rowfn7 (x : Vec Ideal S11x64 .f32) (inb : ∀ a, (![7, 0] : Fin 2 → Nat) a + S1x64.size a ≤ S11x64.size a) :
    View.ld x (Rect.unit (s := S11x64) ![7, 0] S1x64.size inb) = row x 7 := by
  funext j
  show x _ = x _
  refine congrArg x (funext fun a => Fin.ext ?_)
  match a with
  | ⟨0, _⟩ =>
    have h0 : (j 0).val < 1 := (j 0).isLt
    show 7 + 1 * (j 0).val = 7
    omega
  | ⟨1, _⟩ => show 0 + 1 * (j 1).val = (j 1).val; omega
theorem ld_rowfn8 (x : Vec Ideal S11x64 .f32) (inb : ∀ a, (![8, 0] : Fin 2 → Nat) a + S1x64.size a ≤ S11x64.size a) :
    View.ld x (Rect.unit (s := S11x64) ![8, 0] S1x64.size inb) = row x 8 := by
  funext j
  show x _ = x _
  refine congrArg x (funext fun a => Fin.ext ?_)
  match a with
  | ⟨0, _⟩ =>
    have h0 : (j 0).val < 1 := (j 0).isLt
    show 8 + 1 * (j 0).val = 8
    omega
  | ⟨1, _⟩ => show 0 + 1 * (j 1).val = (j 1).val; omega
theorem ld_rowfn9 (x : Vec Ideal S11x64 .f32) (inb : ∀ a, (![9, 0] : Fin 2 → Nat) a + S1x64.size a ≤ S11x64.size a) :
    View.ld x (Rect.unit (s := S11x64) ![9, 0] S1x64.size inb) = row x 9 := by
  funext j
  show x _ = x _
  refine congrArg x (funext fun a => Fin.ext ?_)
  match a with
  | ⟨0, _⟩ =>
    have h0 : (j 0).val < 1 := (j 0).isLt
    show 9 + 1 * (j 0).val = 9
    omega
  | ⟨1, _⟩ => show 0 + 1 * (j 1).val = (j 1).val; omega
theorem ld_rowfn10 (x : Vec Ideal S11x64 .f32) (inb : ∀ a, (![10, 0] : Fin 2 → Nat) a + S1x64.size a ≤ S11x64.size a) :
    View.ld x (Rect.unit (s := S11x64) ![10, 0] S1x64.size inb) = row x 10 := by
  funext j
  show x _ = x _
  refine congrArg x (funext fun a => Fin.ext ?_)
  match a with
  | ⟨0, _⟩ =>
    have h0 : (j 0).val < 1 := (j 0).isLt
    show 10 + 1 * (j 0).val = 10
    omega
  | ⟨1, _⟩ => show 0 + 1 * (j 1).val = (j 1).val; omega
theorem ld_entfn0 (x : Vec Ideal S11 .f32) (inb : ∀ a, (![0] : Fin 1 → Nat) a + S1.size a ≤ S11.size a) :
    View.ld x (Rect.unit (s := S11) ![0] S1.size inb) = ent x 0 := by
  funext j
  show x _ = x _
  refine congrArg x (funext fun a => Fin.ext ?_)
  match a with
  | ⟨0, _⟩ =>
    have h0 : (j 0).val < 1 := (j 0).isLt
    show 0 + 1 * (j 0).val = 0
    omega
theorem ld_entfn1 (x : Vec Ideal S11 .f32) (inb : ∀ a, (![1] : Fin 1 → Nat) a + S1.size a ≤ S11.size a) :
    View.ld x (Rect.unit (s := S11) ![1] S1.size inb) = ent x 1 := by
  funext j
  show x _ = x _
  refine congrArg x (funext fun a => Fin.ext ?_)
  match a with
  | ⟨0, _⟩ =>
    have h0 : (j 0).val < 1 := (j 0).isLt
    show 1 + 1 * (j 0).val = 1
    omega
theorem ld_entfn2 (x : Vec Ideal S11 .f32) (inb : ∀ a, (![2] : Fin 1 → Nat) a + S1.size a ≤ S11.size a) :
    View.ld x (Rect.unit (s := S11) ![2] S1.size inb) = ent x 2 := by
  funext j
  show x _ = x _
  refine congrArg x (funext fun a => Fin.ext ?_)
  match a with
  | ⟨0, _⟩ =>
    have h0 : (j 0).val < 1 := (j 0).isLt
    show 2 + 1 * (j 0).val = 2
    omega
theorem ld_entfn3 (x : Vec Ideal S11 .f32) (inb : ∀ a, (![3] : Fin 1 → Nat) a + S1.size a ≤ S11.size a) :
    View.ld x (Rect.unit (s := S11) ![3] S1.size inb) = ent x 3 := by
  funext j
  show x _ = x _
  refine congrArg x (funext fun a => Fin.ext ?_)
  match a with
  | ⟨0, _⟩ =>
    have h0 : (j 0).val < 1 := (j 0).isLt
    show 3 + 1 * (j 0).val = 3
    omega
theorem ld_entfn4 (x : Vec Ideal S11 .f32) (inb : ∀ a, (![4] : Fin 1 → Nat) a + S1.size a ≤ S11.size a) :
    View.ld x (Rect.unit (s := S11) ![4] S1.size inb) = ent x 4 := by
  funext j
  show x _ = x _
  refine congrArg x (funext fun a => Fin.ext ?_)
  match a with
  | ⟨0, _⟩ =>
    have h0 : (j 0).val < 1 := (j 0).isLt
    show 4 + 1 * (j 0).val = 4
    omega
theorem ld_entfn5 (x : Vec Ideal S11 .f32) (inb : ∀ a, (![5] : Fin 1 → Nat) a + S1.size a ≤ S11.size a) :
    View.ld x (Rect.unit (s := S11) ![5] S1.size inb) = ent x 5 := by
  funext j
  show x _ = x _
  refine congrArg x (funext fun a => Fin.ext ?_)
  match a with
  | ⟨0, _⟩ =>
    have h0 : (j 0).val < 1 := (j 0).isLt
    show 5 + 1 * (j 0).val = 5
    omega
theorem ld_entfn6 (x : Vec Ideal S11 .f32) (inb : ∀ a, (![6] : Fin 1 → Nat) a + S1.size a ≤ S11.size a) :
    View.ld x (Rect.unit (s := S11) ![6] S1.size inb) = ent x 6 := by
  funext j
  show x _ = x _
  refine congrArg x (funext fun a => Fin.ext ?_)
  match a with
  | ⟨0, _⟩ =>
    have h0 : (j 0).val < 1 := (j 0).isLt
    show 6 + 1 * (j 0).val = 6
    omega
theorem ld_entfn7 (x : Vec Ideal S11 .f32) (inb : ∀ a, (![7] : Fin 1 → Nat) a + S1.size a ≤ S11.size a) :
    View.ld x (Rect.unit (s := S11) ![7] S1.size inb) = ent x 7 := by
  funext j
  show x _ = x _
  refine congrArg x (funext fun a => Fin.ext ?_)
  match a with
  | ⟨0, _⟩ =>
    have h0 : (j 0).val < 1 := (j 0).isLt
    show 7 + 1 * (j 0).val = 7
    omega
theorem ld_entfn8 (x : Vec Ideal S11 .f32) (inb : ∀ a, (![8] : Fin 1 → Nat) a + S1.size a ≤ S11.size a) :
    View.ld x (Rect.unit (s := S11) ![8] S1.size inb) = ent x 8 := by
  funext j
  show x _ = x _
  refine congrArg x (funext fun a => Fin.ext ?_)
  match a with
  | ⟨0, _⟩ =>
    have h0 : (j 0).val < 1 := (j 0).isLt
    show 8 + 1 * (j 0).val = 8
    omega
theorem ld_entfn9 (x : Vec Ideal S11 .f32) (inb : ∀ a, (![9] : Fin 1 → Nat) a + S1.size a ≤ S11.size a) :
    View.ld x (Rect.unit (s := S11) ![9] S1.size inb) = ent x 9 := by
  funext j
  show x _ = x _
  refine congrArg x (funext fun a => Fin.ext ?_)
  match a with
  | ⟨0, _⟩ =>
    have h0 : (j 0).val < 1 := (j 0).isLt
    show 9 + 1 * (j 0).val = 9
    omega
theorem ld_entfn10 (x : Vec Ideal S11 .f32) (inb : ∀ a, (![10] : Fin 1 → Nat) a + S1.size a ≤ S11.size a) :
    View.ld x (Rect.unit (s := S11) ![10] S1.size inb) = ent x 10 := by
  funext j
  show x _ = x _
  refine congrArg x (funext fun a => Fin.ext ?_)
  match a with
  | ⟨0, _⟩ =>
    have h0 : (j 0).val < 1 := (j 0).isLt
    show 10 + 1 * (j 0).val = 10
    omega

/-- A load through the whole block of each remaining operand reads the operand. -/
theorem ld_one (x : Vec Ideal S1 .f32) (inb : ∀ a, (![0] : Fin 1 → Nat) a + S1.size a ≤ S1.size a) :
    View.ld x (Rect.unit (s := S1) ![0] S1.size inb) = x :=
  View.ld_unit_zero (S := S1) (funext fun a => by match a with | ⟨0, _⟩ => rfl) inb x
theorem ld_w1 (x : Vec Ideal S64x64 .f32) (inb : ∀ a, (![0, 0] : Fin 2 → Nat) a + S64x64.size a ≤ S64x64.size a) :
    View.ld x (Rect.unit (s := S64x64) ![0, 0] S64x64.size inb) = x :=
  View.ld_unit_zero (S := S64x64) (funext fun a => by match a with | ⟨0, _⟩ => rfl | ⟨1, _⟩ => rfl) inb x
theorem ld_b1 (x : Vec Ideal S64 .f32) (inb : ∀ a, (![0] : Fin 1 → Nat) a + S64.size a ≤ S64.size a) :
    View.ld x (Rect.unit (s := S64) ![0] S64.size inb) = x :=
  View.ld_unit_zero (S := S64) (funext fun a => by match a with | ⟨0, _⟩ => rfl) inb x
theorem ld_w2 (x : Vec Ideal S64x16 .f32) (inb : ∀ a, (![0, 0] : Fin 2 → Nat) a + S64x16.size a ≤ S64x16.size a) :
    View.ld x (Rect.unit (s := S64x16) ![0, 0] S64x16.size inb) = x :=
  View.ld_unit_zero (S := S64x16) (funext fun a => by match a with | ⟨0, _⟩ => rfl | ⟨1, _⟩ => rfl) inb x
theorem ld_b2 (x : Vec Ideal S16 .f32) (inb : ∀ a, (![0] : Fin 1 → Nat) a + S16.size a ≤ S16.size a) :
    View.ld x (Rect.unit (s := S16) ![0] S16.size inb) = x :=
  View.ld_unit_zero (S := S16) (funext fun a => by match a with | ⟨0, _⟩ => rfl) inb x

end Cert.MlpBody

end
-- ==== Proof.MlpBodyCore.lean ====
/-
  The kernel body's stored value at one (row, class) entry, in closed form: the loads are replaced by the operands' rows
  and entries, each computed value by its formula at the entry, and the eleven hidden units' contributions, which the body
  accumulates one after another, are collected into one sum over the hidden units.
-/
import proofs.«135505_j17961553232124_1_alg».proof.Proof.MlpBodyPayA
import proofs.«135505_j17961553232124_1_alg».proof.Proof.MlpBodyPayB
import proofs.«135505_j17961553232124_1_alg».proof.Proof.MlpBodyPayC
import proofs.«135505_j17961553232124_1_alg».proof.Proof.MlpBodyPay17
import proofs.«135505_j17961553232124_1_alg».proof.Proof.MlpBodyLoads

noncomputable section

open scoped BigOperators

namespace Cert.MlpBody

open Idealize.ShloMosaic Idealize.ShloMosaic.ValueIdx Cert.KernelIdeal Cert.KernelIdeal.Gen

/-- Eleven terms added one after another, starting from zero, are the sum over the eleven indices. -/
theorem sum11 (g : Fin 11 → EReal) :
    ∑ h, g h = 0 + g 0 + g 1 + g 2 + g 3 + g 4 + g 5 + g 6 + g 7 + g 8 + g 9 + g 10 := by
  simp only [Fin.sum_univ_castSucc, Fin.sum_univ_zero]
  rfl

/-- The value the body stores, read at row `p` and class `q`, is the pair network followed by the classifier on that
    row: the eleven hidden units' contributions, accumulated one after another, are their sum. -/
theorem body_apply (x0 x1 : Vec Ideal S5000x64 .f32) (x2 : Vec Ideal S11x64 .f32) (x3 x4 x5 x6 : Vec Ideal S11 .f32)
    (x7 : Vec Ideal S1 .f32) (x8 x9 : Vec Ideal S64x64 .f32) (x10 : Vec Ideal S64 .f32) (x11 : Vec Ideal S64x16 .f32) (x12 : Vec Ideal S16 .f32) (p : Fin 5000) (q : Fin 16) :
    k10_pay17 (F := Ideal) (View.ld x1 (Rect.unit (s := S5000x64) ![0, 0] S5000x64.size inb_S5000x64_S5000x64_0_0)) (k10_pay15 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (k10_pay12 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (k10_pay10 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (k10_pay8 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (k10_pay5 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (k10_pay2 (View.ld x0 (Rect.unit (s := S5000x64) ![0, 0] S5000x64.size inb_S5000x64_S5000x64_0_0)) (View.ld x1 (Rect.unit (s := S5000x64) ![0, 0] S5000x64.size inb_S5000x64_S5000x64_0_0)) (View.ld x2 (Rect.unit (s := S11x64) ![0, 0] S1x64.size inb_S11x64_S1x64_0_0)) (View.ld x3 (Rect.unit (s := S11) ![0] S1.size inb_S11_S1_0)) (View.ld x4 (Rect.unit (s := S11) ![0] S1.size inb_S11_S1_0)) (View.ld x5 (Rect.unit (s := S11) ![0] S1.size inb_S11_S1_0)) (View.ld x6 (Rect.unit (s := S11) ![0] S1.size inb_S11_S1_0))) (k10_pay3 (View.ld x0 (Rect.unit (s := S5000x64) ![0, 0] S5000x64.size inb_S5000x64_S5000x64_0_0)) (View.ld x1 (Rect.unit (s := S5000x64) ![0, 0] S5000x64.size inb_S5000x64_S5000x64_0_0)) (View.ld x3 (Rect.unit (s := S11) ![1] S1.size inb_S11_S1_1)) (View.ld x4 (Rect.unit (s := S11) ![1] S1.size inb_S11_S1_1))) (k10_pay4 (View.ld x2 (Rect.unit (s := S11x64) ![1, 0] S1x64.size inb_S11x64_S1x64_1_0))) (View.ld x5 (Rect.unit (s := S11) ![1] S1.size inb_S11_S1_1)) (View.ld x6 (Rect.unit (s := S11) ![1] S1.size inb_S11_S1_1)) (View.ld x2 (Rect.unit (s := S11x64) ![2, 0] S1x64.size inb_S11x64_S1x64_2_0)) (View.ld x3 (Rect.unit (s := S11) ![2] S1.size inb_S11_S1_2)) (View.ld x4 (Rect.unit (s := S11) ![2] S1.size inb_S11_S1_2)) (View.ld x5 (Rect.unit (s := S11) ![2] S1.size inb_S11_S1_2)) (View.ld x6 (Rect.unit (s := S11) ![2] S1.size inb_S11_S1_2))) (k10_pay6 (View.ld x2 (Rect.unit (s := S11x64) ![3, 0] S1x64.size inb_S11x64_S1x64_3_0))) (k10_pay7 (k10_pay1 (View.ld x0 (Rect.unit (s := S5000x64) ![0, 0] S5000x64.size inb_S5000x64_S5000x64_0_0))) (View.ld x3 (Rect.unit (s := S11) ![3] S1.size inb_S11_S1_3))) (View.ld x4 (Rect.unit (s := S11) ![3] S1.size inb_S11_S1_3)) (View.ld x5 (Rect.unit (s := S11) ![3] S1.size inb_S11_S1_3)) (View.ld x6 (Rect.unit (s := S11) ![3] S1.size inb_S11_S1_3)) (View.ld x2 (Rect.unit (s := S11x64) ![4, 0] S1x64.size inb_S11x64_S1x64_4_0)) (View.ld x3 (Rect.unit (s := S11) ![4] S1.size inb_S11_S1_4)) (View.ld x4 (Rect.unit (s := S11) ![4] S1.size inb_S11_S1_4)) (View.ld x5 (Rect.unit (s := S11) ![4] S1.size inb_S11_S1_4)) (View.ld x6 (Rect.unit (s := S11) ![4] S1.size inb_S11_S1_4))) (k10_pay9 (View.ld x2 (Rect.unit (s := S11x64) ![5, 0] S1x64.size inb_S11x64_S1x64_5_0))) (View.ld x3 (Rect.unit (s := S11) ![5] S1.size inb_S11_S1_5)) (View.ld x4 (Rect.unit (s := S11) ![5] S1.size inb_S11_S1_5)) (View.ld x5 (Rect.unit (s := S11) ![5] S1.size inb_S11_S1_5)) (View.ld x6 (Rect.unit (s := S11) ![5] S1.size inb_S11_S1_5))) (k10_pay11 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (View.ld x2 (Rect.unit (s := S11x64) ![6, 0] S1x64.size inb_S11x64_S1x64_6_0)) (View.ld x3 (Rect.unit (s := S11) ![6] S1.size inb_S11_S1_6)) (View.ld x4 (Rect.unit (s := S11) ![6] S1.size inb_S11_S1_6)) (View.ld x5 (Rect.unit (s := S11) ![6] S1.size inb_S11_S1_6)) (View.ld x6 (Rect.unit (s := S11) ![6] S1.size inb_S11_S1_6))) (View.ld x2 (Rect.unit (s := S11x64) ![7, 0] S1x64.size inb_S11x64_S1x64_7_0)) (View.ld x3 (Rect.unit (s := S11) ![7] S1.size inb_S11_S1_7)) (View.ld x4 (Rect.unit (s := S11) ![7] S1.size inb_S11_S1_7)) (View.ld x5 (Rect.unit (s := S11) ![7] S1.size inb_S11_S1_7)) (View.ld x6 (Rect.unit (s := S11) ![7] S1.size inb_S11_S1_7))) (k10_pay13 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (View.ld x2 (Rect.unit (s := S11x64) ![8, 0] S1x64.size inb_S11x64_S1x64_8_0)) (View.ld x3 (Rect.unit (s := S11) ![8] S1.size inb_S11_S1_8)) (View.ld x4 (Rect.unit (s := S11) ![8] S1.size inb_S11_S1_8)) (View.ld x5 (Rect.unit (s := S11) ![8] S1.size inb_S11_S1_8))) (k10_pay14 (F := Ideal)) (View.ld x6 (Rect.unit (s := S11) ![8] S1.size inb_S11_S1_8)) (View.ld x2 (Rect.unit (s := S11x64) ![9, 0] S1x64.size inb_S11x64_S1x64_9_0)) (View.ld x3 (Rect.unit (s := S11) ![9] S1.size inb_S11_S1_9)) (View.ld x4 (Rect.unit (s := S11) ![9] S1.size inb_S11_S1_9)) (View.ld x5 (Rect.unit (s := S11) ![9] S1.size inb_S11_S1_9)) (View.ld x6 (Rect.unit (s := S11) ![9] S1.size inb_S11_S1_9))) (k10_pay16 (k10_pay1 (View.ld x0 (Rect.unit (s := S5000x64) ![0, 0] S5000x64.size inb_S5000x64_S5000x64_0_0))) (View.ld x1 (Rect.unit (s := S5000x64) ![0, 0] S5000x64.size inb_S5000x64_S5000x64_0_0)) (View.ld x2 (Rect.unit (s := S11x64) ![10, 0] S1x64.size inb_S11x64_S1x64_10_0)) (View.ld x3 (Rect.unit (s := S11) ![10] S1.size inb_S11_S1_10)) (View.ld x4 (Rect.unit (s := S11) ![10] S1.size inb_S11_S1_10))) (View.ld x5 (Rect.unit (s := S11) ![10] S1.size inb_S11_S1_10)) (View.ld x6 (Rect.unit (s := S11) ![10] S1.size inb_S11_S1_10)) (View.ld x7 (Rect.unit (s := S1) ![0] S1.size inb_S1_S1_0)) (View.ld x8 (Rect.unit (s := S64x64) ![0, 0] S64x64.size inb_S64x64_S64x64_0_0)) (View.ld x9 (Rect.unit (s := S64x64) ![0, 0] S64x64.size inb_S64x64_S64x64_0_0)) (View.ld x10 (Rect.unit (s := S64) ![0] S64.size inb_S64_S64_0)) (View.ld x11 (Rect.unit (s := S64x16) ![0, 0] S64x16.size inb_S64x16_S64x16_0_0)) (View.ld x12 (Rect.unit (s := S16) ![0] S16.size inb_S16_S16_0)) (ix2 p q)
      = (∑ j : Fin 64, max ((∑ k : Fin 64, (((∑ h : Fin 11, max (x0 (ix2 p k) * x3 (ix1 h) + x1 (ix2 p k) * x4 (ix1 h) + x2 (ix2 h k) + x5 (ix1 h)) 0 * x6 (ix1 h))
              + x7 (ix1 (0 : Fin 1))) * ((1 / 2 : ℝ) : EReal)) * x8 (ix2 k j))
            + (∑ k : Fin 64, x1 (ix2 p k) * x9 (ix2 k j)) + x10 (ix1 j)) 0 * x11 (ix2 j q)) + x12 (ix1 q) := by
  rw [ld_whole x0, ld_whole x1, ld_rowfn0 x2, ld_rowfn1 x2, ld_rowfn2 x2, ld_rowfn3 x2, ld_rowfn4 x2, ld_rowfn5 x2, ld_rowfn6 x2, ld_rowfn7 x2, ld_rowfn8 x2, ld_rowfn9 x2, ld_rowfn10 x2, ld_entfn0 x3, ld_entfn0 x4, ld_entfn0 x5, ld_entfn0 x6, ld_entfn1 x3, ld_entfn1 x4, ld_entfn1 x5, ld_entfn1 x6, ld_entfn2 x3, ld_entfn2 x4, ld_entfn2 x5, ld_entfn2 x6, ld_entfn3 x3, ld_entfn3 x4, ld_entfn3 x5, ld_entfn3 x6, ld_entfn4 x3, ld_entfn4 x4, ld_entfn4 x5, ld_entfn4 x6, ld_entfn5 x3, ld_entfn5 x4, ld_entfn5 x5, ld_entfn5 x6, ld_entfn6 x3, ld_entfn6 x4, ld_entfn6 x5, ld_entfn6 x6, ld_entfn7 x3, ld_entfn7 x4, ld_entfn7 x5, ld_entfn7 x6, ld_entfn8 x3, ld_entfn8 x4, ld_entfn8 x5, ld_entfn8 x6, ld_entfn9 x3, ld_entfn9 x4, ld_entfn9 x5, ld_entfn9 x6, ld_entfn10 x3, ld_entfn10 x4, ld_entfn10 x5, ld_entfn10 x6, ld_one x7, ld_w1 x8, ld_w1 x9, ld_b1 x10, ld_w2 x11, ld_b2 x12]
  rw [pay17_apply]
  simp only [pay15_apply, pay16_apply, pay14_apply, pay13_apply, pay12_apply, pay11_apply, pay10_apply, pay9_apply, pay8_apply,
    pay7_apply, pay6_apply, pay5_apply, pay4_eq, pay3_apply, pay2_apply, pay1_eq, row_apply, ent_apply, unit, sum11]

end Cert.MlpBody

end
-- ==== Proof.MlpBody.lean ====
/-
  What the pair-and-classifier kernel body leaves in its output block, read at an entry, is the network as the kernel
  arranges it over the block's 5000 rows, applied to the thirteen input blocks.
-/
import proofs.«135505_j17961553232124_1_alg».proof.Proof.MlpBodyCore
import proofs.«135505_j17961553232124_1_alg».proof.Proof.MlpSpec
import proofs.«135505_j17961553232124_1_alg».proof.Proof.Gen.KernelIdeal.Frame

noncomputable section

open scoped BigOperators

namespace Cert.MlpBody

open Idealize.ShloMosaic Idealize.ShloMosaic.ValueIdx Cert.KernelIdeal Cert.KernelIdeal.Gen

/-- What the body leaves in the output block, read at row `p` and class `q`, is the prepared-operand form of the
    network on that row. -/
theorem out10_13_apply (x0 x1 : Vec Ideal S5000x64 .f32) (x2 : Vec Ideal S11x64 .f32) (x3 x4 x5 x6 : Vec Ideal S11 .f32)
    (x7 : Vec Ideal S1 .f32) (x8 x9 : Vec Ideal S64x64 .f32) (x10 : Vec Ideal S64 .f32) (x11 : Vec Ideal S64x16 .f32) (x12 : Vec Ideal S16 .f32) (p : Fin 5000) (q : Fin 16) :
    Cert.KernelIdeal.Gen.out10_13 (F := Ideal) x0 x1 x2 x3 x4 x5 x6 x7 x8 x9 x10 x11 x12 (ix2 p q)
      = Cert.MlpSpec.kLogit 5000 x0 x1 x2 x3 x4 x5 x6 x7 x8 x9 x10 x11 x12 p q := by
  unfold Cert.KernelIdeal.Gen.out10_13
  rw [View.canon_unit_zero (S := S5000x16) (funext fun a => by match a with | ⟨0, _⟩ => rfl | ⟨1, _⟩ => rfl)]
  exact (body_apply x0 x1 x2 x3 x4 x5 x6 x7 x8 x9 x10 x11 x12 p q).trans rfl

end Cert.MlpBody

end
-- ==== Proof.ChainB.lean ====
/-
  The dense region of the idealized kernel program, between the two diffusion loops.

  The host operations before it cut the pair network's and the classifier's weights into the operands the kernel body
  wants; the region then leaves, row block by row block, the 16 logits of every node.  Read against the boundary before
  the stretch — ten feature-column steps in the first operand, the argument arrays elsewhere — that is the dense
  network's function of the launched arrays.
-/
import proofs.«135505_j17961553232124_1_alg».proof.Proof.ChainDefs
import proofs.«135505_j17961553232124_1_alg».proof.Proof.ChainA
import proofs.«135505_j17961553232124_1_alg».proof.Proof.HostStep10
import proofs.«135505_j17961553232124_1_alg».proof.Proof.MlpPrep
import proofs.«135505_j17961553232124_1_alg».proof.Proof.MlpRegion
import proofs.«135505_j17961553232124_1_alg».proof.Proof.MlpBody

noncomputable section

namespace Cert.ChainB

open Idealize.ShloMosaic Idealize.ShloMosaic.TcCoe Idealize.SL.Sem Idealize.ShloMosaic.StableHlo
open Cert.KernelIdeal Cert.KernelIdeal.Gen Cert.ConvK Cert.BlendSpec
open Cert.ChainDefs

variable (m : (ℓ : Loc nD τ sig) → Buf (Elt Ideal) ℓ) (ρ : Dev nD → PrngReg) (c : Dev nD)

theorem keep22 : Keep m c (W22 m ρ c) := Cert.ChainA.keep22 m ρ c

theorem keep23 : Keep m c (W23 m ρ c) :=
  ⟨(HostStep10.keep (W22 m ρ c) main_arg0 (by decide)).trans (keep22 m ρ c).a0,
   (HostStep10.keep (W22 m ρ c) main_arg1 (by decide)).trans (keep22 m ρ c).a1,
   (HostStep10.keep (W22 m ρ c) main_arg2 (by decide)).trans (keep22 m ρ c).a2,
   (HostStep10.keep (W22 m ρ c) main_arg3 (by decide)).trans (keep22 m ρ c).a3,
   (HostStep10.keep (W22 m ρ c) main_arg4 (by decide)).trans (keep22 m ρ c).a4,
   (HostStep10.keep (W22 m ρ c) main_arg5 (by decide)).trans (keep22 m ρ c).a5,
   (HostStep10.keep (W22 m ρ c) main_arg6 (by decide)).trans (keep22 m ρ c).a6,
   (HostStep10.keep (W22 m ρ c) main_arg7 (by decide)).trans (keep22 m ρ c).a7,
   (HostStep10.keep (W22 m ρ c) main_arg8 (by decide)).trans (keep22 m ρ c).a8,
   (HostStep10.keep (W22 m ρ c) main_arg9 (by decide)).trans (keep22 m ρ c).a9,
   (HostStep10.keep (W22 m ρ c) main_arg10 (by decide)).trans (keep22 m ρ c).a10,
   (HostStep10.keep (W22 m ρ c) main_arg11 (by decide)).trans (keep22 m ρ c).a11,
   (HostStep10.keep (W22 m ρ c) main_v24 (by decide)).trans (keep22 m ρ c).nrm⟩

theorem keep24 : Keep m c (W24 m ρ c) :=
  ⟨((W24_arr m ρ c 1).trans (((dat10 (V23 m ρ) c).arrAt_in 1 rfl _).trans (A_eq10 (V23 m ρ) c 1))).trans (keep23 m ρ c).a0,
   (W24_of_ne m ρ c main_arg1 (by decide)).trans (keep23 m ρ c).a1,
   (W24_of_ne m ρ c main_arg2 (by decide)).trans (keep23 m ρ c).a2,
   (W24_of_ne m ρ c main_arg3 (by decide)).trans (keep23 m ρ c).a3,
   ((W24_arr m ρ c 10).trans (((dat10 (V23 m ρ) c).arrAt_in 10 rfl _).trans (A_eq10 (V23 m ρ) c 10))).trans (keep23 m ρ c).a4,
   ((W24_arr m ρ c 11).trans (((dat10 (V23 m ρ) c).arrAt_in 11 rfl _).trans (A_eq10 (V23 m ρ) c 11))).trans (keep23 m ρ c).a5,
   ((W24_arr m ρ c 12).trans (((dat10 (V23 m ρ) c).arrAt_in 12 rfl _).trans (A_eq10 (V23 m ρ) c 12))).trans (keep23 m ρ c).a6,
   (W24_of_ne m ρ c main_arg7 (by decide)).trans (keep23 m ρ c).a7,
   ((W24_arr m ρ c 5).trans (((dat10 (V23 m ρ) c).arrAt_in 5 rfl _).trans (A_eq10 (V23 m ρ) c 5))).trans (keep23 m ρ c).a8,
   (W24_of_ne m ρ c main_arg9 (by decide)).trans (keep23 m ρ c).a9,
   ((W24_arr m ρ c 7).trans (((dat10 (V23 m ρ) c).arrAt_in 7 rfl _).trans (A_eq10 (V23 m ρ) c 7))).trans (keep23 m ρ c).a10,
   (W24_of_ne m ρ c main_arg11 (by decide)).trans (keep23 m ρ c).a11,
   (W24_of_ne m ρ c main_v24 (by decide)).trans (keep23 m ρ c).nrm⟩

/-- The first operand at the region's entry: ten feature-column steps from the input features. -/
theorem z23 : W23 m ρ c (Proc.devRef .tc main_v164) = iter (step64 m c) (X m c) 10 :=
  (HostStep10.keep (W22 m ρ c) main_v164 (by decide)).trans (Cert.ChainA.val22 m ρ c)

/-- The prepared operands at the region's entry, from the launched weight arrays. -/
theorem ecT23 : W23 m ρ c (Proc.devRef .tc main_v168) = Cert.MlpPrep.ecT (m ((c : Thread nD τ).loc main_arg7)) (m ((c : Thread nD τ).loc main_arg11)) := by
  have h := Cert.MlpPrep.prep_v168 (W22 m ρ c)
  rw [(keep22 m ρ c).a7, (keep22 m ρ c).a11] at h
  exact h
theorem a10_23 : W23 m ρ c (Proc.devRef .tc main_v170) = Cert.MlpPrep.a10 (m ((c : Thread nD τ).loc main_arg7)) := by
  have h := Cert.MlpPrep.prep_v170 (W22 m ρ c)
  rw [(keep22 m ρ c).a7] at h
  exact h
theorem a11_23 : W23 m ρ c (Proc.devRef .tc main_v172) = Cert.MlpPrep.a11 (m ((c : Thread nD τ).loc main_arg7)) := by
  have h := Cert.MlpPrep.prep_v172 (W22 m ρ c)
  rw [(keep22 m ρ c).a7] at h
  exact h
theorem a2_23 : W23 m ρ c (Proc.devRef .tc main_v173) = Cert.MlpPrep.a2 (m ((c : Thread nD τ).loc main_arg9)) := by
  have h := Cert.MlpPrep.prep_v173 (W22 m ρ c)
  rw [(keep22 m ρ c).a9] at h
  exact h
theorem w1a_23 : W23 m ρ c (Proc.devRef .tc main_v174) = Cert.MlpPrep.w1a (m ((c : Thread nD τ).loc main_arg3)) := by
  have h := Cert.MlpPrep.prep_v174 (W22 m ρ c)
  rw [(keep22 m ρ c).a3] at h
  exact h
theorem w1b_23 : W23 m ρ c (Proc.devRef .tc main_v175) = Cert.MlpPrep.w1b (m ((c : Thread nD τ).loc main_arg3)) := by
  have h := Cert.MlpPrep.prep_v175 (W22 m ρ c)
  rw [(keep22 m ρ c).a3] at h
  exact h

/-- The logits the dense region leaves. -/
theorem val24 : W24 m ρ c (Proc.devRef .tc main_v176) = G0 m c := by
  refine (W24_arr m ρ c 13).trans ((Cert.MlpRegion.region10_of (V23 m ρ) Cert.MlpBody.out10_13_apply c
    (iter (step64 m c) (X m c) 10) (m ((c : Thread nD τ).loc main_arg0))
    (Cert.MlpPrep.ecT (m ((c : Thread nD τ).loc main_arg7)) (m ((c : Thread nD τ).loc main_arg11)))
    (Cert.MlpPrep.a10 (m ((c : Thread nD τ).loc main_arg7))) (Cert.MlpPrep.a11 (m ((c : Thread nD τ).loc main_arg7)))
    (m ((c : Thread nD τ).loc main_arg8)) (Cert.MlpPrep.a2 (m ((c : Thread nD τ).loc main_arg9)))
    (m ((c : Thread nD τ).loc main_arg10)) (Cert.MlpPrep.w1a (m ((c : Thread nD τ).loc main_arg3)))
    (Cert.MlpPrep.w1b (m ((c : Thread nD τ).loc main_arg3))) (m ((c : Thread nD τ).loc main_arg4))
    (m ((c : Thread nD τ).loc main_arg5)) (m ((c : Thread nD τ).loc main_arg6))
    (z23 m ρ c) (keep23 m ρ c).a0 (ecT23 m ρ c) (a10_23 m ρ c) (a11_23 m ρ c) (keep23 m ρ c).a8 (a2_23 m ρ c)
    (keep23 m ρ c).a10 (w1a_23 m ρ c) (w1b_23 m ρ c) (keep23 m ρ c).a4 (keep23 m ρ c).a5 (keep23 m ρ c).a6).trans ?_)
  funext i
  rw [Cert.MlpRegion.G_apply]
  exact Cert.MlpPrep.kLogit_prep (iter (step64 m c) (X m c) 10) (m ((c : Thread nD τ).loc main_arg0))
    (m ((c : Thread nD τ).loc main_arg7)) (m ((c : Thread nD τ).loc main_arg11)) (m ((c : Thread nD τ).loc main_arg8))
    (m ((c : Thread nD τ).loc main_arg9)) (m ((c : Thread nD τ).loc main_arg10)) (m ((c : Thread nD τ).loc main_arg3))
    (m ((c : Thread nD τ).loc main_arg4)) (m ((c : Thread nD τ).loc main_arg5)) (m ((c : Thread nD τ).loc main_arg6)) (i 0) (i 1)

end Cert.ChainB

end
-- ==== Proof.HostStep11.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep11

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v176`'s contents. -/
theorem value : StableHlo.after (hostOps11 (F := Ideal)) W (Proc.devRef .tc main_v189)
    = conv16 (W (Proc.devRef .tc main_arg1)) (W (Proc.devRef .tc main_arg2)) (W (Proc.devRef .tc main_v24)) (W (Proc.devRef .tc main_v176)) := by
  after_results
  unfold conv16 wrap
  with_reducible rfl

/-- The buffers the stretch writes. -/
def written : List (Ref sig .tc) := [main_c_37, main_v177, main_v178, main_c_38, main_v179, main_v180, main_v181, main_v182, main_v183, main_v184, main_v185, main_v186, main_cst_39, main_v187, main_v188, main_v189]

theorem writes_sub : (hostOps11 (F := Ideal)).Forall fun op => op.writes ⊆ (written.map (Proc.devRef (τ := τ) .tc)).toFinset := by
  simp only [hostOps11, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps11 (F := Ideal)) W (Proc.devRef .tc r) = W (Proc.devRef .tc r) :=
  StableHlo.after_of_writes_sub _ _ writes_sub hr

end Cert.HostStep11

end
-- ==== Proof.HostStep12.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep12

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v190`'s contents. -/
theorem value : StableHlo.after (hostOps12 (F := Ideal)) W (Proc.devRef .tc main_v203)
    = conv16 (W (Proc.devRef .tc main_arg1)) (W (Proc.devRef .tc main_arg2)) (W (Proc.devRef .tc main_v24)) (W (Proc.devRef .tc main_v190)) := by
  after_results
  unfold conv16 wrap
  with_reducible rfl

/-- The buffers the stretch writes. -/
def written : List (Ref sig .tc) := [main_c_40, main_v191, main_v192, main_c_41, main_v193, main_v194, main_v195, main_v196, main_v197, main_v198, main_v199, main_v200, main_cst_42, main_v201, main_v202, main_v203]

theorem writes_sub : (hostOps12 (F := Ideal)).Forall fun op => op.writes ⊆ (written.map (Proc.devRef (τ := τ) .tc)).toFinset := by
  simp only [hostOps12, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps12 (F := Ideal)) W (Proc.devRef .tc r) = W (Proc.devRef .tc r) :=
  StableHlo.after_of_writes_sub _ _ writes_sub hr

end Cert.HostStep12

end
-- ==== Proof.HostStep13.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep13

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v204`'s contents. -/
theorem value : StableHlo.after (hostOps13 (F := Ideal)) W (Proc.devRef .tc main_v217)
    = conv16 (W (Proc.devRef .tc main_arg1)) (W (Proc.devRef .tc main_arg2)) (W (Proc.devRef .tc main_v24)) (W (Proc.devRef .tc main_v204)) := by
  after_results
  unfold conv16 wrap
  with_reducible rfl

/-- The buffers the stretch writes. -/
def written : List (Ref sig .tc) := [main_c_43, main_v205, main_v206, main_c_44, main_v207, main_v208, main_v209, main_v210, main_v211, main_v212, main_v213, main_v214, main_cst_45, main_v215, main_v216, main_v217]

theorem writes_sub : (hostOps13 (F := Ideal)).Forall fun op => op.writes ⊆ (written.map (Proc.devRef (τ := τ) .tc)).toFinset := by
  simp only [hostOps13, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps13 (F := Ideal)) W (Proc.devRef .tc r) = W (Proc.devRef .tc r) :=
  StableHlo.after_of_writes_sub _ _ writes_sub hr

end Cert.HostStep13

end
-- ==== Proof.HostStep14.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep14

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v218`'s contents. -/
theorem value : StableHlo.after (hostOps14 (F := Ideal)) W (Proc.devRef .tc main_v231)
    = conv16 (W (Proc.devRef .tc main_arg1)) (W (Proc.devRef .tc main_arg2)) (W (Proc.devRef .tc main_v24)) (W (Proc.devRef .tc main_v218)) := by
  after_results
  unfold conv16 wrap
  with_reducible rfl

/-- The buffers the stretch writes. -/
def written : List (Ref sig .tc) := [main_c_46, main_v219, main_v220, main_c_47, main_v221, main_v222, main_v223, main_v224, main_v225, main_v226, main_v227, main_v228, main_cst_48, main_v229, main_v230, main_v231]

theorem writes_sub : (hostOps14 (F := Ideal)).Forall fun op => op.writes ⊆ (written.map (Proc.devRef (τ := τ) .tc)).toFinset := by
  simp only [hostOps14, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps14 (F := Ideal)) W (Proc.devRef .tc r) = W (Proc.devRef .tc r) :=
  StableHlo.after_of_writes_sub _ _ writes_sub hr

end Cert.HostStep14

end
-- ==== Proof.HostStep15.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep15

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v232`'s contents. -/
theorem value : StableHlo.after (hostOps15 (F := Ideal)) W (Proc.devRef .tc main_v245)
    = conv16 (W (Proc.devRef .tc main_arg1)) (W (Proc.devRef .tc main_arg2)) (W (Proc.devRef .tc main_v24)) (W (Proc.devRef .tc main_v232)) := by
  after_results
  unfold conv16 wrap
  with_reducible rfl

/-- The buffers the stretch writes. -/
def written : List (Ref sig .tc) := [main_c_49, main_v233, main_v234, main_c_50, main_v235, main_v236, main_v237, main_v238, main_v239, main_v240, main_v241, main_v242, main_cst_51, main_v243, main_v244, main_v245]

theorem writes_sub : (hostOps15 (F := Ideal)).Forall fun op => op.writes ⊆ (written.map (Proc.devRef (τ := τ) .tc)).toFinset := by
  simp only [hostOps15, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps15 (F := Ideal)) W (Proc.devRef .tc r) = W (Proc.devRef .tc r) :=
  StableHlo.after_of_writes_sub _ _ writes_sub hr

end Cert.HostStep15

end
-- ==== Proof.HostStep16.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep16

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v246`'s contents. -/
theorem value : StableHlo.after (hostOps16 (F := Ideal)) W (Proc.devRef .tc main_v259)
    = conv16 (W (Proc.devRef .tc main_arg1)) (W (Proc.devRef .tc main_arg2)) (W (Proc.devRef .tc main_v24)) (W (Proc.devRef .tc main_v246)) := by
  after_results
  unfold conv16 wrap
  with_reducible rfl

/-- The buffers the stretch writes. -/
def written : List (Ref sig .tc) := [main_c_52, main_v247, main_v248, main_c_53, main_v249, main_v250, main_v251, main_v252, main_v253, main_v254, main_v255, main_v256, main_cst_54, main_v257, main_v258, main_v259]

theorem writes_sub : (hostOps16 (F := Ideal)).Forall fun op => op.writes ⊆ (written.map (Proc.devRef (τ := τ) .tc)).toFinset := by
  simp only [hostOps16, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps16 (F := Ideal)) W (Proc.devRef .tc r) = W (Proc.devRef .tc r) :=
  StableHlo.after_of_writes_sub _ _ writes_sub hr

end Cert.HostStep16

end
-- ==== Proof.HostStep17.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep17

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v260`'s contents. -/
theorem value : StableHlo.after (hostOps17 (F := Ideal)) W (Proc.devRef .tc main_v273)
    = conv16 (W (Proc.devRef .tc main_arg1)) (W (Proc.devRef .tc main_arg2)) (W (Proc.devRef .tc main_v24)) (W (Proc.devRef .tc main_v260)) := by
  after_results
  unfold conv16 wrap
  with_reducible rfl

/-- The buffers the stretch writes. -/
def written : List (Ref sig .tc) := [main_c_55, main_v261, main_v262, main_c_56, main_v263, main_v264, main_v265, main_v266, main_v267, main_v268, main_v269, main_v270, main_cst_57, main_v271, main_v272, main_v273]

theorem writes_sub : (hostOps17 (F := Ideal)).Forall fun op => op.writes ⊆ (written.map (Proc.devRef (τ := τ) .tc)).toFinset := by
  simp only [hostOps17, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps17 (F := Ideal)) W (Proc.devRef .tc r) = W (Proc.devRef .tc r) :=
  StableHlo.after_of_writes_sub _ _ writes_sub hr

end Cert.HostStep17

end
-- ==== Proof.HostStep18.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep18

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v274`'s contents. -/
theorem value : StableHlo.after (hostOps18 (F := Ideal)) W (Proc.devRef .tc main_v287)
    = conv16 (W (Proc.devRef .tc main_arg1)) (W (Proc.devRef .tc main_arg2)) (W (Proc.devRef .tc main_v24)) (W (Proc.devRef .tc main_v274)) := by
  after_results
  unfold conv16 wrap
  with_reducible rfl

/-- The buffers the stretch writes. -/
def written : List (Ref sig .tc) := [main_c_58, main_v275, main_v276, main_c_59, main_v277, main_v278, main_v279, main_v280, main_v281, main_v282, main_v283, main_v284, main_cst_60, main_v285, main_v286, main_v287]

theorem writes_sub : (hostOps18 (F := Ideal)).Forall fun op => op.writes ⊆ (written.map (Proc.devRef (τ := τ) .tc)).toFinset := by
  simp only [hostOps18, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps18 (F := Ideal)) W (Proc.devRef .tc r) = W (Proc.devRef .tc r) :=
  StableHlo.after_of_writes_sub _ _ writes_sub hr

end Cert.HostStep18

end
-- ==== Proof.HostStep19.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep19

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v288`'s contents. -/
theorem value : StableHlo.after (hostOps19 (F := Ideal)) W (Proc.devRef .tc main_v301)
    = conv16 (W (Proc.devRef .tc main_arg1)) (W (Proc.devRef .tc main_arg2)) (W (Proc.devRef .tc main_v24)) (W (Proc.devRef .tc main_v288)) := by
  after_results
  unfold conv16 wrap
  with_reducible rfl

/-- The buffers the stretch writes. -/
def written : List (Ref sig .tc) := [main_c_61, main_v289, main_v290, main_c_62, main_v291, main_v292, main_v293, main_v294, main_v295, main_v296, main_v297, main_v298, main_cst_63, main_v299, main_v300, main_v301]

theorem writes_sub : (hostOps19 (F := Ideal)).Forall fun op => op.writes ⊆ (written.map (Proc.devRef (τ := τ) .tc)).toFinset := by
  simp only [hostOps19, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps19 (F := Ideal)) W (Proc.devRef .tc r) = W (Proc.devRef .tc r) :=
  StableHlo.after_of_writes_sub _ _ writes_sub hr

end Cert.HostStep19

end
-- ==== Proof.HostStep20.lean ====
/-
  The host operations between two regions: one propagation over the 16 columns.

  From any buffer contents `W`, the stretch leaves at its last buffer the propagation of the previous region's output
  under the edge list and the edge weights that `W` holds, and it leaves every buffer it does not write as it was.
-/
import proofs.«135505_j17961553232124_1_alg».proof.Proof.Gen.KernelIdeal.Launch
import proofs.«135505_j17961553232124_1_alg».proof.Proof.ConvK
import Idealize.ShloMosaic.Lib.StableHlo.Run

noncomputable section

namespace Cert.HostStep20

open Idealize.ShloMosaic Idealize.ShloMosaic.TcCoe Idealize.ShloMosaic.StableHlo Cert.KernelIdeal Cert.KernelIdeal.Gen Cert.ConvK

variable (W : Valuation τ sig (Elt Ideal))

set_option maxHeartbeats 2000000 in
/-- The stretch's result: the propagation of `main_v302`'s contents. -/
theorem value : StableHlo.after (hostOps20 (F := Ideal)) W (Proc.devRef .tc main_v315)
    = conv16 (W (Proc.devRef .tc main_arg1)) (W (Proc.devRef .tc main_arg2)) (W (Proc.devRef .tc main_v24)) (W (Proc.devRef .tc main_v302)) := by
  after_results
  unfold conv16 wrap
  with_reducible rfl

/-- The buffers the stretch writes. -/
def written : List (Ref sig .tc) := [main_c_64, main_v303, main_v304, main_c_65, main_v305, main_v306, main_v307, main_v308, main_v309, main_v310, main_v311, main_v312, main_cst_66, main_v313, main_v314, main_v315]

theorem writes_sub : (hostOps20 (F := Ideal)).Forall fun op => op.writes ⊆ (written.map (Proc.devRef (τ := τ) .tc)).toFinset := by
  simp only [hostOps20, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (hostOps20 (F := Ideal)) W (Proc.devRef .tc r) = W (Proc.devRef .tc r) :=
  StableHlo.after_of_writes_sub _ _ writes_sub hr

end Cert.HostStep20

end
-- ==== Proof.BlendRegion11.lean ====
/-
  Blend region 11: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion11

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k11_pay1 (F := Ideal) x0 x1 = blend x0 x1 := by
  funext j
  unfold k11_pay1
  simp only [shapeCast_self]
  rfl

/-- The three index maps agree at every point, and the output's block indices run over 0..4 × {0}. -/
theorem idx_facts : ∀ t : Fin cfg11.N, win11_0.index t (0 : Fin 2) = win11_2.index t (0 : Fin 2)
    ∧ win11_0.index t (1 : Fin 2) = win11_2.index t (1 : Fin 2)
    ∧ win11_1.index t (0 : Fin 2) = win11_2.index t (0 : Fin 2)
    ∧ win11_1.index t (1 : Fin 2) = win11_2.index t (1 : Fin 2)
    ∧ win11_2.index t (0 : Fin 2) ≤ 4 ∧ win11_2.index t (1 : Fin 2) = 0 :=
  (by decide +kernel : ∀ t : Fin grid11.N, _)

/-- Every row block is some point's. -/
theorem idx_onto : ∀ (q0 : Fin 5), ∃ t : Fin cfg11.N, win11_2.index t = ![q0.val, 0] :=
  (by decide +kernel : ∀ (q0 : Fin 5), ∃ t : Fin grid11.N, win11_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg11.N) :
    (dat11 V c).flushed 2 t = ((cfg11.win 2).blk t).view.read (Elt Ideal) (blend (V c main_v189) (V c main_v176)) := by
  show (cfg11.win 2).cut (grid11.coords t) ((dat11 V c).after 2 t) = _
  rw [after11_2]
  unfold out11_2
  rw [View.canon_unit_zero hz]
  simp only [View.ld_unit_zero (S := S10000x16) hz]
  rw [pay_eq]
  obtain ⟨e0, e1, e2, e3, e4, e5⟩ := idx_facts t
  funext j
  have h0 : ((cfg11.win 0).blk t).view.emb j = ((cfg11.win 2).blk t).view.emb j := by
    funext a; apply Fin.ext
    match a with
    | ⟨0, _⟩ => show win11_0.index t (0 : Fin 2) * 10000 + 1 * (j 0).val = win11_2.index t (0 : Fin 2) * 10000 + 1 * (j 0).val; omega
    | ⟨1, _⟩ => show win11_0.index t (1 : Fin 2) * 16 + 1 * (j 1).val = win11_2.index t (1 : Fin 2) * 16 + 1 * (j 1).val; omega
  have h1 : ((cfg11.win 1).blk t).view.emb j = ((cfg11.win 2).blk t).view.emb j := by
    funext a; apply Fin.ext
    match a with
    | ⟨0, _⟩ => show win11_1.index t (0 : Fin 2) * 10000 + 1 * (j 0).val = win11_2.index t (0 : Fin 2) * 10000 + 1 * (j 0).val; omega
    | ⟨1, _⟩ => show win11_1.index t (1 : Fin 2) * 16 + 1 * (j 1).val = win11_2.index t (1 : Fin 2) * 16 + 1 * (j 1).val; omega
  show blend (fun y => V c main_v189 (((cfg11.win 0).blk t).view.emb y)) (fun y => V c main_v176 (((cfg11.win 1).blk t).view.emb y)) j
      = blend (V c main_v189) (V c main_v176) (((cfg11.win 2).blk t).view.emb j)
  exact blend_comp _ _ _ _ _ j h0 h1

/-- An index of the array is in point `t`'s block iff each coordinate is in the block's range on its axis. -/
theorem mem_blk (t : Fin cfg11.N) (i : S50000x16.Idx) :
    i ∈ ((cfg11.win 2).blk t).view.set ↔ ∀ a : Fin 2, win11_2.index t a * S10000x16.size a ≤ (i a).val ∧ (i a).val < win11_2.index t a * S10000x16.size a + S10000x16.size a := by
  show i ∈ ((View.whole main_v190).slice (win11_2.rect t)).set ↔ _
  rw [View.set_slice_whole, Rect.mem_set_unit]
  exact Iff.rfl

/-- Row `r` lies in the block of the point whose row block is `r / 10000`. -/
theorem cover (i : S50000x16.Idx) :
    ∃ t : Fin cfg11.N, (cfg11.win 2).flush t = true ∧ i ∈ ((cfg11.win 2).blk t).view.set := by
  have hi0 : (i 0).val < 50000 := (i 0).isLt
  have hi1 : (i 1).val < 16 := (i 1).isLt
  obtain ⟨t, ht⟩ := idx_onto ⟨(i 0).val / 10000, by omega⟩
  have q0 : win11_2.index t (0 : Fin 2) = (i 0).val / 10000 := congrFun ht 0
  have q1 : win11_2.index t (1 : Fin 2) = 0 := congrFun ht 1
  refine ⟨t, flush11_2 t, ?_⟩
  rw [mem_blk]
  intro a
  match a with
  | ⟨0, _⟩ => show win11_2.index t (0 : Fin 2) * 10000 ≤ (i 0).val ∧ (i 0).val < win11_2.index t (0 : Fin 2) * 10000 + 10000; omega
  | ⟨1, _⟩ => show win11_2.index t (1 : Fin 2) * 16 ≤ (i 1).val ∧ (i 1).val < win11_2.index t (1 : Fin 2) * 16 + 16; omega

/-- The output array when the region ends: the blend of the two input arrays as the region found them. -/
theorem final (c : Dev nD) : (dat11 V c).arrAt 2 cfg11.N = blend (V c main_v189) (V c main_v176) :=
  (dat11 V c).arrAt_eq_of_cover 2 _ (fun t _ => flushed_eq V c t) cover

end Cert.BlendRegion11

end
-- ==== Proof.BlendRegion12.lean ====
/-
  Blend region 12: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion12

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k12_pay1 (F := Ideal) x0 x1 = blend x0 x1 := by
  funext j
  unfold k12_pay1
  simp only [shapeCast_self]
  rfl

/-- The three index maps agree at every point, and the output's block indices run over 0..4 × {0}. -/
theorem idx_facts : ∀ t : Fin cfg12.N, win12_0.index t (0 : Fin 2) = win12_2.index t (0 : Fin 2)
    ∧ win12_0.index t (1 : Fin 2) = win12_2.index t (1 : Fin 2)
    ∧ win12_1.index t (0 : Fin 2) = win12_2.index t (0 : Fin 2)
    ∧ win12_1.index t (1 : Fin 2) = win12_2.index t (1 : Fin 2)
    ∧ win12_2.index t (0 : Fin 2) ≤ 4 ∧ win12_2.index t (1 : Fin 2) = 0 :=
  (by decide +kernel : ∀ t : Fin grid12.N, _)

/-- Every row block is some point's. -/
theorem idx_onto : ∀ (q0 : Fin 5), ∃ t : Fin cfg12.N, win12_2.index t = ![q0.val, 0] :=
  (by decide +kernel : ∀ (q0 : Fin 5), ∃ t : Fin grid12.N, win12_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg12.N) :
    (dat12 V c).flushed 2 t = ((cfg12.win 2).blk t).view.read (Elt Ideal) (blend (V c main_v203) (V c main_v176)) := by
  show (cfg12.win 2).cut (grid12.coords t) ((dat12 V c).after 2 t) = _
  rw [after12_2]
  unfold out12_2
  rw [View.canon_unit_zero hz]
  simp only [View.ld_unit_zero (S := S10000x16) hz]
  rw [pay_eq]
  obtain ⟨e0, e1, e2, e3, e4, e5⟩ := idx_facts t
  funext j
  have h0 : ((cfg12.win 0).blk t).view.emb j = ((cfg12.win 2).blk t).view.emb j := by
    funext a; apply Fin.ext
    match a with
    | ⟨0, _⟩ => show win12_0.index t (0 : Fin 2) * 10000 + 1 * (j 0).val = win12_2.index t (0 : Fin 2) * 10000 + 1 * (j 0).val; omega
    | ⟨1, _⟩ => show win12_0.index t (1 : Fin 2) * 16 + 1 * (j 1).val = win12_2.index t (1 : Fin 2) * 16 + 1 * (j 1).val; omega
  have h1 : ((cfg12.win 1).blk t).view.emb j = ((cfg12.win 2).blk t).view.emb j := by
    funext a; apply Fin.ext
    match a with
    | ⟨0, _⟩ => show win12_1.index t (0 : Fin 2) * 10000 + 1 * (j 0).val = win12_2.index t (0 : Fin 2) * 10000 + 1 * (j 0).val; omega
    | ⟨1, _⟩ => show win12_1.index t (1 : Fin 2) * 16 + 1 * (j 1).val = win12_2.index t (1 : Fin 2) * 16 + 1 * (j 1).val; omega
  show blend (fun y => V c main_v203 (((cfg12.win 0).blk t).view.emb y)) (fun y => V c main_v176 (((cfg12.win 1).blk t).view.emb y)) j
      = blend (V c main_v203) (V c main_v176) (((cfg12.win 2).blk t).view.emb j)
  exact blend_comp _ _ _ _ _ j h0 h1

/-- An index of the array is in point `t`'s block iff each coordinate is in the block's range on its axis. -/
theorem mem_blk (t : Fin cfg12.N) (i : S50000x16.Idx) :
    i ∈ ((cfg12.win 2).blk t).view.set ↔ ∀ a : Fin 2, win12_2.index t a * S10000x16.size a ≤ (i a).val ∧ (i a).val < win12_2.index t a * S10000x16.size a + S10000x16.size a := by
  show i ∈ ((View.whole main_v204).slice (win12_2.rect t)).set ↔ _
  rw [View.set_slice_whole, Rect.mem_set_unit]
  exact Iff.rfl

/-- Row `r` lies in the block of the point whose row block is `r / 10000`. -/
theorem cover (i : S50000x16.Idx) :
    ∃ t : Fin cfg12.N, (cfg12.win 2).flush t = true ∧ i ∈ ((cfg12.win 2).blk t).view.set := by
  have hi0 : (i 0).val < 50000 := (i 0).isLt
  have hi1 : (i 1).val < 16 := (i 1).isLt
  obtain ⟨t, ht⟩ := idx_onto ⟨(i 0).val / 10000, by omega⟩
  have q0 : win12_2.index t (0 : Fin 2) = (i 0).val / 10000 := congrFun ht 0
  have q1 : win12_2.index t (1 : Fin 2) = 0 := congrFun ht 1
  refine ⟨t, flush12_2 t, ?_⟩
  rw [mem_blk]
  intro a
  match a with
  | ⟨0, _⟩ => show win12_2.index t (0 : Fin 2) * 10000 ≤ (i 0).val ∧ (i 0).val < win12_2.index t (0 : Fin 2) * 10000 + 10000; omega
  | ⟨1, _⟩ => show win12_2.index t (1 : Fin 2) * 16 ≤ (i 1).val ∧ (i 1).val < win12_2.index t (1 : Fin 2) * 16 + 16; omega

/-- The output array when the region ends: the blend of the two input arrays as the region found them. -/
theorem final (c : Dev nD) : (dat12 V c).arrAt 2 cfg12.N = blend (V c main_v203) (V c main_v176) :=
  (dat12 V c).arrAt_eq_of_cover 2 _ (fun t _ => flushed_eq V c t) cover

end Cert.BlendRegion12

end
-- ==== Proof.BlendRegion13.lean ====
/-
  Blend region 13: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion13

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k13_pay1 (F := Ideal) x0 x1 = blend x0 x1 := by
  funext j
  unfold k13_pay1
  simp only [shapeCast_self]
  rfl

/-- The three index maps agree at every point, and the output's block indices run over 0..4 × {0}. -/
theorem idx_facts : ∀ t : Fin cfg13.N, win13_0.index t (0 : Fin 2) = win13_2.index t (0 : Fin 2)
    ∧ win13_0.index t (1 : Fin 2) = win13_2.index t (1 : Fin 2)
    ∧ win13_1.index t (0 : Fin 2) = win13_2.index t (0 : Fin 2)
    ∧ win13_1.index t (1 : Fin 2) = win13_2.index t (1 : Fin 2)
    ∧ win13_2.index t (0 : Fin 2) ≤ 4 ∧ win13_2.index t (1 : Fin 2) = 0 :=
  (by decide +kernel : ∀ t : Fin grid13.N, _)

/-- Every row block is some point's. -/
theorem idx_onto : ∀ (q0 : Fin 5), ∃ t : Fin cfg13.N, win13_2.index t = ![q0.val, 0] :=
  (by decide +kernel : ∀ (q0 : Fin 5), ∃ t : Fin grid13.N, win13_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg13.N) :
    (dat13 V c).flushed 2 t = ((cfg13.win 2).blk t).view.read (Elt Ideal) (blend (V c main_v217) (V c main_v176)) := by
  show (cfg13.win 2).cut (grid13.coords t) ((dat13 V c).after 2 t) = _
  rw [after13_2]
  unfold out13_2
  rw [View.canon_unit_zero hz]
  simp only [View.ld_unit_zero (S := S10000x16) hz]
  rw [pay_eq]
  obtain ⟨e0, e1, e2, e3, e4, e5⟩ := idx_facts t
  funext j
  have h0 : ((cfg13.win 0).blk t).view.emb j = ((cfg13.win 2).blk t).view.emb j := by
    funext a; apply Fin.ext
    match a with
    | ⟨0, _⟩ => show win13_0.index t (0 : Fin 2) * 10000 + 1 * (j 0).val = win13_2.index t (0 : Fin 2) * 10000 + 1 * (j 0).val; omega
    | ⟨1, _⟩ => show win13_0.index t (1 : Fin 2) * 16 + 1 * (j 1).val = win13_2.index t (1 : Fin 2) * 16 + 1 * (j 1).val; omega
  have h1 : ((cfg13.win 1).blk t).view.emb j = ((cfg13.win 2).blk t).view.emb j := by
    funext a; apply Fin.ext
    match a with
    | ⟨0, _⟩ => show win13_1.index t (0 : Fin 2) * 10000 + 1 * (j 0).val = win13_2.index t (0 : Fin 2) * 10000 + 1 * (j 0).val; omega
    | ⟨1, _⟩ => show win13_1.index t (1 : Fin 2) * 16 + 1 * (j 1).val = win13_2.index t (1 : Fin 2) * 16 + 1 * (j 1).val; omega
  show blend (fun y => V c main_v217 (((cfg13.win 0).blk t).view.emb y)) (fun y => V c main_v176 (((cfg13.win 1).blk t).view.emb y)) j
      = blend (V c main_v217) (V c main_v176) (((cfg13.win 2).blk t).view.emb j)
  exact blend_comp _ _ _ _ _ j h0 h1

/-- An index of the array is in point `t`'s block iff each coordinate is in the block's range on its axis. -/
theorem mem_blk (t : Fin cfg13.N) (i : S50000x16.Idx) :
    i ∈ ((cfg13.win 2).blk t).view.set ↔ ∀ a : Fin 2, win13_2.index t a * S10000x16.size a ≤ (i a).val ∧ (i a).val < win13_2.index t a * S10000x16.size a + S10000x16.size a := by
  show i ∈ ((View.whole main_v218).slice (win13_2.rect t)).set ↔ _
  rw [View.set_slice_whole, Rect.mem_set_unit]
  exact Iff.rfl

/-- Row `r` lies in the block of the point whose row block is `r / 10000`. -/
theorem cover (i : S50000x16.Idx) :
    ∃ t : Fin cfg13.N, (cfg13.win 2).flush t = true ∧ i ∈ ((cfg13.win 2).blk t).view.set := by
  have hi0 : (i 0).val < 50000 := (i 0).isLt
  have hi1 : (i 1).val < 16 := (i 1).isLt
  obtain ⟨t, ht⟩ := idx_onto ⟨(i 0).val / 10000, by omega⟩
  have q0 : win13_2.index t (0 : Fin 2) = (i 0).val / 10000 := congrFun ht 0
  have q1 : win13_2.index t (1 : Fin 2) = 0 := congrFun ht 1
  refine ⟨t, flush13_2 t, ?_⟩
  rw [mem_blk]
  intro a
  match a with
  | ⟨0, _⟩ => show win13_2.index t (0 : Fin 2) * 10000 ≤ (i 0).val ∧ (i 0).val < win13_2.index t (0 : Fin 2) * 10000 + 10000; omega
  | ⟨1, _⟩ => show win13_2.index t (1 : Fin 2) * 16 ≤ (i 1).val ∧ (i 1).val < win13_2.index t (1 : Fin 2) * 16 + 16; omega

/-- The output array when the region ends: the blend of the two input arrays as the region found them. -/
theorem final (c : Dev nD) : (dat13 V c).arrAt 2 cfg13.N = blend (V c main_v217) (V c main_v176) :=
  (dat13 V c).arrAt_eq_of_cover 2 _ (fun t _ => flushed_eq V c t) cover

end Cert.BlendRegion13

end
-- ==== Proof.BlendRegion14.lean ====
/-
  Blend region 14: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion14

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k14_pay1 (F := Ideal) x0 x1 = blend x0 x1 := by
  funext j
  unfold k14_pay1
  simp only [shapeCast_self]
  rfl

/-- The three index maps agree at every point, and the output's block indices run over 0..4 × {0}. -/
theorem idx_facts : ∀ t : Fin cfg14.N, win14_0.index t (0 : Fin 2) = win14_2.index t (0 : Fin 2)
    ∧ win14_0.index t (1 : Fin 2) = win14_2.index t (1 : Fin 2)
    ∧ win14_1.index t (0 : Fin 2) = win14_2.index t (0 : Fin 2)
    ∧ win14_1.index t (1 : Fin 2) = win14_2.index t (1 : Fin 2)
    ∧ win14_2.index t (0 : Fin 2) ≤ 4 ∧ win14_2.index t (1 : Fin 2) = 0 :=
  (by decide +kernel : ∀ t : Fin grid14.N, _)

/-- Every row block is some point's. -/
theorem idx_onto : ∀ (q0 : Fin 5), ∃ t : Fin cfg14.N, win14_2.index t = ![q0.val, 0] :=
  (by decide +kernel : ∀ (q0 : Fin 5), ∃ t : Fin grid14.N, win14_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg14.N) :
    (dat14 V c).flushed 2 t = ((cfg14.win 2).blk t).view.read (Elt Ideal) (blend (V c main_v231) (V c main_v176)) := by
  show (cfg14.win 2).cut (grid14.coords t) ((dat14 V c).after 2 t) = _
  rw [after14_2]
  unfold out14_2
  rw [View.canon_unit_zero hz]
  simp only [View.ld_unit_zero (S := S10000x16) hz]
  rw [pay_eq]
  obtain ⟨e0, e1, e2, e3, e4, e5⟩ := idx_facts t
  funext j
  have h0 : ((cfg14.win 0).blk t).view.emb j = ((cfg14.win 2).blk t).view.emb j := by
    funext a; apply Fin.ext
    match a with
    | ⟨0, _⟩ => show win14_0.index t (0 : Fin 2) * 10000 + 1 * (j 0).val = win14_2.index t (0 : Fin 2) * 10000 + 1 * (j 0).val; omega
    | ⟨1, _⟩ => show win14_0.index t (1 : Fin 2) * 16 + 1 * (j 1).val = win14_2.index t (1 : Fin 2) * 16 + 1 * (j 1).val; omega
  have h1 : ((cfg14.win 1).blk t).view.emb j = ((cfg14.win 2).blk t).view.emb j := by
    funext a; apply Fin.ext
    match a with
    | ⟨0, _⟩ => show win14_1.index t (0 : Fin 2) * 10000 + 1 * (j 0).val = win14_2.index t (0 : Fin 2) * 10000 + 1 * (j 0).val; omega
    | ⟨1, _⟩ => show win14_1.index t (1 : Fin 2) * 16 + 1 * (j 1).val = win14_2.index t (1 : Fin 2) * 16 + 1 * (j 1).val; omega
  show blend (fun y => V c main_v231 (((cfg14.win 0).blk t).view.emb y)) (fun y => V c main_v176 (((cfg14.win 1).blk t).view.emb y)) j
      = blend (V c main_v231) (V c main_v176) (((cfg14.win 2).blk t).view.emb j)
  exact blend_comp _ _ _ _ _ j h0 h1

/-- An index of the array is in point `t`'s block iff each coordinate is in the block's range on its axis. -/
theorem mem_blk (t : Fin cfg14.N) (i : S50000x16.Idx) :
    i ∈ ((cfg14.win 2).blk t).view.set ↔ ∀ a : Fin 2, win14_2.index t a * S10000x16.size a ≤ (i a).val ∧ (i a).val < win14_2.index t a * S10000x16.size a + S10000x16.size a := by
  show i ∈ ((View.whole main_v232).slice (win14_2.rect t)).set ↔ _
  rw [View.set_slice_whole, Rect.mem_set_unit]
  exact Iff.rfl

/-- Row `r` lies in the block of the point whose row block is `r / 10000`. -/
theorem cover (i : S50000x16.Idx) :
    ∃ t : Fin cfg14.N, (cfg14.win 2).flush t = true ∧ i ∈ ((cfg14.win 2).blk t).view.set := by
  have hi0 : (i 0).val < 50000 := (i 0).isLt
  have hi1 : (i 1).val < 16 := (i 1).isLt
  obtain ⟨t, ht⟩ := idx_onto ⟨(i 0).val / 10000, by omega⟩
  have q0 : win14_2.index t (0 : Fin 2) = (i 0).val / 10000 := congrFun ht 0
  have q1 : win14_2.index t (1 : Fin 2) = 0 := congrFun ht 1
  refine ⟨t, flush14_2 t, ?_⟩
  rw [mem_blk]
  intro a
  match a with
  | ⟨0, _⟩ => show win14_2.index t (0 : Fin 2) * 10000 ≤ (i 0).val ∧ (i 0).val < win14_2.index t (0 : Fin 2) * 10000 + 10000; omega
  | ⟨1, _⟩ => show win14_2.index t (1 : Fin 2) * 16 ≤ (i 1).val ∧ (i 1).val < win14_2.index t (1 : Fin 2) * 16 + 16; omega

/-- The output array when the region ends: the blend of the two input arrays as the region found them. -/
theorem final (c : Dev nD) : (dat14 V c).arrAt 2 cfg14.N = blend (V c main_v231) (V c main_v176) :=
  (dat14 V c).arrAt_eq_of_cover 2 _ (fun t _ => flushed_eq V c t) cover

end Cert.BlendRegion14

end
-- ==== Proof.BlendRegion15.lean ====
/-
  Blend region 15: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion15

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k15_pay1 (F := Ideal) x0 x1 = blend x0 x1 := by
  funext j
  unfold k15_pay1
  simp only [shapeCast_self]
  rfl

/-- The three index maps agree at every point, and the output's block indices run over 0..4 × {0}. -/
theorem idx_facts : ∀ t : Fin cfg15.N, win15_0.index t (0 : Fin 2) = win15_2.index t (0 : Fin 2)
    ∧ win15_0.index t (1 : Fin 2) = win15_2.index t (1 : Fin 2)
    ∧ win15_1.index t (0 : Fin 2) = win15_2.index t (0 : Fin 2)
    ∧ win15_1.index t (1 : Fin 2) = win15_2.index t (1 : Fin 2)
    ∧ win15_2.index t (0 : Fin 2) ≤ 4 ∧ win15_2.index t (1 : Fin 2) = 0 :=
  (by decide +kernel : ∀ t : Fin grid15.N, _)

/-- Every row block is some point's. -/
theorem idx_onto : ∀ (q0 : Fin 5), ∃ t : Fin cfg15.N, win15_2.index t = ![q0.val, 0] :=
  (by decide +kernel : ∀ (q0 : Fin 5), ∃ t : Fin grid15.N, win15_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg15.N) :
    (dat15 V c).flushed 2 t = ((cfg15.win 2).blk t).view.read (Elt Ideal) (blend (V c main_v245) (V c main_v176)) := by
  show (cfg15.win 2).cut (grid15.coords t) ((dat15 V c).after 2 t) = _
  rw [after15_2]
  unfold out15_2
  rw [View.canon_unit_zero hz]
  simp only [View.ld_unit_zero (S := S10000x16) hz]
  rw [pay_eq]
  obtain ⟨e0, e1, e2, e3, e4, e5⟩ := idx_facts t
  funext j
  have h0 : ((cfg15.win 0).blk t).view.emb j = ((cfg15.win 2).blk t).view.emb j := by
    funext a; apply Fin.ext
    match a with
    | ⟨0, _⟩ => show win15_0.index t (0 : Fin 2) * 10000 + 1 * (j 0).val = win15_2.index t (0 : Fin 2) * 10000 + 1 * (j 0).val; omega
    | ⟨1, _⟩ => show win15_0.index t (1 : Fin 2) * 16 + 1 * (j 1).val = win15_2.index t (1 : Fin 2) * 16 + 1 * (j 1).val; omega
  have h1 : ((cfg15.win 1).blk t).view.emb j = ((cfg15.win 2).blk t).view.emb j := by
    funext a; apply Fin.ext
    match a with
    | ⟨0, _⟩ => show win15_1.index t (0 : Fin 2) * 10000 + 1 * (j 0).val = win15_2.index t (0 : Fin 2) * 10000 + 1 * (j 0).val; omega
    | ⟨1, _⟩ => show win15_1.index t (1 : Fin 2) * 16 + 1 * (j 1).val = win15_2.index t (1 : Fin 2) * 16 + 1 * (j 1).val; omega
  show blend (fun y => V c main_v245 (((cfg15.win 0).blk t).view.emb y)) (fun y => V c main_v176 (((cfg15.win 1).blk t).view.emb y)) j
      = blend (V c main_v245) (V c main_v176) (((cfg15.win 2).blk t).view.emb j)
  exact blend_comp _ _ _ _ _ j h0 h1

/-- An index of the array is in point `t`'s block iff each coordinate is in the block's range on its axis. -/
theorem mem_blk (t : Fin cfg15.N) (i : S50000x16.Idx) :
    i ∈ ((cfg15.win 2).blk t).view.set ↔ ∀ a : Fin 2, win15_2.index t a * S10000x16.size a ≤ (i a).val ∧ (i a).val < win15_2.index t a * S10000x16.size a + S10000x16.size a := by
  show i ∈ ((View.whole main_v246).slice (win15_2.rect t)).set ↔ _
  rw [View.set_slice_whole, Rect.mem_set_unit]
  exact Iff.rfl

/-- Row `r` lies in the block of the point whose row block is `r / 10000`. -/
theorem cover (i : S50000x16.Idx) :
    ∃ t : Fin cfg15.N, (cfg15.win 2).flush t = true ∧ i ∈ ((cfg15.win 2).blk t).view.set := by
  have hi0 : (i 0).val < 50000 := (i 0).isLt
  have hi1 : (i 1).val < 16 := (i 1).isLt
  obtain ⟨t, ht⟩ := idx_onto ⟨(i 0).val / 10000, by omega⟩
  have q0 : win15_2.index t (0 : Fin 2) = (i 0).val / 10000 := congrFun ht 0
  have q1 : win15_2.index t (1 : Fin 2) = 0 := congrFun ht 1
  refine ⟨t, flush15_2 t, ?_⟩
  rw [mem_blk]
  intro a
  match a with
  | ⟨0, _⟩ => show win15_2.index t (0 : Fin 2) * 10000 ≤ (i 0).val ∧ (i 0).val < win15_2.index t (0 : Fin 2) * 10000 + 10000; omega
  | ⟨1, _⟩ => show win15_2.index t (1 : Fin 2) * 16 ≤ (i 1).val ∧ (i 1).val < win15_2.index t (1 : Fin 2) * 16 + 16; omega

/-- The output array when the region ends: the blend of the two input arrays as the region found them. -/
theorem final (c : Dev nD) : (dat15 V c).arrAt 2 cfg15.N = blend (V c main_v245) (V c main_v176) :=
  (dat15 V c).arrAt_eq_of_cover 2 _ (fun t _ => flushed_eq V c t) cover

end Cert.BlendRegion15

end
-- ==== Proof.BlendRegion16.lean ====
/-
  Blend region 16: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion16

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k16_pay1 (F := Ideal) x0 x1 = blend x0 x1 := by
  funext j
  unfold k16_pay1
  simp only [shapeCast_self]
  rfl

/-- The three index maps agree at every point, and the output's block indices run over 0..4 × {0}. -/
theorem idx_facts : ∀ t : Fin cfg16.N, win16_0.index t (0 : Fin 2) = win16_2.index t (0 : Fin 2)
    ∧ win16_0.index t (1 : Fin 2) = win16_2.index t (1 : Fin 2)
    ∧ win16_1.index t (0 : Fin 2) = win16_2.index t (0 : Fin 2)
    ∧ win16_1.index t (1 : Fin 2) = win16_2.index t (1 : Fin 2)
    ∧ win16_2.index t (0 : Fin 2) ≤ 4 ∧ win16_2.index t (1 : Fin 2) = 0 :=
  (by decide +kernel : ∀ t : Fin grid16.N, _)

/-- Every row block is some point's. -/
theorem idx_onto : ∀ (q0 : Fin 5), ∃ t : Fin cfg16.N, win16_2.index t = ![q0.val, 0] :=
  (by decide +kernel : ∀ (q0 : Fin 5), ∃ t : Fin grid16.N, win16_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg16.N) :
    (dat16 V c).flushed 2 t = ((cfg16.win 2).blk t).view.read (Elt Ideal) (blend (V c main_v259) (V c main_v176)) := by
  show (cfg16.win 2).cut (grid16.coords t) ((dat16 V c).after 2 t) = _
  rw [after16_2]
  unfold out16_2
  rw [View.canon_unit_zero hz]
  simp only [View.ld_unit_zero (S := S10000x16) hz]
  rw [pay_eq]
  obtain ⟨e0, e1, e2, e3, e4, e5⟩ := idx_facts t
  funext j
  have h0 : ((cfg16.win 0).blk t).view.emb j = ((cfg16.win 2).blk t).view.emb j := by
    funext a; apply Fin.ext
    match a with
    | ⟨0, _⟩ => show win16_0.index t (0 : Fin 2) * 10000 + 1 * (j 0).val = win16_2.index t (0 : Fin 2) * 10000 + 1 * (j 0).val; omega
    | ⟨1, _⟩ => show win16_0.index t (1 : Fin 2) * 16 + 1 * (j 1).val = win16_2.index t (1 : Fin 2) * 16 + 1 * (j 1).val; omega
  have h1 : ((cfg16.win 1).blk t).view.emb j = ((cfg16.win 2).blk t).view.emb j := by
    funext a; apply Fin.ext
    match a with
    | ⟨0, _⟩ => show win16_1.index t (0 : Fin 2) * 10000 + 1 * (j 0).val = win16_2.index t (0 : Fin 2) * 10000 + 1 * (j 0).val; omega
    | ⟨1, _⟩ => show win16_1.index t (1 : Fin 2) * 16 + 1 * (j 1).val = win16_2.index t (1 : Fin 2) * 16 + 1 * (j 1).val; omega
  show blend (fun y => V c main_v259 (((cfg16.win 0).blk t).view.emb y)) (fun y => V c main_v176 (((cfg16.win 1).blk t).view.emb y)) j
      = blend (V c main_v259) (V c main_v176) (((cfg16.win 2).blk t).view.emb j)
  exact blend_comp _ _ _ _ _ j h0 h1

/-- An index of the array is in point `t`'s block iff each coordinate is in the block's range on its axis. -/
theorem mem_blk (t : Fin cfg16.N) (i : S50000x16.Idx) :
    i ∈ ((cfg16.win 2).blk t).view.set ↔ ∀ a : Fin 2, win16_2.index t a * S10000x16.size a ≤ (i a).val ∧ (i a).val < win16_2.index t a * S10000x16.size a + S10000x16.size a := by
  show i ∈ ((View.whole main_v260).slice (win16_2.rect t)).set ↔ _
  rw [View.set_slice_whole, Rect.mem_set_unit]
  exact Iff.rfl

/-- Row `r` lies in the block of the point whose row block is `r / 10000`. -/
theorem cover (i : S50000x16.Idx) :
    ∃ t : Fin cfg16.N, (cfg16.win 2).flush t = true ∧ i ∈ ((cfg16.win 2).blk t).view.set := by
  have hi0 : (i 0).val < 50000 := (i 0).isLt
  have hi1 : (i 1).val < 16 := (i 1).isLt
  obtain ⟨t, ht⟩ := idx_onto ⟨(i 0).val / 10000, by omega⟩
  have q0 : win16_2.index t (0 : Fin 2) = (i 0).val / 10000 := congrFun ht 0
  have q1 : win16_2.index t (1 : Fin 2) = 0 := congrFun ht 1
  refine ⟨t, flush16_2 t, ?_⟩
  rw [mem_blk]
  intro a
  match a with
  | ⟨0, _⟩ => show win16_2.index t (0 : Fin 2) * 10000 ≤ (i 0).val ∧ (i 0).val < win16_2.index t (0 : Fin 2) * 10000 + 10000; omega
  | ⟨1, _⟩ => show win16_2.index t (1 : Fin 2) * 16 ≤ (i 1).val ∧ (i 1).val < win16_2.index t (1 : Fin 2) * 16 + 16; omega

/-- The output array when the region ends: the blend of the two input arrays as the region found them. -/
theorem final (c : Dev nD) : (dat16 V c).arrAt 2 cfg16.N = blend (V c main_v259) (V c main_v176) :=
  (dat16 V c).arrAt_eq_of_cover 2 _ (fun t _ => flushed_eq V c t) cover

end Cert.BlendRegion16

end
-- ==== Proof.BlendRegion17.lean ====
/-
  Blend region 17: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion17

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k17_pay1 (F := Ideal) x0 x1 = blend x0 x1 := by
  funext j
  unfold k17_pay1
  simp only [shapeCast_self]
  rfl

/-- The three index maps agree at every point, and the output's block indices run over 0..4 × {0}. -/
theorem idx_facts : ∀ t : Fin cfg17.N, win17_0.index t (0 : Fin 2) = win17_2.index t (0 : Fin 2)
    ∧ win17_0.index t (1 : Fin 2) = win17_2.index t (1 : Fin 2)
    ∧ win17_1.index t (0 : Fin 2) = win17_2.index t (0 : Fin 2)
    ∧ win17_1.index t (1 : Fin 2) = win17_2.index t (1 : Fin 2)
    ∧ win17_2.index t (0 : Fin 2) ≤ 4 ∧ win17_2.index t (1 : Fin 2) = 0 :=
  (by decide +kernel : ∀ t : Fin grid17.N, _)

/-- Every row block is some point's. -/
theorem idx_onto : ∀ (q0 : Fin 5), ∃ t : Fin cfg17.N, win17_2.index t = ![q0.val, 0] :=
  (by decide +kernel : ∀ (q0 : Fin 5), ∃ t : Fin grid17.N, win17_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg17.N) :
    (dat17 V c).flushed 2 t = ((cfg17.win 2).blk t).view.read (Elt Ideal) (blend (V c main_v273) (V c main_v176)) := by
  show (cfg17.win 2).cut (grid17.coords t) ((dat17 V c).after 2 t) = _
  rw [after17_2]
  unfold out17_2
  rw [View.canon_unit_zero hz]
  simp only [View.ld_unit_zero (S := S10000x16) hz]
  rw [pay_eq]
  obtain ⟨e0, e1, e2, e3, e4, e5⟩ := idx_facts t
  funext j
  have h0 : ((cfg17.win 0).blk t).view.emb j = ((cfg17.win 2).blk t).view.emb j := by
    funext a; apply Fin.ext
    match a with
    | ⟨0, _⟩ => show win17_0.index t (0 : Fin 2) * 10000 + 1 * (j 0).val = win17_2.index t (0 : Fin 2) * 10000 + 1 * (j 0).val; omega
    | ⟨1, _⟩ => show win17_0.index t (1 : Fin 2) * 16 + 1 * (j 1).val = win17_2.index t (1 : Fin 2) * 16 + 1 * (j 1).val; omega
  have h1 : ((cfg17.win 1).blk t).view.emb j = ((cfg17.win 2).blk t).view.emb j := by
    funext a; apply Fin.ext
    match a with
    | ⟨0, _⟩ => show win17_1.index t (0 : Fin 2) * 10000 + 1 * (j 0).val = win17_2.index t (0 : Fin 2) * 10000 + 1 * (j 0).val; omega
    | ⟨1, _⟩ => show win17_1.index t (1 : Fin 2) * 16 + 1 * (j 1).val = win17_2.index t (1 : Fin 2) * 16 + 1 * (j 1).val; omega
  show blend (fun y => V c main_v273 (((cfg17.win 0).blk t).view.emb y)) (fun y => V c main_v176 (((cfg17.win 1).blk t).view.emb y)) j
      = blend (V c main_v273) (V c main_v176) (((cfg17.win 2).blk t).view.emb j)
  exact blend_comp _ _ _ _ _ j h0 h1

/-- An index of the array is in point `t`'s block iff each coordinate is in the block's range on its axis. -/
theorem mem_blk (t : Fin cfg17.N) (i : S50000x16.Idx) :
    i ∈ ((cfg17.win 2).blk t).view.set ↔ ∀ a : Fin 2, win17_2.index t a * S10000x16.size a ≤ (i a).val ∧ (i a).val < win17_2.index t a * S10000x16.size a + S10000x16.size a := by
  show i ∈ ((View.whole main_v274).slice (win17_2.rect t)).set ↔ _
  rw [View.set_slice_whole, Rect.mem_set_unit]
  exact Iff.rfl

/-- Row `r` lies in the block of the point whose row block is `r / 10000`. -/
theorem cover (i : S50000x16.Idx) :
    ∃ t : Fin cfg17.N, (cfg17.win 2).flush t = true ∧ i ∈ ((cfg17.win 2).blk t).view.set := by
  have hi0 : (i 0).val < 50000 := (i 0).isLt
  have hi1 : (i 1).val < 16 := (i 1).isLt
  obtain ⟨t, ht⟩ := idx_onto ⟨(i 0).val / 10000, by omega⟩
  have q0 : win17_2.index t (0 : Fin 2) = (i 0).val / 10000 := congrFun ht 0
  have q1 : win17_2.index t (1 : Fin 2) = 0 := congrFun ht 1
  refine ⟨t, flush17_2 t, ?_⟩
  rw [mem_blk]
  intro a
  match a with
  | ⟨0, _⟩ => show win17_2.index t (0 : Fin 2) * 10000 ≤ (i 0).val ∧ (i 0).val < win17_2.index t (0 : Fin 2) * 10000 + 10000; omega
  | ⟨1, _⟩ => show win17_2.index t (1 : Fin 2) * 16 ≤ (i 1).val ∧ (i 1).val < win17_2.index t (1 : Fin 2) * 16 + 16; omega

/-- The output array when the region ends: the blend of the two input arrays as the region found them. -/
theorem final (c : Dev nD) : (dat17 V c).arrAt 2 cfg17.N = blend (V c main_v273) (V c main_v176) :=
  (dat17 V c).arrAt_eq_of_cover 2 _ (fun t _ => flushed_eq V c t) cover

end Cert.BlendRegion17

end
-- ==== Proof.BlendRegion18.lean ====
/-
  Blend region 18: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion18

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k18_pay1 (F := Ideal) x0 x1 = blend x0 x1 := by
  funext j
  unfold k18_pay1
  simp only [shapeCast_self]
  rfl

/-- The three index maps agree at every point, and the output's block indices run over 0..4 × {0}. -/
theorem idx_facts : ∀ t : Fin cfg18.N, win18_0.index t (0 : Fin 2) = win18_2.index t (0 : Fin 2)
    ∧ win18_0.index t (1 : Fin 2) = win18_2.index t (1 : Fin 2)
    ∧ win18_1.index t (0 : Fin 2) = win18_2.index t (0 : Fin 2)
    ∧ win18_1.index t (1 : Fin 2) = win18_2.index t (1 : Fin 2)
    ∧ win18_2.index t (0 : Fin 2) ≤ 4 ∧ win18_2.index t (1 : Fin 2) = 0 :=
  (by decide +kernel : ∀ t : Fin grid18.N, _)

/-- Every row block is some point's. -/
theorem idx_onto : ∀ (q0 : Fin 5), ∃ t : Fin cfg18.N, win18_2.index t = ![q0.val, 0] :=
  (by decide +kernel : ∀ (q0 : Fin 5), ∃ t : Fin grid18.N, win18_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg18.N) :
    (dat18 V c).flushed 2 t = ((cfg18.win 2).blk t).view.read (Elt Ideal) (blend (V c main_v287) (V c main_v176)) := by
  show (cfg18.win 2).cut (grid18.coords t) ((dat18 V c).after 2 t) = _
  rw [after18_2]
  unfold out18_2
  rw [View.canon_unit_zero hz]
  simp only [View.ld_unit_zero (S := S10000x16) hz]
  rw [pay_eq]
  obtain ⟨e0, e1, e2, e3, e4, e5⟩ := idx_facts t
  funext j
  have h0 : ((cfg18.win 0).blk t).view.emb j = ((cfg18.win 2).blk t).view.emb j := by
    funext a; apply Fin.ext
    match a with
    | ⟨0, _⟩ => show win18_0.index t (0 : Fin 2) * 10000 + 1 * (j 0).val = win18_2.index t (0 : Fin 2) * 10000 + 1 * (j 0).val; omega
    | ⟨1, _⟩ => show win18_0.index t (1 : Fin 2) * 16 + 1 * (j 1).val = win18_2.index t (1 : Fin 2) * 16 + 1 * (j 1).val; omega
  have h1 : ((cfg18.win 1).blk t).view.emb j = ((cfg18.win 2).blk t).view.emb j := by
    funext a; apply Fin.ext
    match a with
    | ⟨0, _⟩ => show win18_1.index t (0 : Fin 2) * 10000 + 1 * (j 0).val = win18_2.index t (0 : Fin 2) * 10000 + 1 * (j 0).val; omega
    | ⟨1, _⟩ => show win18_1.index t (1 : Fin 2) * 16 + 1 * (j 1).val = win18_2.index t (1 : Fin 2) * 16 + 1 * (j 1).val; omega
  show blend (fun y => V c main_v287 (((cfg18.win 0).blk t).view.emb y)) (fun y => V c main_v176 (((cfg18.win 1).blk t).view.emb y)) j
      = blend (V c main_v287) (V c main_v176) (((cfg18.win 2).blk t).view.emb j)
  exact blend_comp _ _ _ _ _ j h0 h1

/-- An index of the array is in point `t`'s block iff each coordinate is in the block's range on its axis. -/
theorem mem_blk (t : Fin cfg18.N) (i : S50000x16.Idx) :
    i ∈ ((cfg18.win 2).blk t).view.set ↔ ∀ a : Fin 2, win18_2.index t a * S10000x16.size a ≤ (i a).val ∧ (i a).val < win18_2.index t a * S10000x16.size a + S10000x16.size a := by
  show i ∈ ((View.whole main_v288).slice (win18_2.rect t)).set ↔ _
  rw [View.set_slice_whole, Rect.mem_set_unit]
  exact Iff.rfl

/-- Row `r` lies in the block of the point whose row block is `r / 10000`. -/
theorem cover (i : S50000x16.Idx) :
    ∃ t : Fin cfg18.N, (cfg18.win 2).flush t = true ∧ i ∈ ((cfg18.win 2).blk t).view.set := by
  have hi0 : (i 0).val < 50000 := (i 0).isLt
  have hi1 : (i 1).val < 16 := (i 1).isLt
  obtain ⟨t, ht⟩ := idx_onto ⟨(i 0).val / 10000, by omega⟩
  have q0 : win18_2.index t (0 : Fin 2) = (i 0).val / 10000 := congrFun ht 0
  have q1 : win18_2.index t (1 : Fin 2) = 0 := congrFun ht 1
  refine ⟨t, flush18_2 t, ?_⟩
  rw [mem_blk]
  intro a
  match a with
  | ⟨0, _⟩ => show win18_2.index t (0 : Fin 2) * 10000 ≤ (i 0).val ∧ (i 0).val < win18_2.index t (0 : Fin 2) * 10000 + 10000; omega
  | ⟨1, _⟩ => show win18_2.index t (1 : Fin 2) * 16 ≤ (i 1).val ∧ (i 1).val < win18_2.index t (1 : Fin 2) * 16 + 16; omega

/-- The output array when the region ends: the blend of the two input arrays as the region found them. -/
theorem final (c : Dev nD) : (dat18 V c).arrAt 2 cfg18.N = blend (V c main_v287) (V c main_v176) :=
  (dat18 V c).arrAt_eq_of_cover 2 _ (fun t _ => flushed_eq V c t) cover

end Cert.BlendRegion18

end
-- ==== Proof.BlendRegion19.lean ====
/-
  Blend region 19: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion19

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k19_pay1 (F := Ideal) x0 x1 = blend x0 x1 := by
  funext j
  unfold k19_pay1
  simp only [shapeCast_self]
  rfl

/-- The three index maps agree at every point, and the output's block indices run over 0..4 × {0}. -/
theorem idx_facts : ∀ t : Fin cfg19.N, win19_0.index t (0 : Fin 2) = win19_2.index t (0 : Fin 2)
    ∧ win19_0.index t (1 : Fin 2) = win19_2.index t (1 : Fin 2)
    ∧ win19_1.index t (0 : Fin 2) = win19_2.index t (0 : Fin 2)
    ∧ win19_1.index t (1 : Fin 2) = win19_2.index t (1 : Fin 2)
    ∧ win19_2.index t (0 : Fin 2) ≤ 4 ∧ win19_2.index t (1 : Fin 2) = 0 :=
  (by decide +kernel : ∀ t : Fin grid19.N, _)

/-- Every row block is some point's. -/
theorem idx_onto : ∀ (q0 : Fin 5), ∃ t : Fin cfg19.N, win19_2.index t = ![q0.val, 0] :=
  (by decide +kernel : ∀ (q0 : Fin 5), ∃ t : Fin grid19.N, win19_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg19.N) :
    (dat19 V c).flushed 2 t = ((cfg19.win 2).blk t).view.read (Elt Ideal) (blend (V c main_v301) (V c main_v176)) := by
  show (cfg19.win 2).cut (grid19.coords t) ((dat19 V c).after 2 t) = _
  rw [after19_2]
  unfold out19_2
  rw [View.canon_unit_zero hz]
  simp only [View.ld_unit_zero (S := S10000x16) hz]
  rw [pay_eq]
  obtain ⟨e0, e1, e2, e3, e4, e5⟩ := idx_facts t
  funext j
  have h0 : ((cfg19.win 0).blk t).view.emb j = ((cfg19.win 2).blk t).view.emb j := by
    funext a; apply Fin.ext
    match a with
    | ⟨0, _⟩ => show win19_0.index t (0 : Fin 2) * 10000 + 1 * (j 0).val = win19_2.index t (0 : Fin 2) * 10000 + 1 * (j 0).val; omega
    | ⟨1, _⟩ => show win19_0.index t (1 : Fin 2) * 16 + 1 * (j 1).val = win19_2.index t (1 : Fin 2) * 16 + 1 * (j 1).val; omega
  have h1 : ((cfg19.win 1).blk t).view.emb j = ((cfg19.win 2).blk t).view.emb j := by
    funext a; apply Fin.ext
    match a with
    | ⟨0, _⟩ => show win19_1.index t (0 : Fin 2) * 10000 + 1 * (j 0).val = win19_2.index t (0 : Fin 2) * 10000 + 1 * (j 0).val; omega
    | ⟨1, _⟩ => show win19_1.index t (1 : Fin 2) * 16 + 1 * (j 1).val = win19_2.index t (1 : Fin 2) * 16 + 1 * (j 1).val; omega
  show blend (fun y => V c main_v301 (((cfg19.win 0).blk t).view.emb y)) (fun y => V c main_v176 (((cfg19.win 1).blk t).view.emb y)) j
      = blend (V c main_v301) (V c main_v176) (((cfg19.win 2).blk t).view.emb j)
  exact blend_comp _ _ _ _ _ j h0 h1

/-- An index of the array is in point `t`'s block iff each coordinate is in the block's range on its axis. -/
theorem mem_blk (t : Fin cfg19.N) (i : S50000x16.Idx) :
    i ∈ ((cfg19.win 2).blk t).view.set ↔ ∀ a : Fin 2, win19_2.index t a * S10000x16.size a ≤ (i a).val ∧ (i a).val < win19_2.index t a * S10000x16.size a + S10000x16.size a := by
  show i ∈ ((View.whole main_v302).slice (win19_2.rect t)).set ↔ _
  rw [View.set_slice_whole, Rect.mem_set_unit]
  exact Iff.rfl

/-- Row `r` lies in the block of the point whose row block is `r / 10000`. -/
theorem cover (i : S50000x16.Idx) :
    ∃ t : Fin cfg19.N, (cfg19.win 2).flush t = true ∧ i ∈ ((cfg19.win 2).blk t).view.set := by
  have hi0 : (i 0).val < 50000 := (i 0).isLt
  have hi1 : (i 1).val < 16 := (i 1).isLt
  obtain ⟨t, ht⟩ := idx_onto ⟨(i 0).val / 10000, by omega⟩
  have q0 : win19_2.index t (0 : Fin 2) = (i 0).val / 10000 := congrFun ht 0
  have q1 : win19_2.index t (1 : Fin 2) = 0 := congrFun ht 1
  refine ⟨t, flush19_2 t, ?_⟩
  rw [mem_blk]
  intro a
  match a with
  | ⟨0, _⟩ => show win19_2.index t (0 : Fin 2) * 10000 ≤ (i 0).val ∧ (i 0).val < win19_2.index t (0 : Fin 2) * 10000 + 10000; omega
  | ⟨1, _⟩ => show win19_2.index t (1 : Fin 2) * 16 ≤ (i 1).val ∧ (i 1).val < win19_2.index t (1 : Fin 2) * 16 + 16; omega

/-- The output array when the region ends: the blend of the two input arrays as the region found them. -/
theorem final (c : Dev nD) : (dat19 V c).arrAt 2 cfg19.N = blend (V c main_v301) (V c main_v176) :=
  (dat19 V c).arrAt_eq_of_cover 2 _ (fun t _ => flushed_eq V c t) cover

end Cert.BlendRegion19

end
-- ==== Proof.BlendRegion20.lean ====
/-
  Blend region 20: what the region's output array holds when the region ends.

  The grid has five points; point `t` works on rows 10000·t … 10000·t + 9999 of all three [50000, 16] arrays, reads the
  two input blocks whole and stores `a · w₀ + b · w₁` entry by entry into the output block.  The five row blocks tile the
  array, so the array ends holding the blend of the two input arrays as the region found them.
-/
import proofs.«135505_j17961553232124_1_alg».proof.Proof.Gen.KernelIdeal.Frame
import proofs.«135505_j17961553232124_1_alg».proof.Proof.BlendSpec
import Idealize.ShloMosaic.Lib.Pipeline.Value
import Idealize.ShloMosaic.Lib.ValueIdx

noncomputable section

namespace Cert.BlendRegion20

open Idealize.ShloMosaic Idealize.ShloMosaic.TcCoe Idealize.SL.Sem
open Cert.KernelIdeal Cert.KernelIdeal.Gen Cert.BlendSpec

theorem hz : (![0, 0] : Fin 2 → Nat) = fun _ => 0 := funext fun a => by fin_cases a <;> rfl

/-- The body's arithmetic on two blocks is the blend, entry by entry. -/
theorem pay_eq (x0 x1 : Vec Ideal S10000x16 .f32) : k20_pay1 (F := Ideal) x0 x1 = blend x0 x1 := by
  funext j
  unfold k20_pay1
  simp only [shapeCast_self]
  rfl

/-- The three index maps agree at every point, and the output's block indices run over 0..4 × {0}. -/
theorem idx_facts : ∀ t : Fin cfg20.N, win20_0.index t (0 : Fin 2) = win20_2.index t (0 : Fin 2)
    ∧ win20_0.index t (1 : Fin 2) = win20_2.index t (1 : Fin 2)
    ∧ win20_1.index t (0 : Fin 2) = win20_2.index t (0 : Fin 2)
    ∧ win20_1.index t (1 : Fin 2) = win20_2.index t (1 : Fin 2)
    ∧ win20_2.index t (0 : Fin 2) ≤ 4 ∧ win20_2.index t (1 : Fin 2) = 0 :=
  (by decide +kernel : ∀ t : Fin grid20.N, _)

/-- Every row block is some point's. -/
theorem idx_onto : ∀ (q0 : Fin 5), ∃ t : Fin cfg20.N, win20_2.index t = ![q0.val, 0] :=
  (by decide +kernel : ∀ (q0 : Fin 5), ∃ t : Fin grid20.N, win20_2.index t = ![q0.val, 0])

variable (V : (c : Dev nD) → (b : Ref sig .tc) → Buf (Elt Ideal) ((c : Thread nD τ).loc b))

/-- What point `t` writes back is block `t` of the blend of the two input arrays as the region finds them. -/
theorem flushed_eq (c : Dev nD) (t : Fin cfg20.N) :
    (dat20 V c).flushed 2 t = ((cfg20.win 2).blk t).view.read (Elt Ideal) (blend (V c main_v315) (V c main_v176)) := by
  show (cfg20.win 2).cut (grid20.coords t) ((dat20 V c).after 2 t) = _
  rw [after20_2]
  unfold out20_2
  rw [View.canon_unit_zero hz]
  simp only [View.ld_unit_zero (S := S10000x16) hz]
  rw [pay_eq]
  obtain ⟨e0, e1, e2, e3, e4, e5⟩ := idx_facts t
  funext j
  have h0 : ((cfg20.win 0).blk t).view.emb j = ((cfg20.win 2).blk t).view.emb j := by
    funext a; apply Fin.ext
    match a with
    | ⟨0, _⟩ => show win20_0.index t (0 : Fin 2) * 10000 + 1 * (j 0).val = win20_2.index t (0 : Fin 2) * 10000 + 1 * (j 0).val; omega
    | ⟨1, _⟩ => show win20_0.index t (1 : Fin 2) * 16 + 1 * (j 1).val = win20_2.index t (1 : Fin 2) * 16 + 1 * (j 1).val; omega
  have h1 : ((cfg20.win 1).blk t).view.emb j = ((cfg20.win 2).blk t).view.emb j := by
    funext a; apply Fin.ext
    match a with
    | ⟨0, _⟩ => show win20_1.index t (0 : Fin 2) * 10000 + 1 * (j 0).val = win20_2.index t (0 : Fin 2) * 10000 + 1 * (j 0).val; omega
    | ⟨1, _⟩ => show win20_1.index t (1 : Fin 2) * 16 + 1 * (j 1).val = win20_2.index t (1 : Fin 2) * 16 + 1 * (j 1).val; omega
  show blend (fun y => V c main_v315 (((cfg20.win 0).blk t).view.emb y)) (fun y => V c main_v176 (((cfg20.win 1).blk t).view.emb y)) j
      = blend (V c main_v315) (V c main_v176) (((cfg20.win 2).blk t).view.emb j)
  exact blend_comp _ _ _ _ _ j h0 h1

/-- An index of the array is in point `t`'s block iff each coordinate is in the block's range on its axis. -/
theorem mem_blk (t : Fin cfg20.N) (i : S50000x16.Idx) :
    i ∈ ((cfg20.win 2).blk t).view.set ↔ ∀ a : Fin 2, win20_2.index t a * S10000x16.size a ≤ (i a).val ∧ (i a).val < win20_2.index t a * S10000x16.size a + S10000x16.size a := by
  show i ∈ ((View.whole main_v316).slice (win20_2.rect t)).set ↔ _
  rw [View.set_slice_whole, Rect.mem_set_unit]
  exact Iff.rfl

/-- Row `r` lies in the block of the point whose row block is `r / 10000`. -/
theorem cover (i : S50000x16.Idx) :
    ∃ t : Fin cfg20.N, (cfg20.win 2).flush t = true ∧ i ∈ ((cfg20.win 2).blk t).view.set := by
  have hi0 : (i 0).val < 50000 := (i 0).isLt
  have hi1 : (i 1).val < 16 := (i 1).isLt
  obtain ⟨t, ht⟩ := idx_onto ⟨(i 0).val / 10000, by omega⟩
  have q0 : win20_2.index t (0 : Fin 2) = (i 0).val / 10000 := congrFun ht 0
  have q1 : win20_2.index t (1 : Fin 2) = 0 := congrFun ht 1
  refine ⟨t, flush20_2 t, ?_⟩
  rw [mem_blk]
  intro a
  match a with
  | ⟨0, _⟩ => show win20_2.index t (0 : Fin 2) * 10000 ≤ (i 0).val ∧ (i 0).val < win20_2.index t (0 : Fin 2) * 10000 + 10000; omega
  | ⟨1, _⟩ => show win20_2.index t (1 : Fin 2) * 16 ≤ (i 1).val ∧ (i 1).val < win20_2.index t (1 : Fin 2) * 16 + 16; omega

/-- The output array when the region ends: the blend of the two input arrays as the region found them. -/
theorem final (c : Dev nD) : (dat20 V c).arrAt 2 cfg20.N = blend (V c main_v315) (V c main_v176) :=
  (dat20 V c).arrAt_eq_of_cover 2 _ (fun t _ => flushed_eq V c t) cover

end Cert.BlendRegion20

end
-- ==== Proof.ChainC.lean ====
/-
  The second diffusion loop of the idealized kernel program, boundary by boundary.

  The dense region leaves the class logits `G`; each stretch of host operations propagates the previous array over the 16
  class columns, and each region blends the propagated array with `G`.  Every boundary keeps the argument arrays, the edge
  weights and `G`.  After the last region the result array holds ten steps from `G`, anchored at `G`.
-/
import proofs.«135505_j17961553232124_1_alg».proof.Proof.ChainDefs
import proofs.«135505_j17961553232124_1_alg».proof.Proof.ChainB
import proofs.«135505_j17961553232124_1_alg».proof.Proof.HostStep11
import proofs.«135505_j17961553232124_1_alg».proof.Proof.HostStep12
import proofs.«135505_j17961553232124_1_alg».proof.Proof.HostStep13
import proofs.«135505_j17961553232124_1_alg».proof.Proof.HostStep14
import proofs.«135505_j17961553232124_1_alg».proof.Proof.HostStep15
import proofs.«135505_j17961553232124_1_alg».proof.Proof.HostStep16
import proofs.«135505_j17961553232124_1_alg».proof.Proof.HostStep17
import proofs.«135505_j17961553232124_1_alg».proof.Proof.HostStep18
import proofs.«135505_j17961553232124_1_alg».proof.Proof.HostStep19
import proofs.«135505_j17961553232124_1_alg».proof.Proof.HostStep20
import proofs.«135505_j17961553232124_1_alg».proof.Proof.BlendRegion11
import proofs.«135505_j17961553232124_1_alg».proof.Proof.BlendRegion12
import proofs.«135505_j17961553232124_1_alg».proof.Proof.BlendRegion13
import proofs.«135505_j17961553232124_1_alg».proof.Proof.BlendRegion14
import proofs.«135505_j17961553232124_1_alg».proof.Proof.BlendRegion15
import proofs.«135505_j17961553232124_1_alg».proof.Proof.BlendRegion16
import proofs.«135505_j17961553232124_1_alg».proof.Proof.BlendRegion17
import proofs.«135505_j17961553232124_1_alg».proof.Proof.BlendRegion18
import proofs.«135505_j17961553232124_1_alg».proof.Proof.BlendRegion19
import proofs.«135505_j17961553232124_1_alg».proof.Proof.BlendRegion20

noncomputable section

namespace Cert.ChainC

open Idealize.ShloMosaic Idealize.ShloMosaic.TcCoe Idealize.SL.Sem Idealize.ShloMosaic.StableHlo
open Cert.KernelIdeal Cert.KernelIdeal.Gen Cert.ConvK Cert.BlendSpec
open Cert.ChainDefs Cert.ChainB

variable (m : (ℓ : Loc nD τ sig) → Buf (Elt Ideal) ℓ) (ρ : Dev nD → PrngReg) (c : Dev nD)

theorem keep24 : Keep m c (W24 m ρ c) := ChainB.keep24 m ρ c
theorem keepG24 : W24 m ρ c (Proc.devRef .tc main_v176) = G0 m c := ChainB.val24 m ρ c

theorem keep25 : Keep m c (W25 m ρ c) :=
  ⟨(HostStep11.keep (W24 m ρ c) main_arg0 (by decide)).trans (keep24 m ρ c).a0,
   (HostStep11.keep (W24 m ρ c) main_arg1 (by decide)).trans (keep24 m ρ c).a1,
   (HostStep11.keep (W24 m ρ c) main_arg2 (by decide)).trans (keep24 m ρ c).a2,
   (HostStep11.keep (W24 m ρ c) main_arg3 (by decide)).trans (keep24 m ρ c).a3,
   (HostStep11.keep (W24 m ρ c) main_arg4 (by decide)).trans (keep24 m ρ c).a4,
   (HostStep11.keep (W24 m ρ c) main_arg5 (by decide)).trans (keep24 m ρ c).a5,
   (HostStep11.keep (W24 m ρ c) main_arg6 (by decide)).trans (keep24 m ρ c).a6,
   (HostStep11.keep (W24 m ρ c) main_arg7 (by decide)).trans (keep24 m ρ c).a7,
   (HostStep11.keep (W24 m ρ c) main_arg8 (by decide)).trans (keep24 m ρ c).a8,
   (HostStep11.keep (W24 m ρ c) main_arg9 (by decide)).trans (keep24 m ρ c).a9,
   (HostStep11.keep (W24 m ρ c) main_arg10 (by decide)).trans (keep24 m ρ c).a10,
   (HostStep11.keep (W24 m ρ c) main_arg11 (by decide)).trans (keep24 m ρ c).a11,
   (HostStep11.keep (W24 m ρ c) main_v24 (by decide)).trans (keep24 m ρ c).nrm⟩

theorem keepG25 : W25 m ρ c (Proc.devRef .tc main_v176) = G0 m c :=
  (HostStep11.keep (W24 m ρ c) main_v176 (by decide)).trans (keepG24 m ρ c)

theorem val25 : W25 m ρ c (Proc.devRef .tc main_v189) = conv16 (SRC m c) (DST m c) (NRM m c) (iter (step16 m c (G0 m c)) (G0 m c) 0) := by
  have h := HostStep11.value (W24 m ρ c)
  rw [(keep24 m ρ c).a1, (keep24 m ρ c).a2, (keep24 m ρ c).nrm, keepG24 m ρ c] at h
  exact h

theorem keep26 : Keep m c (W26 m ρ c) :=
  ⟨(W26_of_ne m ρ c main_arg0 (by decide)).trans (keep25 m ρ c).a0,
   (W26_of_ne m ρ c main_arg1 (by decide)).trans (keep25 m ρ c).a1,
   (W26_of_ne m ρ c main_arg2 (by decide)).trans (keep25 m ρ c).a2,
   (W26_of_ne m ρ c main_arg3 (by decide)).trans (keep25 m ρ c).a3,
   (W26_of_ne m ρ c main_arg4 (by decide)).trans (keep25 m ρ c).a4,
   (W26_of_ne m ρ c main_arg5 (by decide)).trans (keep25 m ρ c).a5,
   (W26_of_ne m ρ c main_arg6 (by decide)).trans (keep25 m ρ c).a6,
   (W26_of_ne m ρ c main_arg7 (by decide)).trans (keep25 m ρ c).a7,
   (W26_of_ne m ρ c main_arg8 (by decide)).trans (keep25 m ρ c).a8,
   (W26_of_ne m ρ c main_arg9 (by decide)).trans (keep25 m ρ c).a9,
   (W26_of_ne m ρ c main_arg10 (by decide)).trans (keep25 m ρ c).a10,
   (W26_of_ne m ρ c main_arg11 (by decide)).trans (keep25 m ρ c).a11,
   (W26_of_ne m ρ c main_v24 (by decide)).trans (keep25 m ρ c).nrm⟩

theorem keepG26 : W26 m ρ c (Proc.devRef .tc main_v176) = G0 m c :=
  ((W26_arr m ρ c 1).trans (((dat11 (V25 m ρ) c).arrAt_in 1 rfl _).trans (A_eq11 (V25 m ρ) c 1))).trans (keepG25 m ρ c)

theorem val26 : W26 m ρ c (Proc.devRef .tc main_v190) = iter (step16 m c (G0 m c)) (G0 m c) 1 :=
  ((W26_arr m ρ c 2).trans (BlendRegion11.final (V25 m ρ) c)).trans
    (congrArg₂ blend (val25 m ρ c) (keepG25 m ρ c))

theorem keep27 : Keep m c (W27 m ρ c) :=
  ⟨(HostStep12.keep (W26 m ρ c) main_arg0 (by decide)).trans (keep26 m ρ c).a0,
   (HostStep12.keep (W26 m ρ c) main_arg1 (by decide)).trans (keep26 m ρ c).a1,
   (HostStep12.keep (W26 m ρ c) main_arg2 (by decide)).trans (keep26 m ρ c).a2,
   (HostStep12.keep (W26 m ρ c) main_arg3 (by decide)).trans (keep26 m ρ c).a3,
   (HostStep12.keep (W26 m ρ c) main_arg4 (by decide)).trans (keep26 m ρ c).a4,
   (HostStep12.keep (W26 m ρ c) main_arg5 (by decide)).trans (keep26 m ρ c).a5,
   (HostStep12.keep (W26 m ρ c) main_arg6 (by decide)).trans (keep26 m ρ c).a6,
   (HostStep12.keep (W26 m ρ c) main_arg7 (by decide)).trans (keep26 m ρ c).a7,
   (HostStep12.keep (W26 m ρ c) main_arg8 (by decide)).trans (keep26 m ρ c).a8,
   (HostStep12.keep (W26 m ρ c) main_arg9 (by decide)).trans (keep26 m ρ c).a9,
   (HostStep12.keep (W26 m ρ c) main_arg10 (by decide)).trans (keep26 m ρ c).a10,
   (HostStep12.keep (W26 m ρ c) main_arg11 (by decide)).trans (keep26 m ρ c).a11,
   (HostStep12.keep (W26 m ρ c) main_v24 (by decide)).trans (keep26 m ρ c).nrm⟩

theorem keepG27 : W27 m ρ c (Proc.devRef .tc main_v176) = G0 m c :=
  (HostStep12.keep (W26 m ρ c) main_v176 (by decide)).trans (keepG26 m ρ c)

theorem val27 : W27 m ρ c (Proc.devRef .tc main_v203) = conv16 (SRC m c) (DST m c) (NRM m c) (iter (step16 m c (G0 m c)) (G0 m c) 1) := by
  have h := HostStep12.value (W26 m ρ c)
  rw [(keep26 m ρ c).a1, (keep26 m ρ c).a2, (keep26 m ρ c).nrm, val26 m ρ c] at h
  exact h

theorem keep28 : Keep m c (W28 m ρ c) :=
  ⟨(W28_of_ne m ρ c main_arg0 (by decide)).trans (keep27 m ρ c).a0,
   (W28_of_ne m ρ c main_arg1 (by decide)).trans (keep27 m ρ c).a1,
   (W28_of_ne m ρ c main_arg2 (by decide)).trans (keep27 m ρ c).a2,
   (W28_of_ne m ρ c main_arg3 (by decide)).trans (keep27 m ρ c).a3,
   (W28_of_ne m ρ c main_arg4 (by decide)).trans (keep27 m ρ c).a4,
   (W28_of_ne m ρ c main_arg5 (by decide)).trans (keep27 m ρ c).a5,
   (W28_of_ne m ρ c main_arg6 (by decide)).trans (keep27 m ρ c).a6,
   (W28_of_ne m ρ c main_arg7 (by decide)).trans (keep27 m ρ c).a7,
   (W28_of_ne m ρ c main_arg8 (by decide)).trans (keep27 m ρ c).a8,
   (W28_of_ne m ρ c main_arg9 (by decide)).trans (keep27 m ρ c).a9,
   (W28_of_ne m ρ c main_arg10 (by decide)).trans (keep27 m ρ c).a10,
   (W28_of_ne m ρ c main_arg11 (by decide)).trans (keep27 m ρ c).a11,
   (W28_of_ne m ρ c main_v24 (by decide)).trans (keep27 m ρ c).nrm⟩

theorem keepG28 : W28 m ρ c (Proc.devRef .tc main_v176) = G0 m c :=
  ((W28_arr m ρ c 1).trans (((dat12 (V27 m ρ) c).arrAt_in 1 rfl _).trans (A_eq12 (V27 m ρ) c 1))).trans (keepG27 m ρ c)

theorem val28 : W28 m ρ c (Proc.devRef .tc main_v204) = iter (step16 m c (G0 m c)) (G0 m c) 2 :=
  ((W28_arr m ρ c 2).trans (BlendRegion12.final (V27 m ρ) c)).trans
    (congrArg₂ blend (val27 m ρ c) (keepG27 m ρ c))

theorem keep29 : Keep m c (W29 m ρ c) :=
  ⟨(HostStep13.keep (W28 m ρ c) main_arg0 (by decide)).trans (keep28 m ρ c).a0,
   (HostStep13.keep (W28 m ρ c) main_arg1 (by decide)).trans (keep28 m ρ c).a1,
   (HostStep13.keep (W28 m ρ c) main_arg2 (by decide)).trans (keep28 m ρ c).a2,
   (HostStep13.keep (W28 m ρ c) main_arg3 (by decide)).trans (keep28 m ρ c).a3,
   (HostStep13.keep (W28 m ρ c) main_arg4 (by decide)).trans (keep28 m ρ c).a4,
   (HostStep13.keep (W28 m ρ c) main_arg5 (by decide)).trans (keep28 m ρ c).a5,
   (HostStep13.keep (W28 m ρ c) main_arg6 (by decide)).trans (keep28 m ρ c).a6,
   (HostStep13.keep (W28 m ρ c) main_arg7 (by decide)).trans (keep28 m ρ c).a7,
   (HostStep13.keep (W28 m ρ c) main_arg8 (by decide)).trans (keep28 m ρ c).a8,
   (HostStep13.keep (W28 m ρ c) main_arg9 (by decide)).trans (keep28 m ρ c).a9,
   (HostStep13.keep (W28 m ρ c) main_arg10 (by decide)).trans (keep28 m ρ c).a10,
   (HostStep13.keep (W28 m ρ c) main_arg11 (by decide)).trans (keep28 m ρ c).a11,
   (HostStep13.keep (W28 m ρ c) main_v24 (by decide)).trans (keep28 m ρ c).nrm⟩

theorem keepG29 : W29 m ρ c (Proc.devRef .tc main_v176) = G0 m c :=
  (HostStep13.keep (W28 m ρ c) main_v176 (by decide)).trans (keepG28 m ρ c)

theorem val29 : W29 m ρ c (Proc.devRef .tc main_v217) = conv16 (SRC m c) (DST m c) (NRM m c) (iter (step16 m c (G0 m c)) (G0 m c) 2) := by
  have h := HostStep13.value (W28 m ρ c)
  rw [(keep28 m ρ c).a1, (keep28 m ρ c).a2, (keep28 m ρ c).nrm, val28 m ρ c] at h
  exact h

theorem keep30 : Keep m c (W30 m ρ c) :=
  ⟨(W30_of_ne m ρ c main_arg0 (by decide)).trans (keep29 m ρ c).a0,
   (W30_of_ne m ρ c main_arg1 (by decide)).trans (keep29 m ρ c).a1,
   (W30_of_ne m ρ c main_arg2 (by decide)).trans (keep29 m ρ c).a2,
   (W30_of_ne m ρ c main_arg3 (by decide)).trans (keep29 m ρ c).a3,
   (W30_of_ne m ρ c main_arg4 (by decide)).trans (keep29 m ρ c).a4,
   (W30_of_ne m ρ c main_arg5 (by decide)).trans (keep29 m ρ c).a5,
   (W30_of_ne m ρ c main_arg6 (by decide)).trans (keep29 m ρ c).a6,
   (W30_of_ne m ρ c main_arg7 (by decide)).trans (keep29 m ρ c).a7,
   (W30_of_ne m ρ c main_arg8 (by decide)).trans (keep29 m ρ c).a8,
   (W30_of_ne m ρ c main_arg9 (by decide)).trans (keep29 m ρ c).a9,
   (W30_of_ne m ρ c main_arg10 (by decide)).trans (keep29 m ρ c).a10,
   (W30_of_ne m ρ c main_arg11 (by decide)).trans (keep29 m ρ c).a11,
   (W30_of_ne m ρ c main_v24 (by decide)).trans (keep29 m ρ c).nrm⟩

theorem keepG30 : W30 m ρ c (Proc.devRef .tc main_v176) = G0 m c :=
  ((W30_arr m ρ c 1).trans (((dat13 (V29 m ρ) c).arrAt_in 1 rfl _).trans (A_eq13 (V29 m ρ) c 1))).trans (keepG29 m ρ c)

theorem val30 : W30 m ρ c (Proc.devRef .tc main_v218) = iter (step16 m c (G0 m c)) (G0 m c) 3 :=
  ((W30_arr m ρ c 2).trans (BlendRegion13.final (V29 m ρ) c)).trans
    (congrArg₂ blend (val29 m ρ c) (keepG29 m ρ c))

theorem keep31 : Keep m c (W31 m ρ c) :=
  ⟨(HostStep14.keep (W30 m ρ c) main_arg0 (by decide)).trans (keep30 m ρ c).a0,
   (HostStep14.keep (W30 m ρ c) main_arg1 (by decide)).trans (keep30 m ρ c).a1,
   (HostStep14.keep (W30 m ρ c) main_arg2 (by decide)).trans (keep30 m ρ c).a2,
   (HostStep14.keep (W30 m ρ c) main_arg3 (by decide)).trans (keep30 m ρ c).a3,
   (HostStep14.keep (W30 m ρ c) main_arg4 (by decide)).trans (keep30 m ρ c).a4,
   (HostStep14.keep (W30 m ρ c) main_arg5 (by decide)).trans (keep30 m ρ c).a5,
   (HostStep14.keep (W30 m ρ c) main_arg6 (by decide)).trans (keep30 m ρ c).a6,
   (HostStep14.keep (W30 m ρ c) main_arg7 (by decide)).trans (keep30 m ρ c).a7,
   (HostStep14.keep (W30 m ρ c) main_arg8 (by decide)).trans (keep30 m ρ c).a8,
   (HostStep14.keep (W30 m ρ c) main_arg9 (by decide)).trans (keep30 m ρ c).a9,
   (HostStep14.keep (W30 m ρ c) main_arg10 (by decide)).trans (keep30 m ρ c).a10,
   (HostStep14.keep (W30 m ρ c) main_arg11 (by decide)).trans (keep30 m ρ c).a11,
   (HostStep14.keep (W30 m ρ c) main_v24 (by decide)).trans (keep30 m ρ c).nrm⟩

theorem keepG31 : W31 m ρ c (Proc.devRef .tc main_v176) = G0 m c :=
  (HostStep14.keep (W30 m ρ c) main_v176 (by decide)).trans (keepG30 m ρ c)

theorem val31 : W31 m ρ c (Proc.devRef .tc main_v231) = conv16 (SRC m c) (DST m c) (NRM m c) (iter (step16 m c (G0 m c)) (G0 m c) 3) := by
  have h := HostStep14.value (W30 m ρ c)
  rw [(keep30 m ρ c).a1, (keep30 m ρ c).a2, (keep30 m ρ c).nrm, val30 m ρ c] at h
  exact h

theorem keep32 : Keep m c (W32 m ρ c) :=
  ⟨(W32_of_ne m ρ c main_arg0 (by decide)).trans (keep31 m ρ c).a0,
   (W32_of_ne m ρ c main_arg1 (by decide)).trans (keep31 m ρ c).a1,
   (W32_of_ne m ρ c main_arg2 (by decide)).trans (keep31 m ρ c).a2,
   (W32_of_ne m ρ c main_arg3 (by decide)).trans (keep31 m ρ c).a3,
   (W32_of_ne m ρ c main_arg4 (by decide)).trans (keep31 m ρ c).a4,
   (W32_of_ne m ρ c main_arg5 (by decide)).trans (keep31 m ρ c).a5,
   (W32_of_ne m ρ c main_arg6 (by decide)).trans (keep31 m ρ c).a6,
   (W32_of_ne m ρ c main_arg7 (by decide)).trans (keep31 m ρ c).a7,
   (W32_of_ne m ρ c main_arg8 (by decide)).trans (keep31 m ρ c).a8,
   (W32_of_ne m ρ c main_arg9 (by decide)).trans (keep31 m ρ c).a9,
   (W32_of_ne m ρ c main_arg10 (by decide)).trans (keep31 m ρ c).a10,
   (W32_of_ne m ρ c main_arg11 (by decide)).trans (keep31 m ρ c).a11,
   (W32_of_ne m ρ c main_v24 (by decide)).trans (keep31 m ρ c).nrm⟩

theorem keepG32 : W32 m ρ c (Proc.devRef .tc main_v176) = G0 m c :=
  ((W32_arr m ρ c 1).trans (((dat14 (V31 m ρ) c).arrAt_in 1 rfl _).trans (A_eq14 (V31 m ρ) c 1))).trans (keepG31 m ρ c)

theorem val32 : W32 m ρ c (Proc.devRef .tc main_v232) = iter (step16 m c (G0 m c)) (G0 m c) 4 :=
  ((W32_arr m ρ c 2).trans (BlendRegion14.final (V31 m ρ) c)).trans
    (congrArg₂ blend (val31 m ρ c) (keepG31 m ρ c))

theorem keep33 : Keep m c (W33 m ρ c) :=
  ⟨(HostStep15.keep (W32 m ρ c) main_arg0 (by decide)).trans (keep32 m ρ c).a0,
   (HostStep15.keep (W32 m ρ c) main_arg1 (by decide)).trans (keep32 m ρ c).a1,
   (HostStep15.keep (W32 m ρ c) main_arg2 (by decide)).trans (keep32 m ρ c).a2,
   (HostStep15.keep (W32 m ρ c) main_arg3 (by decide)).trans (keep32 m ρ c).a3,
   (HostStep15.keep (W32 m ρ c) main_arg4 (by decide)).trans (keep32 m ρ c).a4,
   (HostStep15.keep (W32 m ρ c) main_arg5 (by decide)).trans (keep32 m ρ c).a5,
   (HostStep15.keep (W32 m ρ c) main_arg6 (by decide)).trans (keep32 m ρ c).a6,
   (HostStep15.keep (W32 m ρ c) main_arg7 (by decide)).trans (keep32 m ρ c).a7,
   (HostStep15.keep (W32 m ρ c) main_arg8 (by decide)).trans (keep32 m ρ c).a8,
   (HostStep15.keep (W32 m ρ c) main_arg9 (by decide)).trans (keep32 m ρ c).a9,
   (HostStep15.keep (W32 m ρ c) main_arg10 (by decide)).trans (keep32 m ρ c).a10,
   (HostStep15.keep (W32 m ρ c) main_arg11 (by decide)).trans (keep32 m ρ c).a11,
   (HostStep15.keep (W32 m ρ c) main_v24 (by decide)).trans (keep32 m ρ c).nrm⟩

theorem keepG33 : W33 m ρ c (Proc.devRef .tc main_v176) = G0 m c :=
  (HostStep15.keep (W32 m ρ c) main_v176 (by decide)).trans (keepG32 m ρ c)

theorem val33 : W33 m ρ c (Proc.devRef .tc main_v245) = conv16 (SRC m c) (DST m c) (NRM m c) (iter (step16 m c (G0 m c)) (G0 m c) 4) := by
  have h := HostStep15.value (W32 m ρ c)
  rw [(keep32 m ρ c).a1, (keep32 m ρ c).a2, (keep32 m ρ c).nrm, val32 m ρ c] at h
  exact h

theorem keep34 : Keep m c (W34 m ρ c) :=
  ⟨(W34_of_ne m ρ c main_arg0 (by decide)).trans (keep33 m ρ c).a0,
   (W34_of_ne m ρ c main_arg1 (by decide)).trans (keep33 m ρ c).a1,
   (W34_of_ne m ρ c main_arg2 (by decide)).trans (keep33 m ρ c).a2,
   (W34_of_ne m ρ c main_arg3 (by decide)).trans (keep33 m ρ c).a3,
   (W34_of_ne m ρ c main_arg4 (by decide)).trans (keep33 m ρ c).a4,
   (W34_of_ne m ρ c main_arg5 (by decide)).trans (keep33 m ρ c).a5,
   (W34_of_ne m ρ c main_arg6 (by decide)).trans (keep33 m ρ c).a6,
   (W34_of_ne m ρ c main_arg7 (by decide)).trans (keep33 m ρ c).a7,
   (W34_of_ne m ρ c main_arg8 (by decide)).trans (keep33 m ρ c).a8,
   (W34_of_ne m ρ c main_arg9 (by decide)).trans (keep33 m ρ c).a9,
   (W34_of_ne m ρ c main_arg10 (by decide)).trans (keep33 m ρ c).a10,
   (W34_of_ne m ρ c main_arg11 (by decide)).trans (keep33 m ρ c).a11,
   (W34_of_ne m ρ c main_v24 (by decide)).trans (keep33 m ρ c).nrm⟩

theorem keepG34 : W34 m ρ c (Proc.devRef .tc main_v176) = G0 m c :=
  ((W34_arr m ρ c 1).trans (((dat15 (V33 m ρ) c).arrAt_in 1 rfl _).trans (A_eq15 (V33 m ρ) c 1))).trans (keepG33 m ρ c)

theorem val34 : W34 m ρ c (Proc.devRef .tc main_v246) = iter (step16 m c (G0 m c)) (G0 m c) 5 :=
  ((W34_arr m ρ c 2).trans (BlendRegion15.final (V33 m ρ) c)).trans
    (congrArg₂ blend (val33 m ρ c) (keepG33 m ρ c))

theorem keep35 : Keep m c (W35 m ρ c) :=
  ⟨(HostStep16.keep (W34 m ρ c) main_arg0 (by decide)).trans (keep34 m ρ c).a0,
   (HostStep16.keep (W34 m ρ c) main_arg1 (by decide)).trans (keep34 m ρ c).a1,
   (HostStep16.keep (W34 m ρ c) main_arg2 (by decide)).trans (keep34 m ρ c).a2,
   (HostStep16.keep (W34 m ρ c) main_arg3 (by decide)).trans (keep34 m ρ c).a3,
   (HostStep16.keep (W34 m ρ c) main_arg4 (by decide)).trans (keep34 m ρ c).a4,
   (HostStep16.keep (W34 m ρ c) main_arg5 (by decide)).trans (keep34 m ρ c).a5,
   (HostStep16.keep (W34 m ρ c) main_arg6 (by decide)).trans (keep34 m ρ c).a6,
   (HostStep16.keep (W34 m ρ c) main_arg7 (by decide)).trans (keep34 m ρ c).a7,
   (HostStep16.keep (W34 m ρ c) main_arg8 (by decide)).trans (keep34 m ρ c).a8,
   (HostStep16.keep (W34 m ρ c) main_arg9 (by decide)).trans (keep34 m ρ c).a9,
   (HostStep16.keep (W34 m ρ c) main_arg10 (by decide)).trans (keep34 m ρ c).a10,
   (HostStep16.keep (W34 m ρ c) main_arg11 (by decide)).trans (keep34 m ρ c).a11,
   (HostStep16.keep (W34 m ρ c) main_v24 (by decide)).trans (keep34 m ρ c).nrm⟩

theorem keepG35 : W35 m ρ c (Proc.devRef .tc main_v176) = G0 m c :=
  (HostStep16.keep (W34 m ρ c) main_v176 (by decide)).trans (keepG34 m ρ c)

theorem val35 : W35 m ρ c (Proc.devRef .tc main_v259) = conv16 (SRC m c) (DST m c) (NRM m c) (iter (step16 m c (G0 m c)) (G0 m c) 5) := by
  have h := HostStep16.value (W34 m ρ c)
  rw [(keep34 m ρ c).a1, (keep34 m ρ c).a2, (keep34 m ρ c).nrm, val34 m ρ c] at h
  exact h

theorem keep36 : Keep m c (W36 m ρ c) :=
  ⟨(W36_of_ne m ρ c main_arg0 (by decide)).trans (keep35 m ρ c).a0,
   (W36_of_ne m ρ c main_arg1 (by decide)).trans (keep35 m ρ c).a1,
   (W36_of_ne m ρ c main_arg2 (by decide)).trans (keep35 m ρ c).a2,
   (W36_of_ne m ρ c main_arg3 (by decide)).trans (keep35 m ρ c).a3,
   (W36_of_ne m ρ c main_arg4 (by decide)).trans (keep35 m ρ c).a4,
   (W36_of_ne m ρ c main_arg5 (by decide)).trans (keep35 m ρ c).a5,
   (W36_of_ne m ρ c main_arg6 (by decide)).trans (keep35 m ρ c).a6,
   (W36_of_ne m ρ c main_arg7 (by decide)).trans (keep35 m ρ c).a7,
   (W36_of_ne m ρ c main_arg8 (by decide)).trans (keep35 m ρ c).a8,
   (W36_of_ne m ρ c main_arg9 (by decide)).trans (keep35 m ρ c).a9,
   (W36_of_ne m ρ c main_arg10 (by decide)).trans (keep35 m ρ c).a10,
   (W36_of_ne m ρ c main_arg11 (by decide)).trans (keep35 m ρ c).a11,
   (W36_of_ne m ρ c main_v24 (by decide)).trans (keep35 m ρ c).nrm⟩

theorem keepG36 : W36 m ρ c (Proc.devRef .tc main_v176) = G0 m c :=
  ((W36_arr m ρ c 1).trans (((dat16 (V35 m ρ) c).arrAt_in 1 rfl _).trans (A_eq16 (V35 m ρ) c 1))).trans (keepG35 m ρ c)

theorem val36 : W36 m ρ c (Proc.devRef .tc main_v260) = iter (step16 m c (G0 m c)) (G0 m c) 6 :=
  ((W36_arr m ρ c 2).trans (BlendRegion16.final (V35 m ρ) c)).trans
    (congrArg₂ blend (val35 m ρ c) (keepG35 m ρ c))

theorem keep37 : Keep m c (W37 m ρ c) :=
  ⟨(HostStep17.keep (W36 m ρ c) main_arg0 (by decide)).trans (keep36 m ρ c).a0,
   (HostStep17.keep (W36 m ρ c) main_arg1 (by decide)).trans (keep36 m ρ c).a1,
   (HostStep17.keep (W36 m ρ c) main_arg2 (by decide)).trans (keep36 m ρ c).a2,
   (HostStep17.keep (W36 m ρ c) main_arg3 (by decide)).trans (keep36 m ρ c).a3,
   (HostStep17.keep (W36 m ρ c) main_arg4 (by decide)).trans (keep36 m ρ c).a4,
   (HostStep17.keep (W36 m ρ c) main_arg5 (by decide)).trans (keep36 m ρ c).a5,
   (HostStep17.keep (W36 m ρ c) main_arg6 (by decide)).trans (keep36 m ρ c).a6,
   (HostStep17.keep (W36 m ρ c) main_arg7 (by decide)).trans (keep36 m ρ c).a7,
   (HostStep17.keep (W36 m ρ c) main_arg8 (by decide)).trans (keep36 m ρ c).a8,
   (HostStep17.keep (W36 m ρ c) main_arg9 (by decide)).trans (keep36 m ρ c).a9,
   (HostStep17.keep (W36 m ρ c) main_arg10 (by decide)).trans (keep36 m ρ c).a10,
   (HostStep17.keep (W36 m ρ c) main_arg11 (by decide)).trans (keep36 m ρ c).a11,
   (HostStep17.keep (W36 m ρ c) main_v24 (by decide)).trans (keep36 m ρ c).nrm⟩

theorem keepG37 : W37 m ρ c (Proc.devRef .tc main_v176) = G0 m c :=
  (HostStep17.keep (W36 m ρ c) main_v176 (by decide)).trans (keepG36 m ρ c)

theorem val37 : W37 m ρ c (Proc.devRef .tc main_v273) = conv16 (SRC m c) (DST m c) (NRM m c) (iter (step16 m c (G0 m c)) (G0 m c) 6) := by
  have h := HostStep17.value (W36 m ρ c)
  rw [(keep36 m ρ c).a1, (keep36 m ρ c).a2, (keep36 m ρ c).nrm, val36 m ρ c] at h
  exact h

theorem keep38 : Keep m c (W38 m ρ c) :=
  ⟨(W38_of_ne m ρ c main_arg0 (by decide)).trans (keep37 m ρ c).a0,
   (W38_of_ne m ρ c main_arg1 (by decide)).trans (keep37 m ρ c).a1,
   (W38_of_ne m ρ c main_arg2 (by decide)).trans (keep37 m ρ c).a2,
   (W38_of_ne m ρ c main_arg3 (by decide)).trans (keep37 m ρ c).a3,
   (W38_of_ne m ρ c main_arg4 (by decide)).trans (keep37 m ρ c).a4,
   (W38_of_ne m ρ c main_arg5 (by decide)).trans (keep37 m ρ c).a5,
   (W38_of_ne m ρ c main_arg6 (by decide)).trans (keep37 m ρ c).a6,
   (W38_of_ne m ρ c main_arg7 (by decide)).trans (keep37 m ρ c).a7,
   (W38_of_ne m ρ c main_arg8 (by decide)).trans (keep37 m ρ c).a8,
   (W38_of_ne m ρ c main_arg9 (by decide)).trans (keep37 m ρ c).a9,
   (W38_of_ne m ρ c main_arg10 (by decide)).trans (keep37 m ρ c).a10,
   (W38_of_ne m ρ c main_arg11 (by decide)).trans (keep37 m ρ c).a11,
   (W38_of_ne m ρ c main_v24 (by decide)).trans (keep37 m ρ c).nrm⟩

theorem keepG38 : W38 m ρ c (Proc.devRef .tc main_v176) = G0 m c :=
  ((W38_arr m ρ c 1).trans (((dat17 (V37 m ρ) c).arrAt_in 1 rfl _).trans (A_eq17 (V37 m ρ) c 1))).trans (keepG37 m ρ c)

theorem val38 : W38 m ρ c (Proc.devRef .tc main_v274) = iter (step16 m c (G0 m c)) (G0 m c) 7 :=
  ((W38_arr m ρ c 2).trans (BlendRegion17.final (V37 m ρ) c)).trans
    (congrArg₂ blend (val37 m ρ c) (keepG37 m ρ c))

theorem keep39 : Keep m c (W39 m ρ c) :=
  ⟨(HostStep18.keep (W38 m ρ c) main_arg0 (by decide)).trans (keep38 m ρ c).a0,
   (HostStep18.keep (W38 m ρ c) main_arg1 (by decide)).trans (keep38 m ρ c).a1,
   (HostStep18.keep (W38 m ρ c) main_arg2 (by decide)).trans (keep38 m ρ c).a2,
   (HostStep18.keep (W38 m ρ c) main_arg3 (by decide)).trans (keep38 m ρ c).a3,
   (HostStep18.keep (W38 m ρ c) main_arg4 (by decide)).trans (keep38 m ρ c).a4,
   (HostStep18.keep (W38 m ρ c) main_arg5 (by decide)).trans (keep38 m ρ c).a5,
   (HostStep18.keep (W38 m ρ c) main_arg6 (by decide)).trans (keep38 m ρ c).a6,
   (HostStep18.keep (W38 m ρ c) main_arg7 (by decide)).trans (keep38 m ρ c).a7,
   (HostStep18.keep (W38 m ρ c) main_arg8 (by decide)).trans (keep38 m ρ c).a8,
   (HostStep18.keep (W38 m ρ c) main_arg9 (by decide)).trans (keep38 m ρ c).a9,
   (HostStep18.keep (W38 m ρ c) main_arg10 (by decide)).trans (keep38 m ρ c).a10,
   (HostStep18.keep (W38 m ρ c) main_arg11 (by decide)).trans (keep38 m ρ c).a11,
   (HostStep18.keep (W38 m ρ c) main_v24 (by decide)).trans (keep38 m ρ c).nrm⟩

theorem keepG39 : W39 m ρ c (Proc.devRef .tc main_v176) = G0 m c :=
  (HostStep18.keep (W38 m ρ c) main_v176 (by decide)).trans (keepG38 m ρ c)

theorem val39 : W39 m ρ c (Proc.devRef .tc main_v287) = conv16 (SRC m c) (DST m c) (NRM m c) (iter (step16 m c (G0 m c)) (G0 m c) 7) := by
  have h := HostStep18.value (W38 m ρ c)
  rw [(keep38 m ρ c).a1, (keep38 m ρ c).a2, (keep38 m ρ c).nrm, val38 m ρ c] at h
  exact h

theorem keep40 : Keep m c (W40 m ρ c) :=
  ⟨(W40_of_ne m ρ c main_arg0 (by decide)).trans (keep39 m ρ c).a0,
   (W40_of_ne m ρ c main_arg1 (by decide)).trans (keep39 m ρ c).a1,
   (W40_of_ne m ρ c main_arg2 (by decide)).trans (keep39 m ρ c).a2,
   (W40_of_ne m ρ c main_arg3 (by decide)).trans (keep39 m ρ c).a3,
   (W40_of_ne m ρ c main_arg4 (by decide)).trans (keep39 m ρ c).a4,
   (W40_of_ne m ρ c main_arg5 (by decide)).trans (keep39 m ρ c).a5,
   (W40_of_ne m ρ c main_arg6 (by decide)).trans (keep39 m ρ c).a6,
   (W40_of_ne m ρ c main_arg7 (by decide)).trans (keep39 m ρ c).a7,
   (W40_of_ne m ρ c main_arg8 (by decide)).trans (keep39 m ρ c).a8,
   (W40_of_ne m ρ c main_arg9 (by decide)).trans (keep39 m ρ c).a9,
   (W40_of_ne m ρ c main_arg10 (by decide)).trans (keep39 m ρ c).a10,
   (W40_of_ne m ρ c main_arg11 (by decide)).trans (keep39 m ρ c).a11,
   (W40_of_ne m ρ c main_v24 (by decide)).trans (keep39 m ρ c).nrm⟩

theorem keepG40 : W40 m ρ c (Proc.devRef .tc main_v176) = G0 m c :=
  ((W40_arr m ρ c 1).trans (((dat18 (V39 m ρ) c).arrAt_in 1 rfl _).trans (A_eq18 (V39 m ρ) c 1))).trans (keepG39 m ρ c)

theorem val40 : W40 m ρ c (Proc.devRef .tc main_v288) = iter (step16 m c (G0 m c)) (G0 m c) 8 :=
  ((W40_arr m ρ c 2).trans (BlendRegion18.final (V39 m ρ) c)).trans
    (congrArg₂ blend (val39 m ρ c) (keepG39 m ρ c))

theorem keep41 : Keep m c (W41 m ρ c) :=
  ⟨(HostStep19.keep (W40 m ρ c) main_arg0 (by decide)).trans (keep40 m ρ c).a0,
   (HostStep19.keep (W40 m ρ c) main_arg1 (by decide)).trans (keep40 m ρ c).a1,
   (HostStep19.keep (W40 m ρ c) main_arg2 (by decide)).trans (keep40 m ρ c).a2,
   (HostStep19.keep (W40 m ρ c) main_arg3 (by decide)).trans (keep40 m ρ c).a3,
   (HostStep19.keep (W40 m ρ c) main_arg4 (by decide)).trans (keep40 m ρ c).a4,
   (HostStep19.keep (W40 m ρ c) main_arg5 (by decide)).trans (keep40 m ρ c).a5,
   (HostStep19.keep (W40 m ρ c) main_arg6 (by decide)).trans (keep40 m ρ c).a6,
   (HostStep19.keep (W40 m ρ c) main_arg7 (by decide)).trans (keep40 m ρ c).a7,
   (HostStep19.keep (W40 m ρ c) main_arg8 (by decide)).trans (keep40 m ρ c).a8,
   (HostStep19.keep (W40 m ρ c) main_arg9 (by decide)).trans (keep40 m ρ c).a9,
   (HostStep19.keep (W40 m ρ c) main_arg10 (by decide)).trans (keep40 m ρ c).a10,
   (HostStep19.keep (W40 m ρ c) main_arg11 (by decide)).trans (keep40 m ρ c).a11,
   (HostStep19.keep (W40 m ρ c) main_v24 (by decide)).trans (keep40 m ρ c).nrm⟩

theorem keepG41 : W41 m ρ c (Proc.devRef .tc main_v176) = G0 m c :=
  (HostStep19.keep (W40 m ρ c) main_v176 (by decide)).trans (keepG40 m ρ c)

theorem val41 : W41 m ρ c (Proc.devRef .tc main_v301) = conv16 (SRC m c) (DST m c) (NRM m c) (iter (step16 m c (G0 m c)) (G0 m c) 8) := by
  have h := HostStep19.value (W40 m ρ c)
  rw [(keep40 m ρ c).a1, (keep40 m ρ c).a2, (keep40 m ρ c).nrm, val40 m ρ c] at h
  exact h

theorem keep42 : Keep m c (W42 m ρ c) :=
  ⟨(W42_of_ne m ρ c main_arg0 (by decide)).trans (keep41 m ρ c).a0,
   (W42_of_ne m ρ c main_arg1 (by decide)).trans (keep41 m ρ c).a1,
   (W42_of_ne m ρ c main_arg2 (by decide)).trans (keep41 m ρ c).a2,
   (W42_of_ne m ρ c main_arg3 (by decide)).trans (keep41 m ρ c).a3,
   (W42_of_ne m ρ c main_arg4 (by decide)).trans (keep41 m ρ c).a4,
   (W42_of_ne m ρ c main_arg5 (by decide)).trans (keep41 m ρ c).a5,
   (W42_of_ne m ρ c main_arg6 (by decide)).trans (keep41 m ρ c).a6,
   (W42_of_ne m ρ c main_arg7 (by decide)).trans (keep41 m ρ c).a7,
   (W42_of_ne m ρ c main_arg8 (by decide)).trans (keep41 m ρ c).a8,
   (W42_of_ne m ρ c main_arg9 (by decide)).trans (keep41 m ρ c).a9,
   (W42_of_ne m ρ c main_arg10 (by decide)).trans (keep41 m ρ c).a10,
   (W42_of_ne m ρ c main_arg11 (by decide)).trans (keep41 m ρ c).a11,
   (W42_of_ne m ρ c main_v24 (by decide)).trans (keep41 m ρ c).nrm⟩

theorem keepG42 : W42 m ρ c (Proc.devRef .tc main_v176) = G0 m c :=
  ((W42_arr m ρ c 1).trans (((dat19 (V41 m ρ) c).arrAt_in 1 rfl _).trans (A_eq19 (V41 m ρ) c 1))).trans (keepG41 m ρ c)

theorem val42 : W42 m ρ c (Proc.devRef .tc main_v302) = iter (step16 m c (G0 m c)) (G0 m c) 9 :=
  ((W42_arr m ρ c 2).trans (BlendRegion19.final (V41 m ρ) c)).trans
    (congrArg₂ blend (val41 m ρ c) (keepG41 m ρ c))

theorem keep43 : Keep m c (W43 m ρ c) :=
  ⟨(HostStep20.keep (W42 m ρ c) main_arg0 (by decide)).trans (keep42 m ρ c).a0,
   (HostStep20.keep (W42 m ρ c) main_arg1 (by decide)).trans (keep42 m ρ c).a1,
   (HostStep20.keep (W42 m ρ c) main_arg2 (by decide)).trans (keep42 m ρ c).a2,
   (HostStep20.keep (W42 m ρ c) main_arg3 (by decide)).trans (keep42 m ρ c).a3,
   (HostStep20.keep (W42 m ρ c) main_arg4 (by decide)).trans (keep42 m ρ c).a4,
   (HostStep20.keep (W42 m ρ c) main_arg5 (by decide)).trans (keep42 m ρ c).a5,
   (HostStep20.keep (W42 m ρ c) main_arg6 (by decide)).trans (keep42 m ρ c).a6,
   (HostStep20.keep (W42 m ρ c) main_arg7 (by decide)).trans (keep42 m ρ c).a7,
   (HostStep20.keep (W42 m ρ c) main_arg8 (by decide)).trans (keep42 m ρ c).a8,
   (HostStep20.keep (W42 m ρ c) main_arg9 (by decide)).trans (keep42 m ρ c).a9,
   (HostStep20.keep (W42 m ρ c) main_arg10 (by decide)).trans (keep42 m ρ c).a10,
   (HostStep20.keep (W42 m ρ c) main_arg11 (by decide)).trans (keep42 m ρ c).a11,
   (HostStep20.keep (W42 m ρ c) main_v24 (by decide)).trans (keep42 m ρ c).nrm⟩

theorem keepG43 : W43 m ρ c (Proc.devRef .tc main_v176) = G0 m c :=
  (HostStep20.keep (W42 m ρ c) main_v176 (by decide)).trans (keepG42 m ρ c)

theorem val43 : W43 m ρ c (Proc.devRef .tc main_v315) = conv16 (SRC m c) (DST m c) (NRM m c) (iter (step16 m c (G0 m c)) (G0 m c) 9) := by
  have h := HostStep20.value (W42 m ρ c)
  rw [(keep42 m ρ c).a1, (keep42 m ρ c).a2, (keep42 m ρ c).nrm, val42 m ρ c] at h
  exact h

theorem keep44 : Keep m c (W44 m ρ c) :=
  ⟨(W44_of_ne m ρ c main_arg0 (by decide)).trans (keep43 m ρ c).a0,
   (W44_of_ne m ρ c main_arg1 (by decide)).trans (keep43 m ρ c).a1,
   (W44_of_ne m ρ c main_arg2 (by decide)).trans (keep43 m ρ c).a2,
   (W44_of_ne m ρ c main_arg3 (by decide)).trans (keep43 m ρ c).a3,
   (W44_of_ne m ρ c main_arg4 (by decide)).trans (keep43 m ρ c).a4,
   (W44_of_ne m ρ c main_arg5 (by decide)).trans (keep43 m ρ c).a5,
   (W44_of_ne m ρ c main_arg6 (by decide)).trans (keep43 m ρ c).a6,
   (W44_of_ne m ρ c main_arg7 (by decide)).trans (keep43 m ρ c).a7,
   (W44_of_ne m ρ c main_arg8 (by decide)).trans (keep43 m ρ c).a8,
   (W44_of_ne m ρ c main_arg9 (by decide)).trans (keep43 m ρ c).a9,
   (W44_of_ne m ρ c main_arg10 (by decide)).trans (keep43 m ρ c).a10,
   (W44_of_ne m ρ c main_arg11 (by decide)).trans (keep43 m ρ c).a11,
   (W44_of_ne m ρ c main_v24 (by decide)).trans (keep43 m ρ c).nrm⟩

theorem keepG44 : W44 m ρ c (Proc.devRef .tc main_v176) = G0 m c :=
  ((W44_arr m ρ c 1).trans (((dat20 (V43 m ρ) c).arrAt_in 1 rfl _).trans (A_eq20 (V43 m ρ) c 1))).trans (keepG43 m ρ c)

theorem val44 : W44 m ρ c (Proc.devRef .tc main_v316) = iter (step16 m c (G0 m c)) (G0 m c) 10 :=
  ((W44_arr m ρ c 2).trans (BlendRegion20.final (V43 m ρ) c)).trans
    (congrArg₂ blend (val43 m ρ c) (keepG43 m ρ c))

end Cert.ChainC

end
-- ==== Proof.ConvR.lean ====
/-
  The sparse propagation step and its edge weights, as the host operations of `ReferenceIdeal` compose them.

  `wrap s` is an index column: entry `e` is `s e`, shifted up by 50000 when it is negative (read as a signed word).
  `norm src dst` gives every edge `e` the weight `r(src e) · r(dst e)`, where `r(v) = rsqrt(max(deg v, ε))` if `deg v > 0` and `0`
  otherwise, and `deg` counts the edges that point at a node (ones scattered onto zeros along `dst`).
  `conv z` gathers row `src e` of `z` for every edge, scales it by the edge's weight, and adds it into row `dst e` of a zero array.
  These are opaque here: both programs apply the same operations, and nothing below opens a gather or a scatter.
-/
import proofs.«135505_j17961553232124_1_alg».proof.ReferenceIdeal
import Idealize.ShloMosaic.PureOps.Ideal

noncomputable section

namespace Cert.ConvR

open Idealize.ShloMosaic Cert.ReferenceIdeal Cert.ReferenceIdeal.Facts₀

variable [Cert.ReferenceIdeal.Facts₀]

/-- The index column of a signed index vector, negative entries shifted by the table's length. -/
def wrap (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- In-degrees: ones scattered onto zeros along `dst`. -/
def deg (dst : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- Per node: the inverse square root of the degree where it is positive, zero elsewhere. -/
def invSqrt (dst : (⟨S800000, .i32⟩ : BufTy).Contents (Elt Ideal)) : (⟨S50000, .f32⟩ : BufTy).Contents (Elt Ideal) :=
  select (cmpf (F := Ideal) (φ := .f32) .ogt (deg dst) (broadcastInDim S50000 ![] bcast_S_S50000 (constant (F := Ideal) S_ .f32 0x00000000#32)))
    (Host.rsqrt (F := Ideal) (maximumf (F := Ideal) (φ := .f32) (deg dst) (broadcastInDim S50000 ![] bcast_S_S50000 (constant (F := Ideal) S_ .f32 0x2B8CBCCC#32))))
    (broadcastInDim S50000 ![] bcast_S_S50000 (id (constant (F := Ideal) S_ .f32 0x00000000#32)))

/-- Per edge: the product of the two endpoint factors. -/
def norm (src dst : (⟨S800000, .i32⟩ : BufTy).Contents (Elt Ideal)) : (⟨S800000, .f32⟩ : BufTy).Contents (Elt Ideal) :=
  mulf (F := Ideal) (φ := .f32) (Host.gather gather_S50000_S800000x1_S800000_n_0_n_n_0_1_1 (invSqrt dst) (wrap src))
    (Host.gather gather_S50000_S800000x1_S800000_n_0_n_n_0_1_1 (invSqrt dst) (wrap dst))

/-- One propagation over the 64 feature columns. -/
def conv64 (src dst : (⟨S800000, .i32⟩ : BufTy).Contents (Elt Ideal)) (nrm : (⟨S800000, .f32⟩ : BufTy).Contents (Elt Ideal))
    (z : (⟨S50000x64, .f32⟩ : BufTy).Contents (Elt Ideal)) : (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (φ := .f32) (Host.gather gather_S50000x64_S800000x1_S800000x64_1_0_n_n_0_1_164 z (wrap src))
      (broadcastInDim S800000x64 ![0, 1] bcast_S800000x1_S800000x64_0_1 (broadcastInDim S800000x1 ![0] bcast_S800000_S800000x1_0 nrm)))

/-- One propagation over the 16 class columns. -/
def conv16 (src dst : (⟨S800000, .i32⟩ : BufTy).Contents (Elt Ideal)) (nrm : (⟨S800000, .f32⟩ : BufTy).Contents (Elt Ideal))
    (z : (⟨S50000x16, .f32⟩ : BufTy).Contents (Elt Ideal)) : (⟨S50000x16, .f32⟩ : BufTy).Contents (Elt Ideal) :=
  Host.scatterAdd scatter_S50000x16_S800000x1_S800000x16_1_0_0_1
    (broadcastInDim S50000x16 ![] bcast_S_S50000x16 (constant (F := Ideal) S_ .f32 0x00000000#32))
    (broadcastInDim S800000x1 ![0] bcast_S800000_S800000x1_0 dst)
    (mulf (F := Ideal) (φ := .f32) (Host.gather gather_S50000x16_S800000x1_S800000x16_1_0_n_n_0_1_116 z (wrap src))
      (broadcastInDim S800000x16 ![0, 1] bcast_S800000x1_S800000x16_0_1 (broadcastInDim S800000x1 ![0] bcast_S800000_S800000x1_0 nrm)))

end Cert.ConvR

end
-- ==== Proof.RefBlend.lean ====
/-
  The reference's residual blend, as its host operations spell it, is the blend.

  The reference multiplies the propagated array by a broadcast of the first weight, the anchor by a broadcast of the
  second weight from the left, and adds; entry by entry that is `cz · w₀ + h · w₁` by commuting the second product.
-/
import proofs.«135505_j17961553232124_1_alg».proof.Proof.RefRead
import proofs.«135505_j17961553232124_1_alg».proof.Proof.ConvR
import proofs.«135505_j17961553232124_1_alg».proof.Proof.BlendSpec

noncomputable section

namespace Cert.RefBlend

open Idealize.ShloMosaic Cert.ReferenceIdeal Cert.ReferenceIdeal.Facts₀ Cert.ReferenceIdeal.Read Cert.ConvR Cert.BlendSpec

/-- The blend over the 64 feature columns, in the host operations' spelling. -/
def blendT64 (cz h : (⟨S50000x64, .f32⟩ : BufTy).Contents (Elt Ideal)) : (⟨S50000x64, .f32⟩ : BufTy).Contents (Elt Ideal) :=
  addf (F := Ideal) (φ := .f32) (mulf (F := Ideal) (φ := .f32) cz (broadcastInDim S50000x64 ![] bcast_S_S50000x64 (constant (F := Ideal) S_ .f32 0x3F666666#32)))
    (mulf (F := Ideal) (φ := .f32) (broadcastInDim S50000x64 ![] bcast_S_S50000x64 (constant (F := Ideal) S_ .f32 0x3DCCCCCD#32)) h)

/-- The blend over the 16 class columns, in the host operations' spelling. -/
def blendT16 (cz h : (⟨S50000x16, .f32⟩ : BufTy).Contents (Elt Ideal)) : (⟨S50000x16, .f32⟩ : BufTy).Contents (Elt Ideal) :=
  addf (F := Ideal) (φ := .f32) (mulf (F := Ideal) (φ := .f32) cz (broadcastInDim S50000x16 ![] bcast_S_S50000x16 (constant (F := Ideal) S_ .f32 0x3F666666#32)))
    (mulf (F := Ideal) (φ := .f32) (broadcastInDim S50000x16 ![] bcast_S_S50000x16 (constant (F := Ideal) S_ .f32 0x3DCCCCCD#32)) h)

theorem blendT64_eq (cz h : (⟨S50000x64, .f32⟩ : BufTy).Contents (Elt Ideal)) : blendT64 cz h = blend cz h := by
  funext i
  have e0 : (broadcastInDim S50000x64 ![] bcast_S_S50000x64 (constant (F := Ideal) S_ .f32 0x3F666666#32)) i = Ideal.ofBits .f32 0x3F666666#32 :=
    broadcastInDim_apply _ bcast_S_S50000x64 _ i (fun a => a.elim0) (fun a => a.elim0)
  have e1 : (broadcastInDim S50000x64 ![] bcast_S_S50000x64 (constant (F := Ideal) S_ .f32 0x3DCCCCCD#32)) i = Ideal.ofBits .f32 0x3DCCCCCD#32 :=
    broadcastInDim_apply _ bcast_S_S50000x64 _ i (fun a => a.elim0) (fun a => a.elim0)
  show cz i * (broadcastInDim S50000x64 ![] bcast_S_S50000x64 (constant (F := Ideal) S_ .f32 0x3F666666#32)) i
      + (broadcastInDim S50000x64 ![] bcast_S_S50000x64 (constant (F := Ideal) S_ .f32 0x3DCCCCCD#32)) i * h i = _
  rw [e0, e1, blend_apply, mul_comm (Ideal.ofBits .f32 0x3DCCCCCD#32) (h i)]

theorem blendT16_eq (cz h : (⟨S50000x16, .f32⟩ : BufTy).Contents (Elt Ideal)) : blendT16 cz h = blend cz h := by
  funext i
  have e0 : (broadcastInDim S50000x16 ![] bcast_S_S50000x16 (constant (F := Ideal) S_ .f32 0x3F666666#32)) i = Ideal.ofBits .f32 0x3F666666#32 :=
    broadcastInDim_apply _ bcast_S_S50000x16 _ i (fun a => a.elim0) (fun a => a.elim0)
  have e1 : (broadcastInDim S50000x16 ![] bcast_S_S50000x16 (constant (F := Ideal) S_ .f32 0x3DCCCCCD#32)) i = Ideal.ofBits .f32 0x3DCCCCCD#32 :=
    broadcastInDim_apply _ bcast_S_S50000x16 _ i (fun a => a.elim0) (fun a => a.elim0)
  show cz i * (broadcastInDim S50000x16 ![] bcast_S_S50000x16 (constant (F := Ideal) S_ .f32 0x3F666666#32)) i
      + (broadcastInDim S50000x16 ![] bcast_S_S50000x16 (constant (F := Ideal) S_ .f32 0x3DCCCCCD#32)) i * h i = _
  rw [e0, e1, blend_apply, mul_comm (Ideal.ofBits .f32 0x3DCCCCCD#32) (h i)]

end Cert.RefBlend

end
-- ==== Proof.RefLoop1.lean ====
/-
  The reference's first diffusion loop: ten steps from the input features.

  Each of its ten unrolled iterations gathers, scales, scatters and blends; in the vocabulary of the propagation and
  the blend, iteration `j` is one diffusion step applied to iteration `j − 1`'s result, the first to the input features.
-/
import proofs.«135505_j17961553232124_1_alg».proof.Proof.RefRead
import proofs.«135505_j17961553232124_1_alg».proof.Proof.ConvR
import proofs.«135505_j17961553232124_1_alg».proof.Proof.BlendSpec
import proofs.«135505_j17961553232124_1_alg».proof.Proof.RefBlend

noncomputable section

namespace Cert.RefLoop1

open Idealize.ShloMosaic Cert.ReferenceIdeal Cert.ReferenceIdeal.Facts₀ Cert.ReferenceIdeal.Read Cert.ConvR Cert.BlendSpec
open Cert.RefBlend

/-- One diffusion step over the feature columns: propagate, then blend with the input features. -/
def step64 (x0 : (⟨S50000x64, .f32⟩ : BufTy).Contents (Elt Ideal)) (x1 x2 : (⟨S800000, .i32⟩ : BufTy).Contents (Elt Ideal)) (z : (⟨S50000x64, .f32⟩ : BufTy).Contents (Elt Ideal)) : (⟨S50000x64, .f32⟩ : BufTy).Contents (Elt Ideal) :=
  blend (conv64 x1 x2 (Cert.ConvR.norm x1 x2) z) x0

variable (x0 : (⟨S50000x64, .f32⟩ : BufTy).Contents (Elt Ideal)) (x1 x2 : (⟨S800000, .i32⟩ : BufTy).Contents (Elt Ideal))

theorem conv_0 : val_main_v37 (F := Ideal) x0 x1 x2 = conv64 x1 x2 (Cert.ConvR.norm x1 x2) x0 := rfl
theorem blend_0 : val_main_v42 (F := Ideal) x0 x1 x2 = blendT64 (val_main_v37 (F := Ideal) x0 x1 x2) x0 := rfl
theorem loop_0 : val_main_v42 (F := Ideal) x0 x1 x2 = iter (step64 x0 x1 x2) x0 1 := by
  rw [blend_0, blendT64_eq, conv_0]
  rfl

theorem conv_1 : val_main_v55 (F := Ideal) x0 x1 x2 = conv64 x1 x2 (Cert.ConvR.norm x1 x2) (val_main_v42 (F := Ideal) x0 x1 x2) := rfl
theorem blend_1 : val_main_v60 (F := Ideal) x0 x1 x2 = blendT64 (val_main_v55 (F := Ideal) x0 x1 x2) x0 := rfl
theorem loop_1 : val_main_v60 (F := Ideal) x0 x1 x2 = iter (step64 x0 x1 x2) x0 2 := by
  rw [blend_1, blendT64_eq, conv_1, loop_0]
  rfl

theorem conv_2 : val_main_v73 (F := Ideal) x0 x1 x2 = conv64 x1 x2 (Cert.ConvR.norm x1 x2) (val_main_v60 (F := Ideal) x0 x1 x2) := rfl
theorem blend_2 : val_main_v78 (F := Ideal) x0 x1 x2 = blendT64 (val_main_v73 (F := Ideal) x0 x1 x2) x0 := rfl
theorem loop_2 : val_main_v78 (F := Ideal) x0 x1 x2 = iter (step64 x0 x1 x2) x0 3 := by
  rw [blend_2, blendT64_eq, conv_2, loop_1]
  rfl

theorem conv_3 : val_main_v91 (F := Ideal) x0 x1 x2 = conv64 x1 x2 (Cert.ConvR.norm x1 x2) (val_main_v78 (F := Ideal) x0 x1 x2) := rfl
theorem blend_3 : val_main_v96 (F := Ideal) x0 x1 x2 = blendT64 (val_main_v91 (F := Ideal) x0 x1 x2) x0 := rfl
theorem loop_3 : val_main_v96 (F := Ideal) x0 x1 x2 = iter (step64 x0 x1 x2) x0 4 := by
  rw [blend_3, blendT64_eq, conv_3, loop_2]
  rfl

theorem conv_4 : val_main_v109 (F := Ideal) x0 x1 x2 = conv64 x1 x2 (Cert.ConvR.norm x1 x2) (val_main_v96 (F := Ideal) x0 x1 x2) := rfl
theorem blend_4 : val_main_v114 (F := Ideal) x0 x1 x2 = blendT64 (val_main_v109 (F := Ideal) x0 x1 x2) x0 := rfl
theorem loop_4 : val_main_v114 (F := Ideal) x0 x1 x2 = iter (step64 x0 x1 x2) x0 5 := by
  rw [blend_4, blendT64_eq, conv_4, loop_3]
  rfl

theorem conv_5 : val_main_v127 (F := Ideal) x0 x1 x2 = conv64 x1 x2 (Cert.ConvR.norm x1 x2) (val_main_v114 (F := Ideal) x0 x1 x2) := rfl
theorem blend_5 : val_main_v132 (F := Ideal) x0 x1 x2 = blendT64 (val_main_v127 (F := Ideal) x0 x1 x2) x0 := rfl
theorem loop_5 : val_main_v132 (F := Ideal) x0 x1 x2 = iter (step64 x0 x1 x2) x0 6 := by
  rw [blend_5, blendT64_eq, conv_5, loop_4]
  rfl

theorem conv_6 : val_main_v145 (F := Ideal) x0 x1 x2 = conv64 x1 x2 (Cert.ConvR.norm x1 x2) (val_main_v132 (F := Ideal) x0 x1 x2) := rfl
theorem blend_6 : val_main_v150 (F := Ideal) x0 x1 x2 = blendT64 (val_main_v145 (F := Ideal) x0 x1 x2) x0 := rfl
theorem loop_6 : val_main_v150 (F := Ideal) x0 x1 x2 = iter (step64 x0 x1 x2) x0 7 := by
  rw [blend_6, blendT64_eq, conv_6, loop_5]
  rfl

theorem conv_7 : val_main_v163 (F := Ideal) x0 x1 x2 = conv64 x1 x2 (Cert.ConvR.norm x1 x2) (val_main_v150 (F := Ideal) x0 x1 x2) := rfl
theorem blend_7 : val_main_v168 (F := Ideal) x0 x1 x2 = blendT64 (val_main_v163 (F := Ideal) x0 x1 x2) x0 := rfl
theorem loop_7 : val_main_v168 (F := Ideal) x0 x1 x2 = iter (step64 x0 x1 x2) x0 8 := by
  rw [blend_7, blendT64_eq, conv_7, loop_6]
  rfl

theorem conv_8 : val_main_v181 (F := Ideal) x0 x1 x2 = conv64 x1 x2 (Cert.ConvR.norm x1 x2) (val_main_v168 (F := Ideal) x0 x1 x2) := rfl
theorem blend_8 : val_main_v186 (F := Ideal) x0 x1 x2 = blendT64 (val_main_v181 (F := Ideal) x0 x1 x2) x0 := rfl
theorem loop_8 : val_main_v186 (F := Ideal) x0 x1 x2 = iter (step64 x0 x1 x2) x0 9 := by
  rw [blend_8, blendT64_eq, conv_8, loop_7]
  rfl

theorem conv_9 : val_main_v199 (F := Ideal) x0 x1 x2 = conv64 x1 x2 (Cert.ConvR.norm x1 x2) (val_main_v186 (F := Ideal) x0 x1 x2) := rfl
theorem blend_9 : val_main_v204 (F := Ideal) x0 x1 x2 = blendT64 (val_main_v199 (F := Ideal) x0 x1 x2) x0 := rfl
theorem loop_9 : val_main_v204 (F := Ideal) x0 x1 x2 = iter (step64 x0 x1 x2) x0 10 := by
  rw [blend_9, blendT64_eq, conv_9, loop_8]
  rfl

end Cert.RefLoop1

end
-- ==== Proof.RefLoop2.lean ====
/-
  The reference's second diffusion loop: ten steps from the class logits, anchored at them.

  Iteration `j` is one diffusion step over the 16 class columns applied to iteration `j − 1`'s result, the first to the
  logits themselves; the anchor of every blend is the logits.
-/
import proofs.«135505_j17961553232124_1_alg».proof.Proof.RefRead
import proofs.«135505_j17961553232124_1_alg».proof.Proof.ConvR
import proofs.«135505_j17961553232124_1_alg».proof.Proof.BlendSpec
import proofs.«135505_j17961553232124_1_alg».proof.Proof.RefBlend

noncomputable section

namespace Cert.RefLoop2

open Idealize.ShloMosaic Cert.ReferenceIdeal Cert.ReferenceIdeal.Facts₀ Cert.ReferenceIdeal.Read Cert.ConvR Cert.BlendSpec
open Cert.RefBlend

/-- One diffusion step over the class columns, anchored at `g`. -/
def step16 (x1 x2 : (⟨S800000, .i32⟩ : BufTy).Contents (Elt Ideal)) (g z : (⟨S50000x16, .f32⟩ : BufTy).Contents (Elt Ideal)) : (⟨S50000x16, .f32⟩ : BufTy).Contents (Elt Ideal) :=
  blend (conv16 x1 x2 (Cert.ConvR.norm x1 x2) z) g

variable (x0 : (⟨S50000x64, .f32⟩ : BufTy).Contents (Elt Ideal)) (x1 x2 : (⟨S800000, .i32⟩ : BufTy).Contents (Elt Ideal)) (x3 : (⟨S128x64, .f32⟩ : BufTy).Contents (Elt Ideal)) (x4 : (⟨S64, .f32⟩ : BufTy).Contents (Elt Ideal)) (x5 : (⟨S64x16, .f32⟩ : BufTy).Contents (Elt Ideal)) (x6 : (⟨S16, .f32⟩ : BufTy).Contents (Elt Ideal)) (x7 : (⟨S9x11, .f32⟩ : BufTy).Contents (Elt Ideal)) (x8 : (⟨S11, .f32⟩ : BufTy).Contents (Elt Ideal)) (x9 : (⟨S11x1, .f32⟩ : BufTy).Contents (Elt Ideal)) (x10 : (⟨S1, .f32⟩ : BufTy).Contents (Elt Ideal)) (x11 : (⟨S64x7, .f32⟩ : BufTy).Contents (Elt Ideal))

theorem conv_0 : val_main_v255 (F := Ideal) x0 x1 x2 x3 x4 x5 x6 x7 x8 x9 x10 x11 = conv16 x1 x2 (Cert.ConvR.norm x1 x2) (val_main_v242 (F := Ideal) x0 x1 x2 x3 x4 x5 x6 x7 x8 x9 x10 x11) := rfl
theorem blend_0 : val_main_v260 (F := Ideal) x0 x1 x2 x3 x4 x5 x6 x7 x8 x9 x10 x11 = blendT16 (val_main_v255 (F := Ideal) x0 x1 x2 x3 x4 x5 x6 x7 x8 x9 x10 x11) (val_main_v242 (F := Ideal) x0 x1 x2 x3 x4 x5 x6 x7 x8 x9 x10 x11) := rfl
theorem loop_0 : val_main_v260 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 1 := by
  rw [blend_0, blendT16_eq, conv_0]
  rfl

theorem conv_1 : val_main_v273 (F := Ideal) x0 x1 x2 x3 x4 x5 x6 x7 x8 x9 x10 x11 = conv16 x1 x2 (Cert.ConvR.norm x1 x2) (val_main_v260 (F := Ideal) x0 x1 x2 x3 x4 x5 x6 x7 x8 x9 x10 x11) := rfl
theorem blend_1 : val_main_v278 (F := Ideal) x0 x1 x2 x3 x4 x5 x6 x7 x8 x9 x10 x11 = blendT16 (val_main_v273 (F := Ideal) x0 x1 x2 x3 x4 x5 x6 x7 x8 x9 x10 x11) (val_main_v242 (F := Ideal) x0 x1 x2 x3 x4 x5 x6 x7 x8 x9 x10 x11) := rfl
theorem loop_1 : val_main_v278 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 2 := by
  rw [blend_1, blendT16_eq, conv_1, loop_0]
  rfl

theorem conv_2 : val_main_v291 (F := Ideal) x0 x1 x2 x3 x4 x5 x6 x7 x8 x9 x10 x11 = conv16 x1 x2 (Cert.ConvR.norm x1 x2) (val_main_v278 (F := Ideal) x0 x1 x2 x3 x4 x5 x6 x7 x8 x9 x10 x11) := rfl
theorem blend_2 : val_main_v296 (F := Ideal) x0 x1 x2 x3 x4 x5 x6 x7 x8 x9 x10 x11 = blendT16 (val_main_v291 (F := Ideal) x0 x1 x2 x3 x4 x5 x6 x7 x8 x9 x10 x11) (val_main_v242 (F := Ideal) x0 x1 x2 x3 x4 x5 x6 x7 x8 x9 x10 x11) := rfl
theorem loop_2 : val_main_v296 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 3 := by
  rw [blend_2, blendT16_eq, conv_2, loop_1]
  rfl

theorem conv_3 : val_main_v309 (F := Ideal) x0 x1 x2 x3 x4 x5 x6 x7 x8 x9 x10 x11 = conv16 x1 x2 (Cert.ConvR.norm x1 x2) (val_main_v296 (F := Ideal) x0 x1 x2 x3 x4 x5 x6 x7 x8 x9 x10 x11) := rfl
theorem blend_3 : val_main_v314 (F := Ideal) x0 x1 x2 x3 x4 x5 x6 x7 x8 x9 x10 x11 = blendT16 (val_main_v309 (F := Ideal) x0 x1 x2 x3 x4 x5 x6 x7 x8 x9 x10 x11) (val_main_v242 (F := Ideal) x0 x1 x2 x3 x4 x5 x6 x7 x8 x9 x10 x11) := rfl
theorem loop_3 : val_main_v314 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 4 := by
  rw [blend_3, blendT16_eq, conv_3, loop_2]
  rfl

theorem conv_4 : val_main_v327 (F := Ideal) x0 x1 x2 x3 x4 x5 x6 x7 x8 x9 x10 x11 = conv16 x1 x2 (Cert.ConvR.norm x1 x2) (val_main_v314 (F := Ideal) x0 x1 x2 x3 x4 x5 x6 x7 x8 x9 x10 x11) := rfl
theorem blend_4 : val_main_v332 (F := Ideal) x0 x1 x2 x3 x4 x5 x6 x7 x8 x9 x10 x11 = blendT16 (val_main_v327 (F := Ideal) x0 x1 x2 x3 x4 x5 x6 x7 x8 x9 x10 x11) (val_main_v242 (F := Ideal) x0 x1 x2 x3 x4 x5 x6 x7 x8 x9 x10 x11) := rfl
theorem loop_4 : val_main_v332 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 5 := by
  rw [blend_4, blendT16_eq, conv_4, loop_3]
  rfl

theorem conv_5 : val_main_v345 (F := Ideal) x0 x1 x2 x3 x4 x5 x6 x7 x8 x9 x10 x11 = conv16 x1 x2 (Cert.ConvR.norm x1 x2) (val_main_v332 (F := Ideal) x0 x1 x2 x3 x4 x5 x6 x7 x8 x9 x10 x11) := rfl
theorem blend_5 : val_main_v350 (F := Ideal) x0 x1 x2 x3 x4 x5 x6 x7 x8 x9 x10 x11 = blendT16 (val_main_v345 (F := Ideal) x0 x1 x2 x3 x4 x5 x6 x7 x8 x9 x10 x11) (val_main_v242 (F := Ideal) x0 x1 x2 x3 x4 x5 x6 x7 x8 x9 x10 x11) := rfl
theorem loop_5 : val_main_v350 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 6 := by
  rw [blend_5, blendT16_eq, conv_5, loop_4]
  rfl

theorem conv_6 : val_main_v363 (F := Ideal) x0 x1 x2 x3 x4 x5 x6 x7 x8 x9 x10 x11 = conv16 x1 x2 (Cert.ConvR.norm x1 x2) (val_main_v350 (F := Ideal) x0 x1 x2 x3 x4 x5 x6 x7 x8 x9 x10 x11) := rfl
theorem blend_6 : val_main_v368 (F := Ideal) x0 x1 x2 x3 x4 x5 x6 x7 x8 x9 x10 x11 = blendT16 (val_main_v363 (F := Ideal) x0 x1 x2 x3 x4 x5 x6 x7 x8 x9 x10 x11) (val_main_v242 (F := Ideal) x0 x1 x2 x3 x4 x5 x6 x7 x8 x9 x10 x11) := rfl
theorem loop_6 : val_main_v368 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 7 := by
  rw [blend_6, blendT16_eq, conv_6, loop_5]
  rfl

theorem conv_7 : val_main_v381 (F := Ideal) x0 x1 x2 x3 x4 x5 x6 x7 x8 x9 x10 x11 = conv16 x1 x2 (Cert.ConvR.norm x1 x2) (val_main_v368 (F := Ideal) x0 x1 x2 x3 x4 x5 x6 x7 x8 x9 x10 x11) := rfl
theorem blend_7 : val_main_v386 (F := Ideal) x0 x1 x2 x3 x4 x5 x6 x7 x8 x9 x10 x11 = blendT16 (val_main_v381 (F := Ideal) x0 x1 x2 x3 x4 x5 x6 x7 x8 x9 x10 x11) (val_main_v242 (F := Ideal) x0 x1 x2 x3 x4 x5 x6 x7 x8 x9 x10 x11) := rfl
theorem loop_7 : val_main_v386 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 8 := by
  rw [blend_7, blendT16_eq, conv_7, loop_6]
  rfl

theorem conv_8 : val_main_v399 (F := Ideal) x0 x1 x2 x3 x4 x5 x6 x7 x8 x9 x10 x11 = conv16 x1 x2 (Cert.ConvR.norm x1 x2) (val_main_v386 (F := Ideal) x0 x1 x2 x3 x4 x5 x6 x7 x8 x9 x10 x11) := rfl
theorem blend_8 : val_main_v404 (F := Ideal) x0 x1 x2 x3 x4 x5 x6 x7 x8 x9 x10 x11 = blendT16 (val_main_v399 (F := Ideal) x0 x1 x2 x3 x4 x5 x6 x7 x8 x9 x10 x11) (val_main_v242 (F := Ideal) x0 x1 x2 x3 x4 x5 x6 x7 x8 x9 x10 x11) := rfl
theorem loop_8 : val_main_v404 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 9 := by
  rw [blend_8, blendT16_eq, conv_8, loop_7]
  rfl

theorem conv_9 : val_main_v417 (F := Ideal) x0 x1 x2 x3 x4 x5 x6 x7 x8 x9 x10 x11 = conv16 x1 x2 (Cert.ConvR.norm x1 x2) (val_main_v404 (F := Ideal) x0 x1 x2 x3 x4 x5 x6 x7 x8 x9 x10 x11) := rfl
theorem blend_9 : val_main_v422 (F := Ideal) x0 x1 x2 x3 x4 x5 x6 x7 x8 x9 x10 x11 = blendT16 (val_main_v417 (F := Ideal) x0 x1 x2 x3 x4 x5 x6 x7 x8 x9 x10 x11) (val_main_v242 (F := Ideal) x0 x1 x2 x3 x4 x5 x6 x7 x8 x9 x10 x11) := rfl
theorem loop_9 : val_main_v422 (F := Ideal) x0 x1 x2 x3 x4 x5 x6 x7 x8 x9 x10 x11 = iter (step16 x1 x2 (val_main_v242 (F := Ideal) x0 x1 x2 x3 x4 x5 x6 x7 x8 x9 x10 x11)) (val_main_v242 (F := Ideal) x0 x1 x2 x3 x4 x5 x6 x7 x8 x9 x10 x11) 10 := by
  rw [blend_9, blendT16_eq, conv_9, loop_8]
  rfl

end Cert.RefLoop2

end
-- ==== Proof.MlpRefIdx.lean ====
/-
  Shared vocabulary for reading the reference's dense middle at an index: two indices with equal coordinates are equal,
  each of the four contractions of the dense middle as a sum over its contracted coordinate (for ANY operands, so that the
  first diffusion result can stay an opaque array), and the two literals that occur (the zero word and the word of 2).
-/
import proofs.«135505_j17961553232124_1_alg».proof.Proof.RefRead

noncomputable section

open scoped BigOperators

namespace Cert.MlpRef

open Cert.ReferenceIdeal Cert.ReferenceIdeal.Gen Cert.ReferenceIdeal.Read Idealize.ShloMosaic Idealize.ShloMosaic.ValueIdx
  Idealize.ShloMosaic.StableHlo

/-- Two rank-1 indices with the same coordinate are equal. -/
theorem ext1 {n : Nat} (i j : (⟨1, ![n]⟩ : Shape).Idx) (h0 : (i 0).val = (j 0).val) : i = j := by
  funext a; match a with | ⟨0, _⟩ => exact Fin.ext h0

/-- Two rank-2 indices with the same coordinates are equal. -/
theorem ext2 {n0 n1 : Nat} (i j : (⟨2, ![n0, n1]⟩ : Shape).Idx) (h0 : (i 0).val = (j 0).val) (h1 : (i 1).val = (j 1).val) :
    i = j := by
  funext a; match a with | ⟨0, _⟩ => exact Fin.ext h0 | ⟨1, _⟩ => exact Fin.ext h1

/-- The contraction `dot_S3200000x9_S9x11_S3200000x11_1_0_0_1_n_n` of any two operands, read at an index: the sum over the contracted coordinate. -/
theorem dot220_apply (y0 : Vec Ideal S3200000x9 .f32) (r : Vec Ideal S9x11 .f32) (i : S3200000x11.Idx) :
    Host.dotGeneral (F := Ideal) (φ₁ := .f32) (φ₂ := .f32) dot_S3200000x9_S9x11_S3200000x11_1_0_0_1_n_n none y0 r i = ∑ k : Fin 9, y0 (lidx_main_v220 i k) * r (ridx_main_v220 i k) := by
  simp only [Host.dotGeneral]
  rw [Ideal.dotGeneral_apply, ← Equiv.sum_comp (ValueIdx.contrEquiv1 dot_S3200000x9_S9x11_S3200000x11_1_0_0_1_n_n 9 rfl rfl).symm]
  refine Finset.sum_congr rfl fun k _ => ?_
  have hk := ValueIdx.contrEquiv1_symm_val dot_S3200000x9_S9x11_S3200000x11_1_0_0_1_n_n 9 rfl rfl k
  have el : dot_S3200000x9_S9x11_S3200000x11_1_0_0_1_n_n.lhsIdx i ((ValueIdx.contrEquiv1 dot_S3200000x9_S9x11_S3200000x11_1_0_0_1_n_n 9 rfl rfl).symm k) = lidx_main_v220 i k := funext fun a => Fin.ext (by
    match a with
    | ⟨0, _⟩ => exact lhs_main_v220_0 _ _
    | ⟨1, _⟩ => exact (lhs_main_v220_1 _ _).trans hk)
  have er : dot_S3200000x9_S9x11_S3200000x11_1_0_0_1_n_n.rhsIdx i ((ValueIdx.contrEquiv1 dot_S3200000x9_S9x11_S3200000x11_1_0_0_1_n_n 9 rfl rfl).symm k) = ridx_main_v220 i k := funext fun a => Fin.ext (by
    match a with
    | ⟨0, _⟩ => exact (rhs_main_v220_0 _ _).trans hk
    | ⟨1, _⟩ => exact rhs_main_v220_1 _ _)
  rw [el, er]

/-- The contraction `dot_S3200000x11_S11x1_S3200000x1_1_0_0_1_n_n` of any two operands, read at an index: the sum over the contracted coordinate. -/
theorem dot225_apply (y0 : Vec Ideal S3200000x11 .f32) (r : Vec Ideal S11x1 .f32) (i : S3200000x1.Idx) :
    Host.dotGeneral (F := Ideal) (φ₁ := .f32) (φ₂ := .f32) dot_S3200000x11_S11x1_S3200000x1_1_0_0_1_n_n none y0 r i = ∑ k : Fin 11, y0 (lidx_main_v225 i k) * r (ridx_main_v225 i k) := by
  simp only [Host.dotGeneral]
  rw [Ideal.dotGeneral_apply, ← Equiv.sum_comp (ValueIdx.contrEquiv1 dot_S3200000x11_S11x1_S3200000x1_1_0_0_1_n_n 11 rfl rfl).symm]
  refine Finset.sum_congr rfl fun k _ => ?_
  have hk := ValueIdx.contrEquiv1_symm_val dot_S3200000x11_S11x1_S3200000x1_1_0_0_1_n_n 11 rfl rfl k
  have el : dot_S3200000x11_S11x1_S3200000x1_1_0_0_1_n_n.lhsIdx i ((ValueIdx.contrEquiv1 dot_S3200000x11_S11x1_S3200000x1_1_0_0_1_n_n 11 rfl rfl).symm k) = lidx_main_v225 i k := funext fun a => Fin.ext (by
    match a with
    | ⟨0, _⟩ => exact lhs_main_v225_0 _ _
    | ⟨1, _⟩ => exact (lhs_main_v225_1 _ _).trans hk)
  have er : dot_S3200000x11_S11x1_S3200000x1_1_0_0_1_n_n.rhsIdx i ((ValueIdx.contrEquiv1 dot_S3200000x11_S11x1_S3200000x1_1_0_0_1_n_n 11 rfl rfl).symm k) = ridx_main_v225 i k := funext fun a => Fin.ext (by
    match a with
    | ⟨0, _⟩ => exact (rhs_main_v225_0 _ _).trans hk
    | ⟨1, _⟩ => exact rhs_main_v225_1 _ _)
  rw [el, er]

/-- The contraction `dot_S50000x128_S128x64_S50000x64_1_0_0_1_n_n` of any two operands, read at an index: the sum over the contracted coordinate. -/
theorem dot234_apply (y0 : Vec Ideal S50000x128 .f32) (r : Vec Ideal S128x64 .f32) (i : S50000x64.Idx) :
    Host.dotGeneral (F := Ideal) (φ₁ := .f32) (φ₂ := .f32) dot_S50000x128_S128x64_S50000x64_1_0_0_1_n_n none y0 r i = ∑ k : Fin 128, y0 (lidx_main_v234 i k) * r (ridx_main_v234 i k) := by
  simp only [Host.dotGeneral]
  rw [Ideal.dotGeneral_apply, ← Equiv.sum_comp (ValueIdx.contrEquiv1 dot_S50000x128_S128x64_S50000x64_1_0_0_1_n_n 128 rfl rfl).symm]
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = lidx_main_v234 i k := funext fun a => Fin.ext (by
    match a with
    | ⟨0, _⟩ => exact lhs_main_v234_0 _ _
    | ⟨1, _⟩ => exact (lhs_main_v234_1 _ _).trans hk)
  have er : dot_S50000x128_S128x64_S50000x64_1_0_0_1_n_n.rhsIdx i ((ValueIdx.contrEquiv1 dot_S50000x128_S128x64_S50000x64_1_0_0_1_n_n 128 rfl rfl).symm k) = ridx_main_v234 i k := funext fun a => Fin.ext (by
    match a with
    | ⟨0, _⟩ => exact (rhs_main_v234_0 _ _).trans hk
    | ⟨1, _⟩ => exact rhs_main_v234_1 _ _)
  rw [el, er]

/-- The contraction `dot_S50000x64_S64x16_S50000x16_1_0_0_1_n_n` of any two operands, read at an index: the sum over the contracted coordinate. -/
theorem dot239_apply (y0 : Vec Ideal S50000x64 .f32) (r : Vec Ideal S64x16 .f32) (i : S50000x16.Idx) :
    Host.dotGeneral (F := Ideal) (φ₁ := .f32) (φ₂ := .f32) dot_S50000x64_S64x16_S50000x16_1_0_0_1_n_n none y0 r i = ∑ k : Fin 64, y0 (lidx_main_v239 i k) * r (ridx_main_v239 i k) := by
  simp only [Host.dotGeneral]
  rw [Ideal.dotGeneral_apply, ← Equiv.sum_comp (ValueIdx.contrEquiv1 dot_S50000x64_S64x16_S50000x16_1_0_0_1_n_n 64 rfl rfl).symm]
  refine Finset.sum_congr rfl fun k _ => ?_
  have hk := ValueIdx.contrEquiv1_symm_val dot_S50000x64_S64x16_S50000x16_1_0_0_1_n_n 64 rfl rfl k
  have el : dot_S50000x64_S64x16_S50000x16_1_0_0_1_n_n.lhsIdx i ((ValueIdx.contrEquiv1 dot_S50000x64_S64x16_S50000x16_1_0_0_1_n_n 64 rfl rfl).symm k) = lidx_main_v239 i k := funext fun a => Fin.ext (by
    match a with
    | ⟨0, _⟩ => exact lhs_main_v239_0 _ _
    | ⟨1, _⟩ => exact (lhs_main_v239_1 _ _).trans hk)
  have er : dot_S50000x64_S64x16_S50000x16_1_0_0_1_n_n.rhsIdx i ((ValueIdx.contrEquiv1 dot_S50000x64_S64x16_S50000x16_1_0_0_1_n_n 64 rfl rfl).symm k) = ridx_main_v239 i k := funext fun a => Fin.ext (by
    match a with
    | ⟨0, _⟩ => exact (rhs_main_v239_0 _ _).trans hk
    | ⟨1, _⟩ => exact rhs_main_v239_1 _ _)
  rw [el, er]

/-- The word of 2.0 denotes the real number 2. -/
theorem ofBits_two : Ideal.ofBits .f32 0x40000000#32 = ((2 : ℝ) : EReal) := by
  simp [Ideal.ofBits, Ideal.ieee]
  rw [← EReal.coe_mul]; norm_num

end Cert.MlpRef

end
-- ==== Proof.MlpRefRows.lean ====
/-
  The rows the reference feeds its pair network, read at an index. Row r = f·50000 + n of the [3200000, 9] array holds
  (z[n,f], x[n,f], emb[f,0..6]): the first two columns are the transposed, flattened z and x (row-major arithmetic), the last
  seven a gather of emb at the row's class word, which is the 32-bit word of f = r / 50000 — not negative, so the
  wrap-around select keeps it, and below 64, so the clamp keeps it.
-/
import proofs.«135505_j17961553232124_1_alg».proof.Proof.MlpRefIdx

noncomputable section

open scoped BigOperators

namespace Cert.MlpRef

open Cert.ReferenceIdeal Cert.ReferenceIdeal.Gen Cert.ReferenceIdeal.Read Idealize.ShloMosaic Idealize.ShloMosaic.ValueIdx
  Idealize.ShloMosaic.StableHlo

/-- The flat row of node `n`, feature `f`: feature-major. -/
def row (n : Fin 50000) (f : Fin 64) : Fin 3200000 := ⟨f.val * 50000 + n.val, by omega⟩

theorem row_val (n : Fin 50000) (f : Fin 64) : (row n f).val = f.val * 50000 + n.val := rfl

/-- The nine-column rows, with `z` any [50000, 64] array. -/
def rows (z x0 : Vec Ideal S50000x64 .f32) (x11 : Vec Ideal S64x7 .f32) : Vec Ideal S3200000x9 .f32 :=
  concatenate S3200000x9 1 [⟨S3200000x1, val_main_v211 (F := Ideal) z⟩, ⟨S3200000x1, val_main_v211 (F := Ideal) x0⟩,
    ⟨S3200000x7, val_main_v218 (F := Ideal) x11⟩] concatenates_S3200000x1_S3200000x1_S3200000x7_S3200000x9_d1

/-- A [50000, 64] array transposed and flattened, at row f·50000 + n: its entry (n, f). -/
theorem col_apply (y : Vec Ideal S50000x64 .f32) (n : Fin 50000) (f : Fin 64) :
    val_main_v211 (F := Ideal) y (ix2 (row n f) (0 : Fin 1)) = y (ix2 n f) := by
  rw [val_main_v211_apply, val_main_v210_apply]
  refine congrArg y (ext2 _ _ ?_ ?_)
  · show (((row n f).val * 1 + 0) % 50000) = n.val
    rw [row_val]; have := n.isLt; have := f.isLt; omega
  · show (((row n f).val * 1 + 0) / 50000) = f.val
    rw [row_val]; have := n.isLt; have := f.isLt; omega

/-- The class word of row f·50000 + n is the word of f. -/
theorem cls_word (n : Fin 50000) (f : Fin 64) :
    val_main_v207 (F := Ideal) (ix1 (row n f)) = BitVec.ofNat 32 f.val := by
  rw [val_main_v207_apply, val_main_v206_apply, val_main_v205_apply]
  refine congrArg (BitVec.ofNat 32) ?_
  show (row n f).val / 50000 = f.val
  rw [row_val]; have := n.isLt; omega

/-- The word of a number below 64 is not negative. -/
theorem word_not_neg : ∀ f : Fin 64, IntOp.cmpi .slt (BitVec.ofNat 32 f.val) 0#32 = 0#1 := by decide

/-- The word of a number below 64, read signed and clamped to at most 63, is that number. -/
theorem word_clamp : ∀ f : Fin 64, min (BitVec.ofNat 32 f.val).toInt.toNat 63 = f.val := by decide

/-- The gather's start index at row f·50000 + n is the word of f. -/
theorem start_word (n : Fin 50000) (f : Fin 64) :
    val_main_v217 (F := Ideal) (ix2 (row n f) (0 : Fin 1)) = BitVec.ofNat 32 f.val := by
  rw [val_main_v217_apply, show idx_main_v217 (ix2 (row n f) (0 : Fin 1)) = ix1 (row n f) from ext1 _ _ rfl,
    val_main_v216_apply, val_main_v213_apply, val_main_v212_apply, val_main_c_57_apply, cls_word, word_not_neg, select_zero]

/-- The gathered columns at row f·50000 + n: row `f` of the table. -/
theorem gather_apply (x11 : Vec Ideal S64x7 .f32) (n : Fin 50000) (f : Fin 64) (k : Fin 7) :
    val_main_v218 (F := Ideal) x11 (ix2 (row n f) k) = x11 (ix2 f k) := by
  unfold val_main_v218 Host.gather
  refine congrArg x11 (ext2 _ _ ?_ ?_)
  · show gather_S64x7_S3200000x1_S3200000x7_1_0_n_n_0_1_17.start (ix2 (row n f) k) (val_main_v217 (F := Ideal)) 0
        + gather_S64x7_S3200000x1_S3200000x7_1_0_n_n_0_1_17.batchCoord (ix2 (row n f) k) 0 + gather_S64x7_S3200000x1_S3200000x7_1_0_n_n_0_1_17.offCoord (ix2 (row n f) k) 0 = f.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S64x7_S3200000x1_S3200000x7_1_0_n_n_0_1_17.startIndexMap from List.mem_singleton.mpr rfl)]
    have hsi : gather_S64x7_S3200000x1_S3200000x7_1_0_n_n_0_1_17.siIdx (ix2 (row n f) k) ⟨List.idxOf (0 : Fin 2) gather_S64x7_S3200000x1_S3200000x7_1_0_n_n_0_1_17.startIndexMap,
        List.idxOf_lt_length_iff.2 (List.mem_singleton.mpr rfl)⟩ = ix2 (row n f) (0 : Fin 1) := by
      funext b; refine Fin.ext ?_
      match b with
      | ⟨0, _⟩ => rfl
      | ⟨1, _⟩ => rfl
    rw [hsi, start_word]
    exact word_clamp f
  · show gather_S64x7_S3200000x1_S3200000x7_1_0_n_n_0_1_17.start (ix2 (row n f) k) (val_main_v217 (F := Ideal)) 1
        + gather_S64x7_S3200000x1_S3200000x7_1_0_n_n_0_1_17.batchCoord (ix2 (row n f) k) 1 + gather_S64x7_S3200000x1_S3200000x7_1_0_n_n_0_1_17.offCoord (ix2 (row n f) k) 1 = k.val
    rw [GatherDims.batchCoord_eq_zero _ _ _ List.not_mem_nil]
    unfold GatherDims.start
    rw [dif_neg (show ¬ (1 : Fin 2) ∈ gather_S64x7_S3200000x1_S3200000x7_1_0_n_n_0_1_17.startIndexMap by decide)]
    unfold GatherDims.offCoord
    rw [dif_pos (show (1 : Fin 2) ∈ gather_S64x7_S3200000x1_S3200000x7_1_0_n_n_0_1_17.sKept by decide)]
    simp only [Nat.zero_add]
    rfl

/-- Column 0 of the rows: z. -/
theorem rows_col0 (z x0 : Vec Ideal S50000x64 .f32) (x11 : Vec Ideal S64x7 .f32) (n : Fin 50000) (f : Fin 64) :
    rows z x0 x11 (ix2 (row n f) (0 : Fin 9)) = z (ix2 n f) := by
  unfold rows
  refine (concatenate_apply_piece (t := S3200000x9) 1
    [⟨S3200000x1, val_main_v211 (F := Ideal) z⟩, ⟨S3200000x1, val_main_v211 (F := Ideal) x0⟩,
      ⟨S3200000x7, val_main_v218 (F := Ideal) x11⟩]
    concatenates_S3200000x1_S3200000x1_S3200000x7_S3200000x9_d1 _ 0 (by show 0 < 3; decide) S3200000x1 (val_main_v211 (F := Ideal) z) rfl rfl 0 rfl
    (ix2 (row n f) (0 : Fin 1)) (fun b hb => match b, hb with | ⟨0, _⟩, _ => rfl | ⟨1, _⟩, hb => absurd rfl hb) rfl).trans ?_
  exact col_apply z n f

/-- Column 1 of the rows: x. -/
theorem rows_col1 (z x0 : Vec Ideal S50000x64 .f32) (x11 : Vec Ideal S64x7 .f32) (n : Fin 50000) (f : Fin 64) :
    rows z x0 x11 (ix2 (row n f) (1 : Fin 9)) = x0 (ix2 n f) := by
  unfold rows
  refine (concatenate_apply_piece (t := S3200000x9) 1
    [⟨S3200000x1, val_main_v211 (F := Ideal) z⟩, ⟨S3200000x1, val_main_v211 (F := Ideal) x0⟩,
      ⟨S3200000x7, val_main_v218 (F := Ideal) x11⟩]
    concatenates_S3200000x1_S3200000x1_S3200000x7_S3200000x9_d1 _ 1 (by show 1 < 3; decide) S3200000x1 (val_main_v211 (F := Ideal) x0) rfl rfl 1 rfl
    (ix2 (row n f) (0 : Fin 1)) (fun b hb => match b, hb with | ⟨0, _⟩, _ => rfl | ⟨1, _⟩, hb => absurd rfl hb) rfl).trans ?_
  exact col_apply x0 n f

/-- Columns 2..8 of the rows: row `f` of the table. -/
theorem rows_col2 (z x0 : Vec Ideal S50000x64 .f32) (x11 : Vec Ideal S64x7 .f32) (n : Fin 50000) (f : Fin 64) (k : Fin 7) :
    rows z x0 x11 (ix2 (row n f) (⟨k.val + 2, by omega⟩ : Fin 9)) = x11 (ix2 f k) := by
  unfold rows
  refine (concatenate_apply_piece (t := S3200000x9) 1
    [⟨S3200000x1, val_main_v211 (F := Ideal) z⟩, ⟨S3200000x1, val_main_v211 (F := Ideal) x0⟩,
      ⟨S3200000x7, val_main_v218 (F := Ideal) x11⟩]
    concatenates_S3200000x1_S3200000x1_S3200000x7_S3200000x9_d1 (ix2 (row n f) (⟨k.val + 2, by omega⟩ : Fin 9)) 2 (by show 2 < 3; decide) S3200000x7 (val_main_v218 (F := Ideal) x11) rfl rfl 2 rfl
    (ix2 (row n f) k) (fun b hb => match b, hb with | ⟨0, _⟩, _ => rfl | ⟨1, _⟩, hb => absurd rfl hb) (Nat.add_comm 2 k.val)).trans ?_
  exact gather_apply x11 n f k

end Cert.MlpRef

end
-- ==== Proof.MlpRefPair.lean ====
/-
  The reference's pair network read at an index, with the first diffusion result `z` any [50000, 64] array. On the flat
  row r = f·50000 + n the nine-term contraction against A1 peels into z[n,f]·A1[0,h] + x[n,f]·A1[1,h] + Σ_k emb[f,k]·A1[k+2,h];
  the bias, the maximum against zero, the contraction against A2's one column, its bias and the division by 2 (a product
  with one half) follow; the result is reshaped to [64, 50000] and transposed, so entry (n, f) is the flat row's value.
-/
import proofs.«135505_j17961553232124_1_alg».proof.Proof.MlpRefRows

noncomputable section

open scoped BigOperators

namespace Cert.MlpRef

open Cert.ReferenceIdeal Cert.ReferenceIdeal.Gen Cert.ReferenceIdeal.Read Idealize.ShloMosaic Idealize.ShloMosaic.ValueIdx
  Idealize.ShloMosaic.StableHlo

/-- The pair network on the flat rows. -/
def pairFlat (z x0 : Vec Ideal S50000x64 .f32) (x7 : Vec Ideal S9x11 .f32) (x8 : Vec Ideal S11 .f32)
    (x9 : Vec Ideal S11x1 .f32) (x10 : Vec Ideal S1 .f32) (x11 : Vec Ideal S64x7 .f32) : Vec Ideal S3200000x1 .f32 :=
  Host.divf (F := Ideal) (φ := .f32)
    (addf (F := Ideal) (φ := .f32)
      (Host.dotGeneral (F := Ideal) (φ₁ := .f32) (φ₂ := .f32) dot_S3200000x11_S11x1_S3200000x1_1_0_0_1_n_n none
        (maximumf (F := Ideal) (φ := .f32)
          (addf (F := Ideal) (φ := .f32) (Host.dotGeneral (F := Ideal) (φ₁ := .f32) (φ₂ := .f32) dot_S3200000x9_S9x11_S3200000x11_1_0_0_1_n_n none (rows z x0 x11) x7) (val_main_v222 (F := Ideal) x8))
          (val_main_call1_v0 (F := Ideal)))
        x9)
      (val_main_v227 (F := Ideal) x10))
    (val_main_v229 (F := Ideal))

/-- The pair network's outputs as a [50000, 64] array. -/
def pairArr (z x0 : Vec Ideal S50000x64 .f32) (x7 : Vec Ideal S9x11 .f32) (x8 : Vec Ideal S11 .f32)
    (x9 : Vec Ideal S11x1 .f32) (x10 : Vec Ideal S1 .f32) (x11 : Vec Ideal S64x7 .f32) : Vec Ideal S50000x64 .f32 :=
  transpose S50000x64 [1, 0] (shapeCast _ (pairFlat z x0 x7 x8 x9 x10 x11) shapeCasts_S3200000x1_S64x50000)
    transposes_S64x50000_S50000x64_1_0

/-- A sum over nine terms with its first two peeled off. -/
theorem sum_peel_9 (g : Fin 9 → EReal) : ∑ k, g k = g 0 + g 1 + ∑ k : Fin 7, g ⟨k.val + 2, by omega⟩ := by
  rw [Fin.sum_univ_succ, Fin.sum_univ_succ, ← add_assoc]
  exact congrArg₂ (· + ·) rfl (Finset.sum_congr rfl fun k _ => congrArg g (Fin.ext rfl))

/-- Hidden unit `h` before rectification, on the flat row of (n, f). -/
theorem pre_apply (z x0 : Vec Ideal S50000x64 .f32) (x7 : Vec Ideal S9x11 .f32) (x8 : Vec Ideal S11 .f32)
    (x11 : Vec Ideal S64x7 .f32) (n : Fin 50000) (f : Fin 64) (h : Fin 11) :
    Host.dotGeneral (F := Ideal) (φ₁ := .f32) (φ₂ := .f32) dot_S3200000x9_S9x11_S3200000x11_1_0_0_1_n_n none (rows z x0 x11) x7 (ix2 (row n f) h)
        + val_main_v222 (F := Ideal) x8 (ix2 (row n f) h)
      = z (ix2 n f) * x7 (ix2 (0 : Fin 9) h) + x0 (ix2 n f) * x7 (ix2 (1 : Fin 9) h)
        + (∑ k : Fin 7, x11 (ix2 f k) * x7 (ix2 (⟨k.val + 2, by omega⟩ : Fin 9) h)) + x8 (ix1 h) := by
  rw [dot220_apply, val_main_v222_apply, val_main_v221_apply, sum_peel_9,
    show idx_main_v221 (idx_main_v222 (ix2 (row n f) h)) = ix1 h from ext1 _ _ rfl,
    show lidx_main_v220 (ix2 (row n f) h) (0 : Fin 9) = ix2 (row n f) (0 : Fin 9) from ext2 _ _ rfl rfl,
    show lidx_main_v220 (ix2 (row n f) h) (1 : Fin 9) = ix2 (row n f) (1 : Fin 9) from ext2 _ _ rfl rfl,
    show ridx_main_v220 (ix2 (row n f) h) (0 : Fin 9) = ix2 (0 : Fin 9) h from ext2 _ _ rfl rfl,
    show ridx_main_v220 (ix2 (row n f) h) (1 : Fin 9) = ix2 (1 : Fin 9) h from ext2 _ _ rfl rfl,
    rows_col0, rows_col1]
  refine congrArg₂ (· + ·) (congrArg₂ (· + ·) rfl (Finset.sum_congr rfl fun k _ => ?_)) rfl
  rw [show lidx_main_v220 (ix2 (row n f) h) (⟨k.val + 2, by omega⟩ : Fin 9) = ix2 (row n f) (⟨k.val + 2, by omega⟩ : Fin 9)
      from ext2 _ _ rfl rfl,
    show ridx_main_v220 (ix2 (row n f) h) (⟨k.val + 2, by omega⟩ : Fin 9) = ix2 (⟨k.val + 2, by omega⟩ : Fin 9) h
      from ext2 _ _ rfl rfl, rows_col2]

/-- The word of 2.0 divides as the real number 2: a division by it is the product with one half. -/
theorem div_two (a : EReal) : Ideal.div a (Ideal.ofBits .f32 0x40000000#32) = a * ((1 / 2 : ℝ) : EReal) := by
  rw [ofBits_two]; exact Ideal.div_coe (by norm_num) a

/-- The pair network on the flat row of (n, f). -/
theorem pairFlat_apply (z x0 : Vec Ideal S50000x64 .f32) (x7 : Vec Ideal S9x11 .f32) (x8 : Vec Ideal S11 .f32)
    (x9 : Vec Ideal S11x1 .f32) (x10 : Vec Ideal S1 .f32) (x11 : Vec Ideal S64x7 .f32) (n : Fin 50000) (f : Fin 64) :
    pairFlat z x0 x7 x8 x9 x10 x11 (ix2 (row n f) (0 : Fin 1))
      = ((∑ h : Fin 11, max (z (ix2 n f) * x7 (ix2 (0 : Fin 9) h) + x0 (ix2 n f) * x7 (ix2 (1 : Fin 9) h)
            + (∑ k : Fin 7, x11 (ix2 f k) * x7 (ix2 (⟨k.val + 2, by omega⟩ : Fin 9) h)) + x8 (ix1 h)) 0
              * x9 (ix2 h (0 : Fin 1)))
          + x10 (ix1 (0 : Fin 1))) * ((1 / 2 : ℝ) : EReal) := by
  show Ideal.div
      (Host.dotGeneral (F := Ideal) (φ₁ := .f32) (φ₂ := .f32) dot_S3200000x11_S11x1_S3200000x1_1_0_0_1_n_n none
          (maximumf (F := Ideal) (φ := .f32)
            (addf (F := Ideal) (φ := .f32) (Host.dotGeneral (F := Ideal) (φ₁ := .f32) (φ₂ := .f32) dot_S3200000x9_S9x11_S3200000x11_1_0_0_1_n_n none (rows z x0 x11) x7) (val_main_v222 (F := Ideal) x8))
            (val_main_call1_v0 (F := Ideal))) x9 (ix2 (row n f) (0 : Fin 1))
        + val_main_v227 (F := Ideal) x10 (ix2 (row n f) (0 : Fin 1)))
      (val_main_v229 (F := Ideal) (ix2 (row n f) (0 : Fin 1))) = _
  rw [val_main_v229_apply, val_main_cst_59_apply, Ideal.ofBits_def, div_two, dot225_apply, val_main_v227_apply,
    val_main_v226_apply, show idx_main_v226 (idx_main_v227 (ix2 (row n f) (0 : Fin 1))) = ix1 (0 : Fin 1) from ext1 _ _ rfl]
  refine congrArg₂ (· * ·) (congrArg₂ (· + ·) (Finset.sum_congr rfl fun h _ => ?_) rfl) rfl
  rw [show lidx_main_v225 (ix2 (row n f) (0 : Fin 1)) h = ix2 (row n f) h from ext2 _ _ rfl rfl,
    show ridx_main_v225 (ix2 (row n f) (0 : Fin 1)) h = ix2 h (0 : Fin 1) from ext2 _ _ rfl rfl]
  refine congrArg₂ (· * ·) ?_ rfl
  show max (Host.dotGeneral (F := Ideal) (φ₁ := .f32) (φ₂ := .f32) dot_S3200000x9_S9x11_S3200000x11_1_0_0_1_n_n none (rows z x0 x11) x7 (ix2 (row n f) h)
        + val_main_v222 (F := Ideal) x8 (ix2 (row n f) h)) (val_main_call1_v0 (F := Ideal) (ix2 (row n f) h)) = _
  rw [pre_apply, val_main_call1_v0_apply, val_main_call1_cst_apply, Ideal.ofBits_def, Ideal.ofBits_zero_f32]

/-- A flat [3200000, 1] array reshaped to [64, 50000] and transposed, at (n, f): the flat row f·50000 + n. -/
theorem unflat_apply (y : Vec Ideal S3200000x1 .f32) (n : Fin 50000) (f : Fin 64) :
    transpose S50000x64 [1, 0] (shapeCast _ y shapeCasts_S3200000x1_S64x50000) transposes_S64x50000_S50000x64_1_0 (ix2 n f)
      = y (ix2 (row n f) (0 : Fin 1)) := by
  refine (transpose_apply (s := S64x50000) (t := S50000x64) [1, 0] _ transposes_S64x50000_S50000x64_1_0 (ix2 n f) (idx_main_v232 (ix2 n f))
    (fun b => match b with | ⟨0, _⟩ => rfl | ⟨1, _⟩ => rfl)).trans ?_
  refine shapeCast_apply y shapeCasts_S3200000x1_S64x50000 (idx_main_v232 (ix2 n f)) (ix2 (row n f) (0 : Fin 1)) ?_
  rewrite [Shape.rowMajor_val_two, Shape.rowMajor_val_two]
  show (row n f).val * 1 + 0 = f.val * 50000 + n.val
  rw [row_val]; omega

/-- The pair network's output at node `n`, feature `f`. -/
theorem pairArr_apply (z x0 : Vec Ideal S50000x64 .f32) (x7 : Vec Ideal S9x11 .f32) (x8 : Vec Ideal S11 .f32)
    (x9 : Vec Ideal S11x1 .f32) (x10 : Vec Ideal S1 .f32) (x11 : Vec Ideal S64x7 .f32) (n : Fin 50000) (f : Fin 64) :
    pairArr z x0 x7 x8 x9 x10 x11 (ix2 n f)
      = ((∑ h : Fin 11, max (z (ix2 n f) * x7 (ix2 (0 : Fin 9) h) + x0 (ix2 n f) * x7 (ix2 (1 : Fin 9) h)
            + (∑ k : Fin 7, x11 (ix2 f k) * x7 (ix2 (⟨k.val + 2, by omega⟩ : Fin 9) h)) + x8 (ix1 h)) 0
              * x9 (ix2 h (0 : Fin 1)))
          + x10 (ix1 (0 : Fin 1))) * ((1 / 2 : ℝ) : EReal) :=
  (unflat_apply (pairFlat z x0 x7 x8 x9 x10 x11) n f).trans (pairFlat_apply z x0 x7 x8 x9 x10 x11 n f)

end Cert.MlpRef

end
-- ==== Proof.MlpRefCls.lean ====
/-
  The reference's classifier read at an index, for ANY array P of pair outputs: the 128-wide row is the concatenation of
  P's row and x's row, so the 128-term contraction against W1 splits into the 64 terms of P against W1's first 64 rows and
  the 64 terms of x against its last 64 rows; the bias, the maximum against zero, the contraction against W2 and its bias
  follow.
-/
import proofs.«135505_j17961553232124_1_alg».proof.Proof.MlpRefIdx

noncomputable section

open scoped BigOperators

namespace Cert.MlpRef

open Cert.ReferenceIdeal Cert.ReferenceIdeal.Gen Cert.ReferenceIdeal.Read Idealize.ShloMosaic Idealize.ShloMosaic.ValueIdx
  Idealize.ShloMosaic.StableHlo

/-- The rectified hidden layer of the classifier on pair outputs `P` and features `x0`. -/
def hid (P x0 : Vec Ideal S50000x64 .f32) (x3 : Vec Ideal S128x64 .f32) (x4 : Vec Ideal S64 .f32) : Vec Ideal S50000x64 .f32 :=
  maximumf (F := Ideal) (φ := .f32)
    (addf (F := Ideal) (φ := .f32)
      (Host.dotGeneral (F := Ideal) (φ₁ := .f32) (φ₂ := .f32) dot_S50000x128_S128x64_S50000x64_1_0_0_1_n_n none
        (concatenate S50000x128 1 [⟨S50000x64, P⟩, ⟨S50000x64, x0⟩] concatenates_S50000x64_S50000x64_S50000x128_d1) x3)
      (val_main_v236 (F := Ideal) x4))
    (val_main_call2_v0 (F := Ideal))

/-- The classifier's logits on pair outputs `P` and features `x0`. -/
def cls (P x0 : Vec Ideal S50000x64 .f32) (x3 : Vec Ideal S128x64 .f32) (x4 : Vec Ideal S64 .f32)
    (x5 : Vec Ideal S64x16 .f32) (x6 : Vec Ideal S16 .f32) : Vec Ideal S50000x16 .f32 :=
  addf (F := Ideal) (φ := .f32) (Host.dotGeneral (F := Ideal) (φ₁ := .f32) (φ₂ := .f32) dot_S50000x64_S64x16_S50000x16_1_0_0_1_n_n none (hid P x0 x3 x4) x5) (val_main_v241 (F := Ideal) x6)

/-- A sum over 128 terms is the sum of its first 64 and its last 64. -/
theorem sum_split_128 (g : Fin 128 → EReal) :
    ∑ k, g k = (∑ k : Fin 64, g ⟨k.val, by omega⟩) + ∑ k : Fin 64, g ⟨k.val + 64, by omega⟩ := by
  have h := Fin.sum_univ_add (a := 64) (b := 64) (fun k : Fin (64 + 64) => g k)
  refine h.trans ?_
  refine congrArg₂ (· + ·) rfl (Finset.sum_congr rfl fun k _ => congrArg g (Fin.ext ?_))
  show 64 + k.val = k.val + 64
  omega

/-- Columns 0..63 of the concatenated row are P's row. -/
theorem cat_left (P x0 : Vec Ideal S50000x64 .f32) (n : Fin 50000) (k : Fin 64) :
    concatenate S50000x128 1 [⟨S50000x64, P⟩, ⟨S50000x64, x0⟩] concatenates_S50000x64_S50000x64_S50000x128_d1
      (ix2 n (⟨k.val, by omega⟩ : Fin 128)) = P (ix2 n k) :=
  concatenate_pair_apply_left 1 P x0 concatenates_S50000x64_S50000x64_S50000x128_d1 _ rfl (ix2 n k)
    (fun b => match b with | ⟨0, _⟩ => rfl | ⟨1, _⟩ => rfl)

/-- Columns 64..127 of the concatenated row are x's row. -/
theorem cat_right (P x0 : Vec Ideal S50000x64 .f32) (n : Fin 50000) (k : Fin 64) :
    concatenate S50000x128 1 [⟨S50000x64, P⟩, ⟨S50000x64, x0⟩] concatenates_S50000x64_S50000x64_S50000x128_d1
      (ix2 n (⟨k.val + 64, by omega⟩ : Fin 128)) = x0 (ix2 n k) :=
  concatenate_pair_apply_right 1 P x0 concatenates_S50000x64_S50000x64_S50000x128_d1 _ rfl rfl (ix2 n k)
    (fun b hb => match b, hb with | ⟨0, _⟩, _ => rfl | ⟨1, _⟩, hb => absurd rfl hb) rfl

/-- The hidden layer at node `n`, unit `j`. -/
theorem hid_apply (P x0 : Vec Ideal S50000x64 .f32) (x3 : Vec Ideal S128x64 .f32) (x4 : Vec Ideal S64 .f32)
    (n : Fin 50000) (j : Fin 64) :
    hid P x0 x3 x4 (ix2 n j)
      = max ((∑ k : Fin 64, P (ix2 n k) * x3 (ix2 (⟨k.val, by omega⟩ : Fin 128) j))
          + (∑ k : Fin 64, x0 (ix2 n k) * x3 (ix2 (⟨k.val + 64, by omega⟩ : Fin 128) j)) + x4 (ix1 j)) 0 := by
  show max (Host.dotGeneral (F := Ideal) (φ₁ := .f32) (φ₂ := .f32) dot_S50000x128_S128x64_S50000x64_1_0_0_1_n_n none _ x3 (ix2 n j) + val_main_v236 (F := Ideal) x4 (ix2 n j))
      (val_main_call2_v0 (F := Ideal) (ix2 n j)) = _
  rw [dot234_apply, val_main_v236_apply, val_main_v235_apply, val_main_call2_v0_apply, val_main_call2_cst_apply,
    Ideal.ofBits_def, Ideal.ofBits_zero_f32, sum_split_128,
    show idx_main_v235 (idx_main_v236 (ix2 n j)) = ix1 j from ext1 _ _ rfl]
  refine congrArg₂ max (congrArg₂ (· + ·) (congrArg₂ (· + ·) ?_ ?_) rfl) rfl
  · refine Finset.sum_congr rfl fun k _ => ?_
    rw [show lidx_main_v234 (ix2 n j) (⟨k.val, by omega⟩ : Fin 128) = ix2 n (⟨k.val, by omega⟩ : Fin 128) from ext2 _ _ rfl rfl,
      show ridx_main_v234 (ix2 n j) (⟨k.val, by omega⟩ : Fin 128) = ix2 (⟨k.val, by omega⟩ : Fin 128) j from ext2 _ _ rfl rfl,
      cat_left]
  · refine Finset.sum_congr rfl fun k _ => ?_
    rw [show lidx_main_v234 (ix2 n j) (⟨k.val + 64, by omega⟩ : Fin 128) = ix2 n (⟨k.val + 64, by omega⟩ : Fin 128) from ext2 _ _ rfl rfl,
      show ridx_main_v234 (ix2 n j) (⟨k.val + 64, by omega⟩ : Fin 128) = ix2 (⟨k.val + 64, by omega⟩ : Fin 128) j from ext2 _ _ rfl rfl,
      cat_right]

/-- The logits at node `n`, class `q`. -/
theorem cls_apply (P x0 : Vec Ideal S50000x64 .f32) (x3 : Vec Ideal S128x64 .f32) (x4 : Vec Ideal S64 .f32)
    (x5 : Vec Ideal S64x16 .f32) (x6 : Vec Ideal S16 .f32) (n : Fin 50000) (q : Fin 16) :
    cls P x0 x3 x4 x5 x6 (ix2 n q)
      = (∑ j : Fin 64, max ((∑ k : Fin 64, P (ix2 n k) * x3 (ix2 (⟨k.val, by omega⟩ : Fin 128) j))
          + (∑ k : Fin 64, x0 (ix2 n k) * x3 (ix2 (⟨k.val + 64, by omega⟩ : Fin 128) j)) + x4 (ix1 j)) 0 * x5 (ix2 j q))
        + x6 (ix1 q) := by
  show Host.dotGeneral (F := Ideal) (φ₁ := .f32) (φ₂ := .f32) dot_S50000x64_S64x16_S50000x16_1_0_0_1_n_n none (hid P x0 x3 x4) x5 (ix2 n q) + val_main_v241 (F := Ideal) x6 (ix2 n q) = _
  rw [dot239_apply, val_main_v241_apply, val_main_v240_apply,
    show idx_main_v240 (idx_main_v241 (ix2 n q)) = ix1 q from ext1 _ _ rfl]
  refine congrArg₂ (· + ·) (Finset.sum_congr rfl fun j _ => ?_) rfl
  rw [show lidx_main_v239 (ix2 n q) j = ix2 n j from ext2 _ _ rfl rfl,
    show ridx_main_v239 (ix2 n q) j = ix2 j q from ext2 _ _ rfl rfl, hid_apply]

end Cert.MlpRef

end
-- ==== Proof.MlpRef.lean ====
/-
  The reference's dense middle as one function `mid` of the first diffusion result `z` and the inputs, and the two facts
  about it: the reference's logits array is `mid` of its own diffusion result (the same operations, by unfolding the
  stage definitions), and `mid` is the network of the common specification, entry by entry.
-/
import proofs.«135505_j17961553232124_1_alg».proof.Proof.MlpRefPair
import proofs.«135505_j17961553232124_1_alg».proof.Proof.MlpRefCls
import proofs.«135505_j17961553232124_1_alg».proof.Proof.MlpSpec

noncomputable section

open scoped BigOperators

namespace Cert.MlpRef

open Cert.ReferenceIdeal Cert.ReferenceIdeal.Gen Cert.ReferenceIdeal.Read Idealize.ShloMosaic Idealize.ShloMosaic.ValueIdx
  Idealize.ShloMosaic.StableHlo

/-- The reference's dense middle: the pair network on (z, x, emb), then the classifier on its outputs and x. -/
def mid (z x0 : Vec Ideal S50000x64 .f32) (x3 : Vec Ideal S128x64 .f32) (x4 : Vec Ideal S64 .f32)
    (x5 : Vec Ideal S64x16 .f32) (x6 : Vec Ideal S16 .f32) (x7 : Vec Ideal S9x11 .f32) (x8 : Vec Ideal S11 .f32)
    (x9 : Vec Ideal S11x1 .f32) (x10 : Vec Ideal S1 .f32) (x11 : Vec Ideal S64x7 .f32) : Vec Ideal S50000x16 .f32 :=
  cls (pairArr z x0 x7 x8 x9 x10 x11) x0 x3 x4 x5 x6

/-- The reference's logits are the dense middle applied to its first diffusion result. -/
theorem v242_eq (x0 : Vec Ideal S50000x64 .f32) (x1 x2 : Vec Ideal S800000 .i32) (x3 : Vec Ideal S128x64 .f32)
    (x4 : Vec Ideal S64 .f32) (x5 : Vec Ideal S64x16 .f32) (x6 : Vec Ideal S16 .f32) (x7 : Vec Ideal S9x11 .f32)
    (x8 : Vec Ideal S11 .f32) (x9 : Vec Ideal S11x1 .f32) (x10 : Vec Ideal S1 .f32) (x11 : Vec Ideal S64x7 .f32) :
    val_main_v242 (F := Ideal) x0 x1 x2 x3 x4 x5 x6 x7 x8 x9 x10 x11
      = mid (val_main_v204 (F := Ideal) x0 x1 x2) x0 x3 x4 x5 x6 x7 x8 x9 x10 x11 := rfl

/-- The dense middle is the specification's network. -/
theorem mid_eq_spec (z x0 : Vec Ideal S50000x64 .f32) (x3 : Vec Ideal S128x64 .f32) (x4 : Vec Ideal S64 .f32)
    (x5 : Vec Ideal S64x16 .f32) (x6 : Vec Ideal S16 .f32) (x7 : Vec Ideal S9x11 .f32) (x8 : Vec Ideal S11 .f32)
    (x9 : Vec Ideal S11x1 .f32) (x10 : Vec Ideal S1 .f32) (x11 : Vec Ideal S64x7 .f32) :
    mid z x0 x3 x4 x5 x6 x7 x8 x9 x10 x11 = Cert.MlpSpec.g0 z x0 x3 x4 x5 x6 x7 x8 x9 x10 x11 := by
  funext i
  obtain ⟨n, q, rfl⟩ : ∃ (n : Fin 50000) (q : Fin 16), i = ix2 n q := ⟨i 0, i 1, eq_ix2 i⟩
  rw [Cert.MlpSpec.g0_apply]
  unfold mid
  rw [cls_apply]
  simp only [pairArr_apply]
  rfl

end Cert.MlpRef

end
-- ==== Proof.ConvBridge.lean ====
/-
  The two programs' propagation and edge weights are the same functions.

  Both programs print the same host operations for them, over dimension records with the same fields; the
  definitions unfold to one term.
-/
import proofs.«135505_j17961553232124_1_alg».proof.Proof.ConvK
import proofs.«135505_j17961553232124_1_alg».proof.Proof.ConvR

noncomputable section

namespace Cert.ConvBridge

open Idealize.ShloMosaic

variable [Cert.KernelIdeal.Facts₀] [Cert.ReferenceIdeal.Facts₀]

theorem norm_eq : @Cert.ConvK.norm _ = @Cert.ConvR.norm _ := rfl
theorem conv64_eq : @Cert.ConvK.conv64 _ = @Cert.ConvR.conv64 _ := rfl
theorem conv16_eq : @Cert.ConvK.conv16 _ = @Cert.ConvR.conv16 _ := rfl

end Cert.ConvBridge

end
-- ==== Proof.RefSeg0.lean ====
/-
  The opening of the reference: the edge weights and the first propagation, stretch by stretch.

  The reference's first 52 host operations are three stretches.  The first computes, from the destination column of the
  edge list, where a node's in-degree is positive and the inverse square root of the (floored) in-degree; the second, a
  called function, selects between that and zero; the third gathers the two endpoint factors of every edge, multiplies
  them into the edge weights, and propagates the input features once under those weights.  Each stretch is read from an
  arbitrary buffer contents, and the three readings are then composed.
-/
import proofs.«135505_j17961553232124_1_alg».proof.Proof.Gen.ReferenceIdeal
import proofs.«135505_j17961553232124_1_alg».proof.Proof.ConvR
import Idealize.ShloMosaic.Lib.StableHlo.Run

noncomputable section

namespace Cert.RefSeg0

open Idealize.ShloMosaic Idealize.ShloMosaic.TcCoe Idealize.ShloMosaic.StableHlo Cert.ReferenceIdeal Cert.ReferenceIdeal.Gen Cert.ConvR

/-- The first stretch: degrees, their positivity and inverse square roots. -/
abbrev seg0a {F : FTy → Type} [FloatOps F] : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    binary main_v3 main_v4 main_v5 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x2B8CBCCC#32),
    unary main_cst_2 main_v6 (broadcastInDim S50000 ![] bcast_S_S50000 : (⟨S_, .f32⟩ : BufTy).Contents (Elt F) → (⟨S50000, .f32⟩ : BufTy).Contents (Elt F)),
    binary main_v3 main_v6 main_v7 (maximumf : (⟨S50000, .f32⟩ : BufTy).Contents (Elt F) → (⟨S50000, .f32⟩ : BufTy).Contents (Elt F) → (⟨S50000, .f32⟩ : BufTy).Contents (Elt F)),
    unary main_v7 main_v8 (Host.rsqrt : (⟨S50000, .f32⟩ : BufTy).Contents (Elt F) → (⟨S50000, .f32⟩ : BufTy).Contents (Elt F)),
    nullary main_cst_3 (constant S_ .f32 0x00000000#32) ]

/-- The second stretch: the called function's selection. -/
abbrev seg0b {F : FTy → Type} [FloatOps F] : List (HloOp τ sig (Elt F)) :=
  [ TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v5) (TRef.of (T := ⟨S50000, .f32⟩) main_v8) (TRef.of (T := ⟨S50000, .f32⟩) main_call0_v1) (TRef.of (T := ⟨S50000, .f32⟩) main_v9) select ]

/-- The third stretch: the edge weights and the first propagation. -/
abbrev seg0c {F : FTy → Type} [FloatOps F] : List (HloOp τ sig (Elt F)) :=
  [ nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_arg1 main_v10 main_v11 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v12 (broadcastInDim S800000 ![] bcast_S_S800000 : (⟨S_, .i32⟩ : BufTy).Contents (Elt F) → (⟨S800000, .i32⟩ : BufTy).Contents (Elt F)),
    binary main_arg1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_arg1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_v9 main_v15 main_v16 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v17 (broadcastInDim S800000 ![] bcast_S_S800000 : (⟨S_, .i32⟩ : BufTy).Contents (Elt F) → (⟨S800000, .i32⟩ : BufTy).Contents (Elt F)),
    binary main_arg2 main_v17 main_v18 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v19 (broadcastInDim S800000 ![] bcast_S_S800000 : (⟨S_, .i32⟩ : BufTy).Contents (Elt F) → (⟨S800000, .i32⟩ : BufTy).Contents (Elt F)),
    binary main_arg2 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_arg2 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v9 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v16 main_v23 main_v24 (mulf : (⟨S800000, .f32⟩ : BufTy).Contents (Elt F) → (⟨S800000, .f32⟩ : BufTy).Contents (Elt F) → (⟨S800000, .f32⟩ : BufTy).Contents (Elt F)),
    nullary main_c_7 (constantI S_ 32 0#32),
    unary main_c_7 main_v25 (broadcastInDim S800000 ![] bcast_S_S800000 : (⟨S_, .i32⟩ : BufTy).Contents (Elt F) → (⟨S800000, .i32⟩ : BufTy).Contents (Elt F)),
    binary main_arg1 main_v25 main_v26 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v27 (broadcastInDim S800000 ![] bcast_S_S800000 : (⟨S_, .i32⟩ : BufTy).Contents (Elt F) → (⟨S800000, .i32⟩ : BufTy).Contents (Elt F)),
    binary main_arg1 main_v27 main_v28 (addi : (⟨S800000, .i32⟩ : BufTy).Contents (Elt F) → (⟨S800000, .i32⟩ : BufTy).Contents (Elt F) → (⟨S800000, .i32⟩ : BufTy).Contents (Elt F)),
    ternary main_v26 main_v28 main_arg1 main_v29 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v29 main_v30 (broadcastInDim S800000x1 ![0] bcast_S800000_S800000x1_0 : (⟨S800000, .i32⟩ : BufTy).Contents (Elt F) → (⟨S800000x1, .i32⟩ : BufTy).Contents (Elt F)),
    binary main_arg0 main_v30 main_v31 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v32 (broadcastInDim S800000x1 ![0] bcast_S800000_S800000x1_0 : (⟨S800000, .f32⟩ : BufTy).Contents (Elt F) → (⟨S800000x1, .f32⟩ : BufTy).Contents (Elt F)),
    unary main_v32 main_v33 (broadcastInDim S800000x64 ![0, 1] bcast_S800000x1_S800000x64_0_1 : (⟨S800000x1, .f32⟩ : BufTy).Contents (Elt F) → (⟨S800000x64, .f32⟩ : BufTy).Contents (Elt F)),
    binary main_v31 main_v33 main_v34 (mulf : (⟨S800000x64, .f32⟩ : BufTy).Contents (Elt F) → (⟨S800000x64, .f32⟩ : BufTy).Contents (Elt F) → (⟨S800000x64, .f32⟩ : BufTy).Contents (Elt F)),
    nullary main_cst_9 (constant S_ .f32 0x00000000#32),
    unary main_cst_9 main_v35 (broadcastInDim S50000x64 ![] bcast_S_S50000x64 : (⟨S_, .f32⟩ : BufTy).Contents (Elt F) → (⟨S50000x64, .f32⟩ : BufTy).Contents (Elt F)),
    unary main_arg2 main_v36 (broadcastInDim S800000x1 ![0] bcast_S800000_S800000x1_0 : (⟨S800000, .i32⟩ : BufTy).Contents (Elt F) → (⟨S800000x1, .i32⟩ : BufTy).Contents (Elt F)),
    ternary main_v35 main_v36 main_v34 main_v37 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- The buffers the three stretches write. -/
def written0 : List (Ref sig .tc) := [main_cst, main_v0, main_cst_0, main_v1, main_v2, main_v3, main_cst_1, main_v4, main_v5, main_cst_2, main_v6, main_v7, main_v8, main_cst_3]
def written1 : List (Ref sig .tc) := [main_call0_v0, main_call0_v1, main_v9]
def written2 : List (Ref sig .tc) := [main_c, main_v10, main_v11, main_c_4, main_v12, main_v13, main_v14, main_v15, main_v16, main_c_5, main_v17, main_v18, main_c_6, main_v19, main_v20, main_v21, main_v22, main_v23, main_v24, main_c_7, main_v25, main_v26, main_c_8, main_v27, main_v28, main_v29, main_v30, main_v31, main_v32, main_v33, main_v34, main_cst_9, main_v35, main_v36, main_v37]

theorem writes_sub0 : (seg0a (F := Ideal)).Forall fun op => op.writes ⊆ (written0.map (Proc.devRef (τ := τ) .tc)).toFinset := by
  simp only [seg0a, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

theorem writes_sub1 : (seg0b (F := Ideal)).Forall fun op => op.writes ⊆ (written1.map (Proc.devRef (τ := τ) .tc)).toFinset := by
  simp only [seg0b, StableHlo.TRef.unary, StableHlo.TRef.ternary, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

theorem writes_sub2 : (seg0c (F := Ideal)).Forall fun op => op.writes ⊆ (written2.map (Proc.devRef (τ := τ) .tc)).toFinset := by
  simp only [seg0c, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

section Stages

variable (U : Valuation τ sig (Elt Ideal))

/-! ## The first stretch: degrees, their positivity and inverse square roots -/

set_option maxHeartbeats 4000000 in
/-- Where the in-degree is positive. -/
theorem stageA_v5 : StableHlo.after (seg0a (F := Ideal)) U (Proc.devRef .tc main_v5)
    = cmpf (F := Ideal) (φ := .f32) .ogt (deg (U (Proc.devRef .tc main_arg2)))
        (broadcastInDim S50000 ![] bcast_S_S50000 (constant (F := Ideal) S_ .f32 0x00000000#32)) := by
  after_results
  unfold deg
  first | with_reducible rfl | rfl

set_option maxHeartbeats 4000000 in
/-- The inverse square root of the floored in-degree. -/
theorem stageA_v8 : StableHlo.after (seg0a (F := Ideal)) U (Proc.devRef .tc main_v8)
    = Host.rsqrt (F := Ideal) (maximumf (F := Ideal) (φ := .f32) (deg (U (Proc.devRef .tc main_arg2)))
        (broadcastInDim S50000 ![] bcast_S_S50000 (constant (F := Ideal) S_ .f32 0x2B8CBCCC#32))) := by
  after_results
  unfold deg
  first | with_reducible rfl | rfl

set_option maxHeartbeats 4000000 in
/-- The zero the called function broadcasts. -/
theorem stageA_cst3 : StableHlo.after (seg0a (F := Ideal)) U (Proc.devRef .tc main_cst_3)
    = constant (F := Ideal) S_ .f32 0x00000000#32 := by
  after_results

theorem keepA (r : Ref sig .tc) (h : r ∉ written0) :
    StableHlo.after (seg0a (F := Ideal)) U (Proc.devRef .tc r) = U (Proc.devRef .tc r) :=
  StableHlo.after_of_writes_sub _ _ writes_sub0 h

/-! ## The second stretch: the selection -/

set_option maxHeartbeats 4000000 in
/-- The per-node factor: the inverse square root where the in-degree is positive, the broadcast zero elsewhere. -/
theorem stageB_v9 : StableHlo.after (seg0b (F := Ideal)) U (Proc.devRef .tc main_v9)
    = select (U (Proc.devRef .tc main_v5)) (U (Proc.devRef .tc main_v8))
        (broadcastInDim S50000 ![] bcast_S_S50000 (id (U (Proc.devRef .tc main_cst_3)))) := by
  after_results
  rfl

theorem keepB (r : Ref sig .tc) (h : r ∉ written1) :
    StableHlo.after (seg0b (F := Ideal)) U (Proc.devRef .tc r) = U (Proc.devRef .tc r) :=
  StableHlo.after_of_writes_sub _ _ writes_sub1 h

/-! ## The third stretch: the edge weights and the first propagation -/

set_option maxHeartbeats 4000000 in
/-- The edge weights, from the per-node factor the stretch finds. -/
theorem stageC_v24 : StableHlo.after (seg0c (F := Ideal)) U (Proc.devRef .tc main_v24)
    = mulf (F := Ideal) (φ := .f32)
        (Host.gather gather_S50000_S800000x1_S800000_n_0_n_n_0_1_1 (U (Proc.devRef .tc main_v9)) (wrap (U (Proc.devRef .tc main_arg1))))
        (Host.gather gather_S50000_S800000x1_S800000_n_0_n_n_0_1_1 (U (Proc.devRef .tc main_v9)) (wrap (U (Proc.devRef .tc main_arg2)))) := by
  after_results
  unfold wrap
  first | with_reducible rfl | rfl

set_option maxHeartbeats 4000000 in
/-- The propagation of the input features under those weights. -/
theorem stageC_v37 : StableHlo.after (seg0c (F := Ideal)) U (Proc.devRef .tc main_v37)
    = conv64 (U (Proc.devRef .tc main_arg1)) (U (Proc.devRef .tc main_arg2))
        (mulf (F := Ideal) (φ := .f32)
          (Host.gather gather_S50000_S800000x1_S800000_n_0_n_n_0_1_1 (U (Proc.devRef .tc main_v9)) (wrap (U (Proc.devRef .tc main_arg1))))
          (Host.gather gather_S50000_S800000x1_S800000_n_0_n_n_0_1_1 (U (Proc.devRef .tc main_v9)) (wrap (U (Proc.devRef .tc main_arg2)))))
        (U (Proc.devRef .tc main_arg0)) := by
  after_results
  unfold conv64 wrap
  first | with_reducible rfl | rfl

theorem keepC (r : Ref sig .tc) (h : r ∉ written2) :
    StableHlo.after (seg0c (F := Ideal)) U (Proc.devRef .tc r) = U (Proc.devRef .tc r) :=
  StableHlo.after_of_writes_sub _ _ writes_sub2 h

end Stages

variable (W : Valuation τ sig (Elt Ideal))

/-- An argument array after the first two stretches. -/
theorem keepAB (r : Ref sig .tc) (h0 : r ∉ written0) (h1 : r ∉ written1) :
    StableHlo.after (seg0b (F := Ideal)) (StableHlo.after (seg0a (F := Ideal)) W) (Proc.devRef .tc r) = W (Proc.devRef .tc r) :=
  (keepB _ r h1).trans (keepA W r h0)

/-- The per-node factor after the first two stretches. -/
theorem v9_eq : StableHlo.after (seg0b (F := Ideal)) (StableHlo.after (seg0a (F := Ideal)) W) (Proc.devRef .tc main_v9)
    = invSqrt (W (Proc.devRef .tc main_arg2)) := by
  refine (stageB_v9 (StableHlo.after (seg0a (F := Ideal)) W)).trans ?_
  rw [stageA_v5 W, stageA_v8 W, stageA_cst3 W]
  rfl

/-- The edge weights. -/
theorem weights : StableHlo.after (seg0c (F := Ideal)) (StableHlo.after (seg0b (F := Ideal)) (StableHlo.after (seg0a (F := Ideal)) W)) (Proc.devRef .tc main_v24)
    = Cert.ConvR.norm (W (Proc.devRef .tc main_arg1)) (W (Proc.devRef .tc main_arg2)) := by
  refine (stageC_v24 (StableHlo.after (seg0b (F := Ideal)) (StableHlo.after (seg0a (F := Ideal)) W))).trans ?_
  rw [v9_eq W, keepAB W main_arg1 (by decide) (by decide), keepAB W main_arg2 (by decide) (by decide)]
  rfl

/-- The first propagation, of the input features. -/
theorem value : StableHlo.after (seg0c (F := Ideal)) (StableHlo.after (seg0b (F := Ideal)) (StableHlo.after (seg0a (F := Ideal)) W)) (Proc.devRef .tc main_v37)
    = conv64 (W (Proc.devRef .tc main_arg1)) (W (Proc.devRef .tc main_arg2)) (Cert.ConvR.norm (W (Proc.devRef .tc main_arg1)) (W (Proc.devRef .tc main_arg2))) (W (Proc.devRef .tc main_arg0)) := by
  refine (stageC_v37 (StableHlo.after (seg0b (F := Ideal)) (StableHlo.after (seg0a (F := Ideal)) W))).trans ?_
  rw [v9_eq W, keepAB W main_arg1 (by decide) (by decide), keepAB W main_arg2 (by decide) (by decide), keepAB W main_arg0 (by decide) (by decide)]
  rfl

/-- A buffer none of the three stretches writes keeps its contents. -/
theorem keep (r : Ref sig .tc) (h0 : r ∉ written0) (h1 : r ∉ written1) (h2 : r ∉ written2) :
    StableHlo.after (seg0c (F := Ideal)) (StableHlo.after (seg0b (F := Ideal)) (StableHlo.after (seg0a (F := Ideal)) W)) (Proc.devRef .tc r) = W (Proc.devRef .tc r) :=
  (StableHlo.after_of_writes_sub _ _ writes_sub2 h2).trans
    ((StableHlo.after_of_writes_sub _ _ writes_sub1 h1).trans (StableHlo.after_of_writes_sub _ _ writes_sub0 h0))

end Cert.RefSeg0

end
-- ==== Proof.RefSeg0d.lean ====
/-
  The first blend of the reference's first diffusion loop, as a stretch of host operations.

  From any buffer contents V, the stretch's seven operations leave at their last buffer nine tenths of the propagated
  features plus one tenth of the input features (the two weights are binary32 words, never evaluated), and they leave every
  buffer they do not write as it was.
-/
import proofs.«135505_j17961553232124_1_alg».proof.Proof.Gen.ReferenceIdeal
import proofs.«135505_j17961553232124_1_alg».proof.Proof.RefBlend
import Idealize.ShloMosaic.Lib.StableHlo.Run

noncomputable section

namespace Cert.RefSeg0d

open Idealize.ShloMosaic Idealize.ShloMosaic.TcCoe Idealize.ShloMosaic.StableHlo Cert.ReferenceIdeal Cert.ReferenceIdeal.Gen Cert.RefBlend

/-- The stretch's operations, in order. -/
abbrev seg {F : FTy → Type} [FloatOps F] : List (HloOp τ sig (Elt F)) :=
  [ nullary main_cst_10 (constant S_ .f32 0x3F666666#32),
    unary main_cst_10 main_v38 (broadcastInDim S50000x64 ![] bcast_S_S50000x64 : (⟨S_, .f32⟩ : BufTy).Contents (Elt F) → (⟨S50000x64, .f32⟩ : BufTy).Contents (Elt F)),
    binary main_v37 main_v38 main_v39 (mulf : (⟨S50000x64, .f32⟩ : BufTy).Contents (Elt F) → (⟨S50000x64, .f32⟩ : BufTy).Contents (Elt F) → (⟨S50000x64, .f32⟩ : BufTy).Contents (Elt F)),
    nullary main_cst_11 (constant S_ .f32 0x3DCCCCCD#32),
    unary main_cst_11 main_v40 (broadcastInDim S50000x64 ![] bcast_S_S50000x64 : (⟨S_, .f32⟩ : BufTy).Contents (Elt F) → (⟨S50000x64, .f32⟩ : BufTy).Contents (Elt F)),
    binary main_v40 main_arg0 main_v41 (mulf : (⟨S50000x64, .f32⟩ : BufTy).Contents (Elt F) → (⟨S50000x64, .f32⟩ : BufTy).Contents (Elt F) → (⟨S50000x64, .f32⟩ : BufTy).Contents (Elt F)),
    binary main_v39 main_v41 main_v42 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 2000000 in
/-- The stretch's result: the blend of the first propagation with the input features. -/
theorem value : StableHlo.after (seg (F := Ideal)) V (Proc.devRef .tc main_v42)
    = Cert.RefBlend.blendT64 (V (Proc.devRef .tc main_v37)) (V (Proc.devRef .tc main_arg0)) := by
  after_results
  unfold blendT64
  first | with_reducible rfl | rfl

/-- The buffers the stretch writes. -/
def written : List (Ref sig .tc) := [main_cst_10, main_v38, main_v39, main_cst_11, main_v40, main_v41, main_v42]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg0d

end
-- ==== Proof.RefSeg1.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg1

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_12 (constantI S_ 32 0#32),
    unary main_c_12 main_v43 (broadcastInDim S800000 ![] bcast_S_S800000 : (⟨S_, .i32⟩ : BufTy).Contents (Elt F) → (⟨S800000, .i32⟩ : BufTy).Contents (Elt F)),
    binary main_arg1 main_v43 main_v44 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v45 (broadcastInDim S800000 ![] bcast_S_S800000 : (⟨S_, .i32⟩ : BufTy).Contents (Elt F) → (⟨S800000, .i32⟩ : BufTy).Contents (Elt F)),
    binary main_arg1 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_arg1 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    binary main_v42 main_v48 main_v49 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v50 (broadcastInDim S800000x1 ![0] bcast_S800000_S800000x1_0 : (⟨S800000, .f32⟩ : BufTy).Contents (Elt F) → (⟨S800000x1, .f32⟩ : BufTy).Contents (Elt F)),
    unary main_v50 main_v51 (broadcastInDim S800000x64 ![0, 1] bcast_S800000x1_S800000x64_0_1 : (⟨S800000x1, .f32⟩ : BufTy).Contents (Elt F) → (⟨S800000x64, .f32⟩ : BufTy).Contents (Elt F)),
    binary main_v49 main_v51 main_v52 (mulf : (⟨S800000x64, .f32⟩ : BufTy).Contents (Elt F) → (⟨S800000x64, .f32⟩ : BufTy).Contents (Elt F) → (⟨S800000x64, .f32⟩ : BufTy).Contents (Elt F)),
    nullary main_cst_14 (constant S_ .f32 0x00000000#32),
    unary main_cst_14 main_v53 (broadcastInDim S50000x64 ![] bcast_S_S50000x64 : (⟨S_, .f32⟩ : BufTy).Contents (Elt F) → (⟨S50000x64, .f32⟩ : BufTy).Contents (Elt F)),
    unary main_arg2 main_v54 (broadcastInDim S800000x1 ![0] bcast_S800000_S800000x1_0 : (⟨S800000, .i32⟩ : BufTy).Contents (Elt F) → (⟨S800000x1, .i32⟩ : BufTy).Contents (Elt F)),
    ternary main_v53 main_v54 main_v52 main_v55 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_15 (constant S_ .f32 0x3F666666#32),
    unary main_cst_15 main_v56 (broadcastInDim S50000x64 ![] bcast_S_S50000x64 : (⟨S_, .f32⟩ : BufTy).Contents (Elt F) → (⟨S50000x64, .f32⟩ : BufTy).Contents (Elt F)),
    binary main_v55 main_v56 main_v57 (mulf : (⟨S50000x64, .f32⟩ : BufTy).Contents (Elt F) → (⟨S50000x64, .f32⟩ : BufTy).Contents (Elt F) → (⟨S50000x64, .f32⟩ : BufTy).Contents (Elt F)),
    nullary main_cst_16 (constant S_ .f32 0x3DCCCCCD#32),
    unary main_cst_16 main_v58 (broadcastInDim S50000x64 ![] bcast_S_S50000x64 : (⟨S_, .f32⟩ : BufTy).Contents (Elt F) → (⟨S50000x64, .f32⟩ : BufTy).Contents (Elt F)),
    binary main_v58 main_arg0 main_v59 (mulf : (⟨S50000x64, .f32⟩ : BufTy).Contents (Elt F) → (⟨S50000x64, .f32⟩ : BufTy).Contents (Elt F) → (⟨S50000x64, .f32⟩ : BufTy).Contents (Elt F)),
    binary main_v57 main_v59 main_v60 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v42`'s contents. -/
theorem value : StableHlo.after (seg (F := Ideal)) V (Proc.devRef .tc main_v60)
    = blendT64 (conv64 (V (Proc.devRef .tc main_arg1)) (V (Proc.devRef .tc main_arg2)) (V (Proc.devRef .tc main_v24)) (V (Proc.devRef .tc main_v42))) (V (Proc.devRef .tc main_arg0)) := by
  after_results
  unfold blendT64 conv64 wrap
  first | with_reducible rfl | rfl

/-- The buffers the stretch writes. -/
def written : List (Ref sig .tc) := [main_c_12, main_v43, main_v44, main_c_13, main_v45, main_v46, main_v47, main_v48, main_v49, main_v50, main_v51, main_v52, main_cst_14, main_v53, main_v54, main_v55, main_cst_15, main_v56, main_v57, main_cst_16, main_v58, main_v59, main_v60]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg1

end
-- ==== Proof.RefSeg2.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg2

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_17 (constantI S_ 32 0#32),
    unary main_c_17 main_v61 (broadcastInDim S800000 ![] bcast_S_S800000 : (⟨S_, .i32⟩ : BufTy).Contents (Elt F) → (⟨S800000, .i32⟩ : BufTy).Contents (Elt F)),
    binary main_arg1 main_v61 main_v62 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v63 (broadcastInDim S800000 ![] bcast_S_S800000 : (⟨S_, .i32⟩ : BufTy).Contents (Elt F) → (⟨S800000, .i32⟩ : BufTy).Contents (Elt F)),
    binary main_arg1 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_arg1 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    binary main_v60 main_v66 main_v67 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v68 (broadcastInDim S800000x1 ![0] bcast_S800000_S800000x1_0 : (⟨S800000, .f32⟩ : BufTy).Contents (Elt F) → (⟨S800000x1, .f32⟩ : BufTy).Contents (Elt F)),
    unary main_v68 main_v69 (broadcastInDim S800000x64 ![0, 1] bcast_S800000x1_S800000x64_0_1 : (⟨S800000x1, .f32⟩ : BufTy).Contents (Elt F) → (⟨S800000x64, .f32⟩ : BufTy).Contents (Elt F)),
    binary main_v67 main_v69 main_v70 (mulf : (⟨S800000x64, .f32⟩ : BufTy).Contents (Elt F) → (⟨S800000x64, .f32⟩ : BufTy).Contents (Elt F) → (⟨S800000x64, .f32⟩ : BufTy).Contents (Elt F)),
    nullary main_cst_19 (constant S_ .f32 0x00000000#32),
    unary main_cst_19 main_v71 (broadcastInDim S50000x64 ![] bcast_S_S50000x64 : (⟨S_, .f32⟩ : BufTy).Contents (Elt F) → (⟨S50000x64, .f32⟩ : BufTy).Contents (Elt F)),
    unary main_arg2 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_20 (constant S_ .f32 0x3F666666#32),
    unary main_cst_20 main_v74 (broadcastInDim S50000x64 ![] bcast_S_S50000x64 : (⟨S_, .f32⟩ : BufTy).Contents (Elt F) → (⟨S50000x64, .f32⟩ : BufTy).Contents (Elt F)),
    binary main_v73 main_v74 main_v75 (mulf : (⟨S50000x64, .f32⟩ : BufTy).Contents (Elt F) → (⟨S50000x64, .f32⟩ : BufTy).Contents (Elt F) → (⟨S50000x64, .f32⟩ : BufTy).Contents (Elt F)),
    nullary main_cst_21 (constant S_ .f32 0x3DCCCCCD#32),
    unary main_cst_21 main_v76 (broadcastInDim S50000x64 ![] bcast_S_S50000x64 : (⟨S_, .f32⟩ : BufTy).Contents (Elt F) → (⟨S50000x64, .f32⟩ : BufTy).Contents (Elt F)),
    binary main_v76 main_arg0 main_v77 (mulf : (⟨S50000x64, .f32⟩ : BufTy).Contents (Elt F) → (⟨S50000x64, .f32⟩ : BufTy).Contents (Elt F) → (⟨S50000x64, .f32⟩ : BufTy).Contents (Elt F)),
    binary main_v75 main_v77 main_v78 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v60`'s contents. -/
theorem value : StableHlo.after (seg (F := Ideal)) V (Proc.devRef .tc main_v78)
    = blendT64 (conv64 (V (Proc.devRef .tc main_arg1)) (V (Proc.devRef .tc main_arg2)) (V (Proc.devRef .tc main_v24)) (V (Proc.devRef .tc main_v60))) (V (Proc.devRef .tc main_arg0)) := by
  after_results
  unfold blendT64 conv64 wrap
  first | with_reducible rfl | rfl

/-- The buffers the stretch writes. -/
def written : List (Ref sig .tc) := [main_c_17, main_v61, main_v62, main_c_18, main_v63, main_v64, main_v65, main_v66, main_v67, main_v68, main_v69, main_v70, main_cst_19, main_v71, main_v72, main_v73, main_cst_20, main_v74, main_v75, main_cst_21, main_v76, main_v77, main_v78]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg2

end
-- ==== Proof.RefSeg3.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg3

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_22 (constantI S_ 32 0#32),
    unary main_c_22 main_v79 (broadcastInDim S800000 ![] bcast_S_S800000 : (⟨S_, .i32⟩ : BufTy).Contents (Elt F) → (⟨S800000, .i32⟩ : BufTy).Contents (Elt F)),
    binary main_arg1 main_v79 main_v80 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v81 (broadcastInDim S800000 ![] bcast_S_S800000 : (⟨S_, .i32⟩ : BufTy).Contents (Elt F) → (⟨S800000, .i32⟩ : BufTy).Contents (Elt F)),
    binary main_arg1 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_arg1 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v78 main_v84 main_v85 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v86 (broadcastInDim S800000x1 ![0] bcast_S800000_S800000x1_0 : (⟨S800000, .f32⟩ : BufTy).Contents (Elt F) → (⟨S800000x1, .f32⟩ : BufTy).Contents (Elt F)),
    unary main_v86 main_v87 (broadcastInDim S800000x64 ![0, 1] bcast_S800000x1_S800000x64_0_1 : (⟨S800000x1, .f32⟩ : BufTy).Contents (Elt F) → (⟨S800000x64, .f32⟩ : BufTy).Contents (Elt F)),
    binary main_v85 main_v87 main_v88 (mulf : (⟨S800000x64, .f32⟩ : BufTy).Contents (Elt F) → (⟨S800000x64, .f32⟩ : BufTy).Contents (Elt F) → (⟨S800000x64, .f32⟩ : BufTy).Contents (Elt F)),
    nullary main_cst_24 (constant S_ .f32 0x00000000#32),
    unary main_cst_24 main_v89 (broadcastInDim S50000x64 ![] bcast_S_S50000x64 : (⟨S_, .f32⟩ : BufTy).Contents (Elt F) → (⟨S50000x64, .f32⟩ : BufTy).Contents (Elt F)),
    unary main_arg2 main_v90 (broadcastInDim S800000x1 ![0] bcast_S800000_S800000x1_0 : (⟨S800000, .i32⟩ : BufTy).Contents (Elt F) → (⟨S800000x1, .i32⟩ : BufTy).Contents (Elt F)),
    ternary main_v89 main_v90 main_v88 main_v91 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_25 (constant S_ .f32 0x3F666666#32),
    unary main_cst_25 main_v92 (broadcastInDim S50000x64 ![] bcast_S_S50000x64 : (⟨S_, .f32⟩ : BufTy).Contents (Elt F) → (⟨S50000x64, .f32⟩ : BufTy).Contents (Elt F)),
    binary main_v91 main_v92 main_v93 (mulf : (⟨S50000x64, .f32⟩ : BufTy).Contents (Elt F) → (⟨S50000x64, .f32⟩ : BufTy).Contents (Elt F) → (⟨S50000x64, .f32⟩ : BufTy).Contents (Elt F)),
    nullary main_cst_26 (constant S_ .f32 0x3DCCCCCD#32),
    unary main_cst_26 main_v94 (broadcastInDim S50000x64 ![] bcast_S_S50000x64 : (⟨S_, .f32⟩ : BufTy).Contents (Elt F) → (⟨S50000x64, .f32⟩ : BufTy).Contents (Elt F)),
    binary main_v94 main_arg0 main_v95 (mulf : (⟨S50000x64, .f32⟩ : BufTy).Contents (Elt F) → (⟨S50000x64, .f32⟩ : BufTy).Contents (Elt F) → (⟨S50000x64, .f32⟩ : BufTy).Contents (Elt F)),
    binary main_v93 main_v95 main_v96 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v78`'s contents. -/
theorem value : StableHlo.after (seg (F := Ideal)) V (Proc.devRef .tc main_v96)
    = blendT64 (conv64 (V (Proc.devRef .tc main_arg1)) (V (Proc.devRef .tc main_arg2)) (V (Proc.devRef .tc main_v24)) (V (Proc.devRef .tc main_v78))) (V (Proc.devRef .tc main_arg0)) := by
  after_results
  unfold blendT64 conv64 wrap
  first | with_reducible rfl | rfl

/-- The buffers the stretch writes. -/
def written : List (Ref sig .tc) := [main_c_22, main_v79, main_v80, main_c_23, main_v81, main_v82, main_v83, main_v84, main_v85, main_v86, main_v87, main_v88, main_cst_24, main_v89, main_v90, main_v91, main_cst_25, main_v92, main_v93, main_cst_26, main_v94, main_v95, main_v96]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg3

end
-- ==== Proof.RefSeg4.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg4

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_27 (constantI S_ 32 0#32),
    unary main_c_27 main_v97 (broadcastInDim S800000 ![] bcast_S_S800000 : (⟨S_, .i32⟩ : BufTy).Contents (Elt F) → (⟨S800000, .i32⟩ : BufTy).Contents (Elt F)),
    binary main_arg1 main_v97 main_v98 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v99 (broadcastInDim S800000 ![] bcast_S_S800000 : (⟨S_, .i32⟩ : BufTy).Contents (Elt F) → (⟨S800000, .i32⟩ : BufTy).Contents (Elt F)),
    binary main_arg1 main_v99 main_v100 (addi : (⟨S800000, .i32⟩ : BufTy).Contents (Elt F) → (⟨S800000, .i32⟩ : BufTy).Contents (Elt F) → (⟨S800000, .i32⟩ : BufTy).Contents (Elt F)),
    ternary main_v98 main_v100 main_arg1 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v101 main_v102 (broadcastInDim S800000x1 ![0] bcast_S800000_S800000x1_0 : (⟨S800000, .i32⟩ : BufTy).Contents (Elt F) → (⟨S800000x1, .i32⟩ : BufTy).Contents (Elt F)),
    binary main_v96 main_v102 main_v103 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v104 (broadcastInDim S800000x1 ![0] bcast_S800000_S800000x1_0 : (⟨S800000, .f32⟩ : BufTy).Contents (Elt F) → (⟨S800000x1, .f32⟩ : BufTy).Contents (Elt F)),
    unary main_v104 main_v105 (broadcastInDim S800000x64 ![0, 1] bcast_S800000x1_S800000x64_0_1 : (⟨S800000x1, .f32⟩ : BufTy).Contents (Elt F) → (⟨S800000x64, .f32⟩ : BufTy).Contents (Elt F)),
    binary main_v103 main_v105 main_v106 (mulf : (⟨S800000x64, .f32⟩ : BufTy).Contents (Elt F) → (⟨S800000x64, .f32⟩ : BufTy).Contents (Elt F) → (⟨S800000x64, .f32⟩ : BufTy).Contents (Elt F)),
    nullary main_cst_29 (constant S_ .f32 0x00000000#32),
    unary main_cst_29 main_v107 (broadcastInDim S50000x64 ![] bcast_S_S50000x64 : (⟨S_, .f32⟩ : BufTy).Contents (Elt F) → (⟨S50000x64, .f32⟩ : BufTy).Contents (Elt F)),
    unary main_arg2 main_v108 (broadcastInDim S800000x1 ![0] bcast_S800000_S800000x1_0 : (⟨S800000, .i32⟩ : BufTy).Contents (Elt F) → (⟨S800000x1, .i32⟩ : BufTy).Contents (Elt F)),
    ternary main_v107 main_v108 main_v106 main_v109 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_30 (constant S_ .f32 0x3F666666#32),
    unary main_cst_30 main_v110 (broadcastInDim S50000x64 ![] bcast_S_S50000x64 : (⟨S_, .f32⟩ : BufTy).Contents (Elt F) → (⟨S50000x64, .f32⟩ : BufTy).Contents (Elt F)),
    binary main_v109 main_v110 main_v111 (mulf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x3DCCCCCD#32),
    unary main_cst_31 main_v112 (broadcastInDim S50000x64 ![] bcast_S_S50000x64 : (⟨S_, .f32⟩ : BufTy).Contents (Elt F) → (⟨S50000x64, .f32⟩ : BufTy).Contents (Elt F)),
    binary main_v112 main_arg0 main_v113 (mulf : (⟨S50000x64, .f32⟩ : BufTy).Contents (Elt F) → (⟨S50000x64, .f32⟩ : BufTy).Contents (Elt F) → (⟨S50000x64, .f32⟩ : BufTy).Contents (Elt F)),
    binary main_v111 main_v113 main_v114 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v96`'s contents. -/
theorem value : StableHlo.after (seg (F := Ideal)) V (Proc.devRef .tc main_v114)
    = blendT64 (conv64 (V (Proc.devRef .tc main_arg1)) (V (Proc.devRef .tc main_arg2)) (V (Proc.devRef .tc main_v24)) (V (Proc.devRef .tc main_v96))) (V (Proc.devRef .tc main_arg0)) := by
  after_results
  unfold blendT64 conv64 wrap
  first | with_reducible rfl | rfl

/-- The buffers the stretch writes. -/
def written : List (Ref sig .tc) := [main_c_27, main_v97, main_v98, main_c_28, main_v99, main_v100, main_v101, main_v102, main_v103, main_v104, main_v105, main_v106, main_cst_29, main_v107, main_v108, main_v109, main_cst_30, main_v110, main_v111, main_cst_31, main_v112, main_v113, main_v114]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg4

end
-- ==== Proof.RefSeg5.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg5

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_32 (constantI S_ 32 0#32),
    unary main_c_32 main_v115 (broadcastInDim S800000 ![] bcast_S_S800000 : (⟨S_, .i32⟩ : BufTy).Contents (Elt F) → (⟨S800000, .i32⟩ : BufTy).Contents (Elt F)),
    binary main_arg1 main_v115 main_v116 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v117 (broadcastInDim S800000 ![] bcast_S_S800000 : (⟨S_, .i32⟩ : BufTy).Contents (Elt F) → (⟨S800000, .i32⟩ : BufTy).Contents (Elt F)),
    binary main_arg1 main_v117 main_v118 (addi : (⟨S800000, .i32⟩ : BufTy).Contents (Elt F) → (⟨S800000, .i32⟩ : BufTy).Contents (Elt F) → (⟨S800000, .i32⟩ : BufTy).Contents (Elt F)),
    ternary main_v116 main_v118 main_arg1 main_v119 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v119 main_v120 (broadcastInDim S800000x1 ![0] bcast_S800000_S800000x1_0 : (⟨S800000, .i32⟩ : BufTy).Contents (Elt F) → (⟨S800000x1, .i32⟩ : BufTy).Contents (Elt F)),
    binary main_v114 main_v120 main_v121 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v122 (broadcastInDim S800000x1 ![0] bcast_S800000_S800000x1_0 : (⟨S800000, .f32⟩ : BufTy).Contents (Elt F) → (⟨S800000x1, .f32⟩ : BufTy).Contents (Elt F)),
    unary main_v122 main_v123 (broadcastInDim S800000x64 ![0, 1] bcast_S800000x1_S800000x64_0_1 : (⟨S800000x1, .f32⟩ : BufTy).Contents (Elt F) → (⟨S800000x64, .f32⟩ : BufTy).Contents (Elt F)),
    binary main_v121 main_v123 main_v124 (mulf : (⟨S800000x64, .f32⟩ : BufTy).Contents (Elt F) → (⟨S800000x64, .f32⟩ : BufTy).Contents (Elt F) → (⟨S800000x64, .f32⟩ : BufTy).Contents (Elt F)),
    nullary main_cst_34 (constant S_ .f32 0x00000000#32),
    unary main_cst_34 main_v125 (broadcastInDim S50000x64 ![] bcast_S_S50000x64 : (⟨S_, .f32⟩ : BufTy).Contents (Elt F) → (⟨S50000x64, .f32⟩ : BufTy).Contents (Elt F)),
    unary main_arg2 main_v126 (broadcastInDim S800000x1 ![0] bcast_S800000_S800000x1_0 : (⟨S800000, .i32⟩ : BufTy).Contents (Elt F) → (⟨S800000x1, .i32⟩ : BufTy).Contents (Elt F)),
    ternary main_v125 main_v126 main_v124 main_v127 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_35 (constant S_ .f32 0x3F666666#32),
    unary main_cst_35 main_v128 (broadcastInDim S50000x64 ![] bcast_S_S50000x64 : (⟨S_, .f32⟩ : BufTy).Contents (Elt F) → (⟨S50000x64, .f32⟩ : BufTy).Contents (Elt F)),
    binary main_v127 main_v128 main_v129 (mulf : (⟨S50000x64, .f32⟩ : BufTy).Contents (Elt F) → (⟨S50000x64, .f32⟩ : BufTy).Contents (Elt F) → (⟨S50000x64, .f32⟩ : BufTy).Contents (Elt F)),
    nullary main_cst_36 (constant S_ .f32 0x3DCCCCCD#32),
    unary main_cst_36 main_v130 (broadcastInDim S50000x64 ![] bcast_S_S50000x64 : (⟨S_, .f32⟩ : BufTy).Contents (Elt F) → (⟨S50000x64, .f32⟩ : BufTy).Contents (Elt F)),
    binary main_v130 main_arg0 main_v131 (mulf : (⟨S50000x64, .f32⟩ : BufTy).Contents (Elt F) → (⟨S50000x64, .f32⟩ : BufTy).Contents (Elt F) → (⟨S50000x64, .f32⟩ : BufTy).Contents (Elt F)),
    binary main_v129 main_v131 main_v132 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v114`'s contents. -/
theorem value : StableHlo.after (seg (F := Ideal)) V (Proc.devRef .tc main_v132)
    = blendT64 (conv64 (V (Proc.devRef .tc main_arg1)) (V (Proc.devRef .tc main_arg2)) (V (Proc.devRef .tc main_v24)) (V (Proc.devRef .tc main_v114))) (V (Proc.devRef .tc main_arg0)) := by
  after_results
  unfold blendT64 conv64 wrap
  first | with_reducible rfl | rfl

/-- The buffers the stretch writes. -/
def written : List (Ref sig .tc) := [main_c_32, main_v115, main_v116, main_c_33, main_v117, main_v118, main_v119, main_v120, main_v121, main_v122, main_v123, main_v124, main_cst_34, main_v125, main_v126, main_v127, main_cst_35, main_v128, main_v129, main_cst_36, main_v130, main_v131, main_v132]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg5

end
-- ==== Proof.RefSeg6.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg6

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_37 (constantI S_ 32 0#32),
    unary main_c_37 main_v133 (broadcastInDim S800000 ![] bcast_S_S800000 : (⟨S_, .i32⟩ : BufTy).Contents (Elt F) → (⟨S800000, .i32⟩ : BufTy).Contents (Elt F)),
    binary main_arg1 main_v133 main_v134 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v135 (broadcastInDim S800000 ![] bcast_S_S800000 : (⟨S_, .i32⟩ : BufTy).Contents (Elt F) → (⟨S800000, .i32⟩ : BufTy).Contents (Elt F)),
    binary main_arg1 main_v135 main_v136 (addi : (⟨S800000, .i32⟩ : BufTy).Contents (Elt F) → (⟨S800000, .i32⟩ : BufTy).Contents (Elt F) → (⟨S800000, .i32⟩ : BufTy).Contents (Elt F)),
    ternary main_v134 main_v136 main_arg1 main_v137 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v137 main_v138 (broadcastInDim S800000x1 ![0] bcast_S800000_S800000x1_0 : (⟨S800000, .i32⟩ : BufTy).Contents (Elt F) → (⟨S800000x1, .i32⟩ : BufTy).Contents (Elt F)),
    binary main_v132 main_v138 main_v139 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v140 (broadcastInDim S800000x1 ![0] bcast_S800000_S800000x1_0 : (⟨S800000, .f32⟩ : BufTy).Contents (Elt F) → (⟨S800000x1, .f32⟩ : BufTy).Contents (Elt F)),
    unary main_v140 main_v141 (broadcastInDim S800000x64 ![0, 1] bcast_S800000x1_S800000x64_0_1 : (⟨S800000x1, .f32⟩ : BufTy).Contents (Elt F) → (⟨S800000x64, .f32⟩ : BufTy).Contents (Elt F)),
    binary main_v139 main_v141 main_v142 (mulf : (⟨S800000x64, .f32⟩ : BufTy).Contents (Elt F) → (⟨S800000x64, .f32⟩ : BufTy).Contents (Elt F) → (⟨S800000x64, .f32⟩ : BufTy).Contents (Elt F)),
    nullary main_cst_39 (constant S_ .f32 0x00000000#32),
    unary main_cst_39 main_v143 (broadcastInDim S50000x64 ![] bcast_S_S50000x64 : (⟨S_, .f32⟩ : BufTy).Contents (Elt F) → (⟨S50000x64, .f32⟩ : BufTy).Contents (Elt F)),
    unary main_arg2 main_v144 (broadcastInDim S800000x1 ![0] bcast_S800000_S800000x1_0 : (⟨S800000, .i32⟩ : BufTy).Contents (Elt F) → (⟨S800000x1, .i32⟩ : BufTy).Contents (Elt F)),
    ternary main_v143 main_v144 main_v142 main_v145 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_40 (constant S_ .f32 0x3F666666#32),
    unary main_cst_40 main_v146 (broadcastInDim S50000x64 ![] bcast_S_S50000x64 : (⟨S_, .f32⟩ : BufTy).Contents (Elt F) → (⟨S50000x64, .f32⟩ : BufTy).Contents (Elt F)),
    binary main_v145 main_v146 main_v147 (mulf : (⟨S50000x64, .f32⟩ : BufTy).Contents (Elt F) → (⟨S50000x64, .f32⟩ : BufTy).Contents (Elt F) → (⟨S50000x64, .f32⟩ : BufTy).Contents (Elt F)),
    nullary main_cst_41 (constant S_ .f32 0x3DCCCCCD#32),
    unary main_cst_41 main_v148 (broadcastInDim S50000x64 ![] bcast_S_S50000x64 : (⟨S_, .f32⟩ : BufTy).Contents (Elt F) → (⟨S50000x64, .f32⟩ : BufTy).Contents (Elt F)),
    binary main_v148 main_arg0 main_v149 (mulf : (⟨S50000x64, .f32⟩ : BufTy).Contents (Elt F) → (⟨S50000x64, .f32⟩ : BufTy).Contents (Elt F) → (⟨S50000x64, .f32⟩ : BufTy).Contents (Elt F)),
    binary main_v147 main_v149 main_v150 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v132`'s contents. -/
theorem value : StableHlo.after (seg (F := Ideal)) V (Proc.devRef .tc main_v150)
    = blendT64 (conv64 (V (Proc.devRef .tc main_arg1)) (V (Proc.devRef .tc main_arg2)) (V (Proc.devRef .tc main_v24)) (V (Proc.devRef .tc main_v132))) (V (Proc.devRef .tc main_arg0)) := by
  after_results
  unfold blendT64 conv64 wrap
  first | with_reducible rfl | rfl

/-- The buffers the stretch writes. -/
def written : List (Ref sig .tc) := [main_c_37, main_v133, main_v134, main_c_38, main_v135, main_v136, main_v137, main_v138, main_v139, main_v140, main_v141, main_v142, main_cst_39, main_v143, main_v144, main_v145, main_cst_40, main_v146, main_v147, main_cst_41, main_v148, main_v149, main_v150]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg6

end
-- ==== Proof.RefSeg7.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg7

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_42 (constantI S_ 32 0#32),
    unary main_c_42 main_v151 (broadcastInDim S800000 ![] bcast_S_S800000 : (⟨S_, .i32⟩ : BufTy).Contents (Elt F) → (⟨S800000, .i32⟩ : BufTy).Contents (Elt F)),
    binary main_arg1 main_v151 main_v152 (cmpi .slt : (⟨S800000, .i32⟩ : BufTy).Contents (Elt F) → (⟨S800000, .i32⟩ : BufTy).Contents (Elt F) → (⟨S800000, .i1⟩ : BufTy).Contents (Elt F)),
    nullary main_c_43 (constantI S_ 32 50000#32),
    unary main_c_43 main_v153 (broadcastInDim S800000 ![] bcast_S_S800000 : (⟨S_, .i32⟩ : BufTy).Contents (Elt F) → (⟨S800000, .i32⟩ : BufTy).Contents (Elt F)),
    binary main_arg1 main_v153 main_v154 (addi : (⟨S800000, .i32⟩ : BufTy).Contents (Elt F) → (⟨S800000, .i32⟩ : BufTy).Contents (Elt F) → (⟨S800000, .i32⟩ : BufTy).Contents (Elt F)),
    ternary main_v152 main_v154 main_arg1 main_v155 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v155 main_v156 (broadcastInDim S800000x1 ![0] bcast_S800000_S800000x1_0 : (⟨S800000, .i32⟩ : BufTy).Contents (Elt F) → (⟨S800000x1, .i32⟩ : BufTy).Contents (Elt F)),
    binary main_v150 main_v156 main_v157 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v158 (broadcastInDim S800000x1 ![0] bcast_S800000_S800000x1_0 : (⟨S800000, .f32⟩ : BufTy).Contents (Elt F) → (⟨S800000x1, .f32⟩ : BufTy).Contents (Elt F)),
    unary main_v158 main_v159 (broadcastInDim S800000x64 ![0, 1] bcast_S800000x1_S800000x64_0_1 : (⟨S800000x1, .f32⟩ : BufTy).Contents (Elt F) → (⟨S800000x64, .f32⟩ : BufTy).Contents (Elt F)),
    binary main_v157 main_v159 main_v160 (mulf : (⟨S800000x64, .f32⟩ : BufTy).Contents (Elt F) → (⟨S800000x64, .f32⟩ : BufTy).Contents (Elt F) → (⟨S800000x64, .f32⟩ : BufTy).Contents (Elt F)),
    nullary main_cst_44 (constant S_ .f32 0x00000000#32),
    unary main_cst_44 main_v161 (broadcastInDim S50000x64 ![] bcast_S_S50000x64 : (⟨S_, .f32⟩ : BufTy).Contents (Elt F) → (⟨S50000x64, .f32⟩ : BufTy).Contents (Elt F)),
    unary main_arg2 main_v162 (broadcastInDim S800000x1 ![0] bcast_S800000_S800000x1_0 : (⟨S800000, .i32⟩ : BufTy).Contents (Elt F) → (⟨S800000x1, .i32⟩ : BufTy).Contents (Elt F)),
    ternary main_v161 main_v162 main_v160 main_v163 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_45 (constant S_ .f32 0x3F666666#32),
    unary main_cst_45 main_v164 (broadcastInDim S50000x64 ![] bcast_S_S50000x64 : (⟨S_, .f32⟩ : BufTy).Contents (Elt F) → (⟨S50000x64, .f32⟩ : BufTy).Contents (Elt F)),
    binary main_v163 main_v164 main_v165 (mulf : (⟨S50000x64, .f32⟩ : BufTy).Contents (Elt F) → (⟨S50000x64, .f32⟩ : BufTy).Contents (Elt F) → (⟨S50000x64, .f32⟩ : BufTy).Contents (Elt F)),
    nullary main_cst_46 (constant S_ .f32 0x3DCCCCCD#32),
    unary main_cst_46 main_v166 (broadcastInDim S50000x64 ![] bcast_S_S50000x64 : (⟨S_, .f32⟩ : BufTy).Contents (Elt F) → (⟨S50000x64, .f32⟩ : BufTy).Contents (Elt F)),
    binary main_v166 main_arg0 main_v167 (mulf : (⟨S50000x64, .f32⟩ : BufTy).Contents (Elt F) → (⟨S50000x64, .f32⟩ : BufTy).Contents (Elt F) → (⟨S50000x64, .f32⟩ : BufTy).Contents (Elt F)),
    binary main_v165 main_v167 main_v168 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v150`'s contents. -/
theorem value : StableHlo.after (seg (F := Ideal)) V (Proc.devRef .tc main_v168)
    = blendT64 (conv64 (V (Proc.devRef .tc main_arg1)) (V (Proc.devRef .tc main_arg2)) (V (Proc.devRef .tc main_v24)) (V (Proc.devRef .tc main_v150))) (V (Proc.devRef .tc main_arg0)) := by
  after_results
  unfold blendT64 conv64 wrap
  first | with_reducible rfl | rfl

/-- The buffers the stretch writes. -/
def written : List (Ref sig .tc) := [main_c_42, main_v151, main_v152, main_c_43, main_v153, main_v154, main_v155, main_v156, main_v157, main_v158, main_v159, main_v160, main_cst_44, main_v161, main_v162, main_v163, main_cst_45, main_v164, main_v165, main_cst_46, main_v166, main_v167, main_v168]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg7

end
-- ==== Proof.RefSeg8.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg8

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_47 (constantI S_ 32 0#32),
    unary main_c_47 main_v169 (broadcastInDim S800000 ![] bcast_S_S800000 : (⟨S_, .i32⟩ : BufTy).Contents (Elt F) → (⟨S800000, .i32⟩ : BufTy).Contents (Elt F)),
    binary main_arg1 main_v169 main_v170 (cmpi .slt : (⟨S800000, .i32⟩ : BufTy).Contents (Elt F) → (⟨S800000, .i32⟩ : BufTy).Contents (Elt F) → (⟨S800000, .i1⟩ : BufTy).Contents (Elt F)),
    nullary main_c_48 (constantI S_ 32 50000#32),
    unary main_c_48 main_v171 (broadcastInDim S800000 ![] bcast_S_S800000 : (⟨S_, .i32⟩ : BufTy).Contents (Elt F) → (⟨S800000, .i32⟩ : BufTy).Contents (Elt F)),
    binary main_arg1 main_v171 main_v172 (addi : (⟨S800000, .i32⟩ : BufTy).Contents (Elt F) → (⟨S800000, .i32⟩ : BufTy).Contents (Elt F) → (⟨S800000, .i32⟩ : BufTy).Contents (Elt F)),
    ternary main_v170 main_v172 main_arg1 main_v173 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v173 main_v174 (broadcastInDim S800000x1 ![0] bcast_S800000_S800000x1_0 : (⟨S800000, .i32⟩ : BufTy).Contents (Elt F) → (⟨S800000x1, .i32⟩ : BufTy).Contents (Elt F)),
    binary main_v168 main_v174 main_v175 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v176 (broadcastInDim S800000x1 ![0] bcast_S800000_S800000x1_0 : (⟨S800000, .f32⟩ : BufTy).Contents (Elt F) → (⟨S800000x1, .f32⟩ : BufTy).Contents (Elt F)),
    unary main_v176 main_v177 (broadcastInDim S800000x64 ![0, 1] bcast_S800000x1_S800000x64_0_1 : (⟨S800000x1, .f32⟩ : BufTy).Contents (Elt F) → (⟨S800000x64, .f32⟩ : BufTy).Contents (Elt F)),
    binary main_v175 main_v177 main_v178 (mulf : (⟨S800000x64, .f32⟩ : BufTy).Contents (Elt F) → (⟨S800000x64, .f32⟩ : BufTy).Contents (Elt F) → (⟨S800000x64, .f32⟩ : BufTy).Contents (Elt F)),
    nullary main_cst_49 (constant S_ .f32 0x00000000#32),
    unary main_cst_49 main_v179 (broadcastInDim S50000x64 ![] bcast_S_S50000x64 : (⟨S_, .f32⟩ : BufTy).Contents (Elt F) → (⟨S50000x64, .f32⟩ : BufTy).Contents (Elt F)),
    unary main_arg2 main_v180 (broadcastInDim S800000x1 ![0] bcast_S800000_S800000x1_0 : (⟨S800000, .i32⟩ : BufTy).Contents (Elt F) → (⟨S800000x1, .i32⟩ : BufTy).Contents (Elt F)),
    ternary main_v179 main_v180 main_v178 main_v181 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_50 (constant S_ .f32 0x3F666666#32),
    unary main_cst_50 main_v182 (broadcastInDim S50000x64 ![] bcast_S_S50000x64 : (⟨S_, .f32⟩ : BufTy).Contents (Elt F) → (⟨S50000x64, .f32⟩ : BufTy).Contents (Elt F)),
    binary main_v181 main_v182 main_v183 (mulf : (⟨S50000x64, .f32⟩ : BufTy).Contents (Elt F) → (⟨S50000x64, .f32⟩ : BufTy).Contents (Elt F) → (⟨S50000x64, .f32⟩ : BufTy).Contents (Elt F)),
    nullary main_cst_51 (constant S_ .f32 0x3DCCCCCD#32),
    unary main_cst_51 main_v184 (broadcastInDim S50000x64 ![] bcast_S_S50000x64 : (⟨S_, .f32⟩ : BufTy).Contents (Elt F) → (⟨S50000x64, .f32⟩ : BufTy).Contents (Elt F)),
    binary main_v184 main_arg0 main_v185 (mulf : (⟨S50000x64, .f32⟩ : BufTy).Contents (Elt F) → (⟨S50000x64, .f32⟩ : BufTy).Contents (Elt F) → (⟨S50000x64, .f32⟩ : BufTy).Contents (Elt F)),
    binary main_v183 main_v185 main_v186 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v168`'s contents. -/
theorem value : StableHlo.after (seg (F := Ideal)) V (Proc.devRef .tc main_v186)
    = blendT64 (conv64 (V (Proc.devRef .tc main_arg1)) (V (Proc.devRef .tc main_arg2)) (V (Proc.devRef .tc main_v24)) (V (Proc.devRef .tc main_v168))) (V (Proc.devRef .tc main_arg0)) := by
  after_results
  unfold blendT64 conv64 wrap
  first | with_reducible rfl | rfl

/-- The buffers the stretch writes. -/
def written : List (Ref sig .tc) := [main_c_47, main_v169, main_v170, main_c_48, main_v171, main_v172, main_v173, main_v174, main_v175, main_v176, main_v177, main_v178, main_cst_49, main_v179, main_v180, main_v181, main_cst_50, main_v182, main_v183, main_cst_51, main_v184, main_v185, main_v186]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg8

end
-- ==== Proof.RefSeg9.lean ====
/-
  One iteration of the reference's first diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg9

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_52 (constantI S_ 32 0#32),
    unary main_c_52 main_v187 (broadcastInDim S800000 ![] bcast_S_S800000 : (⟨S_, .i32⟩ : BufTy).Contents (Elt F) → (⟨S800000, .i32⟩ : BufTy).Contents (Elt F)),
    binary main_arg1 main_v187 main_v188 (cmpi .slt : (⟨S800000, .i32⟩ : BufTy).Contents (Elt F) → (⟨S800000, .i32⟩ : BufTy).Contents (Elt F) → (⟨S800000, .i1⟩ : BufTy).Contents (Elt F)),
    nullary main_c_53 (constantI S_ 32 50000#32),
    unary main_c_53 main_v189 (broadcastInDim S800000 ![] bcast_S_S800000 : (⟨S_, .i32⟩ : BufTy).Contents (Elt F) → (⟨S800000, .i32⟩ : BufTy).Contents (Elt F)),
    binary main_arg1 main_v189 main_v190 (addi : (⟨S800000, .i32⟩ : BufTy).Contents (Elt F) → (⟨S800000, .i32⟩ : BufTy).Contents (Elt F) → (⟨S800000, .i32⟩ : BufTy).Contents (Elt F)),
    ternary main_v188 main_v190 main_arg1 main_v191 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v191 main_v192 (broadcastInDim S800000x1 ![0] bcast_S800000_S800000x1_0 : (⟨S800000, .i32⟩ : BufTy).Contents (Elt F) → (⟨S800000x1, .i32⟩ : BufTy).Contents (Elt F)),
    binary main_v186 main_v192 main_v193 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v24 main_v194 (broadcastInDim S800000x1 ![0] bcast_S800000_S800000x1_0 : (⟨S800000, .f32⟩ : BufTy).Contents (Elt F) → (⟨S800000x1, .f32⟩ : BufTy).Contents (Elt F)),
    unary main_v194 main_v195 (broadcastInDim S800000x64 ![0, 1] bcast_S800000x1_S800000x64_0_1 : (⟨S800000x1, .f32⟩ : BufTy).Contents (Elt F) → (⟨S800000x64, .f32⟩ : BufTy).Contents (Elt F)),
    binary main_v193 main_v195 main_v196 (mulf : (⟨S800000x64, .f32⟩ : BufTy).Contents (Elt F) → (⟨S800000x64, .f32⟩ : BufTy).Contents (Elt F) → (⟨S800000x64, .f32⟩ : BufTy).Contents (Elt F)),
    nullary main_cst_54 (constant S_ .f32 0x00000000#32),
    unary main_cst_54 main_v197 (broadcastInDim S50000x64 ![] bcast_S_S50000x64 : (⟨S_, .f32⟩ : BufTy).Contents (Elt F) → (⟨S50000x64, .f32⟩ : BufTy).Contents (Elt F)),
    unary main_arg2 main_v198 (broadcastInDim S800000x1 ![0] bcast_S800000_S800000x1_0 : (⟨S800000, .i32⟩ : BufTy).Contents (Elt F) → (⟨S800000x1, .i32⟩ : BufTy).Contents (Elt F)),
    ternary main_v197 main_v198 main_v196 main_v199 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_55 (constant S_ .f32 0x3F666666#32),
    unary main_cst_55 main_v200 (broadcastInDim S50000x64 ![] bcast_S_S50000x64 : (⟨S_, .f32⟩ : BufTy).Contents (Elt F) → (⟨S50000x64, .f32⟩ : BufTy).Contents (Elt F)),
    binary main_v199 main_v200 main_v201 (mulf : (⟨S50000x64, .f32⟩ : BufTy).Contents (Elt F) → (⟨S50000x64, .f32⟩ : BufTy).Contents (Elt F) → (⟨S50000x64, .f32⟩ : BufTy).Contents (Elt F)),
    nullary main_cst_56 (constant S_ .f32 0x3DCCCCCD#32),
    unary main_cst_56 main_v202 (broadcastInDim S50000x64 ![] bcast_S_S50000x64 : (⟨S_, .f32⟩ : BufTy).Contents (Elt F) → (⟨S50000x64, .f32⟩ : BufTy).Contents (Elt F)),
    binary main_v202 main_arg0 main_v203 (mulf : (⟨S50000x64, .f32⟩ : BufTy).Contents (Elt F) → (⟨S50000x64, .f32⟩ : BufTy).Contents (Elt F) → (⟨S50000x64, .f32⟩ : BufTy).Contents (Elt F)),
    binary main_v201 main_v203 main_v204 (addf : (⟨S50000x64, .f32⟩ : BufTy).Contents (Elt F) → (⟨S50000x64, .f32⟩ : BufTy).Contents (Elt F) → (⟨S50000x64, .f32⟩ : BufTy).Contents (Elt F)) ]

variable (V : Valuation τ sig (Elt Ideal))

set_option maxHeartbeats 4000000 in
/-- The stretch's result: one diffusion step from `main_v186`'s contents. -/
theorem value : StableHlo.after (seg (F := Ideal)) V (Proc.devRef .tc main_v204)
    = blendT64 (conv64 (V (Proc.devRef .tc main_arg1)) (V (Proc.devRef .tc main_arg2)) (V (Proc.devRef .tc main_v24)) (V (Proc.devRef .tc main_v186))) (V (Proc.devRef .tc main_arg0)) := by
  after_results
  unfold blendT64 conv64 wrap
  first | with_reducible rfl | rfl

/-- The buffers the stretch writes. -/
def written : List (Ref sig .tc) := [main_c_52, main_v187, main_v188, main_c_53, main_v189, main_v190, main_v191, main_v192, main_v193, main_v194, main_v195, main_v196, main_cst_54, main_v197, main_v198, main_v199, main_cst_55, main_v200, main_v201, main_cst_56, main_v202, main_v203, main_v204]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg9

end
-- ==== Proof.RefSegMid.lean ====
/-
  The reference's dense middle as stretches of host operations.

  The forty-five operations from the class iota to the logits are read as six consecutive stretches, each from arbitrary
  buffer contents: the three columns of the pair network's rows; the nine-column rows, their contraction and bias; the
  first maximum against zero; the contraction against the output column, its bias, the halving, the reshape back to
  [50000, 64], the classifier's 128-wide contraction and bias; the second maximum against zero; the last contraction and
  bias.  Composed, the stretches leave at the logits' buffer the function `Cert.MlpRef.mid` of the first diffusion result
  and the inputs, and they leave every buffer they do not write as it was.
-/
import proofs.«135505_j17961553232124_1_alg».proof.Proof.Gen.ReferenceIdeal
import proofs.«135505_j17961553232124_1_alg».proof.Proof.RefRead
import proofs.«135505_j17961553232124_1_alg».proof.Proof.MlpRef
import Idealize.ShloMosaic.Lib.StableHlo.Run

noncomputable section

namespace Cert.RefSegMid

open Idealize.ShloMosaic Idealize.ShloMosaic.TcCoe Idealize.ShloMosaic.StableHlo Cert.ReferenceIdeal Cert.ReferenceIdeal.Gen
  Cert.ReferenceIdeal.Read Cert.MlpRef

/-- The class words, the transposed and flattened z and x, and the gathered table rows. -/
abbrev segA {F : FTy → Type} [FloatOps F] : List (HloOp τ sig (Elt F)) :=
  [ nullary main_v205 (iotaInDim S64 32 0),
    unary main_v205 main_v206 (broadcastInDim S64x50000 ![0] bcast_S64_S64x50000_0 : (⟨S64, .i32⟩ : BufTy).Contents (Elt F) → (⟨S64x50000, .i32⟩ : BufTy).Contents (Elt F)),
    reshape main_v206 main_v207 rfl shapeCasts_S64x50000_S3200000,
    unary main_v204 main_v208 ((transpose S64x50000 [1, 0] · transposes_S50000x64_S64x50000_1_0) : (⟨S50000x64, .f32⟩ : BufTy).Contents (Elt F) → (⟨S64x50000, .f32⟩ : BufTy).Contents (Elt F)),
    reshape main_v208 main_v209 rfl shapeCasts_S64x50000_S3200000x1,
    unary main_arg0 main_v210 ((transpose S64x50000 [1, 0] · transposes_S50000x64_S64x50000_1_0) : (⟨S50000x64, .f32⟩ : BufTy).Contents (Elt F) → (⟨S64x50000, .f32⟩ : BufTy).Contents (Elt F)),
    reshape main_v210 main_v211 rfl shapeCasts_S64x50000_S3200000x1,
    nullary main_c_57 (constantI S_ 32 0#32),
    unary main_c_57 main_v212 (broadcastInDim S3200000 ![] bcast_S_S3200000 : (⟨S_, .i32⟩ : BufTy).Contents (Elt F) → (⟨S3200000, .i32⟩ : BufTy).Contents (Elt F)),
    binary main_v207 main_v212 main_v213 (cmpi .slt : (⟨S3200000, .i32⟩ : BufTy).Contents (Elt F) → (⟨S3200000, .i32⟩ : BufTy).Contents (Elt F) → (⟨S3200000, .i1⟩ : BufTy).Contents (Elt F)),
    nullary main_c_58 (constantI S_ 32 64#32),
    unary main_c_58 main_v214 (broadcastInDim S3200000 ![] bcast_S_S3200000 : (⟨S_, .i32⟩ : BufTy).Contents (Elt F) → (⟨S3200000, .i32⟩ : BufTy).Contents (Elt F)),
    binary main_v207 main_v214 main_v215 (addi : (⟨S3200000, .i32⟩ : BufTy).Contents (Elt F) → (⟨S3200000, .i32⟩ : BufTy).Contents (Elt F) → (⟨S3200000, .i32⟩ : BufTy).Contents (Elt F)),
    ternary main_v213 main_v215 main_v207 main_v216 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v216 main_v217 (broadcastInDim S3200000x1 ![0] bcast_S3200000_S3200000x1_0 : (⟨S3200000, .i32⟩ : BufTy).Contents (Elt F) → (⟨S3200000x1, .i32⟩ : BufTy).Contents (Elt F)),
    binary main_arg11 main_v217 main_v218 ((fun x i => Host.gather gather_S64x7_S3200000x1_S3200000x7_1_0_n_n_0_1_17 x i) : (⟨S64x7, .f32⟩ : BufTy).Contents (Elt F) → (⟨S3200000x1, .i32⟩ : BufTy).Contents (Elt F) → (⟨S3200000x7, .f32⟩ : BufTy).Contents (Elt F)) ]

/-- The nine-column rows, their contraction against A1, and the bias. -/
abbrev segB {F : FTy → Type} [FloatOps F] : List (HloOp τ sig (Elt F)) :=
  [ nary ![main_v209, main_v211, main_v218] main_v219 (fun u => concatenate S3200000x9 1 [⟨S3200000x1, u 0⟩, ⟨S3200000x1, u 1⟩, ⟨S3200000x7, u 2⟩] concatenates_S3200000x1_S3200000x1_S3200000x7_S3200000x9_d1),
    binary main_v219 main_arg7 main_v220 ((fun l r => Host.dotGeneral dot_S3200000x9_S9x11_S3200000x11_1_0_0_1_n_n none l r) : (⟨S3200000x9, .f32⟩ : BufTy).Contents (Elt F) → (⟨S9x11, .f32⟩ : BufTy).Contents (Elt F) → (⟨S3200000x11, .f32⟩ : BufTy).Contents (Elt F)),
    unary main_arg8 main_v221 (broadcastInDim S1x11 ![1] bcast_S11_S1x11_1 : (⟨S11, .f32⟩ : BufTy).Contents (Elt F) → (⟨S1x11, .f32⟩ : BufTy).Contents (Elt F)),
    unary main_v221 main_v222 (broadcastInDim S3200000x11 ![0, 1] bcast_S1x11_S3200000x11_0_1 : (⟨S1x11, .f32⟩ : BufTy).Contents (Elt F) → (⟨S3200000x11, .f32⟩ : BufTy).Contents (Elt F)),
    binary main_v220 main_v222 main_v223 (addf : (⟨S3200000x11, .f32⟩ : BufTy).Contents (Elt F) → (⟨S3200000x11, .f32⟩ : BufTy).Contents (Elt F) → (⟨S3200000x11, .f32⟩ : BufTy).Contents (Elt F)) ]

/-- The first maximum against zero. -/
abbrev segC {F : FTy → Type} [FloatOps F] : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S3200000x11, .f32⟩) main_call1_v0) (broadcastInDim S3200000x11 ![] bcast_S_S3200000x11),
    TRef.binary (TRef.of (T := ⟨S3200000x11, .f32⟩) main_v223) (TRef.of (T := ⟨S3200000x11, .f32⟩) main_call1_v0) (TRef.of (T := ⟨S3200000x11, .f32⟩) main_v224) maximumf ]

/-- The contraction against A2's column, its bias, the halving, the reshape to [50000, 64], and the classifier's first layer before its maximum. -/
abbrev segD {F : FTy → Type} [FloatOps F] : List (HloOp τ sig (Elt F)) :=
  [ binary main_v224 main_arg9 main_v225 ((fun l r => Host.dotGeneral dot_S3200000x11_S11x1_S3200000x1_1_0_0_1_n_n none l r) : (⟨S3200000x11, .f32⟩ : BufTy).Contents (Elt F) → (⟨S11x1, .f32⟩ : BufTy).Contents (Elt F) → (⟨S3200000x1, .f32⟩ : BufTy).Contents (Elt F)),
    unary main_arg10 main_v226 (broadcastInDim S1x1 ![1] bcast_S1_S1x1_1 : (⟨S1, .f32⟩ : BufTy).Contents (Elt F) → (⟨S1x1, .f32⟩ : BufTy).Contents (Elt F)),
    unary main_v226 main_v227 (broadcastInDim S3200000x1 ![0, 1] bcast_S1x1_S3200000x1_0_1 : (⟨S1x1, .f32⟩ : BufTy).Contents (Elt F) → (⟨S3200000x1, .f32⟩ : BufTy).Contents (Elt F)),
    binary main_v225 main_v227 main_v228 (addf : (⟨S3200000x1, .f32⟩ : BufTy).Contents (Elt F) → (⟨S3200000x1, .f32⟩ : BufTy).Contents (Elt F) → (⟨S3200000x1, .f32⟩ : BufTy).Contents (Elt F)),
    nullary main_cst_59 (constant S_ .f32 0x40000000#32),
    unary main_cst_59 main_v229 (broadcastInDim S3200000x1 ![] bcast_S_S3200000x1 : (⟨S_, .f32⟩ : BufTy).Contents (Elt F) → (⟨S3200000x1, .f32⟩ : BufTy).Contents (Elt F)),
    binary main_v228 main_v229 main_v230 (Host.divf : (⟨S3200000x1, .f32⟩ : BufTy).Contents (Elt F) → (⟨S3200000x1, .f32⟩ : BufTy).Contents (Elt F) → (⟨S3200000x1, .f32⟩ : BufTy).Contents (Elt F)),
    reshape main_v230 main_v231 rfl shapeCasts_S3200000x1_S64x50000,
    unary main_v231 main_v232 ((transpose S50000x64 [1, 0] · transposes_S64x50000_S50000x64_1_0) : (⟨S64x50000, .f32⟩ : BufTy).Contents (Elt F) → (⟨S50000x64, .f32⟩ : BufTy).Contents (Elt F)),
    binary main_v232 main_arg0 main_v233 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    binary main_v233 main_arg3 main_v234 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v235 (broadcastInDim S1x64 ![1] bcast_S64_S1x64_1 : (⟨S64, .f32⟩ : BufTy).Contents (Elt F) → (⟨S1x64, .f32⟩ : BufTy).Contents (Elt F)),
    unary main_v235 main_v236 (broadcastInDim S50000x64 ![0, 1] bcast_S1x64_S50000x64_0_1 : (⟨S1x64, .f32⟩ : BufTy).Contents (Elt F) → (⟨S50000x64, .f32⟩ : BufTy).Contents (Elt F)),
    binary main_v234 main_v236 main_v237 (addf : (⟨S50000x64, .f32⟩ : BufTy).Contents (Elt F) → (⟨S50000x64, .f32⟩ : BufTy).Contents (Elt F) → (⟨S50000x64, .f32⟩ : BufTy).Contents (Elt F)) ]

/-- The second maximum against zero. -/
abbrev segE {F : FTy → Type} [FloatOps F] : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v237) (TRef.of (T := ⟨S50000x64, .f32⟩) main_call2_v0) (TRef.of (T := ⟨S50000x64, .f32⟩) main_v238) maximumf ]

/-- The last contraction and its bias. -/
abbrev segF {F : FTy → Type} [FloatOps F] : List (HloOp τ sig (Elt F)) :=
  [ binary main_v238 main_arg5 main_v239 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    unary main_arg6 main_v240 (broadcastInDim S1x16 ![1] bcast_S16_S1x16_1 : (⟨S16, .f32⟩ : BufTy).Contents (Elt F) → (⟨S1x16, .f32⟩ : BufTy).Contents (Elt F)),
    unary main_v240 main_v241 (broadcastInDim S50000x16 ![0, 1] bcast_S1x16_S50000x16_0_1 : (⟨S1x16, .f32⟩ : BufTy).Contents (Elt F) → (⟨S50000x16, .f32⟩ : BufTy).Contents (Elt F)),
    binary main_v239 main_v241 main_v242 (addf : (⟨S50000x16, .f32⟩ : BufTy).Contents (Elt F) → (⟨S50000x16, .f32⟩ : BufTy).Contents (Elt F) → (⟨S50000x16, .f32⟩ : BufTy).Contents (Elt F)) ]

/-- The buffers each stretch writes. -/
def writtenA : List (Ref sig .tc) := [main_v205, main_v206, main_v207, main_v208, main_v209, main_v210, main_v211, main_c_57, main_v212, main_v213, main_c_58, main_v214, main_v215, main_v216, main_v217, main_v218]
def writtenB : List (Ref sig .tc) := [main_v219, main_v220, main_v221, main_v222, main_v223]
def writtenC : List (Ref sig .tc) := [main_call1_cst, main_call1_v0, main_v224]
def writtenD : List (Ref sig .tc) := [main_v225, main_v226, main_v227, main_v228, main_cst_59, main_v229, main_v230, main_v231, main_v232, main_v233, main_v234, main_v235, main_v236, main_v237]
def writtenE : List (Ref sig .tc) := [main_call2_cst, main_call2_v0, main_v238]
def writtenF : List (Ref sig .tc) := [main_v239, main_v240, main_v241, main_v242]

/-- The buffers the six stretches write. -/
def written : List (Ref sig .tc) := ((((writtenA ++ writtenB) ++ writtenC) ++ writtenD) ++ writtenE) ++ writtenF

theorem writes_subA : (segA (F := Ideal)).Forall fun op => op.writes ⊆ (writtenA.map (Proc.devRef (τ := τ) .tc)).toFinset := by
  simp only [segA, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals (apply Finset.singleton_subset_iff.mpr; apply List.mem_toFinset.mpr; apply List.mem_map_of_mem; decide)

theorem writes_subB : (segB (F := Ideal)).Forall fun op => op.writes ⊆ (writtenB.map (Proc.devRef (τ := τ) .tc)).toFinset := by
  simp only [segB, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals (apply Finset.singleton_subset_iff.mpr; apply List.mem_toFinset.mpr; apply List.mem_map_of_mem; decide)

theorem writes_subC : (segC (F := Ideal)).Forall fun op => op.writes ⊆ (writtenC.map (Proc.devRef (τ := τ) .tc)).toFinset := by
  simp only [segC, StableHlo.TRef.nullary, StableHlo.TRef.unary, StableHlo.TRef.binary, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals (apply Finset.singleton_subset_iff.mpr; apply List.mem_toFinset.mpr; apply List.mem_map_of_mem; decide)

theorem writes_subD : (segD (F := Ideal)).Forall fun op => op.writes ⊆ (writtenD.map (Proc.devRef (τ := τ) .tc)).toFinset := by
  simp only [segD, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals (apply Finset.singleton_subset_iff.mpr; apply List.mem_toFinset.mpr; apply List.mem_map_of_mem; decide)

theorem writes_subE : (segE (F := Ideal)).Forall fun op => op.writes ⊆ (writtenE.map (Proc.devRef (τ := τ) .tc)).toFinset := by
  simp only [segE, StableHlo.TRef.nullary, StableHlo.TRef.unary, StableHlo.TRef.binary, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals (apply Finset.singleton_subset_iff.mpr; apply List.mem_toFinset.mpr; apply List.mem_map_of_mem; decide)

theorem writes_subF : (segF (F := Ideal)).Forall fun op => op.writes ⊆ (writtenF.map (Proc.devRef (τ := τ) .tc)).toFinset := by
  simp only [segF, List.Forall, StableHlo.nullary_writes, StableHlo.unary_writes, StableHlo.binary_writes, StableHlo.ternary_writes, StableHlo.quaternary_writes, StableHlo.reshape_writes, StableHlo.binaryIndexed_writes, StableHlo.nary_writes]
  repeat' apply And.intro
  all_goals (apply Finset.singleton_subset_iff.mpr; apply List.mem_toFinset.mpr; apply List.mem_map_of_mem; decide)

/-! ## The stretches' results as functions of arrays -/

/-- Hidden units before the first maximum, from the three column groups of the rows. -/
def preAct (c0 c1 : Vec Ideal S3200000x1 .f32) (c2 : Vec Ideal S3200000x7 .f32) (x7 : Vec Ideal S9x11 .f32)
    (x8 : Vec Ideal S11 .f32) : Vec Ideal S3200000x11 .f32 :=
  addf (F := Ideal) (φ := .f32)
    (Host.dotGeneral (F := Ideal) (φ₁ := .f32) (φ₂ := .f32) dot_S3200000x9_S9x11_S3200000x11_1_0_0_1_n_n none
      (concatenate S3200000x9 1 [⟨S3200000x1, c0⟩, ⟨S3200000x1, c1⟩, ⟨S3200000x7, c2⟩]
        concatenates_S3200000x1_S3200000x1_S3200000x7_S3200000x9_d1) x7)
    (val_main_v222 (F := Ideal) x8)

/-- The first maximum against zero. -/
def relu11 (a : Vec Ideal S3200000x11 .f32) : Vec Ideal S3200000x11 .f32 :=
  maximumf (F := Ideal) (φ := .f32) a (val_main_call1_v0 (F := Ideal))

/-- From the rectified hidden units to the classifier's first layer before its maximum. -/
def pairTail (r : Vec Ideal S3200000x11 .f32) (x9 : Vec Ideal S11x1 .f32) (x10 : Vec Ideal S1 .f32)
    (x0 : Vec Ideal S50000x64 .f32) (x3 : Vec Ideal S128x64 .f32) (x4 : Vec Ideal S64 .f32) : Vec Ideal S50000x64 .f32 :=
  addf (F := Ideal) (φ := .f32)
    (Host.dotGeneral (F := Ideal) (φ₁ := .f32) (φ₂ := .f32) dot_S50000x128_S128x64_S50000x64_1_0_0_1_n_n none
      (concatenate S50000x128 1
        [⟨S50000x64, transpose S50000x64 [1, 0]
            (shapeCast _
              (Host.divf (F := Ideal) (φ := .f32)
                (addf (F := Ideal) (φ := .f32) (Host.dotGeneral (F := Ideal) (φ₁ := .f32) (φ₂ := .f32) dot_S3200000x11_S11x1_S3200000x1_1_0_0_1_n_n none r x9) (val_main_v227 (F := Ideal) x10))
                (val_main_v229 (F := Ideal)))
              shapeCasts_S3200000x1_S64x50000)
            transposes_S64x50000_S50000x64_1_0⟩,
          ⟨S50000x64, x0⟩]
        concatenates_S50000x64_S50000x64_S50000x128_d1) x3)
    (val_main_v236 (F := Ideal) x4)

/-- The second maximum against zero. -/
def relu64 (a : Vec Ideal S50000x64 .f32) : Vec Ideal S50000x64 .f32 :=
  maximumf (F := Ideal) (φ := .f32) a (val_main_call2_v0 (F := Ideal))

/-- The last layer. -/
def head (h : Vec Ideal S50000x64 .f32) (x5 : Vec Ideal S64x16 .f32) (x6 : Vec Ideal S16 .f32) : Vec Ideal S50000x16 .f32 :=
  addf (F := Ideal) (φ := .f32) (Host.dotGeneral (F := Ideal) (φ₁ := .f32) (φ₂ := .f32) dot_S50000x64_S64x16_S50000x16_1_0_0_1_n_n none h x5) (val_main_v241 (F := Ideal) x6)

/-- The six functions composed are the dense middle. -/
theorem compose_eq_mid (z x0 : Vec Ideal S50000x64 .f32) (x3 : Vec Ideal S128x64 .f32) (x4 : Vec Ideal S64 .f32)
    (x5 : Vec Ideal S64x16 .f32) (x6 : Vec Ideal S16 .f32) (x7 : Vec Ideal S9x11 .f32) (x8 : Vec Ideal S11 .f32)
    (x9 : Vec Ideal S11x1 .f32) (x10 : Vec Ideal S1 .f32) (x11 : Vec Ideal S64x7 .f32) :
    head (relu64 (pairTail (relu11 (preAct (val_main_v211 (F := Ideal) z) (val_main_v211 (F := Ideal) x0)
        (val_main_v218 (F := Ideal) x11) x7 x8)) x9 x10 x0 x3 x4)) x5 x6
      = Cert.MlpRef.mid z x0 x3 x4 x5 x6 x7 x8 x9 x10 x11 := rfl

section Stages

variable (U : Valuation τ sig (Elt Ideal))

/-! ## Each stretch from arbitrary contents -/

set_option maxHeartbeats 4000000 in
/-- The transposed, flattened first diffusion result. -/
theorem valueA_v209 : StableHlo.after (segA (F := Ideal)) U (Proc.devRef .tc main_v209)
    = val_main_v211 (F := Ideal) (U (Proc.devRef .tc main_v204)) := by
  after_results
  first | with_reducible rfl | rfl

set_option maxHeartbeats 4000000 in
/-- The transposed, flattened input features. -/
theorem valueA_v211 : StableHlo.after (segA (F := Ideal)) U (Proc.devRef .tc main_v211)
    = val_main_v211 (F := Ideal) (U (Proc.devRef .tc main_arg0)) := by
  after_results
  first | with_reducible rfl | rfl

set_option maxHeartbeats 4000000 in
/-- The gathered table rows. -/
theorem valueA_v218 : StableHlo.after (segA (F := Ideal)) U (Proc.devRef .tc main_v218)
    = val_main_v218 (F := Ideal) (U (Proc.devRef .tc main_arg11)) := by
  after_results
  first | with_reducible rfl | rfl

/-- A buffer stretch A does not write keeps its contents. -/
theorem keepA (r : Ref sig .tc) (h : r ∉ writtenA) :
    StableHlo.after (segA (F := Ideal)) U (Proc.devRef .tc r) = U (Proc.devRef .tc r) :=
  StableHlo.after_of_writes_sub _ _ writes_subA h

set_option maxHeartbeats 4000000 in
/-- The hidden units before the first maximum. -/
theorem valueB : StableHlo.after (segB (F := Ideal)) U (Proc.devRef .tc main_v223)
    = preAct (U (Proc.devRef .tc main_v209)) (U (Proc.devRef .tc main_v211)) (U (Proc.devRef .tc main_v218))
        (U (Proc.devRef .tc main_arg7)) (U (Proc.devRef .tc main_arg8)) := by
  after_results
  unfold preAct
  first | with_reducible rfl | rfl

/-- A buffer stretch B does not write keeps its contents. -/
theorem keepB (r : Ref sig .tc) (h : r ∉ writtenB) :
    StableHlo.after (segB (F := Ideal)) U (Proc.devRef .tc r) = U (Proc.devRef .tc r) :=
  StableHlo.after_of_writes_sub _ _ writes_subB h

set_option maxHeartbeats 4000000 in
/-- The rectified hidden units. -/
theorem valueC : StableHlo.after (segC (F := Ideal)) U (Proc.devRef .tc main_v224) = relu11 (U (Proc.devRef .tc main_v223)) := by
  after_results
  rfl

/-- A buffer stretch C does not write keeps its contents. -/
theorem keepC (r : Ref sig .tc) (h : r ∉ writtenC) :
    StableHlo.after (segC (F := Ideal)) U (Proc.devRef .tc r) = U (Proc.devRef .tc r) :=
  StableHlo.after_of_writes_sub _ _ writes_subC h

set_option maxHeartbeats 4000000 in
/-- The classifier's first layer before its maximum. -/
theorem valueD : StableHlo.after (segD (F := Ideal)) U (Proc.devRef .tc main_v237)
    = pairTail (U (Proc.devRef .tc main_v224)) (U (Proc.devRef .tc main_arg9)) (U (Proc.devRef .tc main_arg10))
        (U (Proc.devRef .tc main_arg0)) (U (Proc.devRef .tc main_arg3)) (U (Proc.devRef .tc main_arg4)) := by
  after_results
  unfold pairTail
  first | with_reducible rfl | rfl

/-- A buffer stretch D does not write keeps its contents. -/
theorem keepD (r : Ref sig .tc) (h : r ∉ writtenD) :
    StableHlo.after (segD (F := Ideal)) U (Proc.devRef .tc r) = U (Proc.devRef .tc r) :=
  StableHlo.after_of_writes_sub _ _ writes_subD h

set_option maxHeartbeats 4000000 in
/-- The rectified first layer. -/
theorem valueE : StableHlo.after (segE (F := Ideal)) U (Proc.devRef .tc main_v238) = relu64 (U (Proc.devRef .tc main_v237)) := by
  after_results
  rfl

/-- A buffer stretch E does not write keeps its contents. -/
theorem keepE (r : Ref sig .tc) (h : r ∉ writtenE) :
    StableHlo.after (segE (F := Ideal)) U (Proc.devRef .tc r) = U (Proc.devRef .tc r) :=
  StableHlo.after_of_writes_sub _ _ writes_subE h

set_option maxHeartbeats 4000000 in
/-- The logits. -/
theorem valueF : StableHlo.after (segF (F := Ideal)) U (Proc.devRef .tc main_v242)
    = head (U (Proc.devRef .tc main_v238)) (U (Proc.devRef .tc main_arg5)) (U (Proc.devRef .tc main_arg6)) := by
  after_results
  unfold head
  first | with_reducible rfl | rfl

/-- A buffer stretch F does not write keeps its contents. -/
theorem keepF (r : Ref sig .tc) (h : r ∉ writtenF) :
    StableHlo.after (segF (F := Ideal)) U (Proc.devRef .tc r) = U (Proc.devRef .tc r) :=
  StableHlo.after_of_writes_sub _ _ writes_subF h

end Stages

variable (V : Valuation τ sig (Elt Ideal))

/-- A buffer the first k stretches do not write, after them. -/
theorem keepAB (r : Ref sig .tc) (hA : r ∉ writtenA) (hB : r ∉ writtenB) :
    StableHlo.after (segB (F := Ideal)) (StableHlo.after (segA (F := Ideal)) V) (Proc.devRef .tc r) = V (Proc.devRef .tc r) :=
  (keepB _ r hB).trans (keepA V r hA)

theorem keepABC (r : Ref sig .tc) (hA : r ∉ writtenA) (hB : r ∉ writtenB) (hC : r ∉ writtenC) :
    StableHlo.after (segC (F := Ideal)) (StableHlo.after (segB (F := Ideal)) (StableHlo.after (segA (F := Ideal)) V))
      (Proc.devRef .tc r) = V (Proc.devRef .tc r) :=
  (keepC _ r hC).trans (keepAB V r hA hB)

theorem keepABCD (r : Ref sig .tc) (hA : r ∉ writtenA) (hB : r ∉ writtenB) (hC : r ∉ writtenC) (hD : r ∉ writtenD) :
    StableHlo.after (segD (F := Ideal)) (StableHlo.after (segC (F := Ideal)) (StableHlo.after (segB (F := Ideal))
      (StableHlo.after (segA (F := Ideal)) V))) (Proc.devRef .tc r) = V (Proc.devRef .tc r) :=
  (keepD _ r hD).trans (keepABC V r hA hB hC)

theorem keepABCDE (r : Ref sig .tc) (hA : r ∉ writtenA) (hB : r ∉ writtenB) (hC : r ∉ writtenC) (hD : r ∉ writtenD)
    (hE : r ∉ writtenE) :
    StableHlo.after (segE (F := Ideal)) (StableHlo.after (segD (F := Ideal)) (StableHlo.after (segC (F := Ideal))
      (StableHlo.after (segB (F := Ideal)) (StableHlo.after (segA (F := Ideal)) V)))) (Proc.devRef .tc r)
      = V (Proc.devRef .tc r) :=
  (keepE _ r hE).trans (keepABCD V r hA hB hC hD)

/-- A buffer none of the six stretches writes keeps its contents. -/
theorem keep (r : Ref sig .tc) (h : r ∉ written) :
    StableHlo.after (segF (F := Ideal)) (StableHlo.after (segE (F := Ideal)) (StableHlo.after (segD (F := Ideal))
      (StableHlo.after (segC (F := Ideal)) (StableHlo.after (segB (F := Ideal)) (StableHlo.after (segA (F := Ideal)) V)))))
      (Proc.devRef .tc r) = V (Proc.devRef .tc r) :=
  (keepF _ r (fun hm => h (List.mem_append_right _ hm))).trans
    (keepABCDE V r
      (fun hm => h (List.mem_append_left _ (List.mem_append_left _ (List.mem_append_left _ (List.mem_append_left _
        (List.mem_append_left _ hm))))))
      (fun hm => h (List.mem_append_left _ (List.mem_append_left _ (List.mem_append_left _ (List.mem_append_left _
        (List.mem_append_right _ hm))))))
      (fun hm => h (List.mem_append_left _ (List.mem_append_left _ (List.mem_append_left _ (List.mem_append_right _ hm)))))
      (fun hm => h (List.mem_append_left _ (List.mem_append_left _ (List.mem_append_right _ hm))))
      (fun hm => h (List.mem_append_left _ (List.mem_append_right _ hm))))

/-- The six stretches leave the dense middle of the first diffusion result and the inputs at the logits' buffer. -/
theorem value :
    StableHlo.after (segF (F := Ideal)) (StableHlo.after (segE (F := Ideal)) (StableHlo.after (segD (F := Ideal))
      (StableHlo.after (segC (F := Ideal)) (StableHlo.after (segB (F := Ideal)) (StableHlo.after (segA (F := Ideal)) V)))))
      (Proc.devRef .tc main_v242)
      = Cert.MlpRef.mid (V (Proc.devRef .tc main_v204)) (V (Proc.devRef .tc main_arg0)) (V (Proc.devRef .tc main_arg3))
          (V (Proc.devRef .tc main_arg4)) (V (Proc.devRef .tc main_arg5)) (V (Proc.devRef .tc main_arg6))
          (V (Proc.devRef .tc main_arg7)) (V (Proc.devRef .tc main_arg8)) (V (Proc.devRef .tc main_arg9))
          (V (Proc.devRef .tc main_arg10)) (V (Proc.devRef .tc main_arg11)) := by
  rw [valueF, valueE, keepABCDE V main_arg5 (by decide) (by decide) (by decide) (by decide) (by decide),
    keepABCDE V main_arg6 (by decide) (by decide) (by decide) (by decide) (by decide)]
  rw [valueD, valueC, keepABC V main_arg9 (by decide) (by decide) (by decide),
    keepABC V main_arg10 (by decide) (by decide) (by decide), keepABC V main_arg0 (by decide) (by decide) (by decide),
    keepABC V main_arg3 (by decide) (by decide) (by decide), keepABC V main_arg4 (by decide) (by decide) (by decide)]
  rw [valueB, valueA_v209, valueA_v211, valueA_v218, keepA V main_arg7 (by decide), keepA V main_arg8 (by decide)]
  exact compose_eq_mid _ _ _ _ _ _ _ _ _ _ _

end Cert.RefSegMid

end
-- ==== Proof.RefSeg11.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg11

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_60 (constantI S_ 32 0#32),
    unary main_c_60 main_v243 (broadcastInDim S800000 ![] bcast_S_S800000 : (⟨S_, .i32⟩ : BufTy).Contents (Elt F) → (⟨S800000, .i32⟩ : BufTy).Contents (Elt F)),
    binary main_arg1 main_v243 main_v244 (cmpi .slt : (⟨S800000, .i32⟩ : BufTy).Contents (Elt F) → (⟨S800000, .i32⟩ : BufTy).Contents (Elt F) → (⟨S800000, .i1⟩ : BufTy).Contents (Elt F)),
    nullary main_c_61 (constantI S_ 32 50000#32),
    unary main_c_61 main_v245 (broadcastInDim S800000 ![] bcast_S_S800000 : (⟨S_, .i32⟩ : BufTy).Contents (Elt F) → (⟨S800000, .i32⟩ : BufTy).Contents (Elt F)),
    binary main_arg1 main_v245 main_v246 (addi : (⟨S800000, .i32⟩ : BufTy).Contents (Elt F) → (⟨S800000, .i32⟩ : BufTy).Contents (Elt F) → (⟨S800000, .i32⟩ : BufTy).Contents (Elt F)),
    ternary main_v244 main_v246 main_arg1 main_v247 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v247 main_v248 (broadcastInDim S800000x1 ![0] bcast_S800000_S800000x1_0 : (⟨S800000, .i32⟩ : BufTy).Contents (Elt F) → (⟨S800000x1, .i32⟩ : BufTy).Contents (Elt F)),
    binary main_v242 main_v248 main_v249 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v250 (broadcastInDim S800000x1 ![0] bcast_S800000_S800000x1_0 : (⟨S800000, .f32⟩ : BufTy).Contents (Elt F) → (⟨S800000x1, .f32⟩ : BufTy).Contents (Elt F)),
    unary main_v250 main_v251 (broadcastInDim S800000x16 ![0, 1] bcast_S800000x1_S800000x16_0_1 : (⟨S800000x1, .f32⟩ : BufTy).Contents (Elt F) → (⟨S800000x16, .f32⟩ : BufTy).Contents (Elt F)),
    binary main_v249 main_v251 main_v252 (mulf : (⟨S800000x16, .f32⟩ : BufTy).Contents (Elt F) → (⟨S800000x16, .f32⟩ : BufTy).Contents (Elt F) → (⟨S800000x16, .f32⟩ : BufTy).Contents (Elt F)),
    nullary main_cst_62 (constant S_ .f32 0x00000000#32),
    unary main_cst_62 main_v253 (broadcastInDim S50000x16 ![] bcast_S_S50000x16 : (⟨S_, .f32⟩ : BufTy).Contents (Elt F) → (⟨S50000x16, .f32⟩ : BufTy).Contents (Elt F)),
    unary main_arg2 main_v254 (broadcastInDim S800000x1 ![0] bcast_S800000_S800000x1_0 : (⟨S800000, .i32⟩ : BufTy).Contents (Elt F) → (⟨S800000x1, .i32⟩ : BufTy).Contents (Elt F)),
    ternary main_v253 main_v254 main_v252 main_v255 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_63 (constant S_ .f32 0x3F666666#32),
    unary main_cst_63 main_v256 (broadcastInDim S50000x16 ![] bcast_S_S50000x16 : (⟨S_, .f32⟩ : BufTy).Contents (Elt F) → (⟨S50000x16, .f32⟩ : BufTy).Contents (Elt F)),
    binary main_v255 main_v256 main_v257 (mulf : (⟨S50000x16, .f32⟩ : BufTy).Contents (Elt F) → (⟨S50000x16, .f32⟩ : BufTy).Contents (Elt F) → (⟨S50000x16, .f32⟩ : BufTy).Contents (Elt F)),
    nullary main_cst_64 (constant S_ .f32 0x3DCCCCCD#32),
    unary main_cst_64 main_v258 (broadcastInDim S50000x16 ![] bcast_S_S50000x16 : (⟨S_, .f32⟩ : BufTy).Contents (Elt F) → (⟨S50000x16, .f32⟩ : BufTy).Contents (Elt F)),
    binary main_v258 main_v242 main_v259 (mulf : (⟨S50000x16, .f32⟩ : BufTy).Contents (Elt F) → (⟨S50000x16, .f32⟩ : BufTy).Contents (Elt F) → (⟨S50000x16, .f32⟩ : BufTy).Contents (Elt F)),
    binary main_v257 main_v259 main_v260 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v242`'s contents. -/
theorem value : StableHlo.after (seg (F := Ideal)) V (Proc.devRef .tc main_v260)
    = blendT16 (conv16 (V (Proc.devRef .tc main_arg1)) (V (Proc.devRef .tc main_arg2)) (V (Proc.devRef .tc main_v24)) (V (Proc.devRef .tc main_v242))) (V (Proc.devRef .tc main_v242)) := by
  after_results
  unfold blendT16 conv16 wrap
  first | with_reducible rfl | rfl

/-- The buffers the stretch writes. -/
def written : List (Ref sig .tc) := [main_c_60, main_v243, main_v244, main_c_61, main_v245, main_v246, main_v247, main_v248, main_v249, main_v250, main_v251, main_v252, main_cst_62, main_v253, main_v254, main_v255, main_cst_63, main_v256, main_v257, main_cst_64, main_v258, main_v259, main_v260]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg11

end
-- ==== Proof.RefSeg12.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg12

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_65 (constantI S_ 32 0#32),
    unary main_c_65 main_v261 (broadcastInDim S800000 ![] bcast_S_S800000 : (⟨S_, .i32⟩ : BufTy).Contents (Elt F) → (⟨S800000, .i32⟩ : BufTy).Contents (Elt F)),
    binary main_arg1 main_v261 main_v262 (cmpi .slt : (⟨S800000, .i32⟩ : BufTy).Contents (Elt F) → (⟨S800000, .i32⟩ : BufTy).Contents (Elt F) → (⟨S800000, .i1⟩ : BufTy).Contents (Elt F)),
    nullary main_c_66 (constantI S_ 32 50000#32),
    unary main_c_66 main_v263 (broadcastInDim S800000 ![] bcast_S_S800000 : (⟨S_, .i32⟩ : BufTy).Contents (Elt F) → (⟨S800000, .i32⟩ : BufTy).Contents (Elt F)),
    binary main_arg1 main_v263 main_v264 (addi : (⟨S800000, .i32⟩ : BufTy).Contents (Elt F) → (⟨S800000, .i32⟩ : BufTy).Contents (Elt F) → (⟨S800000, .i32⟩ : BufTy).Contents (Elt F)),
    ternary main_v262 main_v264 main_arg1 main_v265 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v265 main_v266 (broadcastInDim S800000x1 ![0] bcast_S800000_S800000x1_0 : (⟨S800000, .i32⟩ : BufTy).Contents (Elt F) → (⟨S800000x1, .i32⟩ : BufTy).Contents (Elt F)),
    binary main_v260 main_v266 main_v267 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v268 (broadcastInDim S800000x1 ![0] bcast_S800000_S800000x1_0 : (⟨S800000, .f32⟩ : BufTy).Contents (Elt F) → (⟨S800000x1, .f32⟩ : BufTy).Contents (Elt F)),
    unary main_v268 main_v269 (broadcastInDim S800000x16 ![0, 1] bcast_S800000x1_S800000x16_0_1 : (⟨S800000x1, .f32⟩ : BufTy).Contents (Elt F) → (⟨S800000x16, .f32⟩ : BufTy).Contents (Elt F)),
    binary main_v267 main_v269 main_v270 (mulf : (⟨S800000x16, .f32⟩ : BufTy).Contents (Elt F) → (⟨S800000x16, .f32⟩ : BufTy).Contents (Elt F) → (⟨S800000x16, .f32⟩ : BufTy).Contents (Elt F)),
    nullary main_cst_67 (constant S_ .f32 0x00000000#32),
    unary main_cst_67 main_v271 (broadcastInDim S50000x16 ![] bcast_S_S50000x16 : (⟨S_, .f32⟩ : BufTy).Contents (Elt F) → (⟨S50000x16, .f32⟩ : BufTy).Contents (Elt F)),
    unary main_arg2 main_v272 (broadcastInDim S800000x1 ![0] bcast_S800000_S800000x1_0 : (⟨S800000, .i32⟩ : BufTy).Contents (Elt F) → (⟨S800000x1, .i32⟩ : BufTy).Contents (Elt F)),
    ternary main_v271 main_v272 main_v270 main_v273 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_68 (constant S_ .f32 0x3F666666#32),
    unary main_cst_68 main_v274 (broadcastInDim S50000x16 ![] bcast_S_S50000x16 : (⟨S_, .f32⟩ : BufTy).Contents (Elt F) → (⟨S50000x16, .f32⟩ : BufTy).Contents (Elt F)),
    binary main_v273 main_v274 main_v275 (mulf : (⟨S50000x16, .f32⟩ : BufTy).Contents (Elt F) → (⟨S50000x16, .f32⟩ : BufTy).Contents (Elt F) → (⟨S50000x16, .f32⟩ : BufTy).Contents (Elt F)),
    nullary main_cst_69 (constant S_ .f32 0x3DCCCCCD#32),
    unary main_cst_69 main_v276 (broadcastInDim S50000x16 ![] bcast_S_S50000x16 : (⟨S_, .f32⟩ : BufTy).Contents (Elt F) → (⟨S50000x16, .f32⟩ : BufTy).Contents (Elt F)),
    binary main_v276 main_v242 main_v277 (mulf : (⟨S50000x16, .f32⟩ : BufTy).Contents (Elt F) → (⟨S50000x16, .f32⟩ : BufTy).Contents (Elt F) → (⟨S50000x16, .f32⟩ : BufTy).Contents (Elt F)),
    binary main_v275 main_v277 main_v278 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v260`'s contents. -/
theorem value : StableHlo.after (seg (F := Ideal)) V (Proc.devRef .tc main_v278)
    = blendT16 (conv16 (V (Proc.devRef .tc main_arg1)) (V (Proc.devRef .tc main_arg2)) (V (Proc.devRef .tc main_v24)) (V (Proc.devRef .tc main_v260))) (V (Proc.devRef .tc main_v242)) := by
  after_results
  unfold blendT16 conv16 wrap
  first | with_reducible rfl | rfl

/-- The buffers the stretch writes. -/
def written : List (Ref sig .tc) := [main_c_65, main_v261, main_v262, main_c_66, main_v263, main_v264, main_v265, main_v266, main_v267, main_v268, main_v269, main_v270, main_cst_67, main_v271, main_v272, main_v273, main_cst_68, main_v274, main_v275, main_cst_69, main_v276, main_v277, main_v278]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg12

end
-- ==== Proof.RefSeg13.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg13

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_70 (constantI S_ 32 0#32),
    unary main_c_70 main_v279 (broadcastInDim S800000 ![] bcast_S_S800000 : (⟨S_, .i32⟩ : BufTy).Contents (Elt F) → (⟨S800000, .i32⟩ : BufTy).Contents (Elt F)),
    binary main_arg1 main_v279 main_v280 (cmpi .slt : (⟨S800000, .i32⟩ : BufTy).Contents (Elt F) → (⟨S800000, .i32⟩ : BufTy).Contents (Elt F) → (⟨S800000, .i1⟩ : BufTy).Contents (Elt F)),
    nullary main_c_71 (constantI S_ 32 50000#32),
    unary main_c_71 main_v281 (broadcastInDim S800000 ![] bcast_S_S800000 : (⟨S_, .i32⟩ : BufTy).Contents (Elt F) → (⟨S800000, .i32⟩ : BufTy).Contents (Elt F)),
    binary main_arg1 main_v281 main_v282 (addi : (⟨S800000, .i32⟩ : BufTy).Contents (Elt F) → (⟨S800000, .i32⟩ : BufTy).Contents (Elt F) → (⟨S800000, .i32⟩ : BufTy).Contents (Elt F)),
    ternary main_v280 main_v282 main_arg1 main_v283 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v283 main_v284 (broadcastInDim S800000x1 ![0] bcast_S800000_S800000x1_0 : (⟨S800000, .i32⟩ : BufTy).Contents (Elt F) → (⟨S800000x1, .i32⟩ : BufTy).Contents (Elt F)),
    binary main_v278 main_v284 main_v285 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v286 (broadcastInDim S800000x1 ![0] bcast_S800000_S800000x1_0 : (⟨S800000, .f32⟩ : BufTy).Contents (Elt F) → (⟨S800000x1, .f32⟩ : BufTy).Contents (Elt F)),
    unary main_v286 main_v287 (broadcastInDim S800000x16 ![0, 1] bcast_S800000x1_S800000x16_0_1 : (⟨S800000x1, .f32⟩ : BufTy).Contents (Elt F) → (⟨S800000x16, .f32⟩ : BufTy).Contents (Elt F)),
    binary main_v285 main_v287 main_v288 (mulf : (⟨S800000x16, .f32⟩ : BufTy).Contents (Elt F) → (⟨S800000x16, .f32⟩ : BufTy).Contents (Elt F) → (⟨S800000x16, .f32⟩ : BufTy).Contents (Elt F)),
    nullary main_cst_72 (constant S_ .f32 0x00000000#32),
    unary main_cst_72 main_v289 (broadcastInDim S50000x16 ![] bcast_S_S50000x16 : (⟨S_, .f32⟩ : BufTy).Contents (Elt F) → (⟨S50000x16, .f32⟩ : BufTy).Contents (Elt F)),
    unary main_arg2 main_v290 (broadcastInDim S800000x1 ![0] bcast_S800000_S800000x1_0 : (⟨S800000, .i32⟩ : BufTy).Contents (Elt F) → (⟨S800000x1, .i32⟩ : BufTy).Contents (Elt F)),
    ternary main_v289 main_v290 main_v288 main_v291 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_73 (constant S_ .f32 0x3F666666#32),
    unary main_cst_73 main_v292 (broadcastInDim S50000x16 ![] bcast_S_S50000x16 : (⟨S_, .f32⟩ : BufTy).Contents (Elt F) → (⟨S50000x16, .f32⟩ : BufTy).Contents (Elt F)),
    binary main_v291 main_v292 main_v293 (mulf : (⟨S50000x16, .f32⟩ : BufTy).Contents (Elt F) → (⟨S50000x16, .f32⟩ : BufTy).Contents (Elt F) → (⟨S50000x16, .f32⟩ : BufTy).Contents (Elt F)),
    nullary main_cst_74 (constant S_ .f32 0x3DCCCCCD#32),
    unary main_cst_74 main_v294 (broadcastInDim S50000x16 ![] bcast_S_S50000x16 : (⟨S_, .f32⟩ : BufTy).Contents (Elt F) → (⟨S50000x16, .f32⟩ : BufTy).Contents (Elt F)),
    binary main_v294 main_v242 main_v295 (mulf : (⟨S50000x16, .f32⟩ : BufTy).Contents (Elt F) → (⟨S50000x16, .f32⟩ : BufTy).Contents (Elt F) → (⟨S50000x16, .f32⟩ : BufTy).Contents (Elt F)),
    binary main_v293 main_v295 main_v296 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v278`'s contents. -/
theorem value : StableHlo.after (seg (F := Ideal)) V (Proc.devRef .tc main_v296)
    = blendT16 (conv16 (V (Proc.devRef .tc main_arg1)) (V (Proc.devRef .tc main_arg2)) (V (Proc.devRef .tc main_v24)) (V (Proc.devRef .tc main_v278))) (V (Proc.devRef .tc main_v242)) := by
  after_results
  unfold blendT16 conv16 wrap
  first | with_reducible rfl | rfl

/-- The buffers the stretch writes. -/
def written : List (Ref sig .tc) := [main_c_70, main_v279, main_v280, main_c_71, main_v281, main_v282, main_v283, main_v284, main_v285, main_v286, main_v287, main_v288, main_cst_72, main_v289, main_v290, main_v291, main_cst_73, main_v292, main_v293, main_cst_74, main_v294, main_v295, main_v296]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg13

end
-- ==== Proof.RefSeg14.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg14

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_75 (constantI S_ 32 0#32),
    unary main_c_75 main_v297 (broadcastInDim S800000 ![] bcast_S_S800000 : (⟨S_, .i32⟩ : BufTy).Contents (Elt F) → (⟨S800000, .i32⟩ : BufTy).Contents (Elt F)),
    binary main_arg1 main_v297 main_v298 (cmpi .slt : (⟨S800000, .i32⟩ : BufTy).Contents (Elt F) → (⟨S800000, .i32⟩ : BufTy).Contents (Elt F) → (⟨S800000, .i1⟩ : BufTy).Contents (Elt F)),
    nullary main_c_76 (constantI S_ 32 50000#32),
    unary main_c_76 main_v299 (broadcastInDim S800000 ![] bcast_S_S800000 : (⟨S_, .i32⟩ : BufTy).Contents (Elt F) → (⟨S800000, .i32⟩ : BufTy).Contents (Elt F)),
    binary main_arg1 main_v299 main_v300 (addi : (⟨S800000, .i32⟩ : BufTy).Contents (Elt F) → (⟨S800000, .i32⟩ : BufTy).Contents (Elt F) → (⟨S800000, .i32⟩ : BufTy).Contents (Elt F)),
    ternary main_v298 main_v300 main_arg1 main_v301 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v301 main_v302 (broadcastInDim S800000x1 ![0] bcast_S800000_S800000x1_0 : (⟨S800000, .i32⟩ : BufTy).Contents (Elt F) → (⟨S800000x1, .i32⟩ : BufTy).Contents (Elt F)),
    binary main_v296 main_v302 main_v303 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v304 (broadcastInDim S800000x1 ![0] bcast_S800000_S800000x1_0 : (⟨S800000, .f32⟩ : BufTy).Contents (Elt F) → (⟨S800000x1, .f32⟩ : BufTy).Contents (Elt F)),
    unary main_v304 main_v305 (broadcastInDim S800000x16 ![0, 1] bcast_S800000x1_S800000x16_0_1 : (⟨S800000x1, .f32⟩ : BufTy).Contents (Elt F) → (⟨S800000x16, .f32⟩ : BufTy).Contents (Elt F)),
    binary main_v303 main_v305 main_v306 (mulf : (⟨S800000x16, .f32⟩ : BufTy).Contents (Elt F) → (⟨S800000x16, .f32⟩ : BufTy).Contents (Elt F) → (⟨S800000x16, .f32⟩ : BufTy).Contents (Elt F)),
    nullary main_cst_77 (constant S_ .f32 0x00000000#32),
    unary main_cst_77 main_v307 (broadcastInDim S50000x16 ![] bcast_S_S50000x16 : (⟨S_, .f32⟩ : BufTy).Contents (Elt F) → (⟨S50000x16, .f32⟩ : BufTy).Contents (Elt F)),
    unary main_arg2 main_v308 (broadcastInDim S800000x1 ![0] bcast_S800000_S800000x1_0 : (⟨S800000, .i32⟩ : BufTy).Contents (Elt F) → (⟨S800000x1, .i32⟩ : BufTy).Contents (Elt F)),
    ternary main_v307 main_v308 main_v306 main_v309 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_78 (constant S_ .f32 0x3F666666#32),
    unary main_cst_78 main_v310 (broadcastInDim S50000x16 ![] bcast_S_S50000x16 : (⟨S_, .f32⟩ : BufTy).Contents (Elt F) → (⟨S50000x16, .f32⟩ : BufTy).Contents (Elt F)),
    binary main_v309 main_v310 main_v311 (mulf : (⟨S50000x16, .f32⟩ : BufTy).Contents (Elt F) → (⟨S50000x16, .f32⟩ : BufTy).Contents (Elt F) → (⟨S50000x16, .f32⟩ : BufTy).Contents (Elt F)),
    nullary main_cst_79 (constant S_ .f32 0x3DCCCCCD#32),
    unary main_cst_79 main_v312 (broadcastInDim S50000x16 ![] bcast_S_S50000x16 : (⟨S_, .f32⟩ : BufTy).Contents (Elt F) → (⟨S50000x16, .f32⟩ : BufTy).Contents (Elt F)),
    binary main_v312 main_v242 main_v313 (mulf : (⟨S50000x16, .f32⟩ : BufTy).Contents (Elt F) → (⟨S50000x16, .f32⟩ : BufTy).Contents (Elt F) → (⟨S50000x16, .f32⟩ : BufTy).Contents (Elt F)),
    binary main_v311 main_v313 main_v314 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v296`'s contents. -/
theorem value : StableHlo.after (seg (F := Ideal)) V (Proc.devRef .tc main_v314)
    = blendT16 (conv16 (V (Proc.devRef .tc main_arg1)) (V (Proc.devRef .tc main_arg2)) (V (Proc.devRef .tc main_v24)) (V (Proc.devRef .tc main_v296))) (V (Proc.devRef .tc main_v242)) := by
  after_results
  unfold blendT16 conv16 wrap
  first | with_reducible rfl | rfl

/-- The buffers the stretch writes. -/
def written : List (Ref sig .tc) := [main_c_75, main_v297, main_v298, main_c_76, main_v299, main_v300, main_v301, main_v302, main_v303, main_v304, main_v305, main_v306, main_cst_77, main_v307, main_v308, main_v309, main_cst_78, main_v310, main_v311, main_cst_79, main_v312, main_v313, main_v314]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg14

end
-- ==== Proof.RefSeg15.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg15

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_80 (constantI S_ 32 0#32),
    unary main_c_80 main_v315 (broadcastInDim S800000 ![] bcast_S_S800000 : (⟨S_, .i32⟩ : BufTy).Contents (Elt F) → (⟨S800000, .i32⟩ : BufTy).Contents (Elt F)),
    binary main_arg1 main_v315 main_v316 (cmpi .slt : (⟨S800000, .i32⟩ : BufTy).Contents (Elt F) → (⟨S800000, .i32⟩ : BufTy).Contents (Elt F) → (⟨S800000, .i1⟩ : BufTy).Contents (Elt F)),
    nullary main_c_81 (constantI S_ 32 50000#32),
    unary main_c_81 main_v317 (broadcastInDim S800000 ![] bcast_S_S800000 : (⟨S_, .i32⟩ : BufTy).Contents (Elt F) → (⟨S800000, .i32⟩ : BufTy).Contents (Elt F)),
    binary main_arg1 main_v317 main_v318 (addi : (⟨S800000, .i32⟩ : BufTy).Contents (Elt F) → (⟨S800000, .i32⟩ : BufTy).Contents (Elt F) → (⟨S800000, .i32⟩ : BufTy).Contents (Elt F)),
    ternary main_v316 main_v318 main_arg1 main_v319 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v319 main_v320 (broadcastInDim S800000x1 ![0] bcast_S800000_S800000x1_0 : (⟨S800000, .i32⟩ : BufTy).Contents (Elt F) → (⟨S800000x1, .i32⟩ : BufTy).Contents (Elt F)),
    binary main_v314 main_v320 main_v321 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v322 (broadcastInDim S800000x1 ![0] bcast_S800000_S800000x1_0 : (⟨S800000, .f32⟩ : BufTy).Contents (Elt F) → (⟨S800000x1, .f32⟩ : BufTy).Contents (Elt F)),
    unary main_v322 main_v323 (broadcastInDim S800000x16 ![0, 1] bcast_S800000x1_S800000x16_0_1 : (⟨S800000x1, .f32⟩ : BufTy).Contents (Elt F) → (⟨S800000x16, .f32⟩ : BufTy).Contents (Elt F)),
    binary main_v321 main_v323 main_v324 (mulf : (⟨S800000x16, .f32⟩ : BufTy).Contents (Elt F) → (⟨S800000x16, .f32⟩ : BufTy).Contents (Elt F) → (⟨S800000x16, .f32⟩ : BufTy).Contents (Elt F)),
    nullary main_cst_82 (constant S_ .f32 0x00000000#32),
    unary main_cst_82 main_v325 (broadcastInDim S50000x16 ![] bcast_S_S50000x16 : (⟨S_, .f32⟩ : BufTy).Contents (Elt F) → (⟨S50000x16, .f32⟩ : BufTy).Contents (Elt F)),
    unary main_arg2 main_v326 (broadcastInDim S800000x1 ![0] bcast_S800000_S800000x1_0 : (⟨S800000, .i32⟩ : BufTy).Contents (Elt F) → (⟨S800000x1, .i32⟩ : BufTy).Contents (Elt F)),
    ternary main_v325 main_v326 main_v324 main_v327 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_83 (constant S_ .f32 0x3F666666#32),
    unary main_cst_83 main_v328 (broadcastInDim S50000x16 ![] bcast_S_S50000x16 : (⟨S_, .f32⟩ : BufTy).Contents (Elt F) → (⟨S50000x16, .f32⟩ : BufTy).Contents (Elt F)),
    binary main_v327 main_v328 main_v329 (mulf : (⟨S50000x16, .f32⟩ : BufTy).Contents (Elt F) → (⟨S50000x16, .f32⟩ : BufTy).Contents (Elt F) → (⟨S50000x16, .f32⟩ : BufTy).Contents (Elt F)),
    nullary main_cst_84 (constant S_ .f32 0x3DCCCCCD#32),
    unary main_cst_84 main_v330 (broadcastInDim S50000x16 ![] bcast_S_S50000x16 : (⟨S_, .f32⟩ : BufTy).Contents (Elt F) → (⟨S50000x16, .f32⟩ : BufTy).Contents (Elt F)),
    binary main_v330 main_v242 main_v331 (mulf : (⟨S50000x16, .f32⟩ : BufTy).Contents (Elt F) → (⟨S50000x16, .f32⟩ : BufTy).Contents (Elt F) → (⟨S50000x16, .f32⟩ : BufTy).Contents (Elt F)),
    binary main_v329 main_v331 main_v332 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v314`'s contents. -/
theorem value : StableHlo.after (seg (F := Ideal)) V (Proc.devRef .tc main_v332)
    = blendT16 (conv16 (V (Proc.devRef .tc main_arg1)) (V (Proc.devRef .tc main_arg2)) (V (Proc.devRef .tc main_v24)) (V (Proc.devRef .tc main_v314))) (V (Proc.devRef .tc main_v242)) := by
  after_results
  unfold blendT16 conv16 wrap
  first | with_reducible rfl | rfl

/-- The buffers the stretch writes. -/
def written : List (Ref sig .tc) := [main_c_80, main_v315, main_v316, main_c_81, main_v317, main_v318, main_v319, main_v320, main_v321, main_v322, main_v323, main_v324, main_cst_82, main_v325, main_v326, main_v327, main_cst_83, main_v328, main_v329, main_cst_84, main_v330, main_v331, main_v332]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg15

end
-- ==== Proof.RefSeg16.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg16

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_85 (constantI S_ 32 0#32),
    unary main_c_85 main_v333 (broadcastInDim S800000 ![] bcast_S_S800000 : (⟨S_, .i32⟩ : BufTy).Contents (Elt F) → (⟨S800000, .i32⟩ : BufTy).Contents (Elt F)),
    binary main_arg1 main_v333 main_v334 (cmpi .slt : (⟨S800000, .i32⟩ : BufTy).Contents (Elt F) → (⟨S800000, .i32⟩ : BufTy).Contents (Elt F) → (⟨S800000, .i1⟩ : BufTy).Contents (Elt F)),
    nullary main_c_86 (constantI S_ 32 50000#32),
    unary main_c_86 main_v335 (broadcastInDim S800000 ![] bcast_S_S800000 : (⟨S_, .i32⟩ : BufTy).Contents (Elt F) → (⟨S800000, .i32⟩ : BufTy).Contents (Elt F)),
    binary main_arg1 main_v335 main_v336 (addi : (⟨S800000, .i32⟩ : BufTy).Contents (Elt F) → (⟨S800000, .i32⟩ : BufTy).Contents (Elt F) → (⟨S800000, .i32⟩ : BufTy).Contents (Elt F)),
    ternary main_v334 main_v336 main_arg1 main_v337 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v337 main_v338 (broadcastInDim S800000x1 ![0] bcast_S800000_S800000x1_0 : (⟨S800000, .i32⟩ : BufTy).Contents (Elt F) → (⟨S800000x1, .i32⟩ : BufTy).Contents (Elt F)),
    binary main_v332 main_v338 main_v339 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v340 (broadcastInDim S800000x1 ![0] bcast_S800000_S800000x1_0 : (⟨S800000, .f32⟩ : BufTy).Contents (Elt F) → (⟨S800000x1, .f32⟩ : BufTy).Contents (Elt F)),
    unary main_v340 main_v341 (broadcastInDim S800000x16 ![0, 1] bcast_S800000x1_S800000x16_0_1 : (⟨S800000x1, .f32⟩ : BufTy).Contents (Elt F) → (⟨S800000x16, .f32⟩ : BufTy).Contents (Elt F)),
    binary main_v339 main_v341 main_v342 (mulf : (⟨S800000x16, .f32⟩ : BufTy).Contents (Elt F) → (⟨S800000x16, .f32⟩ : BufTy).Contents (Elt F) → (⟨S800000x16, .f32⟩ : BufTy).Contents (Elt F)),
    nullary main_cst_87 (constant S_ .f32 0x00000000#32),
    unary main_cst_87 main_v343 (broadcastInDim S50000x16 ![] bcast_S_S50000x16 : (⟨S_, .f32⟩ : BufTy).Contents (Elt F) → (⟨S50000x16, .f32⟩ : BufTy).Contents (Elt F)),
    unary main_arg2 main_v344 (broadcastInDim S800000x1 ![0] bcast_S800000_S800000x1_0 : (⟨S800000, .i32⟩ : BufTy).Contents (Elt F) → (⟨S800000x1, .i32⟩ : BufTy).Contents (Elt F)),
    ternary main_v343 main_v344 main_v342 main_v345 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_88 (constant S_ .f32 0x3F666666#32),
    unary main_cst_88 main_v346 (broadcastInDim S50000x16 ![] bcast_S_S50000x16 : (⟨S_, .f32⟩ : BufTy).Contents (Elt F) → (⟨S50000x16, .f32⟩ : BufTy).Contents (Elt F)),
    binary main_v345 main_v346 main_v347 (mulf : (⟨S50000x16, .f32⟩ : BufTy).Contents (Elt F) → (⟨S50000x16, .f32⟩ : BufTy).Contents (Elt F) → (⟨S50000x16, .f32⟩ : BufTy).Contents (Elt F)),
    nullary main_cst_89 (constant S_ .f32 0x3DCCCCCD#32),
    unary main_cst_89 main_v348 (broadcastInDim S50000x16 ![] bcast_S_S50000x16 : (⟨S_, .f32⟩ : BufTy).Contents (Elt F) → (⟨S50000x16, .f32⟩ : BufTy).Contents (Elt F)),
    binary main_v348 main_v242 main_v349 (mulf : (⟨S50000x16, .f32⟩ : BufTy).Contents (Elt F) → (⟨S50000x16, .f32⟩ : BufTy).Contents (Elt F) → (⟨S50000x16, .f32⟩ : BufTy).Contents (Elt F)),
    binary main_v347 main_v349 main_v350 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v332`'s contents. -/
theorem value : StableHlo.after (seg (F := Ideal)) V (Proc.devRef .tc main_v350)
    = blendT16 (conv16 (V (Proc.devRef .tc main_arg1)) (V (Proc.devRef .tc main_arg2)) (V (Proc.devRef .tc main_v24)) (V (Proc.devRef .tc main_v332))) (V (Proc.devRef .tc main_v242)) := by
  after_results
  unfold blendT16 conv16 wrap
  first | with_reducible rfl | rfl

/-- The buffers the stretch writes. -/
def written : List (Ref sig .tc) := [main_c_85, main_v333, main_v334, main_c_86, main_v335, main_v336, main_v337, main_v338, main_v339, main_v340, main_v341, main_v342, main_cst_87, main_v343, main_v344, main_v345, main_cst_88, main_v346, main_v347, main_cst_89, main_v348, main_v349, main_v350]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg16

end
-- ==== Proof.RefSeg17.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg17

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_90 (constantI S_ 32 0#32),
    unary main_c_90 main_v351 (broadcastInDim S800000 ![] bcast_S_S800000 : (⟨S_, .i32⟩ : BufTy).Contents (Elt F) → (⟨S800000, .i32⟩ : BufTy).Contents (Elt F)),
    binary main_arg1 main_v351 main_v352 (cmpi .slt : (⟨S800000, .i32⟩ : BufTy).Contents (Elt F) → (⟨S800000, .i32⟩ : BufTy).Contents (Elt F) → (⟨S800000, .i1⟩ : BufTy).Contents (Elt F)),
    nullary main_c_91 (constantI S_ 32 50000#32),
    unary main_c_91 main_v353 (broadcastInDim S800000 ![] bcast_S_S800000 : (⟨S_, .i32⟩ : BufTy).Contents (Elt F) → (⟨S800000, .i32⟩ : BufTy).Contents (Elt F)),
    binary main_arg1 main_v353 main_v354 (addi : (⟨S800000, .i32⟩ : BufTy).Contents (Elt F) → (⟨S800000, .i32⟩ : BufTy).Contents (Elt F) → (⟨S800000, .i32⟩ : BufTy).Contents (Elt F)),
    ternary main_v352 main_v354 main_arg1 main_v355 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v355 main_v356 (broadcastInDim S800000x1 ![0] bcast_S800000_S800000x1_0 : (⟨S800000, .i32⟩ : BufTy).Contents (Elt F) → (⟨S800000x1, .i32⟩ : BufTy).Contents (Elt F)),
    binary main_v350 main_v356 main_v357 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v358 (broadcastInDim S800000x1 ![0] bcast_S800000_S800000x1_0 : (⟨S800000, .f32⟩ : BufTy).Contents (Elt F) → (⟨S800000x1, .f32⟩ : BufTy).Contents (Elt F)),
    unary main_v358 main_v359 (broadcastInDim S800000x16 ![0, 1] bcast_S800000x1_S800000x16_0_1 : (⟨S800000x1, .f32⟩ : BufTy).Contents (Elt F) → (⟨S800000x16, .f32⟩ : BufTy).Contents (Elt F)),
    binary main_v357 main_v359 main_v360 (mulf : (⟨S800000x16, .f32⟩ : BufTy).Contents (Elt F) → (⟨S800000x16, .f32⟩ : BufTy).Contents (Elt F) → (⟨S800000x16, .f32⟩ : BufTy).Contents (Elt F)),
    nullary main_cst_92 (constant S_ .f32 0x00000000#32),
    unary main_cst_92 main_v361 (broadcastInDim S50000x16 ![] bcast_S_S50000x16 : (⟨S_, .f32⟩ : BufTy).Contents (Elt F) → (⟨S50000x16, .f32⟩ : BufTy).Contents (Elt F)),
    unary main_arg2 main_v362 (broadcastInDim S800000x1 ![0] bcast_S800000_S800000x1_0 : (⟨S800000, .i32⟩ : BufTy).Contents (Elt F) → (⟨S800000x1, .i32⟩ : BufTy).Contents (Elt F)),
    ternary main_v361 main_v362 main_v360 main_v363 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_93 (constant S_ .f32 0x3F666666#32),
    unary main_cst_93 main_v364 (broadcastInDim S50000x16 ![] bcast_S_S50000x16 : (⟨S_, .f32⟩ : BufTy).Contents (Elt F) → (⟨S50000x16, .f32⟩ : BufTy).Contents (Elt F)),
    binary main_v363 main_v364 main_v365 (mulf : (⟨S50000x16, .f32⟩ : BufTy).Contents (Elt F) → (⟨S50000x16, .f32⟩ : BufTy).Contents (Elt F) → (⟨S50000x16, .f32⟩ : BufTy).Contents (Elt F)),
    nullary main_cst_94 (constant S_ .f32 0x3DCCCCCD#32),
    unary main_cst_94 main_v366 (broadcastInDim S50000x16 ![] bcast_S_S50000x16 : (⟨S_, .f32⟩ : BufTy).Contents (Elt F) → (⟨S50000x16, .f32⟩ : BufTy).Contents (Elt F)),
    binary main_v366 main_v242 main_v367 (mulf : (⟨S50000x16, .f32⟩ : BufTy).Contents (Elt F) → (⟨S50000x16, .f32⟩ : BufTy).Contents (Elt F) → (⟨S50000x16, .f32⟩ : BufTy).Contents (Elt F)),
    binary main_v365 main_v367 main_v368 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v350`'s contents. -/
theorem value : StableHlo.after (seg (F := Ideal)) V (Proc.devRef .tc main_v368)
    = blendT16 (conv16 (V (Proc.devRef .tc main_arg1)) (V (Proc.devRef .tc main_arg2)) (V (Proc.devRef .tc main_v24)) (V (Proc.devRef .tc main_v350))) (V (Proc.devRef .tc main_v242)) := by
  after_results
  unfold blendT16 conv16 wrap
  first | with_reducible rfl | rfl

/-- The buffers the stretch writes. -/
def written : List (Ref sig .tc) := [main_c_90, main_v351, main_v352, main_c_91, main_v353, main_v354, main_v355, main_v356, main_v357, main_v358, main_v359, main_v360, main_cst_92, main_v361, main_v362, main_v363, main_cst_93, main_v364, main_v365, main_cst_94, main_v366, main_v367, main_v368]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg17

end
-- ==== Proof.RefSeg18.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg18

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_95 (constantI S_ 32 0#32),
    unary main_c_95 main_v369 (broadcastInDim S800000 ![] bcast_S_S800000 : (⟨S_, .i32⟩ : BufTy).Contents (Elt F) → (⟨S800000, .i32⟩ : BufTy).Contents (Elt F)),
    binary main_arg1 main_v369 main_v370 (cmpi .slt : (⟨S800000, .i32⟩ : BufTy).Contents (Elt F) → (⟨S800000, .i32⟩ : BufTy).Contents (Elt F) → (⟨S800000, .i1⟩ : BufTy).Contents (Elt F)),
    nullary main_c_96 (constantI S_ 32 50000#32),
    unary main_c_96 main_v371 (broadcastInDim S800000 ![] bcast_S_S800000 : (⟨S_, .i32⟩ : BufTy).Contents (Elt F) → (⟨S800000, .i32⟩ : BufTy).Contents (Elt F)),
    binary main_arg1 main_v371 main_v372 (addi : (⟨S800000, .i32⟩ : BufTy).Contents (Elt F) → (⟨S800000, .i32⟩ : BufTy).Contents (Elt F) → (⟨S800000, .i32⟩ : BufTy).Contents (Elt F)),
    ternary main_v370 main_v372 main_arg1 main_v373 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v373 main_v374 (broadcastInDim S800000x1 ![0] bcast_S800000_S800000x1_0 : (⟨S800000, .i32⟩ : BufTy).Contents (Elt F) → (⟨S800000x1, .i32⟩ : BufTy).Contents (Elt F)),
    binary main_v368 main_v374 main_v375 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v376 (broadcastInDim S800000x1 ![0] bcast_S800000_S800000x1_0 : (⟨S800000, .f32⟩ : BufTy).Contents (Elt F) → (⟨S800000x1, .f32⟩ : BufTy).Contents (Elt F)),
    unary main_v376 main_v377 (broadcastInDim S800000x16 ![0, 1] bcast_S800000x1_S800000x16_0_1 : (⟨S800000x1, .f32⟩ : BufTy).Contents (Elt F) → (⟨S800000x16, .f32⟩ : BufTy).Contents (Elt F)),
    binary main_v375 main_v377 main_v378 (mulf : (⟨S800000x16, .f32⟩ : BufTy).Contents (Elt F) → (⟨S800000x16, .f32⟩ : BufTy).Contents (Elt F) → (⟨S800000x16, .f32⟩ : BufTy).Contents (Elt F)),
    nullary main_cst_97 (constant S_ .f32 0x00000000#32),
    unary main_cst_97 main_v379 (broadcastInDim S50000x16 ![] bcast_S_S50000x16 : (⟨S_, .f32⟩ : BufTy).Contents (Elt F) → (⟨S50000x16, .f32⟩ : BufTy).Contents (Elt F)),
    unary main_arg2 main_v380 (broadcastInDim S800000x1 ![0] bcast_S800000_S800000x1_0 : (⟨S800000, .i32⟩ : BufTy).Contents (Elt F) → (⟨S800000x1, .i32⟩ : BufTy).Contents (Elt F)),
    ternary main_v379 main_v380 main_v378 main_v381 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_98 (constant S_ .f32 0x3F666666#32),
    unary main_cst_98 main_v382 (broadcastInDim S50000x16 ![] bcast_S_S50000x16 : (⟨S_, .f32⟩ : BufTy).Contents (Elt F) → (⟨S50000x16, .f32⟩ : BufTy).Contents (Elt F)),
    binary main_v381 main_v382 main_v383 (mulf : (⟨S50000x16, .f32⟩ : BufTy).Contents (Elt F) → (⟨S50000x16, .f32⟩ : BufTy).Contents (Elt F) → (⟨S50000x16, .f32⟩ : BufTy).Contents (Elt F)),
    nullary main_cst_99 (constant S_ .f32 0x3DCCCCCD#32),
    unary main_cst_99 main_v384 (broadcastInDim S50000x16 ![] bcast_S_S50000x16 : (⟨S_, .f32⟩ : BufTy).Contents (Elt F) → (⟨S50000x16, .f32⟩ : BufTy).Contents (Elt F)),
    binary main_v384 main_v242 main_v385 (mulf : (⟨S50000x16, .f32⟩ : BufTy).Contents (Elt F) → (⟨S50000x16, .f32⟩ : BufTy).Contents (Elt F) → (⟨S50000x16, .f32⟩ : BufTy).Contents (Elt F)),
    binary main_v383 main_v385 main_v386 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v368`'s contents. -/
theorem value : StableHlo.after (seg (F := Ideal)) V (Proc.devRef .tc main_v386)
    = blendT16 (conv16 (V (Proc.devRef .tc main_arg1)) (V (Proc.devRef .tc main_arg2)) (V (Proc.devRef .tc main_v24)) (V (Proc.devRef .tc main_v368))) (V (Proc.devRef .tc main_v242)) := by
  after_results
  unfold blendT16 conv16 wrap
  first | with_reducible rfl | rfl

/-- The buffers the stretch writes. -/
def written : List (Ref sig .tc) := [main_c_95, main_v369, main_v370, main_c_96, main_v371, main_v372, main_v373, main_v374, main_v375, main_v376, main_v377, main_v378, main_cst_97, main_v379, main_v380, main_v381, main_cst_98, main_v382, main_v383, main_cst_99, main_v384, main_v385, main_v386]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg18

end
-- ==== Proof.RefSeg19.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg19

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_100 (constantI S_ 32 0#32),
    unary main_c_100 main_v387 (broadcastInDim S800000 ![] bcast_S_S800000 : (⟨S_, .i32⟩ : BufTy).Contents (Elt F) → (⟨S800000, .i32⟩ : BufTy).Contents (Elt F)),
    binary main_arg1 main_v387 main_v388 (cmpi .slt : (⟨S800000, .i32⟩ : BufTy).Contents (Elt F) → (⟨S800000, .i32⟩ : BufTy).Contents (Elt F) → (⟨S800000, .i1⟩ : BufTy).Contents (Elt F)),
    nullary main_c_101 (constantI S_ 32 50000#32),
    unary main_c_101 main_v389 (broadcastInDim S800000 ![] bcast_S_S800000 : (⟨S_, .i32⟩ : BufTy).Contents (Elt F) → (⟨S800000, .i32⟩ : BufTy).Contents (Elt F)),
    binary main_arg1 main_v389 main_v390 (addi : (⟨S800000, .i32⟩ : BufTy).Contents (Elt F) → (⟨S800000, .i32⟩ : BufTy).Contents (Elt F) → (⟨S800000, .i32⟩ : BufTy).Contents (Elt F)),
    ternary main_v388 main_v390 main_arg1 main_v391 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v391 main_v392 (broadcastInDim S800000x1 ![0] bcast_S800000_S800000x1_0 : (⟨S800000, .i32⟩ : BufTy).Contents (Elt F) → (⟨S800000x1, .i32⟩ : BufTy).Contents (Elt F)),
    binary main_v386 main_v392 main_v393 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v394 (broadcastInDim S800000x1 ![0] bcast_S800000_S800000x1_0 : (⟨S800000, .f32⟩ : BufTy).Contents (Elt F) → (⟨S800000x1, .f32⟩ : BufTy).Contents (Elt F)),
    unary main_v394 main_v395 (broadcastInDim S800000x16 ![0, 1] bcast_S800000x1_S800000x16_0_1 : (⟨S800000x1, .f32⟩ : BufTy).Contents (Elt F) → (⟨S800000x16, .f32⟩ : BufTy).Contents (Elt F)),
    binary main_v393 main_v395 main_v396 (mulf : (⟨S800000x16, .f32⟩ : BufTy).Contents (Elt F) → (⟨S800000x16, .f32⟩ : BufTy).Contents (Elt F) → (⟨S800000x16, .f32⟩ : BufTy).Contents (Elt F)),
    nullary main_cst_102 (constant S_ .f32 0x00000000#32),
    unary main_cst_102 main_v397 (broadcastInDim S50000x16 ![] bcast_S_S50000x16 : (⟨S_, .f32⟩ : BufTy).Contents (Elt F) → (⟨S50000x16, .f32⟩ : BufTy).Contents (Elt F)),
    unary main_arg2 main_v398 (broadcastInDim S800000x1 ![0] bcast_S800000_S800000x1_0 : (⟨S800000, .i32⟩ : BufTy).Contents (Elt F) → (⟨S800000x1, .i32⟩ : BufTy).Contents (Elt F)),
    ternary main_v397 main_v398 main_v396 main_v399 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_103 (constant S_ .f32 0x3F666666#32),
    unary main_cst_103 main_v400 (broadcastInDim S50000x16 ![] bcast_S_S50000x16 : (⟨S_, .f32⟩ : BufTy).Contents (Elt F) → (⟨S50000x16, .f32⟩ : BufTy).Contents (Elt F)),
    binary main_v399 main_v400 main_v401 (mulf : (⟨S50000x16, .f32⟩ : BufTy).Contents (Elt F) → (⟨S50000x16, .f32⟩ : BufTy).Contents (Elt F) → (⟨S50000x16, .f32⟩ : BufTy).Contents (Elt F)),
    nullary main_cst_104 (constant S_ .f32 0x3DCCCCCD#32),
    unary main_cst_104 main_v402 (broadcastInDim S50000x16 ![] bcast_S_S50000x16 : (⟨S_, .f32⟩ : BufTy).Contents (Elt F) → (⟨S50000x16, .f32⟩ : BufTy).Contents (Elt F)),
    binary main_v402 main_v242 main_v403 (mulf : (⟨S50000x16, .f32⟩ : BufTy).Contents (Elt F) → (⟨S50000x16, .f32⟩ : BufTy).Contents (Elt F) → (⟨S50000x16, .f32⟩ : BufTy).Contents (Elt F)),
    binary main_v401 main_v403 main_v404 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v386`'s contents. -/
theorem value : StableHlo.after (seg (F := Ideal)) V (Proc.devRef .tc main_v404)
    = blendT16 (conv16 (V (Proc.devRef .tc main_arg1)) (V (Proc.devRef .tc main_arg2)) (V (Proc.devRef .tc main_v24)) (V (Proc.devRef .tc main_v386))) (V (Proc.devRef .tc main_v242)) := by
  after_results
  unfold blendT16 conv16 wrap
  first | with_reducible rfl | rfl

/-- The buffers the stretch writes. -/
def written : List (Ref sig .tc) := [main_c_100, main_v387, main_v388, main_c_101, main_v389, main_v390, main_v391, main_v392, main_v393, main_v394, main_v395, main_v396, main_cst_102, main_v397, main_v398, main_v399, main_cst_103, main_v400, main_v401, main_cst_104, main_v402, main_v403, main_v404]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg19

end
-- ==== Proof.RefSeg20.lean ====
/-
  One iteration of the reference's second diffusion loop, as a stretch of host operations.

  From any buffer contents `V`, the stretch's 23 operations leave at their last buffer the blend of the propagation of the
  previous iterate with the anchor, and they leave every buffer they do not write as it was.
-/
import proofs.«135505_j17961553232124_1_alg».proof.Proof.Gen.ReferenceIdeal
import proofs.«135505_j17961553232124_1_alg».proof.Proof.ConvR
import proofs.«135505_j17961553232124_1_alg».proof.Proof.RefBlend
import Idealize.ShloMosaic.Lib.StableHlo.Run

noncomputable section

namespace Cert.RefSeg20

open Idealize.ShloMosaic Idealize.ShloMosaic.TcCoe Idealize.ShloMosaic.StableHlo Cert.ReferenceIdeal Cert.ReferenceIdeal.Gen Cert.ConvR Cert.RefBlend

/-- The stretch's operations, in order. -/
abbrev seg {F : FTy → Type} [FloatOps F] : List (HloOp τ sig (Elt F)) :=
  [ nullary main_c_105 (constantI S_ 32 0#32),
    unary main_c_105 main_v405 (broadcastInDim S800000 ![] bcast_S_S800000 : (⟨S_, .i32⟩ : BufTy).Contents (Elt F) → (⟨S800000, .i32⟩ : BufTy).Contents (Elt F)),
    binary main_arg1 main_v405 main_v406 (cmpi .slt : (⟨S800000, .i32⟩ : BufTy).Contents (Elt F) → (⟨S800000, .i32⟩ : BufTy).Contents (Elt F) → (⟨S800000, .i1⟩ : BufTy).Contents (Elt F)),
    nullary main_c_106 (constantI S_ 32 50000#32),
    unary main_c_106 main_v407 (broadcastInDim S800000 ![] bcast_S_S800000 : (⟨S_, .i32⟩ : BufTy).Contents (Elt F) → (⟨S800000, .i32⟩ : BufTy).Contents (Elt F)),
    binary main_arg1 main_v407 main_v408 (addi : (⟨S800000, .i32⟩ : BufTy).Contents (Elt F) → (⟨S800000, .i32⟩ : BufTy).Contents (Elt F) → (⟨S800000, .i32⟩ : BufTy).Contents (Elt F)),
    ternary main_v406 main_v408 main_arg1 main_v409 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v409 main_v410 (broadcastInDim S800000x1 ![0] bcast_S800000_S800000x1_0 : (⟨S800000, .i32⟩ : BufTy).Contents (Elt F) → (⟨S800000x1, .i32⟩ : BufTy).Contents (Elt F)),
    binary main_v404 main_v410 main_v411 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    unary main_v24 main_v412 (broadcastInDim S800000x1 ![0] bcast_S800000_S800000x1_0 : (⟨S800000, .f32⟩ : BufTy).Contents (Elt F) → (⟨S800000x1, .f32⟩ : BufTy).Contents (Elt F)),
    unary main_v412 main_v413 (broadcastInDim S800000x16 ![0, 1] bcast_S800000x1_S800000x16_0_1 : (⟨S800000x1, .f32⟩ : BufTy).Contents (Elt F) → (⟨S800000x16, .f32⟩ : BufTy).Contents (Elt F)),
    binary main_v411 main_v413 main_v414 (mulf : (⟨S800000x16, .f32⟩ : BufTy).Contents (Elt F) → (⟨S800000x16, .f32⟩ : BufTy).Contents (Elt F) → (⟨S800000x16, .f32⟩ : BufTy).Contents (Elt F)),
    nullary main_cst_107 (constant S_ .f32 0x00000000#32),
    unary main_cst_107 main_v415 (broadcastInDim S50000x16 ![] bcast_S_S50000x16 : (⟨S_, .f32⟩ : BufTy).Contents (Elt F) → (⟨S50000x16, .f32⟩ : BufTy).Contents (Elt F)),
    unary main_arg2 main_v416 (broadcastInDim S800000x1 ![0] bcast_S800000_S800000x1_0 : (⟨S800000, .i32⟩ : BufTy).Contents (Elt F) → (⟨S800000x1, .i32⟩ : BufTy).Contents (Elt F)),
    ternary main_v415 main_v416 main_v414 main_v417 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_108 (constant S_ .f32 0x3F666666#32),
    unary main_cst_108 main_v418 (broadcastInDim S50000x16 ![] bcast_S_S50000x16 : (⟨S_, .f32⟩ : BufTy).Contents (Elt F) → (⟨S50000x16, .f32⟩ : BufTy).Contents (Elt F)),
    binary main_v417 main_v418 main_v419 (mulf : (⟨S50000x16, .f32⟩ : BufTy).Contents (Elt F) → (⟨S50000x16, .f32⟩ : BufTy).Contents (Elt F) → (⟨S50000x16, .f32⟩ : BufTy).Contents (Elt F)),
    nullary main_cst_109 (constant S_ .f32 0x3DCCCCCD#32),
    unary main_cst_109 main_v420 (broadcastInDim S50000x16 ![] bcast_S_S50000x16 : (⟨S_, .f32⟩ : BufTy).Contents (Elt F) → (⟨S50000x16, .f32⟩ : BufTy).Contents (Elt F)),
    binary main_v420 main_v242 main_v421 (mulf : (⟨S50000x16, .f32⟩ : BufTy).Contents (Elt F) → (⟨S50000x16, .f32⟩ : BufTy).Contents (Elt F) → (⟨S50000x16, .f32⟩ : BufTy).Contents (Elt F)),
    binary main_v419 main_v421 main_v422 (addf : (⟨S50000x16, .f32⟩ : BufTy).Contents (Elt F) → (⟨S50000x16, .f32⟩ : BufTy).Contents (Elt F) → (⟨S50000x16, .f32⟩ : BufTy).Contents (Elt F)) ]

variable (V : Valuation τ sig (Elt Ideal))

set_option maxHeartbeats 4000000 in
/-- The stretch's result: one diffusion step from `main_v404`'s contents. -/
theorem value : StableHlo.after (seg (F := Ideal)) V (Proc.devRef .tc main_v422)
    = blendT16 (conv16 (V (Proc.devRef .tc main_arg1)) (V (Proc.devRef .tc main_arg2)) (V (Proc.devRef .tc main_v24)) (V (Proc.devRef .tc main_v404))) (V (Proc.devRef .tc main_v242)) := by
  after_results
  unfold blendT16 conv16 wrap
  first | with_reducible rfl | rfl

/-- The buffers the stretch writes. -/
def written : List (Ref sig .tc) := [main_c_105, main_v405, main_v406, main_c_106, main_v407, main_v408, main_v409, main_v410, main_v411, main_v412, main_v413, main_v414, main_cst_107, main_v415, main_v416, main_v417, main_cst_108, main_v418, main_v419, main_cst_109, main_v420, main_v421, main_v422]

theorem writes_sub : (seg (F := Ideal)).Forall fun op => op.writes ⊆ (written.map (Proc.devRef (τ := τ) .tc)).toFinset := by
  simp only [seg, List.Forall, StableHlo.nullary_writes, StableHlo.unary_writes, StableHlo.binary_writes, StableHlo.ternary_writes, StableHlo.quaternary_writes, StableHlo.reshape_writes, StableHlo.binaryIndexed_writes]
  repeat' apply And.intro
  all_goals (apply Finset.singleton_subset_iff.mpr; apply List.mem_toFinset.mpr; apply List.mem_map_of_mem; decide)

/-- A buffer the stretch does not write keeps its contents. -/
theorem keep (r : Ref sig .tc) (hr : r ∉ written) :
    StableHlo.after (seg (F := Ideal)) V (Proc.devRef .tc r) = V (Proc.devRef .tc r) :=
  StableHlo.after_of_writes_sub _ _ writes_sub hr

end Cert.RefSeg20

end
-- ==== Proof.RefRunSegA.lean ====
/-
  The reference program's 541 host operations as its stretches, one after the other, and what holds of every operation
  because it holds stretch by stretch: each reads and writes only buffers of the core, and each determines its results.
-/
import proofs.«135505_j17961553232124_1_alg».proof.Proof.RefOps
import proofs.«135505_j17961553232124_1_alg».proof.Proof.RefSeg0
import proofs.«135505_j17961553232124_1_alg».proof.Proof.RefSeg0d
import proofs.«135505_j17961553232124_1_alg».proof.Proof.RefSeg1
import proofs.«135505_j17961553232124_1_alg».proof.Proof.RefSeg2
import proofs.«135505_j17961553232124_1_alg».proof.Proof.RefSeg3
import proofs.«135505_j17961553232124_1_alg».proof.Proof.RefSeg4
import proofs.«135505_j17961553232124_1_alg».proof.Proof.RefSeg5
import proofs.«135505_j17961553232124_1_alg».proof.Proof.RefSeg6
import proofs.«135505_j17961553232124_1_alg».proof.Proof.RefSeg7
import proofs.«135505_j17961553232124_1_alg».proof.Proof.RefSeg8
import proofs.«135505_j17961553232124_1_alg».proof.Proof.RefSeg9
import proofs.«135505_j17961553232124_1_alg».proof.Proof.RefSegMid
import proofs.«135505_j17961553232124_1_alg».proof.Proof.RefSeg11
import proofs.«135505_j17961553232124_1_alg».proof.Proof.RefSeg12
import proofs.«135505_j17961553232124_1_alg».proof.Proof.RefSeg13
import proofs.«135505_j17961553232124_1_alg».proof.Proof.RefSeg14
import proofs.«135505_j17961553232124_1_alg».proof.Proof.RefSeg15
import proofs.«135505_j17961553232124_1_alg».proof.Proof.RefSeg16
import proofs.«135505_j17961553232124_1_alg».proof.Proof.RefSeg17
import proofs.«135505_j17961553232124_1_alg».proof.Proof.RefSeg18
import proofs.«135505_j17961553232124_1_alg».proof.Proof.RefSeg19
import proofs.«135505_j17961553232124_1_alg».proof.Proof.RefSeg20

noncomputable section

namespace Cert.RefRunSegA

open Idealize.ShloMosaic Idealize.ShloMosaic.TcCoe Idealize.ShloMosaic.StableHlo Cert.ReferenceIdeal Cert.ReferenceIdeal.Gen Idealize.SL.Sem Cert.ReferenceIdeal.Value

set_option maxRecDepth 65536 in
set_option maxHeartbeats 4000000 in
/-- The program's operations are the stretches, one after the other. -/
theorem ops_eq : (ops (F := Ideal)) = (Cert.RefSeg0.seg0a (F := Ideal)) ++ ((Cert.RefSeg0.seg0b (F := Ideal)) ++ ((Cert.RefSeg0.seg0c (F := Ideal)) ++ ((Cert.RefSeg0d.seg (F := Ideal)) ++ ((Cert.RefSeg1.seg (F := Ideal)) ++ ((Cert.RefSeg2.seg (F := Ideal)) ++ ((Cert.RefSeg3.seg (F := Ideal)) ++ ((Cert.RefSeg4.seg (F := Ideal)) ++ ((Cert.RefSeg5.seg (F := Ideal)) ++ ((Cert.RefSeg6.seg (F := Ideal)) ++ ((Cert.RefSeg7.seg (F := Ideal)) ++ ((Cert.RefSeg8.seg (F := Ideal)) ++ ((Cert.RefSeg9.seg (F := Ideal)) ++ ((Cert.RefSegMid.segA (F := Ideal)) ++ ((Cert.RefSegMid.segB (F := Ideal)) ++ ((Cert.RefSegMid.segC (F := Ideal)) ++ ((Cert.RefSegMid.segD (F := Ideal)) ++ ((Cert.RefSegMid.segE (F := Ideal)) ++ ((Cert.RefSegMid.segF (F := Ideal)) ++ ((Cert.RefSeg11.seg (F := Ideal)) ++ ((Cert.RefSeg12.seg (F := Ideal)) ++ ((Cert.RefSeg13.seg (F := Ideal)) ++ ((Cert.RefSeg14.seg (F := Ideal)) ++ ((Cert.RefSeg15.seg (F := Ideal)) ++ ((Cert.RefSeg16.seg (F := Ideal)) ++ ((Cert.RefSeg17.seg (F := Ideal)) ++ ((Cert.RefSeg18.seg (F := Ideal)) ++ ((Cert.RefSeg19.seg (F := Ideal)) ++ ((Cert.RefSeg20.seg (F := Ideal)))))))))))))))))))))))))))))) := rfl

/-- What holds of every element of two lists holds of every element of their concatenation. -/
theorem all_append {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-! Stretch by stretch: the operations' buffers are the core's, and no operation allocates. -/
theorem sub_0a : (Cert.RefSeg0.seg0a (F := Ideal)).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub ..⟩
theorem fresh_0a : ∀ op ∈ (Cert.RefSeg0.seg0a (F := Ideal)), op.fresh = ∅ := by
  intro op h; (repeat (cases h with | head => rfl | tail _ h => ?_)); exact nomatch h
theorem sub_0b : (Cert.RefSeg0.seg0b (F := Ideal)).Forall fun op => op.bufs ⊆ tcRefs τ sig :=
  ⟨unary_bufs_sub .., unary_bufs_sub .., ternary_bufs_sub ..⟩
theorem fresh_0b : ∀ op ∈ (Cert.RefSeg0.seg0b (F := Ideal)), op.fresh = ∅ := by
  intro op h; (repeat (cases h with | head => rfl | tail _ h => ?_)); exact nomatch h
theorem sub_0c : (Cert.RefSeg0.seg0c (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩
theorem fresh_0c : ∀ op ∈ (Cert.RefSeg0.seg0c (F := Ideal)), op.fresh = ∅ := by
  intro op h; (repeat (cases h with | head => rfl | tail _ h => ?_)); exact nomatch h
theorem sub_0d : (Cert.RefSeg0d.seg (F := Ideal)).Forall fun op => op.bufs ⊆ tcRefs τ sig :=
  ⟨nullary_bufs_sub .., unary_bufs_sub .., binary_bufs_sub .., nullary_bufs_sub .., unary_bufs_sub .., binary_bufs_sub .., binary_bufs_sub ..⟩
theorem fresh_0d : ∀ op ∈ (Cert.RefSeg0d.seg (F := Ideal)), op.fresh = ∅ := by
  intro op h; (repeat (cases h with | head => rfl | tail _ h => ?_)); exact nomatch h
theorem sub_1 : (Cert.RefSeg1.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_1 : ∀ op ∈ (Cert.RefSeg1.seg (F := Ideal)), op.fresh = ∅ := by
  intro op h; (repeat (cases h with | head => rfl | tail _ h => ?_)); exact nomatch h
theorem sub_2 : (Cert.RefSeg2.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_2 : ∀ op ∈ (Cert.RefSeg2.seg (F := Ideal)), op.fresh = ∅ := by
  intro op h; (repeat (cases h with | head => rfl | tail _ h => ?_)); exact nomatch h
theorem sub_3 : (Cert.RefSeg3.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_3 : ∀ op ∈ (Cert.RefSeg3.seg (F := Ideal)), op.fresh = ∅ := by
  intro op h; (repeat (cases h with | head => rfl | tail _ h => ?_)); exact nomatch h
theorem sub_4 : (Cert.RefSeg4.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_4 : ∀ op ∈ (Cert.RefSeg4.seg (F := Ideal)), op.fresh = ∅ := by
  intro op h; (repeat (cases h with | head => rfl | tail _ h => ?_)); exact nomatch h
theorem sub_5 : (Cert.RefSeg5.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_5 : ∀ op ∈ (Cert.RefSeg5.seg (F := Ideal)), op.fresh = ∅ := by
  intro op h; (repeat (cases h with | head => rfl | tail _ h => ?_)); exact nomatch h
theorem sub_6 : (Cert.RefSeg6.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_6 : ∀ op ∈ (Cert.RefSeg6.seg (F := Ideal)), op.fresh = ∅ := by
  intro op h; (repeat (cases h with | head => rfl | tail _ h => ?_)); exact nomatch h
theorem sub_7 : (Cert.RefSeg7.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_7 : ∀ op ∈ (Cert.RefSeg7.seg (F := Ideal)), op.fresh = ∅ := by
  intro op h; (repeat (cases h with | head => rfl | tail _ h => ?_)); exact nomatch h
theorem sub_8 : (Cert.RefSeg8.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_8 : ∀ op ∈ (Cert.RefSeg8.seg (F := Ideal)), op.fresh = ∅ := by
  intro op h; (repeat (cases h with | head => rfl | tail _ h => ?_)); exact nomatch h
theorem sub_9 : (Cert.RefSeg9.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_9 : ∀ op ∈ (Cert.RefSeg9.seg (F := Ideal)), op.fresh = ∅ := by
  intro op h; (repeat (cases h with | head => rfl | tail _ h => ?_)); exact nomatch h
theorem sub_A : (Cert.RefSegMid.segA (F := Ideal)).Forall fun op => op.bufs ⊆ tcRefs τ sig :=
  ⟨nullary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem fresh_A : ∀ op ∈ (Cert.RefSegMid.segA (F := Ideal)), op.fresh = ∅ := by
  intro op h; (repeat (cases h with | head => rfl | tail _ h => ?_)); exact nomatch h
theorem sub_B : (Cert.RefSegMid.segB (F := Ideal)).Forall fun op => op.bufs ⊆ tcRefs τ sig :=
  ⟨nary_bufs_sub .., binary_bufs_sub .., unary_bufs_sub .., unary_bufs_sub .., binary_bufs_sub ..⟩
theorem fresh_B : ∀ op ∈ (Cert.RefSegMid.segB (F := Ideal)), op.fresh = ∅ := by
  intro op h; (repeat (cases h with | head => rfl | tail _ h => ?_)); exact nomatch h
theorem sub_C : (Cert.RefSegMid.segC (F := Ideal)).Forall fun op => op.bufs ⊆ tcRefs τ sig :=
  ⟨nullary_bufs_sub .., unary_bufs_sub .., binary_bufs_sub ..⟩
theorem fresh_C : ∀ op ∈ (Cert.RefSegMid.segC (F := Ideal)), op.fresh = ∅ := by
  intro op h; (repeat (cases h with | head => rfl | tail _ h => ?_)); exact nomatch h
theorem sub_D : (Cert.RefSegMid.segD (F := Ideal)).Forall fun op => op.bufs ⊆ tcRefs τ sig :=
  ⟨binary_bufs_sub .., unary_bufs_sub .., unary_bufs_sub .., binary_bufs_sub .., nullary_bufs_sub .., unary_bufs_sub .., binary_bufs_sub .., reshape_bufs_sub .., unary_bufs_sub .., binary_bufs_sub .., binary_bufs_sub .., unary_bufs_sub .., unary_bufs_sub .., binary_bufs_sub ..⟩
theorem fresh_D : ∀ op ∈ (Cert.RefSegMid.segD (F := Ideal)), op.fresh = ∅ := by
  intro op h; (repeat (cases h with | head => rfl | tail _ h => ?_)); exact nomatch h
theorem sub_E : (Cert.RefSegMid.segE (F := Ideal)).Forall fun op => op.bufs ⊆ tcRefs τ sig :=
  ⟨nullary_bufs_sub .., unary_bufs_sub .., binary_bufs_sub ..⟩
theorem fresh_E : ∀ op ∈ (Cert.RefSegMid.segE (F := Ideal)), op.fresh = ∅ := by
  intro op h; (repeat (cases h with | head => rfl | tail _ h => ?_)); exact nomatch h
theorem sub_F : (Cert.RefSegMid.segF (F := Ideal)).Forall fun op => op.bufs ⊆ tcRefs τ sig :=
  ⟨binary_bufs_sub .., unary_bufs_sub .., unary_bufs_sub .., binary_bufs_sub ..⟩
theorem fresh_F : ∀ op ∈ (Cert.RefSegMid.segF (F := Ideal)), op.fresh = ∅ := by
  intro op h; (repeat (cases h with | head => rfl | tail _ h => ?_)); exact nomatch h
theorem sub_11 : (Cert.RefSeg11.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_11 : ∀ op ∈ (Cert.RefSeg11.seg (F := Ideal)), op.fresh = ∅ := by
  intro op h; (repeat (cases h with | head => rfl | tail _ h => ?_)); exact nomatch h
theorem sub_12 : (Cert.RefSeg12.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_12 : ∀ op ∈ (Cert.RefSeg12.seg (F := Ideal)), op.fresh = ∅ := by
  intro op h; (repeat (cases h with | head => rfl | tail _ h => ?_)); exact nomatch h
theorem sub_13 : (Cert.RefSeg13.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_13 : ∀ op ∈ (Cert.RefSeg13.seg (F := Ideal)), op.fresh = ∅ := by
  intro op h; (repeat (cases h with | head => rfl | tail _ h => ?_)); exact nomatch h
theorem sub_14 : (Cert.RefSeg14.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_14 : ∀ op ∈ (Cert.RefSeg14.seg (F := Ideal)), op.fresh = ∅ := by
  intro op h; (repeat (cases h with | head => rfl | tail _ h => ?_)); exact nomatch h
theorem sub_15 : (Cert.RefSeg15.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_15 : ∀ op ∈ (Cert.RefSeg15.seg (F := Ideal)), op.fresh = ∅ := by
  intro op h; (repeat (cases h with | head => rfl | tail _ h => ?_)); exact nomatch h
theorem sub_16 : (Cert.RefSeg16.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_16 : ∀ op ∈ (Cert.RefSeg16.seg (F := Ideal)), op.fresh = ∅ := by
  intro op h; (repeat (cases h with | head => rfl | tail _ h => ?_)); exact nomatch h
theorem sub_17 : (Cert.RefSeg17.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_17 : ∀ op ∈ (Cert.RefSeg17.seg (F := Ideal)), op.fresh = ∅ := by
  intro op h; (repeat (cases h with | head => rfl | tail _ h => ?_)); exact nomatch h
theorem sub_18 : (Cert.RefSeg18.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_18 : ∀ op ∈ (Cert.RefSeg18.seg (F := Ideal)), op.fresh = ∅ := by
  intro op h; (repeat (cases h with | head => rfl | tail _ h => ?_)); exact nomatch h
theorem sub_19 : (Cert.RefSeg19.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_19 : ∀ op ∈ (Cert.RefSeg19.seg (F := Ideal)), op.fresh = ∅ := by
  intro op h; (repeat (cases h with | head => rfl | tail _ h => ?_)); exact nomatch h
theorem sub_20 : (Cert.RefSeg20.seg (F := Ideal)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub ..⟩
theorem fresh_20 : ∀ op ∈ (Cert.RefSeg20.seg (F := Ideal)), op.fresh = ∅ := by
  intro op h; (repeat (cases h with | head => rfl | tail _ h => ?_)); exact nomatch h

/-- Every operation reads and writes only buffers of the core. -/
theorem ops_sub : (ops (F := Ideal)).Forall fun op => op.bufs ⊆ tcRefs τ sig := by
  rw [ops_eq]
  exact List.forall_iff_forall_mem.mpr (all_append (List.forall_iff_forall_mem.mp sub_0a) (all_append (List.forall_iff_forall_mem.mp sub_0b) (all_append (List.forall_iff_forall_mem.mp sub_0c) (all_append (List.forall_iff_forall_mem.mp sub_0d) (all_append (List.forall_iff_forall_mem.mp sub_1) (all_append (List.forall_iff_forall_mem.mp sub_2) (all_append (List.forall_iff_forall_mem.mp sub_3) (all_append (List.forall_iff_forall_mem.mp sub_4) (all_append (List.forall_iff_forall_mem.mp sub_5) (all_append (List.forall_iff_forall_mem.mp sub_6) (all_append (List.forall_iff_forall_mem.mp sub_7) (all_append (List.forall_iff_forall_mem.mp sub_8) (all_append (List.forall_iff_forall_mem.mp sub_9) (all_append (List.forall_iff_forall_mem.mp sub_A) (all_append (List.forall_iff_forall_mem.mp sub_B) (all_append (List.forall_iff_forall_mem.mp sub_C) (all_append (List.forall_iff_forall_mem.mp sub_D) (all_append (List.forall_iff_forall_mem.mp sub_E) (all_append (List.forall_iff_forall_mem.mp sub_F) (all_append (List.forall_iff_forall_mem.mp sub_11) (all_append (List.forall_iff_forall_mem.mp sub_12) (all_append (List.forall_iff_forall_mem.mp sub_13) (all_append (List.forall_iff_forall_mem.mp sub_14) (all_append (List.forall_iff_forall_mem.mp sub_15) (all_append (List.forall_iff_forall_mem.mp sub_16) (all_append (List.forall_iff_forall_mem.mp sub_17) (all_append (List.forall_iff_forall_mem.mp sub_18) (all_append (List.forall_iff_forall_mem.mp sub_19) (List.forall_iff_forall_mem.mp sub_20)))))))))))))))))))))))))))))

/-- Every operation determines its results. -/
theorem ops_fresh : ∀ op ∈ (ops (F := Ideal)), op.fresh = ∅ := by
  rw [ops_eq]
  exact (all_append fresh_0a (all_append fresh_0b (all_append fresh_0c (all_append fresh_0d (all_append fresh_1 (all_append fresh_2 (all_append fresh_3 (all_append fresh_4 (all_append fresh_5 (all_append fresh_6 (all_append fresh_7 (all_append fresh_8 (all_append fresh_9 (all_append fresh_A (all_append fresh_B (all_append fresh_C (all_append fresh_D (all_append fresh_E (all_append fresh_F (all_append fresh_11 (all_append fresh_12 (all_append fresh_13 (all_append fresh_14 (all_append fresh_15 (all_append fresh_16 (all_append fresh_17 (all_append fresh_18 (all_append fresh_19 fresh_20))))))))))))))))))))))))))))

end Cert.RefRunSegA

end
-- ==== Proof.RefGlue.lean ====
/-
  Reading a straight line of host operations piece by piece.

  The contents after two lists run one after the other are the contents after the second from those after the first; and a
  list of buffers that none of a stretch's operations writes holds, after the stretch, what it held before.  `kept1` and `kept2`
  name the buffers the two diffusion loops only read: the argument arrays, the edge weights and, for the second, the logits.
-/
import proofs.«135505_j17961553232124_1_alg».proof.Proof.Gen.ReferenceIdeal
import Idealize.ShloMosaic.Lib.StableHlo.Run
import Idealize.ShloMosaic.PureOps.Ideal

noncomputable section

namespace Cert.RefGlue

open Idealize.ShloMosaic Idealize.ShloMosaic.TcCoe Idealize.ShloMosaic.StableHlo Cert.ReferenceIdeal Cert.ReferenceIdeal.Gen

/-- The contents after `l₁ ++ l₂` are those after `l₂` from the contents after `l₁`. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- The buffers the first diffusion loop only reads: the argument arrays and the edge weights. -/
def kept1 : List (Ref sig .tc) := [main_arg0, main_arg1, main_arg2, main_arg3, main_arg4, main_arg5, main_arg6, main_arg7, main_arg8, main_arg9, main_arg10, main_arg11, main_v24]
/-- The buffers the second diffusion loop only reads: those, and the logits. -/
def kept2 : List (Ref sig .tc) := [main_arg0, main_arg1, main_arg2, main_arg3, main_arg4, main_arg5, main_arg6, main_arg7, main_arg8, main_arg9, main_arg10, main_arg11, main_v24, main_v242]

/-- `V` holds on the buffers of `K` what `X` holds. -/
def AgreeOn (K : List (Ref sig .tc)) (X V : Valuation τ sig (Elt Ideal)) : Prop := ∀ r ∈ K, V (Proc.devRef .tc r) = X (Proc.devRef .tc r)

theorem AgreeOn.refl (K : List (Ref sig .tc)) (X : Valuation τ sig (Elt Ideal)) : AgreeOn K X X := fun _ _ => rfl

/-- A stretch that writes none of the buffers of `K` keeps the agreement. -/
theorem AgreeOn.step {K : List (Ref sig .tc)} {X V : Valuation τ sig (Elt Ideal)} (h : AgreeOn K X V) (seg : List (HloOp τ sig (Elt Ideal))) (written : List (Ref sig .tc))
    (hkeep : ∀ (V : Valuation τ sig (Elt Ideal)) (r : Ref sig .tc), r ∉ written → StableHlo.after seg V (Proc.devRef .tc r) = V (Proc.devRef .tc r))
    (hd : ∀ r ∈ K, r ∉ written) : AgreeOn K X (StableHlo.after seg V) :=
  fun r hr => (hkeep V r (hd r hr)).trans (h r hr)

end Cert.RefGlue

end
-- ==== Proof.RefChain1.lean ====
/-
  The reference's first diffusion loop, stretch by stretch.

  From contents `X` that hold the edge weights and the first propagation of the input features, the blend that closes
  iteration 1 and the nine 23-operation stretches of iterations 2 to 10 each add one diffusion step and write none of the
  argument arrays or the edge weights; after them the loop's last buffer holds ten steps from the input features.
-/
import proofs.«135505_j17961553232124_1_alg».proof.Proof.RefGlue
import proofs.«135505_j17961553232124_1_alg».proof.Proof.RefSeg0d
import proofs.«135505_j17961553232124_1_alg».proof.Proof.RefSeg1
import proofs.«135505_j17961553232124_1_alg».proof.Proof.RefSeg2
import proofs.«135505_j17961553232124_1_alg».proof.Proof.RefSeg3
import proofs.«135505_j17961553232124_1_alg».proof.Proof.RefSeg4
import proofs.«135505_j17961553232124_1_alg».proof.Proof.RefSeg5
import proofs.«135505_j17961553232124_1_alg».proof.Proof.RefSeg6
import proofs.«135505_j17961553232124_1_alg».proof.Proof.RefSeg7
import proofs.«135505_j17961553232124_1_alg».proof.Proof.RefSeg8
import proofs.«135505_j17961553232124_1_alg».proof.Proof.RefSeg9
import proofs.«135505_j17961553232124_1_alg».proof.Proof.RefLoop1
import proofs.«135505_j17961553232124_1_alg».proof.Proof.RefBlend
import proofs.«135505_j17961553232124_1_alg».proof.Proof.ConvR
import proofs.«135505_j17961553232124_1_alg».proof.Proof.BlendSpec

noncomputable section

namespace Cert.RefChain1

open Idealize.ShloMosaic Idealize.ShloMosaic.TcCoe Idealize.ShloMosaic.StableHlo Cert.ReferenceIdeal Cert.ReferenceIdeal.Gen Cert.ConvR Cert.RefBlend Cert.BlendSpec Cert.RefLoop1 Cert.RefGlue

/-- The blend that closes iteration 1. -/
theorem s0 {X : Valuation τ sig (Elt Ideal)}
    (h37 : X (Proc.devRef .tc main_v37) = conv64 (X (Proc.devRef .tc main_arg1)) (X (Proc.devRef .tc main_arg2)) (Cert.ConvR.norm (X (Proc.devRef .tc main_arg1)) (X (Proc.devRef .tc main_arg2))) (X (Proc.devRef .tc main_arg0))) :
    AgreeOn kept1 X (StableHlo.after (Cert.RefSeg0d.seg (F := Ideal)) X)
      ∧ StableHlo.after (Cert.RefSeg0d.seg (F := Ideal)) X (Proc.devRef .tc main_v42) = iter (step64 (X (Proc.devRef .tc main_arg0)) (X (Proc.devRef .tc main_arg1)) (X (Proc.devRef .tc main_arg2))) (X (Proc.devRef .tc main_arg0)) 1 := by
  refine ⟨(AgreeOn.refl kept1 X).step _ _ Cert.RefSeg0d.keep (by decide), ?_⟩
  rw [Cert.RefSeg0d.value, h37, blendT64_eq]
  rfl

/-- Iteration 2 of the first loop: one more diffusion step. -/
theorem s1 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v42) = iter (step64 (X (Proc.devRef .tc main_arg0)) (X (Proc.devRef .tc main_arg1)) (X (Proc.devRef .tc main_arg2))) (X (Proc.devRef .tc main_arg0)) n) :
    AgreeOn kept1 X (StableHlo.after (Cert.RefSeg1.seg (F := Ideal)) V)
      ∧ StableHlo.after (Cert.RefSeg1.seg (F := Ideal)) V (Proc.devRef .tc main_v60) = iter (step64 (X (Proc.devRef .tc main_arg0)) (X (Proc.devRef .tc main_arg1)) (X (Proc.devRef .tc main_arg2))) (X (Proc.devRef .tc main_arg0)) (n + 1) := by
  refine ⟨hA.step _ _ Cert.RefSeg1.keep (by decide), ?_⟩
  rw [Cert.RefSeg1.value, hA main_arg1 (by decide), hA main_arg2 (by decide), hA main_v24 (by decide), hA main_arg0 (by decide), hz, hw, blendT64_eq]
  rfl

/-- Iteration 3 of the first loop: one more diffusion step. -/
theorem s2 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v60) = iter (step64 (X (Proc.devRef .tc main_arg0)) (X (Proc.devRef .tc main_arg1)) (X (Proc.devRef .tc main_arg2))) (X (Proc.devRef .tc main_arg0)) n) :
    AgreeOn kept1 X (StableHlo.after (Cert.RefSeg2.seg (F := Ideal)) V)
      ∧ StableHlo.after (Cert.RefSeg2.seg (F := Ideal)) V (Proc.devRef .tc main_v78) = iter (step64 (X (Proc.devRef .tc main_arg0)) (X (Proc.devRef .tc main_arg1)) (X (Proc.devRef .tc main_arg2))) (X (Proc.devRef .tc main_arg0)) (n + 1) := by
  refine ⟨hA.step _ _ Cert.RefSeg2.keep (by decide), ?_⟩
  rw [Cert.RefSeg2.value, hA main_arg1 (by decide), hA main_arg2 (by decide), hA main_v24 (by decide), hA main_arg0 (by decide), hz, hw, blendT64_eq]
  rfl

/-- Iteration 4 of the first loop: one more diffusion step. -/
theorem s3 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v78) = iter (step64 (X (Proc.devRef .tc main_arg0)) (X (Proc.devRef .tc main_arg1)) (X (Proc.devRef .tc main_arg2))) (X (Proc.devRef .tc main_arg0)) n) :
    AgreeOn kept1 X (StableHlo.after (Cert.RefSeg3.seg (F := Ideal)) V)
      ∧ StableHlo.after (Cert.RefSeg3.seg (F := Ideal)) V (Proc.devRef .tc main_v96) = iter (step64 (X (Proc.devRef .tc main_arg0)) (X (Proc.devRef .tc main_arg1)) (X (Proc.devRef .tc main_arg2))) (X (Proc.devRef .tc main_arg0)) (n + 1) := by
  refine ⟨hA.step _ _ Cert.RefSeg3.keep (by decide), ?_⟩
  rw [Cert.RefSeg3.value, hA main_arg1 (by decide), hA main_arg2 (by decide), hA main_v24 (by decide), hA main_arg0 (by decide), hz, hw, blendT64_eq]
  rfl

/-- Iteration 5 of the first loop: one more diffusion step. -/
theorem s4 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v96) = iter (step64 (X (Proc.devRef .tc main_arg0)) (X (Proc.devRef .tc main_arg1)) (X (Proc.devRef .tc main_arg2))) (X (Proc.devRef .tc main_arg0)) n) :
    AgreeOn kept1 X (StableHlo.after (Cert.RefSeg4.seg (F := Ideal)) V)
      ∧ StableHlo.after (Cert.RefSeg4.seg (F := Ideal)) V (Proc.devRef .tc main_v114) = iter (step64 (X (Proc.devRef .tc main_arg0)) (X (Proc.devRef .tc main_arg1)) (X (Proc.devRef .tc main_arg2))) (X (Proc.devRef .tc main_arg0)) (n + 1) := by
  refine ⟨hA.step _ _ Cert.RefSeg4.keep (by decide), ?_⟩
  rw [Cert.RefSeg4.value, hA main_arg1 (by decide), hA main_arg2 (by decide), hA main_v24 (by decide), hA main_arg0 (by decide), hz, hw, blendT64_eq]
  rfl

/-- Iteration 6 of the first loop: one more diffusion step. -/
theorem s5 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v114) = iter (step64 (X (Proc.devRef .tc main_arg0)) (X (Proc.devRef .tc main_arg1)) (X (Proc.devRef .tc main_arg2))) (X (Proc.devRef .tc main_arg0)) n) :
    AgreeOn kept1 X (StableHlo.after (Cert.RefSeg5.seg (F := Ideal)) V)
      ∧ StableHlo.after (Cert.RefSeg5.seg (F := Ideal)) V (Proc.devRef .tc main_v132) = iter (step64 (X (Proc.devRef .tc main_arg0)) (X (Proc.devRef .tc main_arg1)) (X (Proc.devRef .tc main_arg2))) (X (Proc.devRef .tc main_arg0)) (n + 1) := by
  refine ⟨hA.step _ _ Cert.RefSeg5.keep (by decide), ?_⟩
  rw [Cert.RefSeg5.value, hA main_arg1 (by decide), hA main_arg2 (by decide), hA main_v24 (by decide), hA main_arg0 (by decide), hz, hw, blendT64_eq]
  rfl

/-- Iteration 7 of the first loop: one more diffusion step. -/
theorem s6 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v132) = iter (step64 (X (Proc.devRef .tc main_arg0)) (X (Proc.devRef .tc main_arg1)) (X (Proc.devRef .tc main_arg2))) (X (Proc.devRef .tc main_arg0)) n) :
    AgreeOn kept1 X (StableHlo.after (Cert.RefSeg6.seg (F := Ideal)) V)
      ∧ StableHlo.after (Cert.RefSeg6.seg (F := Ideal)) V (Proc.devRef .tc main_v150) = iter (step64 (X (Proc.devRef .tc main_arg0)) (X (Proc.devRef .tc main_arg1)) (X (Proc.devRef .tc main_arg2))) (X (Proc.devRef .tc main_arg0)) (n + 1) := by
  refine ⟨hA.step _ _ Cert.RefSeg6.keep (by decide), ?_⟩
  rw [Cert.RefSeg6.value, hA main_arg1 (by decide), hA main_arg2 (by decide), hA main_v24 (by decide), hA main_arg0 (by decide), hz, hw, blendT64_eq]
  rfl

/-- Iteration 8 of the first loop: one more diffusion step. -/
theorem s7 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v150) = iter (step64 (X (Proc.devRef .tc main_arg0)) (X (Proc.devRef .tc main_arg1)) (X (Proc.devRef .tc main_arg2))) (X (Proc.devRef .tc main_arg0)) n) :
    AgreeOn kept1 X (StableHlo.after (Cert.RefSeg7.seg (F := Ideal)) V)
      ∧ StableHlo.after (Cert.RefSeg7.seg (F := Ideal)) V (Proc.devRef .tc main_v168) = iter (step64 (X (Proc.devRef .tc main_arg0)) (X (Proc.devRef .tc main_arg1)) (X (Proc.devRef .tc main_arg2))) (X (Proc.devRef .tc main_arg0)) (n + 1) := by
  refine ⟨hA.step _ _ Cert.RefSeg7.keep (by decide), ?_⟩
  rw [Cert.RefSeg7.value, hA main_arg1 (by decide), hA main_arg2 (by decide), hA main_v24 (by decide), hA main_arg0 (by decide), hz, hw, blendT64_eq]
  rfl

/-- Iteration 9 of the first loop: one more diffusion step. -/
theorem s8 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v168) = iter (step64 (X (Proc.devRef .tc main_arg0)) (X (Proc.devRef .tc main_arg1)) (X (Proc.devRef .tc main_arg2))) (X (Proc.devRef .tc main_arg0)) n) :
    AgreeOn kept1 X (StableHlo.after (Cert.RefSeg8.seg (F := Ideal)) V)
      ∧ StableHlo.after (Cert.RefSeg8.seg (F := Ideal)) V (Proc.devRef .tc main_v186) = iter (step64 (X (Proc.devRef .tc main_arg0)) (X (Proc.devRef .tc main_arg1)) (X (Proc.devRef .tc main_arg2))) (X (Proc.devRef .tc main_arg0)) (n + 1) := by
  refine ⟨hA.step _ _ Cert.RefSeg8.keep (by decide), ?_⟩
  rw [Cert.RefSeg8.value, hA main_arg1 (by decide), hA main_arg2 (by decide), hA main_v24 (by decide), hA main_arg0 (by decide), hz, hw, blendT64_eq]
  rfl

/-- Iteration 10 of the first loop: one more diffusion step. -/
theorem s9 {X V : Valuation τ sig (Elt Ideal)} (n : Nat) (hA : AgreeOn kept1 X V)
    (hw : X (Proc.devRef .tc main_v24) = Cert.ConvR.norm (X (Proc.devRef .tc main_arg1)) (X (Proc.devRef .tc main_arg2)))
    (hz : V (Proc.devRef .tc main_v186) = iter (step64 (X (Proc.devRef .tc main_arg0)) (X (Proc.devRef .tc main_arg1)) (X (Proc.devRef .tc main_arg2))) (X (Proc.devRef .tc main_arg0)) n) :
    AgreeOn kept1 X (StableHlo.after (Cert.RefSeg9.seg (F := Ideal)) V)
      ∧ StableHlo.after (Cert.RefSeg9.seg (F := Ideal)) V (Proc.devRef .tc main_v204) = iter (step64 (X (Proc.devRef .tc main_arg0)) (X (Proc.devRef .tc main_arg1)) (X (Proc.devRef .tc main_arg2))) (X (Proc.devRef .tc main_arg0)) (n + 1) := by
  refine ⟨hA.step _ _ Cert.RefSeg9.keep (by decide), ?_⟩
  rw [Cert.RefSeg9.value, hA main_arg1 (by decide), hA main_arg2 (by decide), hA main_v24 (by decide), hA main_arg0 (by decide), hz, hw, blendT64_eq]
  rfl

/-- The contents after the first loop's stretches, from `X`. -/
def end1 (X : Valuation τ sig (Elt Ideal)) : Valuation τ sig (Elt Ideal) :=
  (StableHlo.after (Cert.RefSeg9.seg (F := Ideal)) (StableHlo.after (Cert.RefSeg8.seg (F := Ideal)) (StableHlo.after (Cert.RefSeg7.seg (F := Ideal)) (StableHlo.after (Cert.RefSeg6.seg (F := Ideal)) (StableHlo.after (Cert.RefSeg5.seg (F := Ideal)) (StableHlo.after (Cert.RefSeg4.seg (F := Ideal)) (StableHlo.after (Cert.RefSeg3.seg (F := Ideal)) (StableHlo.after (Cert.RefSeg2.seg (F := Ideal)) (StableHlo.after (Cert.RefSeg1.seg (F := Ideal)) (StableHlo.after (Cert.RefSeg0d.seg (F := Ideal)) X))))))))))

/-- After the first loop: ten diffusion steps from the input features, the read-only buffers as `X` holds them. -/
theorem loop1 (X : Valuation τ sig (Elt Ideal))
    (hw : X (Proc.devRef .tc main_v24) = Cert.ConvR.norm (X (Proc.devRef .tc main_arg1)) (X (Proc.devRef .tc main_arg2)))
    (h37 : X (Proc.devRef .tc main_v37) = conv64 (X (Proc.devRef .tc main_arg1)) (X (Proc.devRef .tc main_arg2)) (Cert.ConvR.norm (X (Proc.devRef .tc main_arg1)) (X (Proc.devRef .tc main_arg2))) (X (Proc.devRef .tc main_arg0))) :
    AgreeOn kept1 X (end1 X) ∧ end1 X (Proc.devRef .tc main_v204) = iter (step64 (X (Proc.devRef .tc main_arg0)) (X (Proc.devRef .tc main_arg1)) (X (Proc.devRef .tc main_arg2))) (X (Proc.devRef .tc main_arg0)) 10 := by
  obtain ⟨a0, z0⟩ := s0 h37
  obtain ⟨a1, z1⟩ := s1 1 a0 hw z0
  obtain ⟨a2, z2⟩ := s2 2 a1 hw z1
  obtain ⟨a3, z3⟩ := s3 3 a2 hw z2
  obtain ⟨a4, z4⟩ := s4 4 a3 hw z3
  obtain ⟨a5, z5⟩ := s5 5 a4 hw z4
  obtain ⟨a6, z6⟩ := s6 6 a5 hw z5
  obtain ⟨a7, z7⟩ := s7 7 a6 hw z6
  obtain ⟨a8, z8⟩ := s8 8 a7 hw z7
  obtain ⟨a9, z9⟩ := s9 9 a8 hw z8
  exact ⟨a9, z9⟩

end Cert.RefChain1

end
-- ==== Proof.RefChain2.lean ====
/-
  The reference's second diffusion loop, stretch by stretch.

  From contents `Y` that hold the edge weights and the logits, each of the ten 23-operation stretches adds one diffusion step
  over the class columns, anchored at the logits, and writes none of the argument arrays, the edge weights or the logits;
  after them the program's result buffer holds ten steps from the logits.
-/
import proofs.«135505_j17961553232124_1_alg».proof.Proof.RefGlue
import proofs.«135505_j17961553232124_1_alg».proof.Proof.RefSeg11
import proofs.«135505_j17961553232124_1_alg».proof.Proof.RefSeg12
import proofs.«135505_j17961553232124_1_alg».proof.Proof.RefSeg13
import proofs.«135505_j17961553232124_1_alg».proof.Proof.RefSeg14
import proofs.«135505_j17961553232124_1_alg».proof.Proof.RefSeg15
import proofs.«135505_j17961553232124_1_alg».proof.Proof.RefSeg16
import proofs.«135505_j17961553232124_1_alg».proof.Proof.RefSeg17
import proofs.«135505_j17961553232124_1_alg».proof.Proof.RefSeg18
import proofs.«135505_j17961553232124_1_alg».proof.Proof.RefSeg19
import proofs.«135505_j17961553232124_1_alg».proof.Proof.RefSeg20
import proofs.«135505_j17961553232124_1_alg».proof.Proof.RefLoop2
import proofs.«135505_j17961553232124_1_alg».proof.Proof.RefBlend
import proofs.«135505_j17961553232124_1_alg».proof.Proof.ConvR
import proofs.«135505_j17961553232124_1_alg».proof.Proof.BlendSpec

noncomputable section

namespace Cert.RefChain2

open Idealize.ShloMosaic Idealize.ShloMosaic.TcCoe Idealize.ShloMosaic.StableHlo Cert.ReferenceIdeal Cert.ReferenceIdeal.Gen Cert.ConvR Cert.RefBlend Cert.BlendSpec Cert.RefLoop2 Cert.RefGlue

/-- Iteration 1 of the second loop: one more diffusion step, anchored at the logits. -/
theorem t11 {X V : Valuation τ sig (Elt Ideal)} (hA : AgreeOn kept2 X V)
    (hw : X (Proc.devRef .tc main_v24) = Cert.ConvR.norm (X (Proc.devRef .tc main_arg1)) (X (Proc.devRef .tc main_arg2))) :
    AgreeOn kept2 X (StableHlo.after (Cert.RefSeg11.seg (F := Ideal)) V)
      ∧ StableHlo.after (Cert.RefSeg11.seg (F := Ideal)) V (Proc.devRef .tc main_v260) = iter (step16 (X (Proc.devRef .tc main_arg1)) (X (Proc.devRef .tc main_arg2)) (X (Proc.devRef .tc main_v242))) (X (Proc.devRef .tc main_v242)) 1 := by
  refine ⟨hA.step _ _ Cert.RefSeg11.keep (by decide), ?_⟩
  rw [Cert.RefSeg11.value, hA main_arg1 (by decide), hA main_arg2 (by decide), hA main_v24 (by decide), hA main_v242 (by decide), hw, blendT16_eq]
  rfl

/-- Iteration 2 of the second loop: one more diffusion step, anchored at the logits. -/
theorem t12 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v260) = iter (step16 (X (Proc.devRef .tc main_arg1)) (X (Proc.devRef .tc main_arg2)) (X (Proc.devRef .tc main_v242))) (X (Proc.devRef .tc main_v242)) n) :
    AgreeOn kept2 X (StableHlo.after (Cert.RefSeg12.seg (F := Ideal)) V)
      ∧ StableHlo.after (Cert.RefSeg12.seg (F := Ideal)) V (Proc.devRef .tc main_v278) = iter (step16 (X (Proc.devRef .tc main_arg1)) (X (Proc.devRef .tc main_arg2)) (X (Proc.devRef .tc main_v242))) (X (Proc.devRef .tc main_v242)) (n + 1) := by
  refine ⟨hA.step _ _ Cert.RefSeg12.keep (by decide), ?_⟩
  rw [Cert.RefSeg12.value, hA main_arg1 (by decide), hA main_arg2 (by decide), hA main_v24 (by decide), hA main_v242 (by decide), hz, hw, blendT16_eq]
  rfl

/-- Iteration 3 of the second loop: one more diffusion step, anchored at the logits. -/
theorem t13 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v278) = iter (step16 (X (Proc.devRef .tc main_arg1)) (X (Proc.devRef .tc main_arg2)) (X (Proc.devRef .tc main_v242))) (X (Proc.devRef .tc main_v242)) n) :
    AgreeOn kept2 X (StableHlo.after (Cert.RefSeg13.seg (F := Ideal)) V)
      ∧ StableHlo.after (Cert.RefSeg13.seg (F := Ideal)) V (Proc.devRef .tc main_v296) = iter (step16 (X (Proc.devRef .tc main_arg1)) (X (Proc.devRef .tc main_arg2)) (X (Proc.devRef .tc main_v242))) (X (Proc.devRef .tc main_v242)) (n + 1) := by
  refine ⟨hA.step _ _ Cert.RefSeg13.keep (by decide), ?_⟩
  rw [Cert.RefSeg13.value, hA main_arg1 (by decide), hA main_arg2 (by decide), hA main_v24 (by decide), hA main_v242 (by decide), hz, hw, blendT16_eq]
  rfl

/-- Iteration 4 of the second loop: one more diffusion step, anchored at the logits. -/
theorem t14 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v296) = iter (step16 (X (Proc.devRef .tc main_arg1)) (X (Proc.devRef .tc main_arg2)) (X (Proc.devRef .tc main_v242))) (X (Proc.devRef .tc main_v242)) n) :
    AgreeOn kept2 X (StableHlo.after (Cert.RefSeg14.seg (F := Ideal)) V)
      ∧ StableHlo.after (Cert.RefSeg14.seg (F := Ideal)) V (Proc.devRef .tc main_v314) = iter (step16 (X (Proc.devRef .tc main_arg1)) (X (Proc.devRef .tc main_arg2)) (X (Proc.devRef .tc main_v242))) (X (Proc.devRef .tc main_v242)) (n + 1) := by
  refine ⟨hA.step _ _ Cert.RefSeg14.keep (by decide), ?_⟩
  rw [Cert.RefSeg14.value, hA main_arg1 (by decide), hA main_arg2 (by decide), hA main_v24 (by decide), hA main_v242 (by decide), hz, hw, blendT16_eq]
  rfl

/-- Iteration 5 of the second loop: one more diffusion step, anchored at the logits. -/
theorem t15 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v314) = iter (step16 (X (Proc.devRef .tc main_arg1)) (X (Proc.devRef .tc main_arg2)) (X (Proc.devRef .tc main_v242))) (X (Proc.devRef .tc main_v242)) n) :
    AgreeOn kept2 X (StableHlo.after (Cert.RefSeg15.seg (F := Ideal)) V)
      ∧ StableHlo.after (Cert.RefSeg15.seg (F := Ideal)) V (Proc.devRef .tc main_v332) = iter (step16 (X (Proc.devRef .tc main_arg1)) (X (Proc.devRef .tc main_arg2)) (X (Proc.devRef .tc main_v242))) (X (Proc.devRef .tc main_v242)) (n + 1) := by
  refine ⟨hA.step _ _ Cert.RefSeg15.keep (by decide), ?_⟩
  rw [Cert.RefSeg15.value, hA main_arg1 (by decide), hA main_arg2 (by decide), hA main_v24 (by decide), hA main_v242 (by decide), hz, hw, blendT16_eq]
  rfl

/-- Iteration 6 of the second loop: one more diffusion step, anchored at the logits. -/
theorem t16 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v332) = iter (step16 (X (Proc.devRef .tc main_arg1)) (X (Proc.devRef .tc main_arg2)) (X (Proc.devRef .tc main_v242))) (X (Proc.devRef .tc main_v242)) n) :
    AgreeOn kept2 X (StableHlo.after (Cert.RefSeg16.seg (F := Ideal)) V)
      ∧ StableHlo.after (Cert.RefSeg16.seg (F := Ideal)) V (Proc.devRef .tc main_v350) = iter (step16 (X (Proc.devRef .tc main_arg1)) (X (Proc.devRef .tc main_arg2)) (X (Proc.devRef .tc main_v242))) (X (Proc.devRef .tc main_v242)) (n + 1) := by
  refine ⟨hA.step _ _ Cert.RefSeg16.keep (by decide), ?_⟩
  rw [Cert.RefSeg16.value, hA main_arg1 (by decide), hA main_arg2 (by decide), hA main_v24 (by decide), hA main_v242 (by decide), hz, hw, blendT16_eq]
  rfl

/-- Iteration 7 of the second loop: one more diffusion step, anchored at the logits. -/
theorem t17 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v350) = iter (step16 (X (Proc.devRef .tc main_arg1)) (X (Proc.devRef .tc main_arg2)) (X (Proc.devRef .tc main_v242))) (X (Proc.devRef .tc main_v242)) n) :
    AgreeOn kept2 X (StableHlo.after (Cert.RefSeg17.seg (F := Ideal)) V)
      ∧ StableHlo.after (Cert.RefSeg17.seg (F := Ideal)) V (Proc.devRef .tc main_v368) = iter (step16 (X (Proc.devRef .tc main_arg1)) (X (Proc.devRef .tc main_arg2)) (X (Proc.devRef .tc main_v242))) (X (Proc.devRef .tc main_v242)) (n + 1) := by
  refine ⟨hA.step _ _ Cert.RefSeg17.keep (by decide), ?_⟩
  rw [Cert.RefSeg17.value, hA main_arg1 (by decide), hA main_arg2 (by decide), hA main_v24 (by decide), hA main_v242 (by decide), hz, hw, blendT16_eq]
  rfl

/-- Iteration 8 of the second loop: one more diffusion step, anchored at the logits. -/
theorem t18 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v368) = iter (step16 (X (Proc.devRef .tc main_arg1)) (X (Proc.devRef .tc main_arg2)) (X (Proc.devRef .tc main_v242))) (X (Proc.devRef .tc main_v242)) n) :
    AgreeOn kept2 X (StableHlo.after (Cert.RefSeg18.seg (F := Ideal)) V)
      ∧ StableHlo.after (Cert.RefSeg18.seg (F := Ideal)) V (Proc.devRef .tc main_v386) = iter (step16 (X (Proc.devRef .tc main_arg1)) (X (Proc.devRef .tc main_arg2)) (X (Proc.devRef .tc main_v242))) (X (Proc.devRef .tc main_v242)) (n + 1) := by
  refine ⟨hA.step _ _ Cert.RefSeg18.keep (by decide), ?_⟩
  rw [Cert.RefSeg18.value, hA main_arg1 (by decide), hA main_arg2 (by decide), hA main_v24 (by decide), hA main_v242 (by decide), hz, hw, blendT16_eq]
  rfl

/-- Iteration 9 of the second loop: one more diffusion step, anchored at the logits. -/
theorem t19 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v386) = iter (step16 (X (Proc.devRef .tc main_arg1)) (X (Proc.devRef .tc main_arg2)) (X (Proc.devRef .tc main_v242))) (X (Proc.devRef .tc main_v242)) n) :
    AgreeOn kept2 X (StableHlo.after (Cert.RefSeg19.seg (F := Ideal)) V)
      ∧ StableHlo.after (Cert.RefSeg19.seg (F := Ideal)) V (Proc.devRef .tc main_v404) = iter (step16 (X (Proc.devRef .tc main_arg1)) (X (Proc.devRef .tc main_arg2)) (X (Proc.devRef .tc main_v242))) (X (Proc.devRef .tc main_v242)) (n + 1) := by
  refine ⟨hA.step _ _ Cert.RefSeg19.keep (by decide), ?_⟩
  rw [Cert.RefSeg19.value, hA main_arg1 (by decide), hA main_arg2 (by decide), hA main_v24 (by decide), hA main_v242 (by decide), hz, hw, blendT16_eq]
  rfl

/-- Iteration 10 of the second loop: one more diffusion step, anchored at the logits. -/
theorem t20 {X V : Valuation τ sig (Elt Ideal)} (n : Nat) (hA : AgreeOn kept2 X V)
    (hw : X (Proc.devRef .tc main_v24) = Cert.ConvR.norm (X (Proc.devRef .tc main_arg1)) (X (Proc.devRef .tc main_arg2)))
    (hz : V (Proc.devRef .tc main_v404) = iter (step16 (X (Proc.devRef .tc main_arg1)) (X (Proc.devRef .tc main_arg2)) (X (Proc.devRef .tc main_v242))) (X (Proc.devRef .tc main_v242)) n) :
    AgreeOn kept2 X (StableHlo.after (Cert.RefSeg20.seg (F := Ideal)) V)
      ∧ StableHlo.after (Cert.RefSeg20.seg (F := Ideal)) V (Proc.devRef .tc main_v422) = iter (step16 (X (Proc.devRef .tc main_arg1)) (X (Proc.devRef .tc main_arg2)) (X (Proc.devRef .tc main_v242))) (X (Proc.devRef .tc main_v242)) (n + 1) := by
  refine ⟨hA.step _ _ Cert.RefSeg20.keep (by decide), ?_⟩
  rw [Cert.RefSeg20.value, hA main_arg1 (by decide), hA main_arg2 (by decide), hA main_v24 (by decide), hA main_v242 (by decide), hz, hw, blendT16_eq]
  rfl

/-- The contents after the second loop's stretches, from `Y`. -/
def end2 (Y : Valuation τ sig (Elt Ideal)) : Valuation τ sig (Elt Ideal) :=
  (StableHlo.after (Cert.RefSeg20.seg (F := Ideal)) (StableHlo.after (Cert.RefSeg19.seg (F := Ideal)) (StableHlo.after (Cert.RefSeg18.seg (F := Ideal)) (StableHlo.after (Cert.RefSeg17.seg (F := Ideal)) (StableHlo.after (Cert.RefSeg16.seg (F := Ideal)) (StableHlo.after (Cert.RefSeg15.seg (F := Ideal)) (StableHlo.after (Cert.RefSeg14.seg (F := Ideal)) (StableHlo.after (Cert.RefSeg13.seg (F := Ideal)) (StableHlo.after (Cert.RefSeg12.seg (F := Ideal)) (StableHlo.after (Cert.RefSeg11.seg (F := Ideal)) Y))))))))))

/-- After the second loop: ten diffusion steps from the logits, the read-only buffers as `X` holds them. -/
theorem loop2 (X : Valuation τ sig (Elt Ideal))
    (hw : X (Proc.devRef .tc main_v24) = Cert.ConvR.norm (X (Proc.devRef .tc main_arg1)) (X (Proc.devRef .tc main_arg2))) :
    AgreeOn kept2 X (end2 X) ∧ end2 X (Proc.devRef .tc main_v422) = iter (step16 (X (Proc.devRef .tc main_arg1)) (X (Proc.devRef .tc main_arg2)) (X (Proc.devRef .tc main_v242))) (X (Proc.devRef .tc main_v242)) 10 := by
  obtain ⟨a11, z11⟩ := t11 (AgreeOn.refl kept2 X) hw
  obtain ⟨a12, z12⟩ := t12 1 a11 hw z11
  obtain ⟨a13, z13⟩ := t13 2 a12 hw z12
  obtain ⟨a14, z14⟩ := t14 3 a13 hw z13
  obtain ⟨a15, z15⟩ := t15 4 a14 hw z14
  obtain ⟨a16, z16⟩ := t16 5 a15 hw z15
  obtain ⟨a17, z17⟩ := t17 6 a16 hw z16
  obtain ⟨a18, z18⟩ := t18 7 a17 hw z17
  obtain ⟨a19, z19⟩ := t19 8 a18 hw z18
  obtain ⟨a20, z20⟩ := t20 9 a19 hw z19
  exact ⟨a20, z20⟩

end Cert.RefChain2

end
-- ==== Proof.RefRunSeg.lean ====
/-
  The reference program's run, read stretch by stretch.

  The program is a straight line of 541 host operations.  Cut into the opening stretch (edge weights and first propagation),
  the blend and the nine further iterations of the first diffusion loop, the dense middle, and the ten iterations of the
  second loop, the line leaves in its result buffer ten diffusion steps over the class columns from the logits, the logits being
  the dense network applied to ten diffusion steps over the feature columns from the input features; and it leaves every
  argument array as it was.  Every weakly fair execution of the program terminates in such a state.
-/
import proofs.«135505_j17961553232124_1_alg».proof.Proof.RefOps
import proofs.«135505_j17961553232124_1_alg».proof.Proof.RefRunSegA
import proofs.«135505_j17961553232124_1_alg».proof.Proof.RefGlue
import proofs.«135505_j17961553232124_1_alg».proof.Proof.RefSeg0
import proofs.«135505_j17961553232124_1_alg».proof.Proof.RefSegMid
import proofs.«135505_j17961553232124_1_alg».proof.Proof.RefChain1
import proofs.«135505_j17961553232124_1_alg».proof.Proof.RefChain2
import proofs.«135505_j17961553232124_1_alg».proof.Proof.MlpRef
import proofs.«135505_j17961553232124_1_alg».proof.Proof.MlpSpec

noncomputable section

namespace Cert.RefRunSeg

open Idealize.ShloMosaic Idealize.ShloMosaic.TcCoe Idealize.ShloMosaic.StableHlo Cert.ReferenceIdeal Cert.ReferenceIdeal.Gen Idealize.SL.Sem Cert.ReferenceIdeal.Value Cert.ConvR Cert.BlendSpec Cert.RefLoop1 Cert.RefLoop2 Cert.RefGlue Cert.RefChain1 Cert.RefChain2 Cert.RefRunSegA

/-- The contents after the opening stretch. -/
def start (W : Valuation τ sig (Elt Ideal)) : Valuation τ sig (Elt Ideal) :=
  StableHlo.after (Cert.RefSeg0.seg0c (F := Ideal)) (StableHlo.after (Cert.RefSeg0.seg0b (F := Ideal)) (StableHlo.after (Cert.RefSeg0.seg0a (F := Ideal)) W))

/-- The contents after the dense middle, from `V`. -/
def midEnd (V : Valuation τ sig (Elt Ideal)) : Valuation τ sig (Elt Ideal) :=
  (StableHlo.after (Cert.RefSegMid.segF (F := Ideal)) (StableHlo.after (Cert.RefSegMid.segE (F := Ideal)) (StableHlo.after (Cert.RefSegMid.segD (F := Ideal)) (StableHlo.after (Cert.RefSegMid.segC (F := Ideal)) (StableHlo.after (Cert.RefSegMid.segB (F := Ideal)) (StableHlo.after (Cert.RefSegMid.segA (F := Ideal)) V))))))

/-- The contents after the whole line are those after the second loop, from the dense middle, from the first loop, from the opening. -/
theorem after_ops (W : Valuation τ sig (Elt Ideal)) :
    StableHlo.after (ops (F := Ideal)) W = end2 (midEnd (end1 (start W))) := by
  rw [ops_eq]
  simp only [StableHlo.after_append]
  rfl

/-- The logits, from the argument arrays' contents. -/
def logits (W : Valuation τ sig (Elt Ideal)) : (⟨S50000x16, .f32⟩ : BufTy).Contents (Elt Ideal) :=
  Cert.MlpSpec.g0 (iter (step64 (W (Proc.devRef .tc main_arg0)) (W (Proc.devRef .tc main_arg1)) (W (Proc.devRef .tc main_arg2))) (W (Proc.devRef .tc main_arg0)) 10) (W (Proc.devRef .tc main_arg0)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11))

/-- The argument arrays. -/
def argRefs : List (Ref sig .tc) := [main_arg0, main_arg1, main_arg2, main_arg3, main_arg4, main_arg5, main_arg6, main_arg7, main_arg8, main_arg9, main_arg10, main_arg11]

/-- The line's result and what it leaves of the arguments, from any contents `W`. -/
theorem final (W : Valuation τ sig (Elt Ideal)) :
    StableHlo.after (ops (F := Ideal)) W (Proc.devRef .tc main_v422) = iter (step16 (W (Proc.devRef .tc main_arg1)) (W (Proc.devRef .tc main_arg2)) (logits W)) (logits W) 10
      ∧ ∀ r ∈ argRefs, StableHlo.after (ops (F := Ideal)) W (Proc.devRef .tc r) = W (Proc.devRef .tc r) := by
  -- the opening leaves the arguments, the edge weights and the first propagation
  have x0 : start W (Proc.devRef .tc main_arg0) = (W (Proc.devRef .tc main_arg0)) := Cert.RefSeg0.keep W main_arg0 (by decide) (by decide) (by decide)
  have x1 : start W (Proc.devRef .tc main_arg1) = (W (Proc.devRef .tc main_arg1)) := Cert.RefSeg0.keep W main_arg1 (by decide) (by decide) (by decide)
  have x2 : start W (Proc.devRef .tc main_arg2) = (W (Proc.devRef .tc main_arg2)) := Cert.RefSeg0.keep W main_arg2 (by decide) (by decide) (by decide)
  have x3 : start W (Proc.devRef .tc main_arg3) = (W (Proc.devRef .tc main_arg3)) := Cert.RefSeg0.keep W main_arg3 (by decide) (by decide) (by decide)
  have x4 : start W (Proc.devRef .tc main_arg4) = (W (Proc.devRef .tc main_arg4)) := Cert.RefSeg0.keep W main_arg4 (by decide) (by decide) (by decide)
  have x5 : start W (Proc.devRef .tc main_arg5) = (W (Proc.devRef .tc main_arg5)) := Cert.RefSeg0.keep W main_arg5 (by decide) (by decide) (by decide)
  have x6 : start W (Proc.devRef .tc main_arg6) = (W (Proc.devRef .tc main_arg6)) := Cert.RefSeg0.keep W main_arg6 (by decide) (by decide) (by decide)
  have x7 : start W (Proc.devRef .tc main_arg7) = (W (Proc.devRef .tc main_arg7)) := Cert.RefSeg0.keep W main_arg7 (by decide) (by decide) (by decide)
  have x8 : start W (Proc.devRef .tc main_arg8) = (W (Proc.devRef .tc main_arg8)) := Cert.RefSeg0.keep W main_arg8 (by decide) (by decide) (by decide)
  have x9 : start W (Proc.devRef .tc main_arg9) = (W (Proc.devRef .tc main_arg9)) := Cert.RefSeg0.keep W main_arg9 (by decide) (by decide) (by decide)
  have x10 : start W (Proc.devRef .tc main_arg10) = (W (Proc.devRef .tc main_arg10)) := Cert.RefSeg0.keep W main_arg10 (by decide) (by decide) (by decide)
  have x11 : start W (Proc.devRef .tc main_arg11) = (W (Proc.devRef .tc main_arg11)) := Cert.RefSeg0.keep W main_arg11 (by decide) (by decide) (by decide)
  have hw : start W (Proc.devRef .tc main_v24) = Cert.ConvR.norm (start W (Proc.devRef .tc main_arg1)) (start W (Proc.devRef .tc main_arg2)) := by
    rw [x1, x2]; exact Cert.RefSeg0.weights W
  have h37 : start W (Proc.devRef .tc main_v37) = conv64 (start W (Proc.devRef .tc main_arg1)) (start W (Proc.devRef .tc main_arg2)) (Cert.ConvR.norm (start W (Proc.devRef .tc main_arg1)) (start W (Proc.devRef .tc main_arg2))) (start W (Proc.devRef .tc main_arg0)) := by
    rw [x0, x1, x2]; exact Cert.RefSeg0.value W
  -- the first loop
  obtain ⟨A1, Z1⟩ := loop1 (start W) hw h37
  have e0 : end1 (start W) (Proc.devRef .tc main_arg0) = (W (Proc.devRef .tc main_arg0)) := (A1 main_arg0 (by decide)).trans x0
  have e1 : end1 (start W) (Proc.devRef .tc main_arg1) = (W (Proc.devRef .tc main_arg1)) := (A1 main_arg1 (by decide)).trans x1
  have e2 : end1 (start W) (Proc.devRef .tc main_arg2) = (W (Proc.devRef .tc main_arg2)) := (A1 main_arg2 (by decide)).trans x2
  have e3 : end1 (start W) (Proc.devRef .tc main_arg3) = (W (Proc.devRef .tc main_arg3)) := (A1 main_arg3 (by decide)).trans x3
  have e4 : end1 (start W) (Proc.devRef .tc main_arg4) = (W (Proc.devRef .tc main_arg4)) := (A1 main_arg4 (by decide)).trans x4
  have e5 : end1 (start W) (Proc.devRef .tc main_arg5) = (W (Proc.devRef .tc main_arg5)) := (A1 main_arg5 (by decide)).trans x5
  have e6 : end1 (start W) (Proc.devRef .tc main_arg6) = (W (Proc.devRef .tc main_arg6)) := (A1 main_arg6 (by decide)).trans x6
  have e7 : end1 (start W) (Proc.devRef .tc main_arg7) = (W (Proc.devRef .tc main_arg7)) := (A1 main_arg7 (by decide)).trans x7
  have e8 : end1 (start W) (Proc.devRef .tc main_arg8) = (W (Proc.devRef .tc main_arg8)) := (A1 main_arg8 (by decide)).trans x8
  have e9 : end1 (start W) (Proc.devRef .tc main_arg9) = (W (Proc.devRef .tc main_arg9)) := (A1 main_arg9 (by decide)).trans x9
  have e10 : end1 (start W) (Proc.devRef .tc main_arg10) = (W (Proc.devRef .tc main_arg10)) := (A1 main_arg10 (by decide)).trans x10
  have e11 : end1 (start W) (Proc.devRef .tc main_arg11) = (W (Proc.devRef .tc main_arg11)) := (A1 main_arg11 (by decide)).trans x11
  -- the dense middle
  have y0 : midEnd (end1 (start W)) (Proc.devRef .tc main_arg0) = (W (Proc.devRef .tc main_arg0)) := (Cert.RefSegMid.keep (end1 (start W)) main_arg0 (by decide)).trans e0
  have y1 : midEnd (end1 (start W)) (Proc.devRef .tc main_arg1) = (W (Proc.devRef .tc main_arg1)) := (Cert.RefSegMid.keep (end1 (start W)) main_arg1 (by decide)).trans e1
  have y2 : midEnd (end1 (start W)) (Proc.devRef .tc main_arg2) = (W (Proc.devRef .tc main_arg2)) := (Cert.RefSegMid.keep (end1 (start W)) main_arg2 (by decide)).trans e2
  have y3 : midEnd (end1 (start W)) (Proc.devRef .tc main_arg3) = (W (Proc.devRef .tc main_arg3)) := (Cert.RefSegMid.keep (end1 (start W)) main_arg3 (by decide)).trans e3
  have y4 : midEnd (end1 (start W)) (Proc.devRef .tc main_arg4) = (W (Proc.devRef .tc main_arg4)) := (Cert.RefSegMid.keep (end1 (start W)) main_arg4 (by decide)).trans e4
  have y5 : midEnd (end1 (start W)) (Proc.devRef .tc main_arg5) = (W (Proc.devRef .tc main_arg5)) := (Cert.RefSegMid.keep (end1 (start W)) main_arg5 (by decide)).trans e5
  have y6 : midEnd (end1 (start W)) (Proc.devRef .tc main_arg6) = (W (Proc.devRef .tc main_arg6)) := (Cert.RefSegMid.keep (end1 (start W)) main_arg6 (by decide)).trans e6
  have y7 : midEnd (end1 (start W)) (Proc.devRef .tc main_arg7) = (W (Proc.devRef .tc main_arg7)) := (Cert.RefSegMid.keep (end1 (start W)) main_arg7 (by decide)).trans e7
  have y8 : midEnd (end1 (start W)) (Proc.devRef .tc main_arg8) = (W (Proc.devRef .tc main_arg8)) := (Cert.RefSegMid.keep (end1 (start W)) main_arg8 (by decide)).trans e8
  have y9 : midEnd (end1 (start W)) (Proc.devRef .tc main_arg9) = (W (Proc.devRef .tc main_arg9)) := (Cert.RefSegMid.keep (end1 (start W)) main_arg9 (by decide)).trans e9
  have y10 : midEnd (end1 (start W)) (Proc.devRef .tc main_arg10) = (W (Proc.devRef .tc main_arg10)) := (Cert.RefSegMid.keep (end1 (start W)) main_arg10 (by decide)).trans e10
  have y11 : midEnd (end1 (start W)) (Proc.devRef .tc main_arg11) = (W (Proc.devRef .tc main_arg11)) := (Cert.RefSegMid.keep (end1 (start W)) main_arg11 (by decide)).trans e11
  have yw : midEnd (end1 (start W)) (Proc.devRef .tc main_v24) = Cert.ConvR.norm (midEnd (end1 (start W)) (Proc.devRef .tc main_arg1)) (midEnd (end1 (start W)) (Proc.devRef .tc main_arg2)) := by
    rw [y1, y2]
    refine (Cert.RefSegMid.keep (end1 (start W)) main_v24 (by decide)).trans ?_
    rw [A1 main_v24 (by decide), hw, x1, x2]
  have yl : midEnd (end1 (start W)) (Proc.devRef .tc main_v242) = logits W := by
    refine (Cert.RefSegMid.value (end1 (start W))).trans ?_
    rw [Z1, e0, e3, e4, e5, e6, e7, e8, e9, e10, e11, x0, x1, x2, Cert.MlpRef.mid_eq_spec]
    rfl
  -- the second loop
  obtain ⟨A2, Z2⟩ := loop2 (midEnd (end1 (start W))) yw
  rw [after_ops]
  refine ⟨?_, fun r hr => ?_⟩
  · rw [Z2, y1, y2, yl]
  · refine (A2 r ?_).trans ?_
    · revert r; decide
    · revert r; simp only [argRefs, List.forall_mem_cons, List.not_mem_nil, false_imp_iff, implies_true, and_true]
      exact ⟨y0, y1, y2, y3, y4, y5, y6, y7, y8, y9, y10, y11⟩

/-- On every device, from any memory with zero counters: every weakly fair execution of the reference program terminates with
    its result buffer at ten diffusion steps over the class columns from the logits of ten diffusion steps over the feature
    columns, and with the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v422)
          = iter (step16 (m ((c.tc : Thread nD τ).loc main_arg1)) (m ((c.tc : Thread nD τ).loc main_arg2)) (Cert.MlpSpec.g0 (iter (step64 (m ((c.tc : Thread nD τ).loc main_arg0)) (m ((c.tc : Thread nD τ).loc main_arg1)) (m ((c.tc : Thread nD τ).loc main_arg2))) (m ((c.tc : Thread nD τ).loc main_arg0)) 10) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) (Cert.MlpSpec.g0 (iter (step64 (m ((c.tc : Thread nD τ).loc main_arg0)) (m ((c.tc : Thread nD τ).loc main_arg1)) (m ((c.tc : Thread nD τ).loc main_arg2))) (m ((c.tc : Thread nD τ).loc main_arg0)) 10) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) 10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v422).trans (final (launchContents m c)).1,
      (h c main_arg0).trans ((final (launchContents m c)).2 main_arg0 (by decide)),
      (h c main_arg1).trans ((final (launchContents m c)).2 main_arg1 (by decide)),
      (h c main_arg2).trans ((final (launchContents m c)).2 main_arg2 (by decide)),
      (h c main_arg3).trans ((final (launchContents m c)).2 main_arg3 (by decide)),
      (h c main_arg4).trans ((final (launchContents m c)).2 main_arg4 (by decide)),
      (h c main_arg5).trans ((final (launchContents m c)).2 main_arg5 (by decide)),
      (h c main_arg6).trans ((final (launchContents m c)).2 main_arg6 (by decide)),
      (h c main_arg7).trans ((final (launchContents m c)).2 main_arg7 (by decide)),
      (h c main_arg8).trans ((final (launchContents m c)).2 main_arg8 (by decide)),
      (h c main_arg9).trans ((final (launchContents m c)).2 main_arg9 (by decide)),
      (h c main_arg10).trans ((final (launchContents m c)).2 main_arg10 (by decide)),
      (h c main_arg11).trans ((final (launchContents m c)).2 main_arg11 (by decide))⟩)
    (run_seq scopedRefs_eq scopedSems_eq defs main (fun _ => ops) main_eq (fun _ => ops_sub) m ρ (fun _ => ops_fresh))

end Cert.RefRunSeg

end
-- ==== Proof.lean ====
/-
  The certificate of the graph network's kernel program against its reference.

  Both programs compute: edge weights from the in-degrees; ten diffusion steps over the 64 feature columns (propagate
  along the edges, then nine tenths of that plus one tenth of the input features); a dense network per node (the pair
  network on every (node, feature) entry, then a two-layer classifier) to 16 logits; ten diffusion steps over the 16
  class columns anchored at the logits.  The kernel program runs each blend and the dense network as a region over row
  blocks; the reference runs everything as host operations.

  The three frames are the generated ones (the reference's is its run with the result dropped); the ideal pass
  rewrote nothing, so `preserves` is trivial.  For `algebraic`: the kernel program's result array is read off the last
  boundary of its run, boundary by boundary back to the launch memory — every blend region leaves the blend of its two
  input arrays, every stretch of host operations the propagation of the previous array, the dense region the logits —
  and the reference's result is read stage by stage the same way; the propagation and the edge weights are the same
  functions on both sides, the blends differ by commuting one product, and the dense network of both sides is one
  function on the extended reals (no finiteness is used anywhere).
-/
import proofs.«135505_j17961553232124_1_alg».proof.Defs
import proofs.«135505_j17961553232124_1_alg».proof.Proof.Gen.Kernel
import proofs.«135505_j17961553232124_1_alg».proof.Proof.Gen.Kernel.Skeleton
import proofs.«135505_j17961553232124_1_alg».proof.Proof.Gen.Kernel.Launch
import proofs.«135505_j17961553232124_1_alg».proof.Proof.Gen.Kernel.Points
import proofs.«135505_j17961553232124_1_alg».proof.Proof.Gen.Kernel.Frame
import proofs.«135505_j17961553232124_1_alg».proof.Proof.Gen.KernelIdeal
import proofs.«135505_j17961553232124_1_alg».proof.Proof.Gen.KernelIdeal.Skeleton
import proofs.«135505_j17961553232124_1_alg».proof.Proof.Gen.KernelIdeal.Launch
import proofs.«135505_j17961553232124_1_alg».proof.Proof.Gen.KernelIdeal.Points
import proofs.«135505_j17961553232124_1_alg».proof.Proof.Gen.KernelIdeal.Frame
import proofs.«135505_j17961553232124_1_alg».proof.Proof.Gen.ReferenceIdeal
import proofs.«135505_j17961553232124_1_alg».proof.Proof.RefRead
import proofs.«135505_j17961553232124_1_alg».proof.Proof.Gen.Pre_finite_inputs
import proofs.«135505_j17961553232124_1_alg».proof.Proof.KernelRun
import proofs.«135505_j17961553232124_1_alg».proof.Proof.ChainC
import proofs.«135505_j17961553232124_1_alg».proof.Proof.RefLoop1
import proofs.«135505_j17961553232124_1_alg».proof.Proof.RefLoop2
import proofs.«135505_j17961553232124_1_alg».proof.Proof.MlpRef
import proofs.«135505_j17961553232124_1_alg».proof.Proof.ConvBridge
import proofs.«135505_j17961553232124_1_alg».proof.Proof.RefRunSeg
import Idealize.ShloMosaic.Adequacy
import Idealize.ShloMosaic.Init

noncomputable section

namespace Cert.Proof

open Idealize.ShloMosaic Idealize.ShloMosaic.TcCoe Idealize.SL.Sem Cert.BlendSpec

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRunSeg.run m ρ)

theorem algebraic : Cert.algebraic_KernelIdeal_ReferenceIdeal := by
  intro m ρ m' ρ' _ hagree
  refine ⟨fun c => Cert.KernelIdeal.Gen.W44 m ρ c (Proc.devRef .tc Cert.KernelIdeal.main_v316), Cert.KernelRun.run_value m ρ, ?_⟩
  refine (θ_run Cert.ReferenceIdeal.defs _ _).mono (fun _ h c => ⟨(h c).1.trans ?_, (h c).2⟩)
    (Cert.RefRunSeg.run m' ρ')
  obtain ⟨e0, e1, e2, e3, e4, e5, e6, e7, e8, e9, e10, e11⟩ := hagree c
  rw [e0, e1, e2, e3, e4, e5, e6, e7, e8, e9, e10, e11]
  refine Eq.trans ?_ (Cert.ChainC.val44 m ρ c).symm
  -- the two programs' diffusion steps are the same functions: same propagation, same edge weights, same blend
  have h64 : Cert.RefLoop1.step64 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.ChainDefs.step64 m c := by
    funext z
    show blend (Cert.ConvR.conv64 _ _ (Cert.ConvR.norm _ _) z) _ = blend (Cert.ConvK.conv64 _ _ (Cert.ConvK.norm _ _) z) _
    rw [Cert.ConvBridge.norm_eq, Cert.ConvBridge.conv64_eq]
  have h16 : Cert.RefLoop2.step16 (m ((c.tc : Thread Cert.KernelIdeal.nD Cert.KernelIdeal.τ).loc Cert.KernelIdeal.main_arg1)) (m ((c.tc : Thread Cert.KernelIdeal.nD Cert.KernelIdeal.τ).loc Cert.KernelIdeal.main_arg2)) = Cert.ChainDefs.step16 m c := by
    funext g z
    show blend (Cert.ConvR.conv16 _ _ (Cert.ConvR.norm _ _) z) g = blend (Cert.ConvK.conv16 _ _ (Cert.ConvK.norm _ _) z) g
    rw [Cert.ConvBridge.norm_eq, Cert.ConvBridge.conv16_eq]
  rw [h64, h16]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
